-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v154)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v154) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v210) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S3x128x128 : Shape := ⟨3, ![3, 128, 128]⟩
abbrev S3x128 : Shape := ⟨2, ![3, 128]⟩
abbrev S2x128 : Shape := ⟨2, ![2, 128]⟩
abbrev S2x128x128 : Shape := ⟨3, ![2, 128, 128]⟩
abbrev S128x1 : Shape := ⟨2, ![128, 1]⟩
abbrev S1 : Shape := ⟨1, ![1]⟩
abbrev S2x800000 : Shape := ⟨2, ![2, 800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S2x128 : S_.BroadcastsInDim S2x128 (![] : Fin 0 → Fin S2x128.rank)
  reducesTo_S2x128_S_d0_1 : S2x128.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S128x1 .f32) (main_arg8 : FVec F S1 .f32) (main_v33 : IVec S_ 1) : IVec S_ 1 :=
  let main_v34 : FVec F S128x1 .f32 := Host.absf main_arg7
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S2x128 .f32) (main_arg5 : FVec F S2x128x128 .f32) (main_arg6 : FVec F S2x128 .f32) (main_arg7 : FVec F S128x1 .f32) (main_arg8 : FVec F S1 .f32) (main_v13 : IVec S_ 1) (main_v16 : IVec S2x128 1) : IVec S_ 1 :=
  let main_c_5 : IVec S_ 1 := constantI S_ 1 1#1
  let main_v17 : IVec S_ 1 := (fun x v => Host.reduce IntOp.andi x v reducesTo_S2x128_S_d0_1 h_S_) main_v16 main_c_5
  let main_v18 : IVec S_ 1 := andi main_v13 main_v17
  let main_v19 : FVec F S2x128 .f32 := Host.absf main_arg4
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  let main_v24 : FVec F S2x128x128 .f32 := Host.absf main_arg5
  let main_cst_8 : FVec F S_ .f32 := constant S_ .f32 0x7F800000#32
  let main_v25 : FVec F S2x128x128 .f32 := broadcastInDim S2x128x128 ![] bcast_S_S2x128x128 main_cst_8
  let main_v26 : IVec S2x128x128 1 := cmpf .olt main_v24 main_v25
  let main_c_9 : IVec S_ 1 := constantI S_ 1 1#1
  let main_v27 : IVec S_ 1 := (fun x v => Host.reduce IntOp.andi x v reducesTo_S2x128x128_S_d0_1_2 h_S_) main_v26 main_c_9
  let main_v28 : IVec S_ 1 := andi main_v23 main_v27
  let main_v29 : FVec F S2x128 .f32 := Host.absf main_arg6
  let main_cst_10 : FVec F S_ .f32 := constant S_ .f32 0x7F800000#32
  let main_v30 : FVec F S2x128 .f32 := broadcastInDim S2x128 ![] bcast_S_S2x128 main_cst_10
  let main_v31 : IVec S2x128 1 := cmpf .olt main_v29 main_v30
  let main_c_11 : IVec S_ 1 := constantI S_ 1 1#1
  let main_v32 : IVec S_ 1 := (fun x v => Host.reduce IntOp.andi x v reducesTo_S2x128_S_d0_1 h_S_) main_v31 main_c_11
  let main_v33 : IVec S_ 1 := andi main_v28 main_v32
  fn_part2 (F := F) main_arg7 main_arg8 main_v33

def fn {F : FTy → Type} [FloatOps F] (main_arg0 : FVec F S50000x128 .f32) (main_arg1 : FVec F S3x128x128 .f32) (main_arg2 : FVec F S3x128 .f32) (main_arg3 : FVec F S2x128 .f32) (main_arg4 : FVec F S2x128 .f32) (main_arg5 : FVec F S2x128x128 .f32) (main_arg6 : FVec F S2x128 .f32) (main_arg7 : FVec F S128x1 .f32) (main_arg8 : FVec F S1 .f32) (main_arg9 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg1
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg2
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S2x128 .f32 := Host.absf main_arg3
  let main_cst_4 : FVec F S_ .f32 := constant S_ .f32 0x7F800000#32
  let main_v15 : FVec F S2x128 .f32 := broadcastInDim S2x128 ![] bcast_S_S2x128 main_cst_4
  let main_v16 : IVec S2x128 1 := cmpf .olt main_v14 main_v15
  fn_part1 (F := F) main_arg4 main_arg5 main_arg6 main_arg7 main_arg8 main_v13 main_v16
-- ==== Kernel.lean ====
abbrev S50000x128 : Shape := ⟨2, ![50000, 128]⟩
abbrev S3x128x128 : Shape := ⟨3, ![3, 128, 128]⟩
abbrev S3x128 : Shape := ⟨2, ![3, 128]⟩
abbrev S2x128 : Shape := ⟨2, ![2, 128]⟩
abbrev S2x128x128 : Shape := ⟨3, ![2, 128, 128]⟩
abbrev S128x1 : Shape := ⟨2, ![128, 1]⟩
abbrev S1 : Shape := ⟨1, ![1]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x128x128 : Shape := ⟨3, ![1, 128, 128]⟩
abbrev S128x128 : Shape := ⟨2, ![128, 128]⟩
abbrev S10000x128 : Shape := ⟨2, ![10000, 128]⟩
abbrev S850000x128 : Shape := ⟨2, ![850000, 128]⟩
abbrev S1x128 : Shape := ⟨2, ![1, 128]⟩
abbrev S128 : Shape := ⟨1, ![128]⟩
abbrev S1x1 : Shape := ⟨2, ![1, 1]⟩
abbrev S50000x1 : Shape := ⟨2, ![50000, 1]⟩
abbrev S10000x1 : Shape := ⟨2, ![10000, 1]⟩

abbrev nBuf : Space → Nat
  | .hbm => 197
  | .vmem => 78
  | .smem => 0
  | _ => 0

abbrev hbmTy0_0 (i : Nat) : BufTy := match i % 128 with
  | 0 => ⟨S50000x128, .f32⟩
  | 1 => ⟨S3x128x128, .f32⟩
  | 2 => ⟨S3x128, .f32⟩
  | 3 => ⟨S2x128, .f32⟩
  | 4 => ⟨S2x128, .f32⟩
  | 5 => ⟨S2x128x128, .f32⟩
  | 6 => ⟨S2x128, .f32⟩
  | 7 => ⟨S128x1, .f32⟩
  | 8 => ⟨S1, .f32⟩
  | 9 => ⟨S2x800000, .i32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S_, .f32⟩
  | 27 => ⟨S50000, .f32⟩
  | 28 => ⟨S50000, .f32⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S850000x1, .f32⟩
  | 54 => ⟨S1x128x128, .f32⟩
  | 55 => ⟨S128x128, .f32⟩
  | 56 => ⟨S50000x128, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000x128, .f32⟩
  | 66 => ⟨S850000x128, .f32⟩
  | 67 => ⟨S850000x128, .f32⟩
  | 68 => ⟨S_, .f32⟩
  | 69 => ⟨S50000x128, .f32⟩
  | 70 => ⟨S850000x1, .i32⟩
  | 71 => ⟨S50000x128, .f32⟩
  | 72 => ⟨S1x128, .f32⟩
  | 73 => ⟨S128, .f32⟩
  | 74 => ⟨S1x128, .f32⟩
  | 75 => ⟨S50000x128, .f32⟩
  | 76 => ⟨S1x128, .f32⟩
  | 77 => ⟨S1x128, .f32⟩
  | 78 => ⟨S128, .f32⟩
  | 79 => ⟨S_, .f32⟩
  | 80 => ⟨S128, .f32⟩
  | 81 => ⟨S128, .f32⟩
  | 82 => ⟨S128, .f32⟩
  | 83 => ⟨S_, .f32⟩
  | 84 => ⟨S128, .f32⟩
  | 85 => ⟨S128, .f32⟩
  | 86 => ⟨S128, .f32⟩
  | 87 => ⟨S128, .f32⟩
  | 88 => ⟨S1x128, .f32⟩
  | 89 => ⟨S128, .f32⟩
  | 90 => ⟨S1x128, .f32⟩
  | 91 => ⟨S128, .f32⟩
  | 92 => ⟨S1x128, .f32⟩
  | 93 => ⟨S1x128, .f32⟩
  | 94 => ⟨S1x128, .f32⟩
  | 95 => ⟨S1x128, .f32⟩
  | 96 => ⟨S50000x128, .f32⟩
  | 97 => ⟨S1x128x128, .f32⟩
  | 98 => ⟨S128x128, .f32⟩
  | 99 => ⟨S50000x128, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000x128, .f32⟩
  | 109 => ⟨S850000x128, .f32⟩
  | 110 => ⟨S850000x128, .f32⟩
  | 111 => ⟨S_, .f32⟩
  | 112 => ⟨S50000x128, .f32⟩
  | 113 => ⟨S850000x1, .i32⟩
  | 114 => ⟨S50000x128, .f32⟩
  | 115 => ⟨S1x128, .f32⟩
  | 116 => ⟨S128, .f32⟩
  | 117 => ⟨S1x128, .f32⟩
  | 118 => ⟨S50000x128, .f32⟩
  | 119 => ⟨S1x128, .f32⟩
  | 120 => ⟨S1x128, .f32⟩
  | 121 => ⟨S128, .f32⟩
  | 122 => ⟨S_, .f32⟩
  | 123 => ⟨S128, .f32⟩
  | 124 => ⟨S128, .f32⟩
  | 125 => ⟨S128, .f32⟩
  | 126 => ⟨S_, .f32⟩
  | 127 => ⟨S128, .f32⟩
  | _ => ⟨S50000x128, .f32⟩

abbrev hbmTy0_1 (i : Nat) : BufTy := match i % 128 with
  | 0 => ⟨S128, .f32⟩
  | 1 => ⟨S128, .f32⟩
  | 2 => ⟨S128, .f32⟩
  | 3 => ⟨S1x128, .f32⟩
  | 4 => ⟨S128, .f32⟩
  | 5 => ⟨S1x128, .f32⟩
  | 6 => ⟨S128, .f32⟩
  | 7 => ⟨S1x128, .f32⟩
  | 8 => ⟨S1x128, .f32⟩
  | 9 => ⟨S1x128, .f32⟩
  | 10 => ⟨S1x128, .f32⟩
  | 11 => ⟨S50000x128, .f32⟩
  | 12 => ⟨S1x128x128, .f32⟩
  | 13 => ⟨S128x128, .f32⟩
  | 14 => ⟨S50000x128, .f32⟩
  | 15 => ⟨S_, .i32⟩
  | 16 => ⟨S850000, .i32⟩
  | 17 => ⟨S850000, .i1⟩
  | 18 => ⟨S_, .i32⟩
  | 19 => ⟨S850000, .i32⟩
  | 20 => ⟨S850000, .i32⟩
  | 21 => ⟨S850000, .i32⟩
  | 22 => ⟨S850000x1, .i32⟩
  | 23 => ⟨S850000x128, .f32⟩
  | 24 => ⟨S850000x128, .f32⟩
  | 25 => ⟨S850000x128, .f32⟩
  | 26 => ⟨S_, .f32⟩
  | 27 => ⟨S50000x128, .f32⟩
  | 28 => ⟨S850000x1, .i32⟩
  | 29 => ⟨S50000x128, .f32⟩
  | 30 => ⟨S1x128, .f32⟩
  | 31 => ⟨S128, .f32⟩
  | 32 => ⟨S1x128, .f32⟩
  | 33 => ⟨S50000x128, .f32⟩
  | 34 => ⟨S1x128, .f32⟩
  | 35 => ⟨S1x128, .f32⟩
  | 36 => ⟨S128, .f32⟩
  | 37 => ⟨S_, .f32⟩
  | 38 => ⟨S128, .f32⟩
  | 39 => ⟨S128, .f32⟩
  | 40 => ⟨S128, .f32⟩
  | 41 => ⟨S_, .f32⟩
  | 42 => ⟨S128, .f32⟩
  | 43 => ⟨S128, .f32⟩
  | 44 => ⟨S128, .f32⟩
  | 45 => ⟨S128, .f32⟩
  | 46 => ⟨S1x128, .f32⟩
  | 47 => ⟨S128, .f32⟩
  | 48 => ⟨S1x128, .f32⟩
  | 49 => ⟨S128, .f32⟩
  | 50 => ⟨S1x128, .f32⟩
  | 51 => ⟨S1x128, .f32⟩
  | 52 => ⟨S1x128, .f32⟩
  | 53 => ⟨S1x128, .f32⟩
  | 54 => ⟨S50000x128, .f32⟩
  | 55 => ⟨S1x128x128, .f32⟩
  | 56 => ⟨S128x128, .f32⟩
  | 57 => ⟨S1x128, .f32⟩
  | 58 => ⟨S128, .f32⟩
  | 59 => ⟨S1x128, .f32⟩
  | 60 => ⟨S50000x128, .f32⟩
  | 61 => ⟨S1x128x128, .f32⟩
  | 62 => ⟨S128x128, .f32⟩
  | 63 => ⟨S1x128, .f32⟩
  | 64 => ⟨S128, .f32⟩
  | 65 => ⟨S1x128, .f32⟩
  | 66 => ⟨S50000x128, .f32⟩
  | 67 => ⟨S1x1, .f32⟩
  | 68 => ⟨S50000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S1x128, .f32⟩
  | .local _ .vmem, ⟨11, _⟩ => ⟨S1x128, .f32⟩
  | .local _ .vmem, ⟨12, _⟩ => ⟨S10000x128, .f32⟩
  | .local _ .vmem, ⟨13, _⟩ => ⟨S10000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S128x128, .f32⟩
  | .local _ .vmem, ⟨23, _⟩ => ⟨S10000x128, .f32⟩
  | .local _ .vmem, ⟨24, _⟩ => ⟨S10000x128, .f32⟩
  | .local _ .vmem, ⟨25, _⟩ => ⟨S10000x128, .f32⟩
  | .local _ .vmem, ⟨26, _⟩ => ⟨S10000x128, .f32⟩
  | .local _ .vmem, ⟨27, _⟩ => ⟨S1x128, .f32⟩
  | .local _ .vmem, ⟨28, _⟩ => ⟨S10000x128, .f32⟩
  | .local _ .vmem, ⟨29, _⟩ => ⟨S10000x128, .f32⟩
  | .local _ .vmem, ⟨30, _⟩ => ⟨S1x128, .f32⟩
  | .local _ .vmem, ⟨31, _⟩ => ⟨S1x128, .f32⟩
  | .local _ .vmem, ⟨32, _⟩ => ⟨S10000x128, .f32⟩
  | .local _ .vmem, ⟨33, _⟩ => ⟨S10000x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S10000x128, .f32⟩
  | .local _ .vmem, ⟨39, _⟩ => ⟨S10000x128, .f32⟩
  | .local _ .vmem, ⟨40, _⟩ => ⟨S10000x128, .f32⟩
  | .local _ .vmem, ⟨41, _⟩ => ⟨S10000x128, .f32⟩
  | .local _ .vmem, ⟨42, _⟩ => ⟨S128x128, .f32⟩
  | .local _ .vmem, ⟨43, _⟩ => ⟨S10000x128, .f32⟩
  | .local _ .vmem, ⟨44, _⟩ => ⟨S10000x128, .f32⟩
  | .local _ .vmem, ⟨45, _⟩ => ⟨S10000x128, .f32⟩
  | .local _ .vmem, ⟨46, _⟩ => ⟨S10000x128, .f32⟩
  | .local _ .vmem, ⟨47, _⟩ => ⟨S1x128, .f32⟩
  | .local _ .vmem, ⟨48, _⟩ => ⟨S10000x128, .f32⟩
  | .local _ .vmem, ⟨49, _⟩ => ⟨S10000x128, .f32⟩
  | .local _ .vmem, ⟨50, _⟩ => ⟨S1x128, .f32⟩
  | .local _ .vmem, ⟨51, _⟩ => ⟨S1x128, .f32⟩
  | .local _ .vmem, ⟨52, _⟩ => ⟨S10000x128, .f32⟩
  | .local _ .vmem, ⟨53, _⟩ => ⟨S10000x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S10000x128, .f32⟩
  | .local _ .vmem, ⟨59, _⟩ => ⟨S10000x128, .f32⟩
  | .local _ .vmem, ⟨60, _⟩ => ⟨S10000x128, .f32⟩
  | .local _ .vmem, ⟨61, _⟩ => ⟨S10000x128, .f32⟩
  | .local _ .vmem, ⟨62, _⟩ => ⟨S128x128, .f32⟩
  | .local _ .vmem, ⟨63, _⟩ => ⟨S1x128, .f32⟩
  | .local _ .vmem, ⟨64, _⟩ => ⟨S10000x128, .f32⟩
  | .local _ .vmem, ⟨65, _⟩ => ⟨S10000x128, .f32⟩
  | .local _ .vmem, ⟨66, _⟩ => ⟨S10000x128, .f32⟩
  | .local _ .vmem, ⟨67, _⟩ => ⟨S10000x128, .f32⟩
  | .local _ .vmem, ⟨68, _⟩ => ⟨S128x128, .f32⟩
  | .local _ .vmem, ⟨69, _⟩ => ⟨S1x128, .f32⟩
  | .local _ .vmem, ⟨70, _⟩ => ⟨S10000x128, .f32⟩
  | .local _ .vmem, ⟨71, _⟩ => ⟨S10000x128, .f32⟩
  | .local _ .vmem, ⟨72, _⟩ => ⟨S10000x128, .f32⟩
  | .local _ .vmem, ⟨73, _⟩ => ⟨S10000x128, .f32⟩
  | .local _ .vmem, ⟨74, _⟩ => ⟨S128x1, .f32⟩
  | .local _ .vmem, ⟨75, _⟩ => ⟨S1x1, .f32⟩
  | .local _ .vmem, ⟨76, _⟩ => ⟨S10000x1, .f32⟩
  | .local _ .vmem, ⟨77, _⟩ => ⟨S10000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  ofTc nBuf bufTy 0 78 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_7 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51_0 : Ref sig .tc := ⟨.hbm, 75, rfl⟩
abbrev main_v51_1 : Ref sig .tc := ⟨.hbm, 76, rfl⟩
abbrev main_v51_2 : Ref sig .tc := ⟨.hbm, 77, rfl⟩
abbrev main_v52 : Ref sig .tc := ⟨.hbm, 78, rfl⟩
abbrev main_cst_10 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_11 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_12 : Ref sig .tc := ⟨.hbm, 100, rfl⟩
abbrev main_v72 : Ref sig .tc := ⟨.hbm, 101, rfl⟩
abbrev main_v73 : Ref sig .tc := ⟨.hbm, 102, rfl⟩
abbrev main_c_13 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_14 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87_0 : Ref sig .tc := ⟨.hbm, 118, rfl⟩
abbrev main_v87_1 : Ref sig .tc := ⟨.hbm, 119, rfl⟩
abbrev main_v87_2 : Ref sig .tc := ⟨.hbm, 120, rfl⟩
abbrev main_v88 : Ref sig .tc := ⟨.hbm, 121, rfl⟩
abbrev main_cst_15 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_16 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_c_17 : Ref sig .tc := ⟨.hbm, 143, rfl⟩
abbrev main_v108 : Ref sig .tc := ⟨.hbm, 144, rfl⟩
abbrev main_v109 : Ref sig .tc := ⟨.hbm, 145, rfl⟩
abbrev main_c_18 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_cst_19 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123_0 : Ref sig .tc := ⟨.hbm, 161, rfl⟩
abbrev main_v123_1 : Ref sig .tc := ⟨.hbm, 162, rfl⟩
abbrev main_v123_2 : Ref sig .tc := ⟨.hbm, 163, rfl⟩
abbrev main_v124 : Ref sig .tc := ⟨.hbm, 164, rfl⟩
abbrev main_cst_20 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_cst_21 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg2_1 : Ref sig .tc := ⟨.vmem, 29, rfl⟩
abbrev cc4_stg3_0 : Ref sig .tc := ⟨.vmem, 30, rfl⟩
abbrev cc4_stg4_0 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg4_0 : Ref sig .tc := ⟨.vmem, 37, rfl⟩
abbrev cc5_stg5_0 : Ref sig .tc := ⟨.vmem, 38, rfl⟩
abbrev cc5_stg5_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg2_1 : Ref sig .tc := ⟨.vmem, 44, rfl⟩
abbrev cc7_stg0_0 : Ref sig .tc := ⟨.vmem, 45, rfl⟩
abbrev cc7_stg0_1 : Ref sig .tc := ⟨.vmem, 46, rfl⟩
abbrev cc7_stg1_0 : Ref sig .tc := ⟨.vmem, 47, rfl⟩
abbrev cc7_stg2_0 : Ref sig .tc := ⟨.vmem, 48, rfl⟩
abbrev cc7_stg2_1 : Ref sig .tc := ⟨.vmem, 49, rfl⟩
abbrev cc7_stg3_0 : Ref sig .tc := ⟨.vmem, 50, rfl⟩
abbrev cc7_stg4_0 : Ref sig .tc := ⟨.vmem, 51, rfl⟩
abbrev cc8_stg0_0 : Ref sig .tc := ⟨.vmem, 52, rfl⟩
abbrev cc8_stg0_1 : Ref sig .tc := ⟨.vmem, 53, rfl⟩
abbrev cc8_stg1_0 : Ref sig .tc := ⟨.vmem, 54, rfl⟩
abbrev cc8_stg2_0 : Ref sig .tc := ⟨.vmem, 55, rfl⟩
abbrev cc8_stg3_0 : Ref sig .tc := ⟨.vmem, 56, rfl⟩
abbrev cc8_stg4_0 : Ref sig .tc := ⟨.vmem, 57, rfl⟩
abbrev cc8_stg5_0 : Ref sig .tc := ⟨.vmem, 58, rfl⟩
abbrev cc8_stg5_1 : Ref sig .tc := ⟨.vmem, 59, rfl⟩
abbrev cc9_stg0_0 : Ref sig .tc := ⟨.vmem, 60, rfl⟩
abbrev cc9_stg0_1 : Ref sig .tc := ⟨.vmem, 61, rfl⟩
abbrev cc9_stg1_0 : Ref sig .tc := ⟨.vmem, 62, rfl⟩
abbrev cc9_stg2_0 : Ref sig .tc := ⟨.vmem, 63, rfl⟩
abbrev cc9_stg3_0 : Ref sig .tc := ⟨.vmem, 64, rfl⟩
abbrev cc9_stg3_1 : Ref sig .tc := ⟨.vmem, 65, rfl⟩
abbrev cc10_stg0_0 : Ref sig .tc := ⟨.vmem, 66, rfl⟩
abbrev cc10_stg0_1 : Ref sig .tc := ⟨.vmem, 67, rfl⟩
abbrev cc10_stg1_0 : Ref sig .tc := ⟨.vmem, 68, rfl⟩
abbrev cc10_stg2_0 : Ref sig .tc := ⟨.vmem, 69, rfl⟩
abbrev cc10_stg3_0 : Ref sig .tc := ⟨.vmem, 70, rfl⟩
abbrev cc10_stg3_1 : Ref sig .tc := ⟨.vmem, 71, rfl⟩
abbrev cc11_stg0_0 : Ref sig .tc := ⟨.vmem, 72, rfl⟩
abbrev cc11_stg0_1 : Ref sig .tc := ⟨.vmem, 73, rfl⟩
abbrev cc11_stg1_0 : Ref sig .tc := ⟨.vmem, 74, rfl⟩
abbrev cc11_stg2_0 : Ref sig .tc := ⟨.vmem, 75, rfl⟩
abbrev cc11_stg3_0 : Ref sig .tc := ⟨.vmem, 76, rfl⟩
abbrev cc11_stg3_1 : Ref sig .tc := ⟨.vmem, 77, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem2_1 : DmaSem sig := 29
abbrev cc4_sem3_0 : DmaSem sig := 30
abbrev cc4_sem4_0 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem3_0 : DmaSem sig := 36
abbrev cc5_sem4_0 : DmaSem sig := 37
abbrev cc5_sem5_0 : DmaSem sig := 38
abbrev cc5_sem5_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem2_1 : DmaSem sig := 44
abbrev cc7_sem0_0 : DmaSem sig := 45
abbrev cc7_sem0_1 : DmaSem sig := 46
abbrev cc7_sem1_0 : DmaSem sig := 47
abbrev cc7_sem2_0 : DmaSem sig := 48
abbrev cc7_sem2_1 : DmaSem sig := 49
abbrev cc7_sem3_0 : DmaSem sig := 50
abbrev cc7_sem4_0 : DmaSem sig := 51
abbrev cc8_sem0_0 : DmaSem sig := 52
abbrev cc8_sem0_1 : DmaSem sig := 53
abbrev cc8_sem1_0 : DmaSem sig := 54
abbrev cc8_sem2_0 : DmaSem sig := 55
abbrev cc8_sem3_0 : DmaSem sig := 56
abbrev cc8_sem4_0 : DmaSem sig := 57
abbrev cc8_sem5_0 : DmaSem sig := 58
abbrev cc8_sem5_1 : DmaSem sig := 59
abbrev cc9_sem0_0 : DmaSem sig := 60
abbrev cc9_sem0_1 : DmaSem sig := 61
abbrev cc9_sem1_0 : DmaSem sig := 62
abbrev cc9_sem2_0 : DmaSem sig := 63
abbrev cc9_sem3_0 : DmaSem sig := 64
abbrev cc9_sem3_1 : DmaSem sig := 65
abbrev cc10_sem0_0 : DmaSem sig := 66
abbrev cc10_sem0_1 : DmaSem sig := 67
abbrev cc10_sem1_0 : DmaSem sig := 68
abbrev cc10_sem2_0 : DmaSem sig := 69
abbrev cc10_sem3_0 : DmaSem sig := 70
abbrev cc10_sem3_1 : DmaSem sig := 71
abbrev cc11_sem0_0 : DmaSem sig := 72
abbrev cc11_sem0_1 : DmaSem sig := 73
abbrev cc11_sem1_0 : DmaSem sig := 74
abbrev cc11_sem2_0 : DmaSem sig := 75
abbrev cc11_sem3_0 : DmaSem sig := 76
abbrev cc11_sem3_1 : DmaSem sig := 77

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S10000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S10000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev grid8 : Pipeline.Grid := ⟨1, ![5], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S10000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![5], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S10000x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![5], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S10000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S128x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S10000x128 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![5], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S10000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S128x1 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x1 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S10000x1 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  slices_S3x128x128_S1x128x128_0_0_0 : S3x128x128.Slices ![0, 0, 0] S1x128x128
  shapeCasts_S1x128x128_S128x128 : S1x128x128.ShapeCasts S128x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  slices_S3x128_S1x128_0_0 : S3x128.Slices ![0, 0] S1x128
  shapeCasts_S1x128_S128 : S1x128.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S10000x128_S10000x128 : S10000x128.ShapeCasts S10000x128
  shapeCasts_S1x128_S1x128 : S1x128.ShapeCasts S1x128
  broadcasts_S1x128_S10000x128 : S1x128.Broadcasts S10000x128
  reduces_S10000x128_S128 : S10000x128.Reduces [0] S128
  bcast_S_S128 : S_.BroadcastsInDim S128 (![] : Fin 0 → Fin S128.rank)
  slices_S2x128_S1x128_0_0 : S2x128.Slices ![0, 0] S1x128
  slices_S3x128x128_S1x128x128_1_0_0 : S3x128x128.Slices ![1, 0, 0] S1x128x128
  slices_S3x128_S1x128_1_0 : S3x128.Slices ![1, 0] S1x128
  slices_S2x128_S1x128_1_0 : S2x128.Slices ![1, 0] S1x128
  slices_S3x128x128_S1x128x128_2_0_0 : S3x128x128.Slices ![2, 0, 0] S1x128x128
  slices_S3x128_S1x128_2_0 : S3x128.Slices ![2, 0] S1x128
  slices_S2x128x128_S1x128x128_0_0_0 : S2x128x128.Slices ![0, 0, 0] S1x128x128
  slices_S2x128x128_S1x128x128_1_0_0 : S2x128x128.Slices ![1, 0, 0] S1x128x128
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x128_S128x128_S10000x128_1_0_0_1_n_n_wf : DotDims.WF S10000x128 S128x128 S10000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S10000x128_S128x1_S10000x1_1_0_0_1_n_n_wf : DotDims.WF S10000x128 S128x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S50000x128.size a
  hwx1_2 : ∀ i : grid1.Coords, EltTy.bits .f32 = 32 ∨ (Rect.block (s := S50000x128) S10000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x128.size a ≤ S50000x128.size a
  hwx2_5 : ∀ i : grid2.Coords, EltTy.bits .f32 = 32 ∨ (Rect.block (s := S50000x128) S10000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S50000x128.size a
  hwx3_2 : ∀ i : grid3.Coords, EltTy.bits .f32 = 32 ∨ (Rect.block (s := S50000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S50000x128.size a
  hwx4_0 : ∀ i : grid4.Coords, EltTy.bits .f32 = 32 ∨ (Rect.block (s := S50000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S50000x128.size a
  hwx4_2 : ∀ i : grid4.Coords, EltTy.bits .f32 = 32 ∨ (Rect.block (s := S50000x128) S10000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S50000x128.size a
  hwx5_0 : ∀ i : grid5.Coords, EltTy.bits .f32 = 32 ∨ (Rect.block (s := S50000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x128.size a ≤ S50000x128.size a
  hwx5_5 : ∀ i : grid5.Coords, EltTy.bits .f32 = 32 ∨ (Rect.block (s := S50000x128) S10000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S50000x128.size a
  hwx6_0 : ∀ i : grid6.Coords, EltTy.bits .f32 = 32 ∨ (Rect.block (s := S50000x128) S10000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x128.size a ≤ S50000x128.size a
  hwx6_2 : ∀ i : grid6.Coords, EltTy.bits .f32 = 32 ∨ (Rect.block (s := S50000x128) S10000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x128.size a ≤ S50000x128.size a
  hwx7_0 : ∀ i : grid7.Coords, EltTy.bits .f32 = 32 ∨ (Rect.block (s := S50000x128) S10000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x128.size a ≤ S50000x128.size a
  hwx7_2 : ∀ i : grid7.Coords, EltTy.bits .f32 = 32 ∨ (Rect.block (s := S50000x128) S10000x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x128.size a ≤ S50000x128.size a
  hwx8_0 : ∀ i : grid8.Coords, EltTy.bits .f32 = 32 ∨ (Rect.block (s := S50000x128) S10000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S10000x128.size a ≤ S50000x128.size a
  hwx8_5 : ∀ i : grid8.Coords, EltTy.bits .f32 = 32 ∨ (Rect.block (s := S50000x128) S10000x128.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x128.size a ≤ S50000x128.size a
  hwx9_0 : ∀ i : grid9.Coords, EltTy.bits .f32 = 32 ∨ (Rect.block (s := S50000x128) S10000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x128.size a ≤ S128x128.size a
  hwx9_1 : ∀ i : grid9.Coords, EltTy.bits .f32 = 32 ∨ (Rect.block (s := S128x128) S128x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S10000x128.size a ≤ S50000x128.size a
  hwx9_3 : ∀ i : grid9.Coords, EltTy.bits .f32 = 32 ∨ (Rect.block (s := S50000x128) S10000x128.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x128.size a ≤ S50000x128.size a
  hwx10_0 : ∀ i : grid10.Coords, EltTy.bits .f32 = 32 ∨ (Rect.block (s := S50000x128) S10000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x128.size a ≤ S128x128.size a
  hwx10_1 : ∀ i : grid10.Coords, EltTy.bits .f32 = 32 ∨ (Rect.block (s := S128x128) S128x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S10000x128.size a ≤ S50000x128.size a
  hwx10_3 : ∀ i : grid10.Coords, EltTy.bits .f32 = 32 ∨ (Rect.block (s := S50000x128) S10000x128.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S10000x128.size a ≤ S50000x128.size a
  hwx11_0 : ∀ i : grid11.Coords, EltTy.bits .f32 = 32 ∨ (Rect.block (s := S50000x128) S10000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S128x1.size a ≤ S128x1.size a
  hwx11_1 : ∀ i : grid11.Coords, EltTy.bits .f32 = 32 ∨ (Rect.block (s := S128x1) S128x1.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x1.size a ≤ S1x1.size a
  hwx11_2 : ∀ i : grid11.Coords, EltTy.bits .f32 = 32 ∨ (Rect.block (s := S1x1) S1x1.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S10000x1.size a ≤ S50000x1.size a
  hwx11_3 : ∀ i : grid11.Coords, EltTy.bits .f32 = 32 ∨ (Rect.block (s := S50000x1) S10000x1.size (cc11_transform_3 i) (hinb11_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51_0) S10000x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v51_1) S1x128.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51_2) S1x128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v51_0) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v65) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v66) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v67) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v68) S10000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v68) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v70) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v71) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v83) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v86) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v87_0) S10000x128.size cc4_transform_2 reads4_2 true false 2 stage4_2 sem4_2
    hrank4 hreads4_2 hinb4_2 nbuf4_2 (Memref.isWhole_whole _) hwx4_2 hstage4_2

abbrev win4_3 : Pipeline.Window sig grid4 :=
  Pipeline.Window.ofSpec (Memref.whole main_v87_1) S1x128.size cc4_transform_3 reads4_3 true true 1 stage4_3 sem4_3
    hrank4 hreads4_3 hinb4_3 nbuf4_3 (Memref.isWhole_whole _) hwx4_3 hstage4_3

abbrev win4_4 : Pipeline.Window sig grid4 :=
  Pipeline.Window.ofSpec (Memref.whole main_v87_2) S1x128.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v87_0) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v100) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v101) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v102) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v103) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v104) S10000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v104) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v106) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v107) S10000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v119) S10000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v122) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v123_0) S10000x128.size cc7_transform_2 reads7_2 true false 2 stage7_2 sem7_2
    hrank7 hreads7_2 hinb7_2 nbuf7_2 (Memref.isWhole_whole _) hwx7_2 hstage7_2

abbrev win7_3 : Pipeline.Window sig grid7 :=
  Pipeline.Window.ofSpec (Memref.whole main_v123_1) S1x128.size cc7_transform_3 reads7_3 true true 1 stage7_3 sem7_3
    hrank7 hreads7_3 hinb7_3 nbuf7_3 (Memref.isWhole_whole _) hwx7_3 hstage7_3

abbrev win7_4 : Pipeline.Window sig grid7 :=
  Pipeline.Window.ofSpec (Memref.whole main_v123_2) S1x128.size cc7_transform_4 reads7_4 true true 1 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v123_0) S10000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v136) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v137) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v138) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v139) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v140) S10000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v140) S10000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v142) S128x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v145) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v146) S10000x128.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v146) S10000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v148) S128x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v151) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v152) S10000x128.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v152) S10000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_arg7) S128x1.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v153) S1x1.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v154) S10000x1.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

class Facts : Prop extends Facts₀ where

variable [Facts]
-- ==== ReferenceIdeal.lean ====
abbrev S50000x128 : Shape := ⟨2, ![50000, 128]⟩
abbrev S3x128x128 : Shape := ⟨3, ![3, 128, 128]⟩
abbrev S3x128 : Shape := ⟨2, ![3, 128]⟩
abbrev S2x128 : Shape := ⟨2, ![2, 128]⟩
abbrev S2x128x128 : Shape := ⟨3, ![2, 128, 128]⟩
abbrev S128x1 : Shape := ⟨2, ![128, 1]⟩
abbrev S1 : Shape := ⟨1, ![1]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S850000x128 : Shape := ⟨2, ![850000, 128]⟩
abbrev S50000x1 : Shape := ⟨2, ![50000, 1]⟩
abbrev S1x1 : Shape := ⟨2, ![1, 1]⟩

abbrev nBuf : Space → Nat
  | .hbm => 268
  | .vmem => 0
  | .smem => 0
  | _ => 0

abbrev hbmTy0_0 (i : Nat) : BufTy := match i % 128 with
  | 0 => ⟨S50000x128, .f32⟩
  | 1 => ⟨S3x128x128, .f32⟩
  | 2 => ⟨S3x128, .f32⟩
  | 3 => ⟨S2x128, .f32⟩
  | 4 => ⟨S2x128, .f32⟩
  | 5 => ⟨S2x128x128, .f32⟩
  | 6 => ⟨S2x128, .f32⟩
  | 7 => ⟨S128x1, .f32⟩
  | 8 => ⟨S1, .f32⟩
  | 9 => ⟨S2x800000, .i32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S_, .f32⟩
  | 27 => ⟨S50000, .f32⟩
  | 28 => ⟨S50000, .f32⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S850000x1, .f32⟩
  | 54 => ⟨S1x128x128, .f32⟩
  | 55 => ⟨S128x128, .f32⟩
  | 56 => ⟨S1x128, .f32⟩
  | 57 => ⟨S128, .f32⟩
  | 58 => ⟨S50000x128, .f32⟩
  | 59 => ⟨S_, .i32⟩
  | 60 => ⟨S850000, .i32⟩
  | 61 => ⟨S850000, .i1⟩
  | 62 => ⟨S_, .i32⟩
  | 63 => ⟨S850000, .i32⟩
  | 64 => ⟨S850000, .i32⟩
  | 65 => ⟨S850000, .i32⟩
  | 66 => ⟨S850000x1, .i32⟩
  | 67 => ⟨S850000x128, .f32⟩
  | 68 => ⟨S850000x128, .f32⟩
  | 69 => ⟨S850000x128, .f32⟩
  | 70 => ⟨S_, .f32⟩
  | 71 => ⟨S50000x128, .f32⟩
  | 72 => ⟨S850000x1, .i32⟩
  | 73 => ⟨S50000x128, .f32⟩
  | 74 => ⟨S1x128, .f32⟩
  | 75 => ⟨S50000x128, .f32⟩
  | 76 => ⟨S50000x128, .f32⟩
  | 77 => ⟨S1x128, .f32⟩
  | 78 => ⟨S128, .f32⟩
  | 79 => ⟨S1x128, .f32⟩
  | 80 => ⟨S128, .f32⟩
  | 81 => ⟨S_, .f32⟩
  | 82 => ⟨S128, .f32⟩
  | 83 => ⟨S_, .f32⟩
  | 84 => ⟨S128, .f32⟩
  | 85 => ⟨S128, .f32⟩
  | 86 => ⟨S1x128, .f32⟩
  | 87 => ⟨S50000x128, .f32⟩
  | 88 => ⟨S50000x128, .f32⟩
  | 89 => ⟨S50000x128, .f32⟩
  | 90 => ⟨S_, .f32⟩
  | 91 => ⟨S128, .f32⟩
  | 92 => ⟨S_, .f32⟩
  | 93 => ⟨S128, .f32⟩
  | 94 => ⟨S128, .f32⟩
  | 95 => ⟨S1x128, .f32⟩
  | 96 => ⟨S50000x128, .f32⟩
  | 97 => ⟨S50000x128, .f32⟩
  | 98 => ⟨S_, .f32⟩
  | 99 => ⟨S128, .f32⟩
  | 100 => ⟨S128, .f32⟩
  | 101 => ⟨S128, .f32⟩
  | 102 => ⟨S1x128, .f32⟩
  | 103 => ⟨S50000x128, .f32⟩
  | 104 => ⟨S50000x128, .f32⟩
  | 105 => ⟨S1x128, .f32⟩
  | 106 => ⟨S50000x128, .f32⟩
  | 107 => ⟨S50000x128, .f32⟩
  | 108 => ⟨S1x128, .f32⟩
  | 109 => ⟨S50000x128, .f32⟩
  | 110 => ⟨S50000x128, .f32⟩
  | 111 => ⟨S_, .f32⟩
  | 112 => ⟨S50000x128, .f32⟩
  | 113 => ⟨S50000x128, .f32⟩
  | 114 => ⟨S1x128x128, .f32⟩
  | 115 => ⟨S128x128, .f32⟩
  | 116 => ⟨S1x128, .f32⟩
  | 117 => ⟨S128, .f32⟩
  | 118 => ⟨S50000x128, .f32⟩
  | 119 => ⟨S_, .i32⟩
  | 120 => ⟨S850000, .i32⟩
  | 121 => ⟨S850000, .i1⟩
  | 122 => ⟨S_, .i32⟩
  | 123 => ⟨S850000, .i32⟩
  | 124 => ⟨S850000, .i32⟩
  | 125 => ⟨S850000, .i32⟩
  | 126 => ⟨S850000x1, .i32⟩
  | 127 => ⟨S850000x128, .f32⟩
  | _ => ⟨S50000x128, .f32⟩

abbrev hbmTy0_1 (i : Nat) : BufTy := match i % 128 with
  | 0 => ⟨S850000x128, .f32⟩
  | 1 => ⟨S850000x128, .f32⟩
  | 2 => ⟨S_, .f32⟩
  | 3 => ⟨S50000x128, .f32⟩
  | 4 => ⟨S850000x1, .i32⟩
  | 5 => ⟨S50000x128, .f32⟩
  | 6 => ⟨S1x128, .f32⟩
  | 7 => ⟨S50000x128, .f32⟩
  | 8 => ⟨S50000x128, .f32⟩
  | 9 => ⟨S1x128, .f32⟩
  | 10 => ⟨S128, .f32⟩
  | 11 => ⟨S1x128, .f32⟩
  | 12 => ⟨S128, .f32⟩
  | 13 => ⟨S_, .f32⟩
  | 14 => ⟨S128, .f32⟩
  | 15 => ⟨S_, .f32⟩
  | 16 => ⟨S128, .f32⟩
  | 17 => ⟨S128, .f32⟩
  | 18 => ⟨S1x128, .f32⟩
  | 19 => ⟨S50000x128, .f32⟩
  | 20 => ⟨S50000x128, .f32⟩
  | 21 => ⟨S50000x128, .f32⟩
  | 22 => ⟨S_, .f32⟩
  | 23 => ⟨S128, .f32⟩
  | 24 => ⟨S_, .f32⟩
  | 25 => ⟨S128, .f32⟩
  | 26 => ⟨S128, .f32⟩
  | 27 => ⟨S1x128, .f32⟩
  | 28 => ⟨S50000x128, .f32⟩
  | 29 => ⟨S50000x128, .f32⟩
  | 30 => ⟨S_, .f32⟩
  | 31 => ⟨S128, .f32⟩
  | 32 => ⟨S128, .f32⟩
  | 33 => ⟨S128, .f32⟩
  | 34 => ⟨S1x128, .f32⟩
  | 35 => ⟨S50000x128, .f32⟩
  | 36 => ⟨S50000x128, .f32⟩
  | 37 => ⟨S1x128, .f32⟩
  | 38 => ⟨S50000x128, .f32⟩
  | 39 => ⟨S50000x128, .f32⟩
  | 40 => ⟨S1x128, .f32⟩
  | 41 => ⟨S50000x128, .f32⟩
  | 42 => ⟨S50000x128, .f32⟩
  | 43 => ⟨S_, .f32⟩
  | 44 => ⟨S50000x128, .f32⟩
  | 45 => ⟨S50000x128, .f32⟩
  | 46 => ⟨S1x128x128, .f32⟩
  | 47 => ⟨S128x128, .f32⟩
  | 48 => ⟨S1x128, .f32⟩
  | 49 => ⟨S128, .f32⟩
  | 50 => ⟨S50000x128, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000x128, .f32⟩
  | 60 => ⟨S850000x128, .f32⟩
  | 61 => ⟨S850000x128, .f32⟩
  | 62 => ⟨S_, .f32⟩
  | 63 => ⟨S50000x128, .f32⟩
  | 64 => ⟨S850000x1, .i32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S1x128, .f32⟩
  | 73 => ⟨S128, .f32⟩
  | 74 => ⟨S1x128, .f32⟩
  | 75 => ⟨S128, .f32⟩
  | 76 => ⟨S_, .f32⟩
  | 77 => ⟨S128, .f32⟩
  | 78 => ⟨S_, .f32⟩
  | 79 => ⟨S128, .f32⟩
  | 80 => ⟨S128, .f32⟩
  | 81 => ⟨S1x128, .f32⟩
  | 82 => ⟨S50000x128, .f32⟩
  | 83 => ⟨S50000x128, .f32⟩
  | 84 => ⟨S50000x128, .f32⟩
  | 85 => ⟨S_, .f32⟩
  | 86 => ⟨S128, .f32⟩
  | 87 => ⟨S_, .f32⟩
  | 88 => ⟨S128, .f32⟩
  | 89 => ⟨S128, .f32⟩
  | 90 => ⟨S1x128, .f32⟩
  | 91 => ⟨S50000x128, .f32⟩
  | 92 => ⟨S50000x128, .f32⟩
  | 93 => ⟨S_, .f32⟩
  | 94 => ⟨S128, .f32⟩
  | 95 => ⟨S128, .f32⟩
  | 96 => ⟨S128, .f32⟩
  | 97 => ⟨S1x128, .f32⟩
  | 98 => ⟨S50000x128, .f32⟩
  | 99 => ⟨S50000x128, .f32⟩
  | 100 => ⟨S1x128, .f32⟩
  | 101 => ⟨S50000x128, .f32⟩
  | 102 => ⟨S50000x128, .f32⟩
  | 103 => ⟨S1x128, .f32⟩
  | 104 => ⟨S50000x128, .f32⟩
  | 105 => ⟨S50000x128, .f32⟩
  | 106 => ⟨S1x128x128, .f32⟩
  | 107 => ⟨S128x128, .f32⟩
  | 108 => ⟨S50000x128, .f32⟩
  | 109 => ⟨S1x128, .f32⟩
  | 110 => ⟨S128, .f32⟩
  | 111 => ⟨S1x128, .f32⟩
  | 112 => ⟨S50000x128, .f32⟩
  | 113 => ⟨S50000x128, .f32⟩
  | 114 => ⟨S_, .f32⟩
  | 115 => ⟨S50000x128, .f32⟩
  | 116 => ⟨S50000x128, .f32⟩
  | 117 => ⟨S1x128x128, .f32⟩
  | 118 => ⟨S128x128, .f32⟩
  | 119 => ⟨S50000x128, .f32⟩
  | 120 => ⟨S1x128, .f32⟩
  | 121 => ⟨S128, .f32⟩
  | 122 => ⟨S1x128, .f32⟩
  | 123 => ⟨S50000x128, .f32⟩
  | 124 => ⟨S50000x128, .f32⟩
  | 125 => ⟨S_, .f32⟩
  | 126 => ⟨S50000x128, .f32⟩
  | 127 => ⟨S50000x128, .f32⟩
  | _ => ⟨S50000x128, .f32⟩

abbrev hbmTy0_2 (i : Nat) : BufTy := match i % 128 with
  | 0 => ⟨S50000x1, .f32⟩
  | 1 => ⟨S1x1, .f32⟩
  | 2 => ⟨S50000x1, .f32⟩
  | 3 => ⟨S50000x1, .f32⟩
  | 4 => ⟨S50000x1, .f32⟩
  | 5 => ⟨S50000x1, .f32⟩
  | 6 => ⟨S_, .f32⟩
  | 7 => ⟨S50000x1, .f32⟩
  | 8 => ⟨S50000x1, .f32⟩
  | 9 => ⟨S_, .f32⟩
  | 10 => ⟨S50000x1, .f32⟩
  | 11 => ⟨S50000x1, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_7 : Ref sig .tc := ⟨.hbm, 59, rfl⟩
abbrev main_v38 : Ref sig .tc := ⟨.hbm, 60, rfl⟩
abbrev main_v39 : Ref sig .tc := ⟨.hbm, 61, rfl⟩
abbrev main_c_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_9 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_10 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_12 : Ref sig .tc := ⟨.hbm, 90, rfl⟩
abbrev main_v64 : Ref sig .tc := ⟨.hbm, 91, rfl⟩
abbrev main_cst_13 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_14 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_call1_cst : Ref sig .tc := ⟨.hbm, 111, rfl⟩
abbrev main_call1_v0 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_c_15 : Ref sig .tc := ⟨.hbm, 119, rfl⟩
abbrev main_v88 : Ref sig .tc := ⟨.hbm, 120, rfl⟩
abbrev main_v89 : Ref sig .tc := ⟨.hbm, 121, rfl⟩
abbrev main_c_16 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_cst_17 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_cst_18 : Ref sig .tc := ⟨.hbm, 141, rfl⟩
abbrev main_v107 : Ref sig .tc := ⟨.hbm, 142, rfl⟩
abbrev main_cst_19 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_cst_20 : Ref sig .tc := ⟨.hbm, 150, rfl⟩
abbrev main_v114 : Ref sig .tc := ⟨.hbm, 151, rfl⟩
abbrev main_cst_21 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_cst_22 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_call2_cst : Ref sig .tc := ⟨.hbm, 171, rfl⟩
abbrev main_call2_v0 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_c_23 : Ref sig .tc := ⟨.hbm, 179, rfl⟩
abbrev main_v138 : Ref sig .tc := ⟨.hbm, 180, rfl⟩
abbrev main_v139 : Ref sig .tc := ⟨.hbm, 181, rfl⟩
abbrev main_c_24 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_cst_25 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_call3_cst : Ref sig .tc := ⟨.hbm, 197, rfl⟩
abbrev main_call3_v0 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_cst_26 : Ref sig .tc := ⟨.hbm, 204, rfl⟩
abbrev main_v158 : Ref sig .tc := ⟨.hbm, 205, rfl⟩
abbrev main_cst_27 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_cst_28 : Ref sig .tc := ⟨.hbm, 213, rfl⟩
abbrev main_v165 : Ref sig .tc := ⟨.hbm, 214, rfl⟩
abbrev main_cst_29 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_cst_30 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_call4_cst : Ref sig .tc := ⟨.hbm, 242, rfl⟩
abbrev main_call4_v0 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_call5_cst : Ref sig .tc := ⟨.hbm, 253, rfl⟩
abbrev main_call5_v0 : Ref sig .tc := ⟨.hbm, 254, rfl⟩
abbrev main_v200 : Ref sig .tc := ⟨.hbm, 255, rfl⟩
abbrev main_v201 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_cst_31 : Ref sig .tc := ⟨.hbm, 262, rfl⟩
abbrev main_v207 : Ref sig .tc := ⟨.hbm, 263, rfl⟩
abbrev main_v208 : Ref sig .tc := ⟨.hbm, 264, rfl⟩
abbrev main_cst_32 : Ref sig .tc := ⟨.hbm, 265, rfl⟩
abbrev main_v209 : Ref sig .tc := ⟨.hbm, 266, rfl⟩
abbrev main_v210 : Ref sig .tc := ⟨.hbm, 267, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x128_S1x128_0_0 : S2x128.Slices ![0, 0] S1x128
  reducesTo_S50000x128_S128_d0 : S50000x128.ReducesTo [0] S128
  h_S_ : 0 < S_.numel
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S2x128_S1x128_1_0 : S2x128.Slices ![1, 0] S1x128
  slices_S3x128x128_S1x128x128_2_0_0 : S3x128x128.Slices ![2, 0, 0] S1x128x128
  slices_S3x128_S1x128_2_0 : S3x128.Slices ![2, 0] S1x128
  slices_S2x128x128_S1x128x128_0_0_0 : S2x128x128.Slices ![0, 0, 0] S1x128x128
  slices_S2x128x128_S1x128x128_1_0_0 : S2x128x128.Slices ![1, 0, 0] S1x128x128
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x1_S50000x1_1_0_0_1_n_n_wf : DotDims.WF S50000x128 S128x1 S50000x1 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KRun.lean ====
/-
  The idealized kernel's run with its result NAMED: every weakly fair execution of @main terminates, nothing
  faulting, with the result array holding what the fold of the buffer contents through @main's twenty-six
  segments leaves at it (the last boundary's contents), and the arguments as launched. The launch over the
  segments is the generated frame's; only the reading of the final state is extended by the result buffer.
-/
import proofs.«126339_j45595372814849_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main with the result buffer read at the last boundary's contents. -/
theorem run_named : θ_run defs (onTc (τ := τ) (main (F := F))) ⟨m, fun _ => 0, ρ⟩ (fun r => ∀ c : Dev nD,
      r.2.mem ((c.tc : Thread nD τ).loc main_v154) = W26 m ρ c (Proc.devRef .tc main_v154)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W26 m ρ c b)
    (hfin := fun c s' => by
      iintro ⟨⟨Hh, -⟩, HSI⟩
      unfold StableHlo.held
      imodintro
      iapply (pointsTo_read_all (Pipeline.ucRefs τ sig) (fun b => (((c : Thread nD τ)).1, b)) (W26 m ρ c) s')
      isplitl [Hh] <;> iassumption)
    (hQ := fun s h c =>
      ⟨h c _ (mem_uc main_v154 (by decide)),
       (h c _ (mem_uc main_arg0 (by decide))).trans (W26_main_arg0 m ρ c),
       (h c _ (mem_uc main_arg1 (by decide))).trans (W26_main_arg1 m ρ c),
       (h c _ (mem_uc main_arg2 (by decide))).trans (W26_main_arg2 m ρ c),
       (h c _ (mem_uc main_arg3 (by decide))).trans (W26_main_arg3 m ρ c),
       (h c _ (mem_uc main_arg4 (by decide))).trans (W26_main_arg4 m ρ c),
       (h c _ (mem_uc main_arg5 (by decide))).trans (W26_main_arg5 m ρ c),
       (h c _ (mem_uc main_arg6 (by decide))).trans (W26_main_arg6 m ρ c),
       (h c _ (mem_uc main_arg7 (by decide))).trans (W26_main_arg7 m ρ c),
       (h c _ (mem_uc main_arg8 (by decide))).trans (W26_main_arg8 m ρ c),
       (h c _ (mem_uc main_arg9 (by decide))).trans (W26_main_arg9 m ρ c)⟩)

end Cert.KernelIdeal.KRun

end
-- ==== Proof.LibFinite.lean ====
/-
  Finite extended reals. `IsReal x` says the extended real `x` is a real number (neither
  infinity). The exact float operations of the ideal values — sum, difference, product,
  maximum, minimum, negation, quotient by a nonzero finite divisor, reciprocal square root
  of a positive finite value — keep finite operands finite; a finite sum of finite terms
  is finite, and the coercion `ℝ → EReal` commutes with finite sums.

  Everything here is stated once on `EReal` and once over the `FloatOps` fields at
  `Ideal` (`FloatOps.addf` …), and entrywise over vectors (`AllReal v`).
-/
import Idealize.ShloMosaic.PureOps.Ideal.Laws

open scoped BigOperators
open Idealize.ShloMosaic

namespace LibFinite

/-- The extended real `x` is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

theorem IsReal.ne_top {x : EReal} (h : IsReal x) : x ≠ ⊤ := by
  obtain ⟨r, rfl⟩ := h; exact EReal.coe_ne_top r
theorem IsReal.ne_bot {x : EReal} (h : IsReal x) : x ≠ ⊥ := by
  obtain ⟨r, rfl⟩ := h; exact EReal.coe_ne_bot r

/-- Finite means: neither infinity. -/
theorem isReal_iff {x : EReal} : IsReal x ↔ x ≠ ⊥ ∧ x ≠ ⊤ := by
  constructor
  · exact fun h => ⟨h.ne_bot, h.ne_top⟩
  · rintro ⟨hb, ht⟩
    induction x using EReal.rec with
    | bot => exact absurd rfl hb
    | top => exact absurd rfl ht
    | coe r => exact ⟨r, rfl⟩

/-- The real number a finite extended real is. -/
theorem IsReal.coe_toReal {x : EReal} (h : IsReal x) : ((x.toReal : ℝ) : EReal) = x := by
  obtain ⟨r, rfl⟩ := h; rfl

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases max_choice x y with h | h <;> rw [h] <;> assumption
theorem IsReal.min {x y : EReal} (hx : IsReal x) (hy : IsReal y) : IsReal (min x y) := by
  rcases min_choice x y with h | h <;> rw [h] <;> assumption

/-- The quotient of the ideal values by a nonzero real is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h, EReal.coe_zero])
  exact ⟨a / b, div_coe_coe a hb⟩

/-- The reciprocal square root of a positive real is the real one. -/
theorem rsqrt_coe_pos {a : ℝ} (ha : 0 < a) : Ideal.rsqrt (a : EReal) = (((Real.sqrt a)⁻¹ : ℝ) : EReal) := by
  rw [Ideal.rsqrt_coe, if_neg (not_lt.mpr ha.le), if_neg ha.ne']

theorem IsReal.rsqrt {x : EReal} (hx : IsReal x) (hpos : 0 < x) : IsReal (Ideal.rsqrt x) := by
  obtain ⟨a, rfl⟩ := hx
  exact ⟨_, rsqrt_coe_pos (EReal.coe_pos.mp hpos)⟩

/-- The coercion of the reals into the extended reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of finite terms is finite. -/
theorem isReal_sum {ι : Type*} (s : Finset ι) (f : ι → EReal) (hf : ∀ i ∈ s, IsReal (f i)) :
    IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- A finite sum of finite nonnegative terms is nonnegative (and finite). -/
theorem sum_nonneg_of_isReal {ι : Type*} (s : Finset ι) (f : ι → EReal) (h0 : ∀ i ∈ s, 0 ≤ f i) :
    0 ≤ ∑ i ∈ s, f i := Finset.sum_nonneg h0

/-! ### The same over the float operations of the ideal values -/

variable {φ : FTy}

theorem isReal_addf {x y : Ideal φ} (hx : IsReal x) (hy : IsReal y) : IsReal (FloatOps.addf x y) := hx.add hy
theorem isReal_subf {x y : Ideal φ} (hx : IsReal x) (hy : IsReal y) : IsReal (FloatOps.subf x y) := hx.sub hy
theorem isReal_mulf {x y : Ideal φ} (hx : IsReal x) (hy : IsReal y) : IsReal (FloatOps.mulf x y) := hx.mul hy
theorem isReal_negf {x : Ideal φ} (hx : IsReal x) : IsReal (FloatOps.negf x) := hx.neg
theorem isReal_maximumf {x y : Ideal φ} (hx : IsReal x) (hy : IsReal y) : IsReal (FloatOps.maximumf x y) := hx.max hy
theorem isReal_minimumf {x y : Ideal φ} (hx : IsReal x) (hy : IsReal y) : IsReal (FloatOps.minimumf x y) := hx.min hy
theorem isReal_divf {x y : Ideal φ} (hx : IsReal x) (hy : IsReal y) (h0 : y ≠ 0) : IsReal (FloatOps.divf x y) :=
  hx.div hy h0
theorem isReal_hostDivf {x y : Ideal φ} (hx : IsReal x) (hy : IsReal y) (h0 : y ≠ 0) :
    IsReal (FloatOps.hostDivf x y) := hx.div hy h0
theorem isReal_rsqrt {x : Ideal φ} (hx : IsReal x) (hpos : 0 < x) : IsReal (FloatOps.rsqrt x) := hx.rsqrt hpos
theorem isReal_hostRsqrt {x : Ideal φ} (hx : IsReal x) (hpos : 0 < x) : IsReal (FloatOps.hostUnary .rsqrt x) :=
  hx.rsqrt hpos

/-! ### Entrywise over vectors -/

/-- Every entry of the vector is a real number. -/
def AllReal {s : Shape} (v : s.Idx → EReal) : Prop := ∀ i, IsReal (v i)

variable {s : Shape}

theorem allReal_addf {x y : FVec Ideal s φ} (hx : AllReal x) (hy : AllReal y) : AllReal (addf x y) :=
  fun i => (hx i).add (hy i)
theorem allReal_subf {x y : FVec Ideal s φ} (hx : AllReal x) (hy : AllReal y) : AllReal (subf x y) :=
  fun i => (hx i).sub (hy i)
theorem allReal_mulf {x y : FVec Ideal s φ} (hx : AllReal x) (hy : AllReal y) : AllReal (mulf x y) :=
  fun i => (hx i).mul (hy i)
theorem allReal_maximumf {x y : FVec Ideal s φ} (hx : AllReal x) (hy : AllReal y) : AllReal (maximumf x y) :=
  fun i => (hx i).max (hy i)
theorem allReal_divf {x y : FVec Ideal s φ} (hx : AllReal x) (hy : AllReal y) (h0 : ∀ i, y i ≠ 0) :
    AllReal (divf x y) := fun i => (hx i).div (hy i) (h0 i)
theorem allReal_hostDivf {x y : FVec Ideal s φ} (hx : AllReal x) (hy : AllReal y) (h0 : ∀ i, y i ≠ 0) :
    AllReal (Host.divf x y) := fun i => (hx i).div (hy i) (h0 i)
theorem allReal_rsqrt {x : FVec Ideal s φ} (hx : AllReal x) (hpos : ∀ i, 0 < x i) : AllReal (rsqrt x) :=
  fun i => (hx i).rsqrt (hpos i)
theorem allReal_hostRsqrt {x : FVec Ideal s φ} (hx : AllReal x) (hpos : ∀ i, 0 < x i) : AllReal (Host.rsqrt x) :=
  fun i => (hx i).rsqrt (hpos i)
theorem allReal_broadcast {x : EReal} (hx : IsReal x) (t : Shape) : AllReal (broadcast t x) := fun _ => hx

end LibFinite
-- ==== Proof.LibBatchStats.lean ====
/-
  Batch statistics at the ideal values. For a column `h : ι → EReal` of FINITE entries over
  a finite index type of `N` elements, with `S = ∑ h`, `mean = S / N`:

    (∑ (h i − mean) · (h i − mean)) / N  =  (∑ h i · h i) / N − mean · mean

  — the centred (two-pass) variance and the raw-moment (one-pass) variance are the same
  extended real. Distributivity fails at the infinities of `EReal`, so finiteness of every
  entry is needed; the proof moves to the reals, where it is the usual expansion of the
  square. The quotient is the ideal values' `Ideal.div` by the real `N` (`FloatOps.divf`
  and `FloatOps.hostDivf` are this function by definition).

  Also: the variance is a nonnegative real, so adding a positive real `ε` gives a positive
  real, whose reciprocal square root is finite; the literal `0x3727C5AC` (the f32 nearest
  `1e-5`) is such an `ε`; the f32 literals 20000, 50000, 10000, 3000 are those reals; and
  the normalised, scaled, shifted and clamped value `max ((x − mean)·rsqrt(var + ε)·g + β) 0`
  is finite.
-/
import proofs.«126339_j45595372814849_1_alg».proof.Proof.LibFinite

open scoped BigOperators
open Idealize.ShloMosaic
open LibFinite

namespace LibBatchStats

/-- Over the reals: the mean of the squared deviations from the mean is the mean of the squares
    minus the square of the mean. -/
theorem real_var_identity {ι : Type*} [Fintype ι] (r : ι → ℝ) (N : ℝ) (hN : (Fintype.card ι : ℝ) = N)
    (h0 : N ≠ 0) :
    (∑ i, (r i - (∑ i, r i) / N) * (r i - (∑ i, r i) / N)) / N
      = (∑ i, r i * r i) / N - (∑ i, r i) / N * ((∑ i, r i) / N) := by
  obtain ⟨S, hS⟩ : ∃ S, S = ∑ i, r i := ⟨_, rfl⟩
  rw [← hS]
  have h1 : ∑ i, (r i - S / N) * (r i - S / N)
      = ∑ i, r i * r i - 2 * (S / N) * S + N * (S / N * (S / N)) := by
    have e : ∀ i, (r i - S / N) * (r i - S / N) = r i * r i - 2 * (S / N) * r i + S / N * (S / N) :=
      fun i => by ring
    simp only [e, Finset.sum_add_distrib, Finset.sum_sub_distrib, ← Finset.mul_sum, Finset.sum_const,
      Finset.card_univ, nsmul_eq_mul, hN, ← hS]
    ring
  rw [h1]
  field_simp
  ring

/-- The variance identity at the ideal values: for finite entries, the centred sum of squares over `N`
    equals the sum of squares over `N` minus the squared mean. `N` is the (real) number of entries. -/
theorem var_identity {ι : Type*} [Fintype ι] (h : ι → EReal) (hfin : ∀ i, IsReal (h i)) (N : ℝ)
    (hN : (Fintype.card ι : ℝ) = N) (h0 : N ≠ 0) :
    Ideal.div (∑ i, (h i - Ideal.div (∑ i, h i) (N : EReal)) * (h i - Ideal.div (∑ i, h i) (N : EReal))) (N : EReal)
      = Ideal.div (∑ i, h i * h i) (N : EReal)
          - Ideal.div (∑ i, h i) (N : EReal) * Ideal.div (∑ i, h i) (N : EReal) := by
  choose r hr using hfin
  obtain rfl : h = fun i => (r i : EReal) := funext hr
  simp only [← coe_finset_sum, div_coe_coe _ h0, ← EReal.coe_sub, ← EReal.coe_mul]
  exact congrArg _ (real_var_identity r N hN h0)

/-- The mean of finite entries is the real mean. -/
theorem mean_coe {ι : Type*} [Fintype ι] (r : ι → ℝ) {N : ℝ} (h0 : N ≠ 0) :
    Ideal.div (∑ i, (r i : EReal)) (N : EReal) = (((∑ i, r i) / N : ℝ) : EReal) := by
  rw [← coe_finset_sum, div_coe_coe _ h0]

/-- The mean of finite entries is finite. -/
theorem isReal_mean {ι : Type*} [Fintype ι] (h : ι → EReal) (hfin : ∀ i, IsReal (h i)) {N : ℝ} (h0 : N ≠ 0) :
    IsReal (Ideal.div (∑ i, h i) (N : EReal)) :=
  (isReal_sum _ _ fun i _ => hfin i).div (isReal_coe N) (by exact_mod_cast h0)

/-- The centred variance of finite entries is a NONNEGATIVE real (for a positive count `N`). -/
theorem centred_var_nonneg {ι : Type*} [Fintype ι] (h : ι → EReal) (hfin : ∀ i, IsReal (h i)) {N : ℝ}
    (hpos : 0 < N) :
    ∃ v : ℝ, 0 ≤ v ∧
      Ideal.div (∑ i, (h i - Ideal.div (∑ i, h i) (N : EReal)) * (h i - Ideal.div (∑ i, h i) (N : EReal))) (N : EReal)
        = (v : EReal) := by
  choose r hr using hfin
  obtain rfl : h = fun i => (r i : EReal) := funext hr
  refine ⟨(∑ i, (r i - (∑ i, r i) / N) * (r i - (∑ i, r i) / N)) / N, ?_, ?_⟩
  · exact div_nonneg (Finset.sum_nonneg fun i _ => mul_self_nonneg _) hpos.le
  · simp only [← coe_finset_sum, div_coe_coe _ hpos.ne', ← EReal.coe_sub, ← EReal.coe_mul]

/-- So is the raw-moment variance (it is the same extended real). -/
theorem raw_var_nonneg {ι : Type*} [Fintype ι] (h : ι → EReal) (hfin : ∀ i, IsReal (h i)) {N : ℝ}
    (hN : (Fintype.card ι : ℝ) = N) (hpos : 0 < N) :
    ∃ v : ℝ, 0 ≤ v ∧
      Ideal.div (∑ i, h i * h i) (N : EReal)
          - Ideal.div (∑ i, h i) (N : EReal) * Ideal.div (∑ i, h i) (N : EReal) = (v : EReal) := by
  rw [← var_identity h hfin N hN hpos.ne']
  exact centred_var_nonneg h hfin hpos

/-- A nonnegative real plus a positive real is a positive real, as extended reals. -/
theorem add_eps_pos {v e : ℝ} (hv : 0 ≤ v) (he : 0 < e) :
    IsReal ((v : EReal) + (e : EReal)) ∧ (0 : EReal) < (v : EReal) + (e : EReal) := by
  refine ⟨(isReal_coe v).add (isReal_coe e), ?_⟩
  rw [← EReal.coe_add]
  exact EReal.coe_pos.mpr (by linarith)

/-- Hence the reciprocal square root of `variance + ε` is finite. -/
theorem isReal_rsqrt_add_eps {v e : ℝ} (hv : 0 ≤ v) (he : 0 < e) :
    IsReal (Ideal.rsqrt ((v : EReal) + (e : EReal))) :=
  (add_eps_pos hv he).1.rsqrt (add_eps_pos hv he).2

/-! ### The literals -/

/-- The f32 literal `0x3727C5AC` (the float nearest `1e-5`) is a positive real. -/
theorem eps_pos : ∃ e : ℝ, 0 < e ∧ Ideal.ofBits .f32 0x3727C5AC#32 = (e : EReal) := by
  refine ⟨10995116 * (2 : ℝ) ^ (-40 : Int), by positivity, ?_⟩
  simp [Ideal.ofBits, Ideal.ieee, -EReal.coe_mul]

theorem f32_20000 : Ideal.ofBits .f32 0x469C4000#32 = ((20000 : ℝ) : EReal) := by
  simp [Ideal.ofBits, Ideal.ieee, -EReal.coe_mul]; norm_num
theorem f32_50000 : Ideal.ofBits .f32 0x47435000#32 = ((50000 : ℝ) : EReal) := by
  simp [Ideal.ofBits, Ideal.ieee, -EReal.coe_mul]; norm_num
theorem f32_10000 : Ideal.ofBits .f32 0x461C4000#32 = ((10000 : ℝ) : EReal) := by
  simp [Ideal.ofBits, Ideal.ieee, -EReal.coe_mul]; norm_num
theorem f32_3000 : Ideal.ofBits .f32 0x453B8000#32 = ((3000 : ℝ) : EReal) := by
  simp [Ideal.ofBits, Ideal.ieee, -EReal.coe_mul]; norm_num

/-! ### The normalisation -/

/-- The normalised, scaled, shifted and clamped value depends on the variance only through its value:
    equal variances give equal outputs. -/
theorem bn_relu_congr (x mean var var' eps g b : EReal) (hv : var = var') :
    max ((x - mean) * Ideal.rsqrt (var + eps) * g + b) 0
      = max ((x - mean) * Ideal.rsqrt (var' + eps) * g + b) 0 := by rw [hv]

/-- …and it is finite when `x`, the mean, the scale and the shift are, the variance is a nonnegative real
    and `ε` a positive one. -/
theorem isReal_bn_relu {x mean g b : EReal} {v e : ℝ} (hx : IsReal x) (hm : IsReal mean) (hg : IsReal g)
    (hb : IsReal b) (hv : 0 ≤ v) (he : 0 < e) :
    IsReal (max ((x - mean) * Ideal.rsqrt ((v : EReal) + (e : EReal)) * g + b) 0) :=
  ((((hx.sub hm).mul (isReal_rsqrt_add_eps hv he)).mul hg).add hb).max isReal_zero

end LibBatchStats
-- ==== Proof.Spec.lean ====
/-
  The mathematics both programs compute, index by index, on extended reals.

  A graph-convolution layer multiplies the node features by a weight matrix (`mm`), mixes rows along the
  edges (kept as the programs' own gather / scale / scatter-add, the same operations on both sides), adds a
  bias row (`addRow`), and normalises every column by its batch statistics: the column sums (`colSum`) give
  the mean (`meanOf`), and the variance is taken either from the raw second moment (`varRaw`: mean of squares
  minus squared mean) or from the centred one (`varCentred`: mean of squared deviations). For finite entries
  the two variances are the same extended real (`varRaw_eq_varCentred`); distributivity fails at the
  infinities, so finiteness is needed. `bnApply` is the normalisation itself.
-/
import Idealize.ShloMosaic.Lib.ValueIdx
import Idealize.ShloMosaic.PureOps.Ideal.Laws
import proofs.«126339_j45595372814849_1_alg».proof.Proof.LibBatchStats

noncomputable section

open scoped BigOperators
open Idealize.ShloMosaic Idealize.ShloMosaic.ValueIdx

namespace Cert.Spec

/-- A matrix of extended reals with literal extents. -/
abbrev M (a b : Nat) := (⟨2, ![a, b]⟩ : Shape).Idx → EReal

/-- The f32 literal 50000.0, the number of rows. -/
def nRows : EReal := Ideal.ofBits .f32 0x47435000#32
/-- The f32 literal nearest 1e-5 added to the variance. -/
def eps : EReal := Ideal.ofBits .f32 0x3727C5AC#32

/-- Rows times a square weight matrix. -/
def mm (h : M 50000 128) (w : M 128 128) : M 50000 128 :=
  fun i => ∑ k : Fin 128, h (ix2 (i 0) k) * w (ix2 k (i 1))
/-- Rows times a one-column weight matrix. -/
def mm1 (h : M 50000 128) (w : M 128 1) : M 50000 1 :=
  fun i => ∑ k : Fin 128, h (ix2 (i 0) k) * w (ix2 k (i 1))
/-- Add a row vector to every row. -/
def addRow (z : M 50000 128) (b : M 1 128) : M 50000 128 := fun i => z i + b (ix2 0 (i 1))
/-- Clamp below at zero. -/
def relu {a b : Nat} (z : M a b) : M a b := fun i => max (z i) 0
/-- Entrywise square. -/
def sq (z : M 50000 128) : M 50000 128 := fun i => z i * z i
/-- The sum of every column, as a row. -/
def colSum (z : M 50000 128) : M 1 128 := fun i => ∑ n : Fin 50000, z (ix2 n (i 1))
/-- The column means from the column sums. -/
def meanOf (s : M 1 128) : M 1 128 := fun i => Ideal.div (s (ix2 0 (i 1))) nRows
/-- The variance from the raw moments: mean of squares minus squared mean. -/
def varRaw (s ss : M 1 128) : M 1 128 := fun i => Ideal.div (ss (ix2 0 (i 1))) nRows - meanOf s i * meanOf s i
/-- The variance as the mean of the squared deviations from the mean. -/
def varCentred (z : M 50000 128) : M 1 128 := fun i =>
  Ideal.div (∑ n : Fin 50000, (z (ix2 n (i 1)) - meanOf (colSum z) i) * (z (ix2 n (i 1)) - meanOf (colSum z) i)) nRows
/-- Normalise by mean and variance, scale and shift, column by column. -/
def bnApply (z : M 50000 128) (mean var g b : M 1 128) : M 50000 128 := fun i =>
  (z i - mean (ix2 0 (i 1))) * Ideal.rsqrt (var (ix2 0 (i 1)) + eps) * g (ix2 0 (i 1)) + b (ix2 0 (i 1))
/-- The output head: one column, a bias, the logistic function. -/
def sigm (h : M 50000 128) (w : M 128 1) (b : M 1 1) : M 50000 1 :=
  fun i => Ideal.logistic (mm1 h w i + b (ix2 0 0))

/-- Every entry is a real number. -/
abbrev Fin_ {a b : Nat} (z : M a b) : Prop := ∀ i, LibFinite.IsReal (z i)

theorem nRows_eq : nRows = ((50000 : ℝ) : EReal) := LibBatchStats.f32_50000

/-- For finite entries the raw-moment variance is the centred variance. -/
theorem varRaw_eq_varCentred (z : M 50000 128) (hz : Fin_ z) :
    varRaw (colSum z) (colSum (sq z)) = varCentred z := by
  funext i
  have e : (ix2 (0 : Fin 1) (i 1) : (⟨2, ![1, 128]⟩ : Shape).Idx) 1 = i 1 := rfl
  unfold varRaw varCentred meanOf colSum sq
  simp only [e, nRows_eq]
  exact (LibBatchStats.var_identity (ι := Fin 50000) (fun n => z (ix2 n (i 1))) (fun n => hz _) 50000
    (by simp) (by norm_num)).symm

end Cert.Spec

end
-- ==== Proof.Net.lean ====
/-
  The whole network as one function of the ten arguments, over the mathematics of Spec.lean.

  The edge mixing (`agg`: gather the rows at the source nodes, scale each by its edge's normalisation factor,
  scatter-add into the destination nodes) is kept as the reference program's own operations: both programs
  spell it with the same operations, so nothing has to be read at an index there. A layer is
  `zPre` (weights, mixing, bias) followed by a batch normalisation; `net` takes the normalisation as a
  parameter, so that the network with the centred variance (`bnC`, what the reference computes) and the one with
  the raw-moment variance (`bnR`, what the kernel computes) are the same text.
-/
import proofs.«126339_j45595372814849_1_alg».proof.Proof.Spec
import proofs.«126339_j45595372814849_1_alg».proof.Proof.ReadP

noncomputable section

open scoped BigOperators
open Idealize.ShloMosaic Idealize.ShloMosaic.ValueIdx
open Cert.ReferenceIdeal Cert.ReferenceIdeal.ReadP Cert.Spec

namespace Cert.Net

/-- The edge list argument. -/
abbrev Edges := (⟨S2x800000, .i32⟩ : BufTy).Contents (Elt Ideal)
abbrev A0 := (⟨S50000x128, .f32⟩ : BufTy).Contents (Elt Ideal)
abbrev A1 := (⟨S3x128x128, .f32⟩ : BufTy).Contents (Elt Ideal)
abbrev A2 := (⟨S3x128, .f32⟩ : BufTy).Contents (Elt Ideal)
abbrev A3 := (⟨S2x128, .f32⟩ : BufTy).Contents (Elt Ideal)
abbrev A5 := (⟨S2x128x128, .f32⟩ : BufTy).Contents (Elt Ideal)
abbrev A7 := (⟨S128x1, .f32⟩ : BufTy).Contents (Elt Ideal)
abbrev A8 := (⟨S1, .f32⟩ : BufTy).Contents (Elt Ideal)

/-- A vector of 128 entries as a one-row matrix. -/
def rowOf (v : (⟨S128, .f32⟩ : BufTy).Contents (Elt Ideal)) : M 1 128 := fun i => v (ix1 (i 1))
/-- A vector of one entry as a one-by-one matrix. -/
def cellOf (v : A8) : M 1 1 := fun _ => v (ix1 0)

/-- Mix the rows of `ht` along the edges: row `n` of the result is the sum, over the edges into `n` (self loops
    included), of the edge's normalisation factor times the row of `ht` at the edge's source. -/
def agg (ht : M 50000 128) (e : Edges) : M 50000 128 :=
  (Host.scatterAdd (F := Ideal) scatter_S50000x128_S850000x1_S850000x128_1_0_0_1
    (val_main_v47 (F := Ideal) : FVec Ideal S50000x128 .f32) (val_main_v48 (F := Ideal) e)
    ((mulf (Host.gather gather_S50000x128_S850000x1_S850000x128_1_0_n_n_0_1_1128 (ht : FVec Ideal S50000x128 .f32)
        (val_main_v43 (F := Ideal) e) : FVec Ideal S850000x128 .f32)
      (val_main_v45 (F := Ideal) e) : FVec Ideal S850000x128 .f32)) : FVec Ideal S50000x128 .f32)

/-- Weights, edge mixing, bias. -/
def zPre (h : M 50000 128) (w : M 128 128) (b : M 1 128) (e : Edges) : M 50000 128 := addRow (agg (mm h w) e) b

/-- Batch normalisation with the centred variance. -/
def bnC (z : M 50000 128) (g be : M 1 128) : M 50000 128 := bnApply z (meanOf (colSum z)) (varCentred z) g be
/-- Batch normalisation with the raw-moment variance. -/
def bnR (z : M 50000 128) (g be : M 1 128) : M 50000 128 :=
  bnApply z (meanOf (colSum z)) (varRaw (colSum z) (colSum (sq z))) g be

/-- The slices of the stacked parameters. -/
def w0 (a : A1) : M 128 128 := val_main_v34 (F := Ideal) a
def w1 (a : A1) : M 128 128 := val_main_v84 (F := Ideal) a
def w2 (a : A1) : M 128 128 := val_main_v134 (F := Ideal) a
def b0 (a : A2) : M 1 128 := rowOf (val_main_v36 (F := Ideal) a)
def b1 (a : A2) : M 1 128 := rowOf (val_main_v86 (F := Ideal) a)
def b2 (a : A2) : M 1 128 := rowOf (val_main_v136 (F := Ideal) a)
def r0 (a : A3) : M 1 128 := rowOf (val_main_v54 (F := Ideal) a)   -- row 0 of a [2,128] parameter
def r1 (a : A3) : M 1 128 := rowOf (val_main_v104 (F := Ideal) a)  -- row 1 of a [2,128] parameter
def mw0 (a : A5) : M 128 128 := val_main_v184 (F := Ideal) a
def mw1 (a : A5) : M 128 128 := val_main_v193 (F := Ideal) a

/-- The network: three mixing layers with batch normalisation (the third clamps BEFORE normalising and reuses the
    second row of the normalisation parameters), two dense layers with a clamp, the logistic head. -/
def net (bn : M 50000 128 → M 1 128 → M 1 128 → M 50000 128)
    (a0 : A0) (a1 : A1) (a2 : A2) (a3 a4 : A3) (a5 : A5) (a6 : A3) (a7 : A7) (a8 : A8) (e : Edges) : M 50000 1 :=
  let h1 := relu (bn (zPre a0 (w0 a1) (b0 a2) e) (r0 a3) (r0 a4))
  let h2 := relu (bn (zPre h1 (w1 a1) (b1 a2) e) (r1 a3) (r1 a4))
  let h3 := bn (relu (zPre h2 (w2 a1) (b2 a2) e)) (r1 a3) (r1 a4)
  let m1 := relu (addRow (mm h3 (mw0 a5)) (r0 a6))
  let m2 := relu (addRow (mm m1 (mw1 a5)) (r1 a6))
  sigm m2 a7 (cellOf a8)

end Cert.Net

end
-- ==== Proof.PreFinite.lean ====
/-
  From the precondition to finiteness of the float arguments.

  The precondition is the conjunction, over the nine float arguments, of "every entry has absolute value
  below +∞". Its value being the all-ones scalar splits, conjunct by conjunct, into: each reduction by
  `and` is 1, hence every compared entry is 1, i.e. `max x (-x) < ⊤` on the extended reals (the f32
  pattern 0x7F800000 is `⊤`). Neither infinity satisfies that: `max ⊥ ⊤ = max ⊤ ⊥ = ⊤`. So every entry
  is a real number.
-/
import proofs.«126339_j45595372814849_1_alg».proof.Pre_finite_inputs
import proofs.«126339_j45595372814849_1_alg».proof.Proof.LibFinite
import Idealize.ShloMosaic.Lib.ReduceAll
import Idealize.ShloMosaic.Lib.ValueIdx
import Idealize.ShloMosaic.PureOps.Ideal.Laws

open Idealize.ShloMosaic Cert.Pre_finite_inputs LibFinite

namespace Cert.PreFinite

/-- The rank-zero shape has one index. -/
instance : Subsingleton S_.Idx := ⟨fun a b => funext fun d => d.elim0⟩

/-- The f32 pattern of +∞ is the top extended real. -/
theorem f32_inf : Ideal.ofBits .f32 0x7F800000#32 = (⊤ : EReal) := by
  simp [Ideal.ofBits, Ideal.ieee]

/-- An extended real whose absolute value `max x (-x)` compares below +∞ is a real number. -/
theorem isReal_of_abs_lt_inf (x : EReal)
    (h : Ideal.cmp .olt (max x (-x)) (Ideal.ofBits .f32 0x7F800000#32) = 1#1) : IsReal x := by
  rw [f32_inf] at h
  induction x using EReal.rec with
  | bot => simp [Ideal.cmp] at h
  | top => simp [Ideal.cmp] at h
  | coe r => exact ⟨r, rfl⟩

/-- One conjunct: if the reduction by `and` of `|x| < +∞` over every entry is 1, every entry of `x` is real. -/
theorem allReal_of_all {s : Shape} {axes : List (Fin s.rank)} (x : FVec Ideal s .f32)
    (hb : S_.BroadcastsInDim s (![] : Fin 0 → Fin s.rank)) (h : s.ReducesTo axes S_) (hu : 0 < S_.numel)
    (init : IVec S_ 1)
    (e : Host.reduce IntOp.andi (cmpf .olt (Host.absf x) (broadcastInDim s ![] hb (constant S_ .f32 0x7F800000#32))) init h hu
          ValueIdx.ix0 = 1#1) : AllReal x := by
  intro i
  have hi := Host.reduce_andi_all _ _ h hu _ e i
  exact isReal_of_abs_lt_inf (x i) hi

variable [Facts]

/-- The precondition on the ten arguments gives finiteness of the nine float ones. -/
theorem finite_of_pre (a0 : FVec Ideal S50000x128 .f32) (a1 : FVec Ideal S3x128x128 .f32) (a2 : FVec Ideal S3x128 .f32)
    (a3 a4 : FVec Ideal S2x128 .f32) (a5 : FVec Ideal S2x128x128 .f32) (a6 : FVec Ideal S2x128 .f32)
    (a7 : FVec Ideal S128x1 .f32) (a8 : FVec Ideal S1 .f32) (a9 : IVec S2x800000 32)
    (h : Cert.Pre_finite_inputs.fn (F := Ideal) a0 a1 a2 a3 a4 a5 a6 a7 a8 a9 = (fun _ => 1#1)) :
    AllReal a0 ∧ AllReal a1 ∧ AllReal a2 ∧ AllReal a3 ∧ AllReal a4 ∧ AllReal a5 ∧ AllReal a6 ∧ AllReal a7 ∧ AllReal a8 := by
  have h0 := congrFun h ValueIdx.ix0
  dsimp only [fn, fn_part1, fn_part2] at h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨allReal_of_all a0 _ _ _ _ e0, allReal_of_all a1 _ _ _ _ e1, allReal_of_all a2 _ _ _ _ e2,
    allReal_of_all a3 _ _ _ _ e3, allReal_of_all a4 _ _ _ _ e4, allReal_of_all a5 _ _ _ _ e5,
    allReal_of_all a6 _ _ _ _ e6, allReal_of_all a7 _ _ _ _ e7, allReal_of_all a8 _ _ _ _ e8⟩

end Cert.PreFinite
-- ==== Proof.Assemble.lean ====
/-
  The five claims assembled.

  The three frame claims are the runs with the value of the result dropped. The algebraic claim puts the pieces in a
  row: the kernel's run ends with the result array at what the fold of its segments leaves there; that value is the
  network with the variance taken from the raw moments; for finite arguments (which the precondition gives) the raw-moment
  variance is the centred variance, so it is the network with the centred variance; the reference's run ends at its own
  term, which is that same network of its own arguments; and the two programs' arguments agree.
-/
import proofs.«126339_j45595372814849_1_alg».proof.Defs
import proofs.«126339_j45595372814849_1_alg».proof.Proof.Gen.Kernel
import proofs.«126339_j45595372814849_1_alg».proof.Proof.Gen.Kernel.Frame
import proofs.«126339_j45595372814849_1_alg».proof.Proof.Gen.KernelIdeal
import proofs.«126339_j45595372814849_1_alg».proof.Proof.Gen.KernelIdeal.Frame
import proofs.«126339_j45595372814849_1_alg».proof.Proof.Gen.ReferenceIdeal
import proofs.«126339_j45595372814849_1_alg».proof.Proof.Gen.Pre_finite_inputs
import proofs.«126339_j45595372814849_1_alg».proof.Proof.KRun
import proofs.«126339_j45595372814849_1_alg».proof.Proof.Net
import proofs.«126339_j45595372814849_1_alg».proof.Proof.PreFinite
import Idealize.ShloMosaic.Adequacy
import Idealize.ShloMosaic.Init

noncomputable section

namespace Cert.Proof.Assemble

open Idealize.ShloMosaic Idealize.SL.Sem

/-- The kernel's result array, as the fold of its segments leaves it, is the network with the raw-moment variance. -/
abbrev HVal : Prop :=
  ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
    (Cert.KernelIdeal.Gen.W26 (F := Ideal) m ρ c (Proc.devRef .tc Cert.KernelIdeal.main_v154) : Cert.Spec.M 50000 1)
      = Cert.Net.net Cert.Net.bnR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))

/-- For finite features and parameters the two variances give the same network. -/
abbrev HBridge : Prop :=
  ∀ (a0 : Cert.Net.A0) (a1 : Cert.Net.A1) (a2 : Cert.Net.A2) (a3 a4 : Cert.Net.A3) (a5 : Cert.Net.A5) (a6 : Cert.Net.A3)
    (a7 : Cert.Net.A7) (a8 : Cert.Net.A8) (a9 : Cert.Net.Edges),
    LibFinite.AllReal (s := Cert.ReferenceIdeal.S50000x128) a0 → LibFinite.AllReal (s := Cert.ReferenceIdeal.S3x128x128) a1
      → LibFinite.AllReal (s := Cert.ReferenceIdeal.S3x128) a2 → LibFinite.AllReal (s := Cert.ReferenceIdeal.S2x128) a3 → LibFinite.AllReal (s := Cert.ReferenceIdeal.S2x128) a4
      → Cert.Net.net Cert.Net.bnR a0 a1 a2 a3 a4 a5 a6 a7 a8 a9 = Cert.Net.net Cert.Net.bnC a0 a1 a2 a3 a4 a5 a6 a7 a8 a9

/-- The reference's term is the network with the centred variance. -/
abbrev HRef : Prop :=
  ∀ (a0 : Cert.Net.A0) (a1 : Cert.Net.A1) (a2 : Cert.Net.A2) (a3 a4 : Cert.Net.A3) (a5 : Cert.Net.A5) (a6 : Cert.Net.A3)
    (a7 : Cert.Net.A7) (a8 : Cert.Net.A8) (a9 : Cert.Net.Edges),
    Cert.ReferenceIdeal.ReadP.val_main_v210 (F := Ideal) a0 a1 a2 a3 a4 a5 a6 a7 a8 a9 = Cert.Net.net Cert.Net.bnC a0 a1 a2 a3 a4 a5 a6 a7 a8 a9

/-- The reference runs, ends with its result at its term of the arguments, and leaves the arguments as they were. -/
abbrev HRun : Prop :=
  ∀ (m : (ℓ : Loc Cert.ReferenceIdeal.nD Cert.ReferenceIdeal.τ Cert.ReferenceIdeal.sig) → Buf (Elt Ideal) ℓ) (ρ : Dev Cert.ReferenceIdeal.nD → PrngReg),
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v210) = Cert.ReferenceIdeal.ReadP.val_main_v210 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

theorem frame_k : Cert.frame_Kernel := fun m ρ _ => Cert.Kernel.Gen.frame m ρ
theorem frame_ki : Cert.frame_KernelIdeal := fun m ρ _ => Cert.KernelIdeal.Gen.frame m ρ
theorem frame_ri (hrun : HRun) : Cert.frame_ReferenceIdeal := fun m ρ _ =>
  (θ_run Cert.ReferenceIdeal.defs _ _).mono (fun _ h c => (h c).2) (hrun m ρ)

theorem preserves : Cert.preserves_Kernel_KernelIdeal := trivial

theorem algebraic (hval : HVal) (hbridge : HBridge) (href : HRef) (hrun : HRun) :
    Cert.algebraic_KernelIdeal_ReferenceIdeal := by
  intro m ρ m' ρ' hpre hagree
  refine ⟨fun c => Cert.Net.net Cert.Net.bnC (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun r h c => ⟨(h c).1.trans ?_, (h c).2⟩) (Cert.KernelIdeal.KRun.run_named (F := Ideal) m ρ)
    obtain ⟨f0, f1, f2, f3, f4, -⟩ := Cert.PreFinite.finite_of_pre _ _ _ _ _ _ _ _ _ _ (hpre c)
    exact (hval m ρ c).trans (hbridge _ _ _ _ _ _ _ _ _ _ f0 f1 f2 f3 f4)
  · refine (θ_run Cert.ReferenceIdeal.defs _ _).mono (fun r h c => ⟨(h c).1.trans ?_, (h c).2⟩) (hrun m' ρ')
    have e := hagree c
    show _ = Cert.Net.net Cert.Net.bnC (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
    rw [href, e.1, e.2.1, e.2.2.1, e.2.2.2.1, e.2.2.2.2.1, e.2.2.2.2.2.1, e.2.2.2.2.2.2.1, e.2.2.2.2.2.2.2.1, e.2.2.2.2.2.2.2.2.1, e.2.2.2.2.2.2.2.2.2]

theorem claim_of (hval : HVal) (hbridge : HBridge) (href : HRef) (hrun : HRun) : Cert.Claim :=
  ⟨Cert.Kernel.Gen.facts, Cert.KernelIdeal.Gen.facts, Cert.ReferenceIdeal.Gen.facts, Cert.Pre_finite_inputs.Gen.facts,
    frame_k, frame_ki, frame_ri hrun, preserves, algebraic hval hbridge href hrun⟩

end Cert.Proof.Assemble

end
-- ==== Proof.Carry.lean ====
/-
  Buffers that a stretch of @main does not write keep their contents across it. The arguments are written by
  nothing, so at every segment boundary they hold their launch contents; the edge lists with the self loops
  appended and the per-edge normalisation factors are computed once, before the first kernel, and are read again
  before each mixing step.
-/
import proofs.«126339_j45595372814849_1_alg».proof.Proof.Gen.KernelIdeal.Frame
import Idealize.ShloMosaic.PureOps.Ideal

set_option maxRecDepth 16384

noncomputable section

namespace Cert.KernelIdeal.Chain

open Cert.KernelIdeal Cert.KernelIdeal.Gen
open Idealize.ShloMosaic Idealize.ShloMosaic.TcCoe Idealize.SL.Sem

/-- A reference that none of the listed operations writes keeps its contents across them. -/
macro "keep_host " ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

variable (m : (ℓ : Loc nD τ sig) → Buf (Elt Ideal) ℓ) (ρ : Dev nD → PrngReg) (c : Dev nD)

/-! ### main_arg0 -/

theorem main_arg0_at0 : W0 m ρ c (Proc.devRef .tc main_arg0) = m ((c : Thread nD τ).loc main_arg0) := rfl
theorem main_arg0_at1 : W1 m ρ c (Proc.devRef .tc main_arg0) = m ((c : Thread nD τ).loc main_arg0) :=
  (by keep_host hostOps0 : W1 m ρ c (Proc.devRef .tc main_arg0) = W0 m ρ c (Proc.devRef .tc main_arg0)).trans (main_arg0_at0 m ρ c)
theorem main_arg0_at2 : W2 m ρ c (Proc.devRef .tc main_arg0) = m ((c : Thread nD τ).loc main_arg0) :=
  (by keep_host hostOps0_1 : W2 m ρ c (Proc.devRef .tc main_arg0) = W1 m ρ c (Proc.devRef .tc main_arg0)).trans (main_arg0_at1 m ρ c)
theorem main_arg0_at3 : W3 m ρ c (Proc.devRef .tc main_arg0) = m ((c : Thread nD τ).loc main_arg0) :=
  (by keep_host hostOps0_2 : W3 m ρ c (Proc.devRef .tc main_arg0) = W2 m ρ c (Proc.devRef .tc main_arg0)).trans (main_arg0_at2 m ρ c)

/-! ### main_arg1 -/

theorem main_arg1_at0 : W0 m ρ c (Proc.devRef .tc main_arg1) = m ((c : Thread nD τ).loc main_arg1) := rfl
theorem main_arg1_at1 : W1 m ρ c (Proc.devRef .tc main_arg1) = m ((c : Thread nD τ).loc main_arg1) :=
  (by keep_host hostOps0 : W1 m ρ c (Proc.devRef .tc main_arg1) = W0 m ρ c (Proc.devRef .tc main_arg1)).trans (main_arg1_at0 m ρ c)
theorem main_arg1_at2 : W2 m ρ c (Proc.devRef .tc main_arg1) = m ((c : Thread nD τ).loc main_arg1) :=
  (by keep_host hostOps0_1 : W2 m ρ c (Proc.devRef .tc main_arg1) = W1 m ρ c (Proc.devRef .tc main_arg1)).trans (main_arg1_at1 m ρ c)
theorem main_arg1_at3 : W3 m ρ c (Proc.devRef .tc main_arg1) = m ((c : Thread nD τ).loc main_arg1) :=
  (by keep_host hostOps0_2 : W3 m ρ c (Proc.devRef .tc main_arg1) = W2 m ρ c (Proc.devRef .tc main_arg1)).trans (main_arg1_at2 m ρ c)
theorem main_arg1_at4 : W4 m ρ c (Proc.devRef .tc main_arg1) = m ((c : Thread nD τ).loc main_arg1) :=
  (W4_of_ne m ρ c main_arg1 (by decide)).trans (main_arg1_at3 m ρ c)
theorem main_arg1_at5 : W5 m ρ c (Proc.devRef .tc main_arg1) = m ((c : Thread nD τ).loc main_arg1) :=
  (by keep_host hostOps1 : W5 m ρ c (Proc.devRef .tc main_arg1) = W4 m ρ c (Proc.devRef .tc main_arg1)).trans (main_arg1_at4 m ρ c)
theorem main_arg1_at6 : W6 m ρ c (Proc.devRef .tc main_arg1) = m ((c : Thread nD τ).loc main_arg1) :=
  (W6_of_ne m ρ c main_arg1 (by decide)).trans (main_arg1_at5 m ρ c)
theorem main_arg1_at7 : W7 m ρ c (Proc.devRef .tc main_arg1) = m ((c : Thread nD τ).loc main_arg1) :=
  (by keep_host hostOps2 : W7 m ρ c (Proc.devRef .tc main_arg1) = W6 m ρ c (Proc.devRef .tc main_arg1)).trans (main_arg1_at6 m ρ c)
theorem main_arg1_at8 : W8 m ρ c (Proc.devRef .tc main_arg1) = m ((c : Thread nD τ).loc main_arg1) :=
  (W8_of_ne m ρ c main_arg1 (by decide)).trans (main_arg1_at7 m ρ c)
theorem main_arg1_at9 : W9 m ρ c (Proc.devRef .tc main_arg1) = m ((c : Thread nD τ).loc main_arg1) :=
  (by keep_host hostOps3 : W9 m ρ c (Proc.devRef .tc main_arg1) = W8 m ρ c (Proc.devRef .tc main_arg1)).trans (main_arg1_at8 m ρ c)
theorem main_arg1_at10 : W10 m ρ c (Proc.devRef .tc main_arg1) = m ((c : Thread nD τ).loc main_arg1) :=
  (W10_of_ne m ρ c main_arg1 (by decide)).trans (main_arg1_at9 m ρ c)
theorem main_arg1_at11 : W11 m ρ c (Proc.devRef .tc main_arg1) = m ((c : Thread nD τ).loc main_arg1) :=
  (by keep_host hostOps4 : W11 m ρ c (Proc.devRef .tc main_arg1) = W10 m ρ c (Proc.devRef .tc main_arg1)).trans (main_arg1_at10 m ρ c)
theorem main_arg1_at12 : W12 m ρ c (Proc.devRef .tc main_arg1) = m ((c : Thread nD τ).loc main_arg1) :=
  (W12_of_ne m ρ c main_arg1 (by decide)).trans (main_arg1_at11 m ρ c)
theorem main_arg1_at13 : W13 m ρ c (Proc.devRef .tc main_arg1) = m ((c : Thread nD τ).loc main_arg1) :=
  (by keep_host hostOps5 : W13 m ρ c (Proc.devRef .tc main_arg1) = W12 m ρ c (Proc.devRef .tc main_arg1)).trans (main_arg1_at12 m ρ c)
theorem main_arg1_at14 : W14 m ρ c (Proc.devRef .tc main_arg1) = m ((c : Thread nD τ).loc main_arg1) :=
  (W14_of_ne m ρ c main_arg1 (by decide)).trans (main_arg1_at13 m ρ c)

/-! ### main_arg2 -/

theorem main_arg2_at0 : W0 m ρ c (Proc.devRef .tc main_arg2) = m ((c : Thread nD τ).loc main_arg2) := rfl
theorem main_arg2_at1 : W1 m ρ c (Proc.devRef .tc main_arg2) = m ((c : Thread nD τ).loc main_arg2) :=
  (by keep_host hostOps0 : W1 m ρ c (Proc.devRef .tc main_arg2) = W0 m ρ c (Proc.devRef .tc main_arg2)).trans (main_arg2_at0 m ρ c)
theorem main_arg2_at2 : W2 m ρ c (Proc.devRef .tc main_arg2) = m ((c : Thread nD τ).loc main_arg2) :=
  (by keep_host hostOps0_1 : W2 m ρ c (Proc.devRef .tc main_arg2) = W1 m ρ c (Proc.devRef .tc main_arg2)).trans (main_arg2_at1 m ρ c)
theorem main_arg2_at3 : W3 m ρ c (Proc.devRef .tc main_arg2) = m ((c : Thread nD τ).loc main_arg2) :=
  (by keep_host hostOps0_2 : W3 m ρ c (Proc.devRef .tc main_arg2) = W2 m ρ c (Proc.devRef .tc main_arg2)).trans (main_arg2_at2 m ρ c)
theorem main_arg2_at4 : W4 m ρ c (Proc.devRef .tc main_arg2) = m ((c : Thread nD τ).loc main_arg2) :=
  (W4_of_ne m ρ c main_arg2 (by decide)).trans (main_arg2_at3 m ρ c)
theorem main_arg2_at5 : W5 m ρ c (Proc.devRef .tc main_arg2) = m ((c : Thread nD τ).loc main_arg2) :=
  (by keep_host hostOps1 : W5 m ρ c (Proc.devRef .tc main_arg2) = W4 m ρ c (Proc.devRef .tc main_arg2)).trans (main_arg2_at4 m ρ c)
theorem main_arg2_at6 : W6 m ρ c (Proc.devRef .tc main_arg2) = m ((c : Thread nD τ).loc main_arg2) :=
  (W6_of_ne m ρ c main_arg2 (by decide)).trans (main_arg2_at5 m ρ c)
theorem main_arg2_at7 : W7 m ρ c (Proc.devRef .tc main_arg2) = m ((c : Thread nD τ).loc main_arg2) :=
  (by keep_host hostOps2 : W7 m ρ c (Proc.devRef .tc main_arg2) = W6 m ρ c (Proc.devRef .tc main_arg2)).trans (main_arg2_at6 m ρ c)
theorem main_arg2_at8 : W8 m ρ c (Proc.devRef .tc main_arg2) = m ((c : Thread nD τ).loc main_arg2) :=
  (W8_of_ne m ρ c main_arg2 (by decide)).trans (main_arg2_at7 m ρ c)
theorem main_arg2_at9 : W9 m ρ c (Proc.devRef .tc main_arg2) = m ((c : Thread nD τ).loc main_arg2) :=
  (by keep_host hostOps3 : W9 m ρ c (Proc.devRef .tc main_arg2) = W8 m ρ c (Proc.devRef .tc main_arg2)).trans (main_arg2_at8 m ρ c)
theorem main_arg2_at10 : W10 m ρ c (Proc.devRef .tc main_arg2) = m ((c : Thread nD τ).loc main_arg2) :=
  (W10_of_ne m ρ c main_arg2 (by decide)).trans (main_arg2_at9 m ρ c)
theorem main_arg2_at11 : W11 m ρ c (Proc.devRef .tc main_arg2) = m ((c : Thread nD τ).loc main_arg2) :=
  (by keep_host hostOps4 : W11 m ρ c (Proc.devRef .tc main_arg2) = W10 m ρ c (Proc.devRef .tc main_arg2)).trans (main_arg2_at10 m ρ c)
theorem main_arg2_at12 : W12 m ρ c (Proc.devRef .tc main_arg2) = m ((c : Thread nD τ).loc main_arg2) :=
  (W12_of_ne m ρ c main_arg2 (by decide)).trans (main_arg2_at11 m ρ c)
theorem main_arg2_at13 : W13 m ρ c (Proc.devRef .tc main_arg2) = m ((c : Thread nD τ).loc main_arg2) :=
  (by keep_host hostOps5 : W13 m ρ c (Proc.devRef .tc main_arg2) = W12 m ρ c (Proc.devRef .tc main_arg2)).trans (main_arg2_at12 m ρ c)
theorem main_arg2_at14 : W14 m ρ c (Proc.devRef .tc main_arg2) = m ((c : Thread nD τ).loc main_arg2) :=
  (W14_of_ne m ρ c main_arg2 (by decide)).trans (main_arg2_at13 m ρ c)
theorem main_arg2_at15 : W15 m ρ c (Proc.devRef .tc main_arg2) = m ((c : Thread nD τ).loc main_arg2) :=
  (by keep_host hostOps6 : W15 m ρ c (Proc.devRef .tc main_arg2) = W14 m ρ c (Proc.devRef .tc main_arg2)).trans (main_arg2_at14 m ρ c)
theorem main_arg2_at16 : W16 m ρ c (Proc.devRef .tc main_arg2) = m ((c : Thread nD τ).loc main_arg2) :=
  (W16_of_ne m ρ c main_arg2 (by decide)).trans (main_arg2_at15 m ρ c)

/-! ### main_arg3 -/

theorem main_arg3_at0 : W0 m ρ c (Proc.devRef .tc main_arg3) = m ((c : Thread nD τ).loc main_arg3) := rfl
theorem main_arg3_at1 : W1 m ρ c (Proc.devRef .tc main_arg3) = m ((c : Thread nD τ).loc main_arg3) :=
  (by keep_host hostOps0 : W1 m ρ c (Proc.devRef .tc main_arg3) = W0 m ρ c (Proc.devRef .tc main_arg3)).trans (main_arg3_at0 m ρ c)
theorem main_arg3_at2 : W2 m ρ c (Proc.devRef .tc main_arg3) = m ((c : Thread nD τ).loc main_arg3) :=
  (by keep_host hostOps0_1 : W2 m ρ c (Proc.devRef .tc main_arg3) = W1 m ρ c (Proc.devRef .tc main_arg3)).trans (main_arg3_at1 m ρ c)
theorem main_arg3_at3 : W3 m ρ c (Proc.devRef .tc main_arg3) = m ((c : Thread nD τ).loc main_arg3) :=
  (by keep_host hostOps0_2 : W3 m ρ c (Proc.devRef .tc main_arg3) = W2 m ρ c (Proc.devRef .tc main_arg3)).trans (main_arg3_at2 m ρ c)
theorem main_arg3_at4 : W4 m ρ c (Proc.devRef .tc main_arg3) = m ((c : Thread nD τ).loc main_arg3) :=
  (W4_of_ne m ρ c main_arg3 (by decide)).trans (main_arg3_at3 m ρ c)
theorem main_arg3_at5 : W5 m ρ c (Proc.devRef .tc main_arg3) = m ((c : Thread nD τ).loc main_arg3) :=
  (by keep_host hostOps1 : W5 m ρ c (Proc.devRef .tc main_arg3) = W4 m ρ c (Proc.devRef .tc main_arg3)).trans (main_arg3_at4 m ρ c)
theorem main_arg3_at6 : W6 m ρ c (Proc.devRef .tc main_arg3) = m ((c : Thread nD τ).loc main_arg3) :=
  (W6_of_ne m ρ c main_arg3 (by decide)).trans (main_arg3_at5 m ρ c)
theorem main_arg3_at7 : W7 m ρ c (Proc.devRef .tc main_arg3) = m ((c : Thread nD τ).loc main_arg3) :=
  (by keep_host hostOps2 : W7 m ρ c (Proc.devRef .tc main_arg3) = W6 m ρ c (Proc.devRef .tc main_arg3)).trans (main_arg3_at6 m ρ c)
theorem main_arg3_at8 : W8 m ρ c (Proc.devRef .tc main_arg3) = m ((c : Thread nD τ).loc main_arg3) :=
  (W8_of_ne m ρ c main_arg3 (by decide)).trans (main_arg3_at7 m ρ c)
theorem main_arg3_at9 : W9 m ρ c (Proc.devRef .tc main_arg3) = m ((c : Thread nD τ).loc main_arg3) :=
  (by keep_host hostOps3 : W9 m ρ c (Proc.devRef .tc main_arg3) = W8 m ρ c (Proc.devRef .tc main_arg3)).trans (main_arg3_at8 m ρ c)
theorem main_arg3_at10 : W10 m ρ c (Proc.devRef .tc main_arg3) = m ((c : Thread nD τ).loc main_arg3) :=
  (W10_of_ne m ρ c main_arg3 (by decide)).trans (main_arg3_at9 m ρ c)
theorem main_arg3_at11 : W11 m ρ c (Proc.devRef .tc main_arg3) = m ((c : Thread nD τ).loc main_arg3) :=
  (by keep_host hostOps4 : W11 m ρ c (Proc.devRef .tc main_arg3) = W10 m ρ c (Proc.devRef .tc main_arg3)).trans (main_arg3_at10 m ρ c)
theorem main_arg3_at12 : W12 m ρ c (Proc.devRef .tc main_arg3) = m ((c : Thread nD τ).loc main_arg3) :=
  (W12_of_ne m ρ c main_arg3 (by decide)).trans (main_arg3_at11 m ρ c)
theorem main_arg3_at13 : W13 m ρ c (Proc.devRef .tc main_arg3) = m ((c : Thread nD τ).loc main_arg3) :=
  (by keep_host hostOps5 : W13 m ρ c (Proc.devRef .tc main_arg3) = W12 m ρ c (Proc.devRef .tc main_arg3)).trans (main_arg3_at12 m ρ c)
theorem main_arg3_at14 : W14 m ρ c (Proc.devRef .tc main_arg3) = m ((c : Thread nD τ).loc main_arg3) :=
  (W14_of_ne m ρ c main_arg3 (by decide)).trans (main_arg3_at13 m ρ c)
theorem main_arg3_at15 : W15 m ρ c (Proc.devRef .tc main_arg3) = m ((c : Thread nD τ).loc main_arg3) :=
  (by keep_host hostOps6 : W15 m ρ c (Proc.devRef .tc main_arg3) = W14 m ρ c (Proc.devRef .tc main_arg3)).trans (main_arg3_at14 m ρ c)
theorem main_arg3_at16 : W16 m ρ c (Proc.devRef .tc main_arg3) = m ((c : Thread nD τ).loc main_arg3) :=
  (W16_of_ne m ρ c main_arg3 (by decide)).trans (main_arg3_at15 m ρ c)
theorem main_arg3_at17 : W17 m ρ c (Proc.devRef .tc main_arg3) = m ((c : Thread nD τ).loc main_arg3) :=
  (by keep_host hostOps7 : W17 m ρ c (Proc.devRef .tc main_arg3) = W16 m ρ c (Proc.devRef .tc main_arg3)).trans (main_arg3_at16 m ρ c)
theorem main_arg3_at18 : W18 m ρ c (Proc.devRef .tc main_arg3) = m ((c : Thread nD τ).loc main_arg3) :=
  (W18_of_ne m ρ c main_arg3 (by decide)).trans (main_arg3_at17 m ρ c)

/-! ### main_arg4 -/

theorem main_arg4_at0 : W0 m ρ c (Proc.devRef .tc main_arg4) = m ((c : Thread nD τ).loc main_arg4) := rfl
theorem main_arg4_at1 : W1 m ρ c (Proc.devRef .tc main_arg4) = m ((c : Thread nD τ).loc main_arg4) :=
  (by keep_host hostOps0 : W1 m ρ c (Proc.devRef .tc main_arg4) = W0 m ρ c (Proc.devRef .tc main_arg4)).trans (main_arg4_at0 m ρ c)
theorem main_arg4_at2 : W2 m ρ c (Proc.devRef .tc main_arg4) = m ((c : Thread nD τ).loc main_arg4) :=
  (by keep_host hostOps0_1 : W2 m ρ c (Proc.devRef .tc main_arg4) = W1 m ρ c (Proc.devRef .tc main_arg4)).trans (main_arg4_at1 m ρ c)
theorem main_arg4_at3 : W3 m ρ c (Proc.devRef .tc main_arg4) = m ((c : Thread nD τ).loc main_arg4) :=
  (by keep_host hostOps0_2 : W3 m ρ c (Proc.devRef .tc main_arg4) = W2 m ρ c (Proc.devRef .tc main_arg4)).trans (main_arg4_at2 m ρ c)
theorem main_arg4_at4 : W4 m ρ c (Proc.devRef .tc main_arg4) = m ((c : Thread nD τ).loc main_arg4) :=
  (W4_of_ne m ρ c main_arg4 (by decide)).trans (main_arg4_at3 m ρ c)
theorem main_arg4_at5 : W5 m ρ c (Proc.devRef .tc main_arg4) = m ((c : Thread nD τ).loc main_arg4) :=
  (by keep_host hostOps1 : W5 m ρ c (Proc.devRef .tc main_arg4) = W4 m ρ c (Proc.devRef .tc main_arg4)).trans (main_arg4_at4 m ρ c)
theorem main_arg4_at6 : W6 m ρ c (Proc.devRef .tc main_arg4) = m ((c : Thread nD τ).loc main_arg4) :=
  (W6_of_ne m ρ c main_arg4 (by decide)).trans (main_arg4_at5 m ρ c)
theorem main_arg4_at7 : W7 m ρ c (Proc.devRef .tc main_arg4) = m ((c : Thread nD τ).loc main_arg4) :=
  (by keep_host hostOps2 : W7 m ρ c (Proc.devRef .tc main_arg4) = W6 m ρ c (Proc.devRef .tc main_arg4)).trans (main_arg4_at6 m ρ c)
theorem main_arg4_at8 : W8 m ρ c (Proc.devRef .tc main_arg4) = m ((c : Thread nD τ).loc main_arg4) :=
  (W8_of_ne m ρ c main_arg4 (by decide)).trans (main_arg4_at7 m ρ c)
theorem main_arg4_at9 : W9 m ρ c (Proc.devRef .tc main_arg4) = m ((c : Thread nD τ).loc main_arg4) :=
  (by keep_host hostOps3 : W9 m ρ c (Proc.devRef .tc main_arg4) = W8 m ρ c (Proc.devRef .tc main_arg4)).trans (main_arg4_at8 m ρ c)
theorem main_arg4_at10 : W10 m ρ c (Proc.devRef .tc main_arg4) = m ((c : Thread nD τ).loc main_arg4) :=
  (W10_of_ne m ρ c main_arg4 (by decide)).trans (main_arg4_at9 m ρ c)
theorem main_arg4_at11 : W11 m ρ c (Proc.devRef .tc main_arg4) = m ((c : Thread nD τ).loc main_arg4) :=
  (by keep_host hostOps4 : W11 m ρ c (Proc.devRef .tc main_arg4) = W10 m ρ c (Proc.devRef .tc main_arg4)).trans (main_arg4_at10 m ρ c)
theorem main_arg4_at12 : W12 m ρ c (Proc.devRef .tc main_arg4) = m ((c : Thread nD τ).loc main_arg4) :=
  (W12_of_ne m ρ c main_arg4 (by decide)).trans (main_arg4_at11 m ρ c)
theorem main_arg4_at13 : W13 m ρ c (Proc.devRef .tc main_arg4) = m ((c : Thread nD τ).loc main_arg4) :=
  (by keep_host hostOps5 : W13 m ρ c (Proc.devRef .tc main_arg4) = W12 m ρ c (Proc.devRef .tc main_arg4)).trans (main_arg4_at12 m ρ c)
theorem main_arg4_at14 : W14 m ρ c (Proc.devRef .tc main_arg4) = m ((c : Thread nD τ).loc main_arg4) :=
  (W14_of_ne m ρ c main_arg4 (by decide)).trans (main_arg4_at13 m ρ c)
theorem main_arg4_at15 : W15 m ρ c (Proc.devRef .tc main_arg4) = m ((c : Thread nD τ).loc main_arg4) :=
  (by keep_host hostOps6 : W15 m ρ c (Proc.devRef .tc main_arg4) = W14 m ρ c (Proc.devRef .tc main_arg4)).trans (main_arg4_at14 m ρ c)
theorem main_arg4_at16 : W16 m ρ c (Proc.devRef .tc main_arg4) = m ((c : Thread nD τ).loc main_arg4) :=
  (W16_of_ne m ρ c main_arg4 (by decide)).trans (main_arg4_at15 m ρ c)
theorem main_arg4_at17 : W17 m ρ c (Proc.devRef .tc main_arg4) = m ((c : Thread nD τ).loc main_arg4) :=
  (by keep_host hostOps7 : W17 m ρ c (Proc.devRef .tc main_arg4) = W16 m ρ c (Proc.devRef .tc main_arg4)).trans (main_arg4_at16 m ρ c)
theorem main_arg4_at18 : W18 m ρ c (Proc.devRef .tc main_arg4) = m ((c : Thread nD τ).loc main_arg4) :=
  (W18_of_ne m ρ c main_arg4 (by decide)).trans (main_arg4_at17 m ρ c)

/-! ### main_arg5 -/

theorem main_arg5_at0 : W0 m ρ c (Proc.devRef .tc main_arg5) = m ((c : Thread nD τ).loc main_arg5) := rfl
theorem main_arg5_at1 : W1 m ρ c (Proc.devRef .tc main_arg5) = m ((c : Thread nD τ).loc main_arg5) :=
  (by keep_host hostOps0 : W1 m ρ c (Proc.devRef .tc main_arg5) = W0 m ρ c (Proc.devRef .tc main_arg5)).trans (main_arg5_at0 m ρ c)
theorem main_arg5_at2 : W2 m ρ c (Proc.devRef .tc main_arg5) = m ((c : Thread nD τ).loc main_arg5) :=
  (by keep_host hostOps0_1 : W2 m ρ c (Proc.devRef .tc main_arg5) = W1 m ρ c (Proc.devRef .tc main_arg5)).trans (main_arg5_at1 m ρ c)
theorem main_arg5_at3 : W3 m ρ c (Proc.devRef .tc main_arg5) = m ((c : Thread nD τ).loc main_arg5) :=
  (by keep_host hostOps0_2 : W3 m ρ c (Proc.devRef .tc main_arg5) = W2 m ρ c (Proc.devRef .tc main_arg5)).trans (main_arg5_at2 m ρ c)
theorem main_arg5_at4 : W4 m ρ c (Proc.devRef .tc main_arg5) = m ((c : Thread nD τ).loc main_arg5) :=
  (W4_of_ne m ρ c main_arg5 (by decide)).trans (main_arg5_at3 m ρ c)
theorem main_arg5_at5 : W5 m ρ c (Proc.devRef .tc main_arg5) = m ((c : Thread nD τ).loc main_arg5) :=
  (by keep_host hostOps1 : W5 m ρ c (Proc.devRef .tc main_arg5) = W4 m ρ c (Proc.devRef .tc main_arg5)).trans (main_arg5_at4 m ρ c)
theorem main_arg5_at6 : W6 m ρ c (Proc.devRef .tc main_arg5) = m ((c : Thread nD τ).loc main_arg5) :=
  (W6_of_ne m ρ c main_arg5 (by decide)).trans (main_arg5_at5 m ρ c)
theorem main_arg5_at7 : W7 m ρ c (Proc.devRef .tc main_arg5) = m ((c : Thread nD τ).loc main_arg5) :=
  (by keep_host hostOps2 : W7 m ρ c (Proc.devRef .tc main_arg5) = W6 m ρ c (Proc.devRef .tc main_arg5)).trans (main_arg5_at6 m ρ c)
theorem main_arg5_at8 : W8 m ρ c (Proc.devRef .tc main_arg5) = m ((c : Thread nD τ).loc main_arg5) :=
  (W8_of_ne m ρ c main_arg5 (by decide)).trans (main_arg5_at7 m ρ c)
theorem main_arg5_at9 : W9 m ρ c (Proc.devRef .tc main_arg5) = m ((c : Thread nD τ).loc main_arg5) :=
  (by keep_host hostOps3 : W9 m ρ c (Proc.devRef .tc main_arg5) = W8 m ρ c (Proc.devRef .tc main_arg5)).trans (main_arg5_at8 m ρ c)
theorem main_arg5_at10 : W10 m ρ c (Proc.devRef .tc main_arg5) = m ((c : Thread nD τ).loc main_arg5) :=
  (W10_of_ne m ρ c main_arg5 (by decide)).trans (main_arg5_at9 m ρ c)
theorem main_arg5_at11 : W11 m ρ c (Proc.devRef .tc main_arg5) = m ((c : Thread nD τ).loc main_arg5) :=
  (by keep_host hostOps4 : W11 m ρ c (Proc.devRef .tc main_arg5) = W10 m ρ c (Proc.devRef .tc main_arg5)).trans (main_arg5_at10 m ρ c)
theorem main_arg5_at12 : W12 m ρ c (Proc.devRef .tc main_arg5) = m ((c : Thread nD τ).loc main_arg5) :=
  (W12_of_ne m ρ c main_arg5 (by decide)).trans (main_arg5_at11 m ρ c)
theorem main_arg5_at13 : W13 m ρ c (Proc.devRef .tc main_arg5) = m ((c : Thread nD τ).loc main_arg5) :=
  (by keep_host hostOps5 : W13 m ρ c (Proc.devRef .tc main_arg5) = W12 m ρ c (Proc.devRef .tc main_arg5)).trans (main_arg5_at12 m ρ c)
theorem main_arg5_at14 : W14 m ρ c (Proc.devRef .tc main_arg5) = m ((c : Thread nD τ).loc main_arg5) :=
  (W14_of_ne m ρ c main_arg5 (by decide)).trans (main_arg5_at13 m ρ c)
theorem main_arg5_at15 : W15 m ρ c (Proc.devRef .tc main_arg5) = m ((c : Thread nD τ).loc main_arg5) :=
  (by keep_host hostOps6 : W15 m ρ c (Proc.devRef .tc main_arg5) = W14 m ρ c (Proc.devRef .tc main_arg5)).trans (main_arg5_at14 m ρ c)
theorem main_arg5_at16 : W16 m ρ c (Proc.devRef .tc main_arg5) = m ((c : Thread nD τ).loc main_arg5) :=
  (W16_of_ne m ρ c main_arg5 (by decide)).trans (main_arg5_at15 m ρ c)
theorem main_arg5_at17 : W17 m ρ c (Proc.devRef .tc main_arg5) = m ((c : Thread nD τ).loc main_arg5) :=
  (by keep_host hostOps7 : W17 m ρ c (Proc.devRef .tc main_arg5) = W16 m ρ c (Proc.devRef .tc main_arg5)).trans (main_arg5_at16 m ρ c)
theorem main_arg5_at18 : W18 m ρ c (Proc.devRef .tc main_arg5) = m ((c : Thread nD τ).loc main_arg5) :=
  (W18_of_ne m ρ c main_arg5 (by decide)).trans (main_arg5_at17 m ρ c)
theorem main_arg5_at19 : W19 m ρ c (Proc.devRef .tc main_arg5) = m ((c : Thread nD τ).loc main_arg5) :=
  (by keep_host hostOps8 : W19 m ρ c (Proc.devRef .tc main_arg5) = W18 m ρ c (Proc.devRef .tc main_arg5)).trans (main_arg5_at18 m ρ c)
theorem main_arg5_at20 : W20 m ρ c (Proc.devRef .tc main_arg5) = m ((c : Thread nD τ).loc main_arg5) :=
  (W20_of_ne m ρ c main_arg5 (by decide)).trans (main_arg5_at19 m ρ c)
theorem main_arg5_at21 : W21 m ρ c (Proc.devRef .tc main_arg5) = m ((c : Thread nD τ).loc main_arg5) :=
  (by keep_host hostOps9 : W21 m ρ c (Proc.devRef .tc main_arg5) = W20 m ρ c (Proc.devRef .tc main_arg5)).trans (main_arg5_at20 m ρ c)
theorem main_arg5_at22 : W22 m ρ c (Proc.devRef .tc main_arg5) = m ((c : Thread nD τ).loc main_arg5) :=
  (W22_of_ne m ρ c main_arg5 (by decide)).trans (main_arg5_at21 m ρ c)

/-! ### main_arg6 -/

theorem main_arg6_at0 : W0 m ρ c (Proc.devRef .tc main_arg6) = m ((c : Thread nD τ).loc main_arg6) := rfl
theorem main_arg6_at1 : W1 m ρ c (Proc.devRef .tc main_arg6) = m ((c : Thread nD τ).loc main_arg6) :=
  (by keep_host hostOps0 : W1 m ρ c (Proc.devRef .tc main_arg6) = W0 m ρ c (Proc.devRef .tc main_arg6)).trans (main_arg6_at0 m ρ c)
theorem main_arg6_at2 : W2 m ρ c (Proc.devRef .tc main_arg6) = m ((c : Thread nD τ).loc main_arg6) :=
  (by keep_host hostOps0_1 : W2 m ρ c (Proc.devRef .tc main_arg6) = W1 m ρ c (Proc.devRef .tc main_arg6)).trans (main_arg6_at1 m ρ c)
theorem main_arg6_at3 : W3 m ρ c (Proc.devRef .tc main_arg6) = m ((c : Thread nD τ).loc main_arg6) :=
  (by keep_host hostOps0_2 : W3 m ρ c (Proc.devRef .tc main_arg6) = W2 m ρ c (Proc.devRef .tc main_arg6)).trans (main_arg6_at2 m ρ c)
theorem main_arg6_at4 : W4 m ρ c (Proc.devRef .tc main_arg6) = m ((c : Thread nD τ).loc main_arg6) :=
  (W4_of_ne m ρ c main_arg6 (by decide)).trans (main_arg6_at3 m ρ c)
theorem main_arg6_at5 : W5 m ρ c (Proc.devRef .tc main_arg6) = m ((c : Thread nD τ).loc main_arg6) :=
  (by keep_host hostOps1 : W5 m ρ c (Proc.devRef .tc main_arg6) = W4 m ρ c (Proc.devRef .tc main_arg6)).trans (main_arg6_at4 m ρ c)
theorem main_arg6_at6 : W6 m ρ c (Proc.devRef .tc main_arg6) = m ((c : Thread nD τ).loc main_arg6) :=
  (W6_of_ne m ρ c main_arg6 (by decide)).trans (main_arg6_at5 m ρ c)
theorem main_arg6_at7 : W7 m ρ c (Proc.devRef .tc main_arg6) = m ((c : Thread nD τ).loc main_arg6) :=
  (by keep_host hostOps2 : W7 m ρ c (Proc.devRef .tc main_arg6) = W6 m ρ c (Proc.devRef .tc main_arg6)).trans (main_arg6_at6 m ρ c)
theorem main_arg6_at8 : W8 m ρ c (Proc.devRef .tc main_arg6) = m ((c : Thread nD τ).loc main_arg6) :=
  (W8_of_ne m ρ c main_arg6 (by decide)).trans (main_arg6_at7 m ρ c)
theorem main_arg6_at9 : W9 m ρ c (Proc.devRef .tc main_arg6) = m ((c : Thread nD τ).loc main_arg6) :=
  (by keep_host hostOps3 : W9 m ρ c (Proc.devRef .tc main_arg6) = W8 m ρ c (Proc.devRef .tc main_arg6)).trans (main_arg6_at8 m ρ c)
theorem main_arg6_at10 : W10 m ρ c (Proc.devRef .tc main_arg6) = m ((c : Thread nD τ).loc main_arg6) :=
  (W10_of_ne m ρ c main_arg6 (by decide)).trans (main_arg6_at9 m ρ c)
theorem main_arg6_at11 : W11 m ρ c (Proc.devRef .tc main_arg6) = m ((c : Thread nD τ).loc main_arg6) :=
  (by keep_host hostOps4 : W11 m ρ c (Proc.devRef .tc main_arg6) = W10 m ρ c (Proc.devRef .tc main_arg6)).trans (main_arg6_at10 m ρ c)
theorem main_arg6_at12 : W12 m ρ c (Proc.devRef .tc main_arg6) = m ((c : Thread nD τ).loc main_arg6) :=
  (W12_of_ne m ρ c main_arg6 (by decide)).trans (main_arg6_at11 m ρ c)
theorem main_arg6_at13 : W13 m ρ c (Proc.devRef .tc main_arg6) = m ((c : Thread nD τ).loc main_arg6) :=
  (by keep_host hostOps5 : W13 m ρ c (Proc.devRef .tc main_arg6) = W12 m ρ c (Proc.devRef .tc main_arg6)).trans (main_arg6_at12 m ρ c)
theorem main_arg6_at14 : W14 m ρ c (Proc.devRef .tc main_arg6) = m ((c : Thread nD τ).loc main_arg6) :=
  (W14_of_ne m ρ c main_arg6 (by decide)).trans (main_arg6_at13 m ρ c)
theorem main_arg6_at15 : W15 m ρ c (Proc.devRef .tc main_arg6) = m ((c : Thread nD τ).loc main_arg6) :=
  (by keep_host hostOps6 : W15 m ρ c (Proc.devRef .tc main_arg6) = W14 m ρ c (Proc.devRef .tc main_arg6)).trans (main_arg6_at14 m ρ c)
theorem main_arg6_at16 : W16 m ρ c (Proc.devRef .tc main_arg6) = m ((c : Thread nD τ).loc main_arg6) :=
  (W16_of_ne m ρ c main_arg6 (by decide)).trans (main_arg6_at15 m ρ c)
theorem main_arg6_at17 : W17 m ρ c (Proc.devRef .tc main_arg6) = m ((c : Thread nD τ).loc main_arg6) :=
  (by keep_host hostOps7 : W17 m ρ c (Proc.devRef .tc main_arg6) = W16 m ρ c (Proc.devRef .tc main_arg6)).trans (main_arg6_at16 m ρ c)
theorem main_arg6_at18 : W18 m ρ c (Proc.devRef .tc main_arg6) = m ((c : Thread nD τ).loc main_arg6) :=
  (W18_of_ne m ρ c main_arg6 (by decide)).trans (main_arg6_at17 m ρ c)
theorem main_arg6_at19 : W19 m ρ c (Proc.devRef .tc main_arg6) = m ((c : Thread nD τ).loc main_arg6) :=
  (by keep_host hostOps8 : W19 m ρ c (Proc.devRef .tc main_arg6) = W18 m ρ c (Proc.devRef .tc main_arg6)).trans (main_arg6_at18 m ρ c)
theorem main_arg6_at20 : W20 m ρ c (Proc.devRef .tc main_arg6) = m ((c : Thread nD τ).loc main_arg6) :=
  (W20_of_ne m ρ c main_arg6 (by decide)).trans (main_arg6_at19 m ρ c)
theorem main_arg6_at21 : W21 m ρ c (Proc.devRef .tc main_arg6) = m ((c : Thread nD τ).loc main_arg6) :=
  (by keep_host hostOps9 : W21 m ρ c (Proc.devRef .tc main_arg6) = W20 m ρ c (Proc.devRef .tc main_arg6)).trans (main_arg6_at20 m ρ c)
theorem main_arg6_at22 : W22 m ρ c (Proc.devRef .tc main_arg6) = m ((c : Thread nD τ).loc main_arg6) :=
  (W22_of_ne m ρ c main_arg6 (by decide)).trans (main_arg6_at21 m ρ c)

/-! ### main_arg7 -/

theorem main_arg7_at0 : W0 m ρ c (Proc.devRef .tc main_arg7) = m ((c : Thread nD τ).loc main_arg7) := rfl
theorem main_arg7_at1 : W1 m ρ c (Proc.devRef .tc main_arg7) = m ((c : Thread nD τ).loc main_arg7) :=
  (by keep_host hostOps0 : W1 m ρ c (Proc.devRef .tc main_arg7) = W0 m ρ c (Proc.devRef .tc main_arg7)).trans (main_arg7_at0 m ρ c)
theorem main_arg7_at2 : W2 m ρ c (Proc.devRef .tc main_arg7) = m ((c : Thread nD τ).loc main_arg7) :=
  (by keep_host hostOps0_1 : W2 m ρ c (Proc.devRef .tc main_arg7) = W1 m ρ c (Proc.devRef .tc main_arg7)).trans (main_arg7_at1 m ρ c)
theorem main_arg7_at3 : W3 m ρ c (Proc.devRef .tc main_arg7) = m ((c : Thread nD τ).loc main_arg7) :=
  (by keep_host hostOps0_2 : W3 m ρ c (Proc.devRef .tc main_arg7) = W2 m ρ c (Proc.devRef .tc main_arg7)).trans (main_arg7_at2 m ρ c)
theorem main_arg7_at4 : W4 m ρ c (Proc.devRef .tc main_arg7) = m ((c : Thread nD τ).loc main_arg7) :=
  (W4_of_ne m ρ c main_arg7 (by decide)).trans (main_arg7_at3 m ρ c)
theorem main_arg7_at5 : W5 m ρ c (Proc.devRef .tc main_arg7) = m ((c : Thread nD τ).loc main_arg7) :=
  (by keep_host hostOps1 : W5 m ρ c (Proc.devRef .tc main_arg7) = W4 m ρ c (Proc.devRef .tc main_arg7)).trans (main_arg7_at4 m ρ c)
theorem main_arg7_at6 : W6 m ρ c (Proc.devRef .tc main_arg7) = m ((c : Thread nD τ).loc main_arg7) :=
  (W6_of_ne m ρ c main_arg7 (by decide)).trans (main_arg7_at5 m ρ c)
theorem main_arg7_at7 : W7 m ρ c (Proc.devRef .tc main_arg7) = m ((c : Thread nD τ).loc main_arg7) :=
  (by keep_host hostOps2 : W7 m ρ c (Proc.devRef .tc main_arg7) = W6 m ρ c (Proc.devRef .tc main_arg7)).trans (main_arg7_at6 m ρ c)
theorem main_arg7_at8 : W8 m ρ c (Proc.devRef .tc main_arg7) = m ((c : Thread nD τ).loc main_arg7) :=
  (W8_of_ne m ρ c main_arg7 (by decide)).trans (main_arg7_at7 m ρ c)
theorem main_arg7_at9 : W9 m ρ c (Proc.devRef .tc main_arg7) = m ((c : Thread nD τ).loc main_arg7) :=
  (by keep_host hostOps3 : W9 m ρ c (Proc.devRef .tc main_arg7) = W8 m ρ c (Proc.devRef .tc main_arg7)).trans (main_arg7_at8 m ρ c)
theorem main_arg7_at10 : W10 m ρ c (Proc.devRef .tc main_arg7) = m ((c : Thread nD τ).loc main_arg7) :=
  (W10_of_ne m ρ c main_arg7 (by decide)).trans (main_arg7_at9 m ρ c)
theorem main_arg7_at11 : W11 m ρ c (Proc.devRef .tc main_arg7) = m ((c : Thread nD τ).loc main_arg7) :=
  (by keep_host hostOps4 : W11 m ρ c (Proc.devRef .tc main_arg7) = W10 m ρ c (Proc.devRef .tc main_arg7)).trans (main_arg7_at10 m ρ c)
theorem main_arg7_at12 : W12 m ρ c (Proc.devRef .tc main_arg7) = m ((c : Thread nD τ).loc main_arg7) :=
  (W12_of_ne m ρ c main_arg7 (by decide)).trans (main_arg7_at11 m ρ c)
theorem main_arg7_at13 : W13 m ρ c (Proc.devRef .tc main_arg7) = m ((c : Thread nD τ).loc main_arg7) :=
  (by keep_host hostOps5 : W13 m ρ c (Proc.devRef .tc main_arg7) = W12 m ρ c (Proc.devRef .tc main_arg7)).trans (main_arg7_at12 m ρ c)
theorem main_arg7_at14 : W14 m ρ c (Proc.devRef .tc main_arg7) = m ((c : Thread nD τ).loc main_arg7) :=
  (W14_of_ne m ρ c main_arg7 (by decide)).trans (main_arg7_at13 m ρ c)
theorem main_arg7_at15 : W15 m ρ c (Proc.devRef .tc main_arg7) = m ((c : Thread nD τ).loc main_arg7) :=
  (by keep_host hostOps6 : W15 m ρ c (Proc.devRef .tc main_arg7) = W14 m ρ c (Proc.devRef .tc main_arg7)).trans (main_arg7_at14 m ρ c)
theorem main_arg7_at16 : W16 m ρ c (Proc.devRef .tc main_arg7) = m ((c : Thread nD τ).loc main_arg7) :=
  (W16_of_ne m ρ c main_arg7 (by decide)).trans (main_arg7_at15 m ρ c)
theorem main_arg7_at17 : W17 m ρ c (Proc.devRef .tc main_arg7) = m ((c : Thread nD τ).loc main_arg7) :=
  (by keep_host hostOps7 : W17 m ρ c (Proc.devRef .tc main_arg7) = W16 m ρ c (Proc.devRef .tc main_arg7)).trans (main_arg7_at16 m ρ c)
theorem main_arg7_at18 : W18 m ρ c (Proc.devRef .tc main_arg7) = m ((c : Thread nD τ).loc main_arg7) :=
  (W18_of_ne m ρ c main_arg7 (by decide)).trans (main_arg7_at17 m ρ c)
theorem main_arg7_at19 : W19 m ρ c (Proc.devRef .tc main_arg7) = m ((c : Thread nD τ).loc main_arg7) :=
  (by keep_host hostOps8 : W19 m ρ c (Proc.devRef .tc main_arg7) = W18 m ρ c (Proc.devRef .tc main_arg7)).trans (main_arg7_at18 m ρ c)
theorem main_arg7_at20 : W20 m ρ c (Proc.devRef .tc main_arg7) = m ((c : Thread nD τ).loc main_arg7) :=
  (W20_of_ne m ρ c main_arg7 (by decide)).trans (main_arg7_at19 m ρ c)
theorem main_arg7_at21 : W21 m ρ c (Proc.devRef .tc main_arg7) = m ((c : Thread nD τ).loc main_arg7) :=
  (by keep_host hostOps9 : W21 m ρ c (Proc.devRef .tc main_arg7) = W20 m ρ c (Proc.devRef .tc main_arg7)).trans (main_arg7_at20 m ρ c)
theorem main_arg7_at22 : W22 m ρ c (Proc.devRef .tc main_arg7) = m ((c : Thread nD τ).loc main_arg7) :=
  (W22_of_ne m ρ c main_arg7 (by decide)).trans (main_arg7_at21 m ρ c)
theorem main_arg7_at23 : W23 m ρ c (Proc.devRef .tc main_arg7) = m ((c : Thread nD τ).loc main_arg7) :=
  (by keep_host hostOps10 : W23 m ρ c (Proc.devRef .tc main_arg7) = W22 m ρ c (Proc.devRef .tc main_arg7)).trans (main_arg7_at22 m ρ c)
theorem main_arg7_at24 : W24 m ρ c (Proc.devRef .tc main_arg7) = m ((c : Thread nD τ).loc main_arg7) :=
  (W24_of_ne m ρ c main_arg7 (by decide)).trans (main_arg7_at23 m ρ c)
theorem main_arg7_at25 : W25 m ρ c (Proc.devRef .tc main_arg7) = m ((c : Thread nD τ).loc main_arg7) :=
  (by keep_host hostOps11 : W25 m ρ c (Proc.devRef .tc main_arg7) = W24 m ρ c (Proc.devRef .tc main_arg7)).trans (main_arg7_at24 m ρ c)

/-! ### main_arg8 -/

theorem main_arg8_at0 : W0 m ρ c (Proc.devRef .tc main_arg8) = m ((c : Thread nD τ).loc main_arg8) := rfl
theorem main_arg8_at1 : W1 m ρ c (Proc.devRef .tc main_arg8) = m ((c : Thread nD τ).loc main_arg8) :=
  (by keep_host hostOps0 : W1 m ρ c (Proc.devRef .tc main_arg8) = W0 m ρ c (Proc.devRef .tc main_arg8)).trans (main_arg8_at0 m ρ c)
theorem main_arg8_at2 : W2 m ρ c (Proc.devRef .tc main_arg8) = m ((c : Thread nD τ).loc main_arg8) :=
  (by keep_host hostOps0_1 : W2 m ρ c (Proc.devRef .tc main_arg8) = W1 m ρ c (Proc.devRef .tc main_arg8)).trans (main_arg8_at1 m ρ c)
theorem main_arg8_at3 : W3 m ρ c (Proc.devRef .tc main_arg8) = m ((c : Thread nD τ).loc main_arg8) :=
  (by keep_host hostOps0_2 : W3 m ρ c (Proc.devRef .tc main_arg8) = W2 m ρ c (Proc.devRef .tc main_arg8)).trans (main_arg8_at2 m ρ c)
theorem main_arg8_at4 : W4 m ρ c (Proc.devRef .tc main_arg8) = m ((c : Thread nD τ).loc main_arg8) :=
  (W4_of_ne m ρ c main_arg8 (by decide)).trans (main_arg8_at3 m ρ c)
theorem main_arg8_at5 : W5 m ρ c (Proc.devRef .tc main_arg8) = m ((c : Thread nD τ).loc main_arg8) :=
  (by keep_host hostOps1 : W5 m ρ c (Proc.devRef .tc main_arg8) = W4 m ρ c (Proc.devRef .tc main_arg8)).trans (main_arg8_at4 m ρ c)
theorem main_arg8_at6 : W6 m ρ c (Proc.devRef .tc main_arg8) = m ((c : Thread nD τ).loc main_arg8) :=
  (W6_of_ne m ρ c main_arg8 (by decide)).trans (main_arg8_at5 m ρ c)
theorem main_arg8_at7 : W7 m ρ c (Proc.devRef .tc main_arg8) = m ((c : Thread nD τ).loc main_arg8) :=
  (by keep_host hostOps2 : W7 m ρ c (Proc.devRef .tc main_arg8) = W6 m ρ c (Proc.devRef .tc main_arg8)).trans (main_arg8_at6 m ρ c)
theorem main_arg8_at8 : W8 m ρ c (Proc.devRef .tc main_arg8) = m ((c : Thread nD τ).loc main_arg8) :=
  (W8_of_ne m ρ c main_arg8 (by decide)).trans (main_arg8_at7 m ρ c)
theorem main_arg8_at9 : W9 m ρ c (Proc.devRef .tc main_arg8) = m ((c : Thread nD τ).loc main_arg8) :=
  (by keep_host hostOps3 : W9 m ρ c (Proc.devRef .tc main_arg8) = W8 m ρ c (Proc.devRef .tc main_arg8)).trans (main_arg8_at8 m ρ c)
theorem main_arg8_at10 : W10 m ρ c (Proc.devRef .tc main_arg8) = m ((c : Thread nD τ).loc main_arg8) :=
  (W10_of_ne m ρ c main_arg8 (by decide)).trans (main_arg8_at9 m ρ c)
theorem main_arg8_at11 : W11 m ρ c (Proc.devRef .tc main_arg8) = m ((c : Thread nD τ).loc main_arg8) :=
  (by keep_host hostOps4 : W11 m ρ c (Proc.devRef .tc main_arg8) = W10 m ρ c (Proc.devRef .tc main_arg8)).trans (main_arg8_at10 m ρ c)
theorem main_arg8_at12 : W12 m ρ c (Proc.devRef .tc main_arg8) = m ((c : Thread nD τ).loc main_arg8) :=
  (W12_of_ne m ρ c main_arg8 (by decide)).trans (main_arg8_at11 m ρ c)
theorem main_arg8_at13 : W13 m ρ c (Proc.devRef .tc main_arg8) = m ((c : Thread nD τ).loc main_arg8) :=
  (by keep_host hostOps5 : W13 m ρ c (Proc.devRef .tc main_arg8) = W12 m ρ c (Proc.devRef .tc main_arg8)).trans (main_arg8_at12 m ρ c)
theorem main_arg8_at14 : W14 m ρ c (Proc.devRef .tc main_arg8) = m ((c : Thread nD τ).loc main_arg8) :=
  (W14_of_ne m ρ c main_arg8 (by decide)).trans (main_arg8_at13 m ρ c)
theorem main_arg8_at15 : W15 m ρ c (Proc.devRef .tc main_arg8) = m ((c : Thread nD τ).loc main_arg8) :=
  (by keep_host hostOps6 : W15 m ρ c (Proc.devRef .tc main_arg8) = W14 m ρ c (Proc.devRef .tc main_arg8)).trans (main_arg8_at14 m ρ c)
theorem main_arg8_at16 : W16 m ρ c (Proc.devRef .tc main_arg8) = m ((c : Thread nD τ).loc main_arg8) :=
  (W16_of_ne m ρ c main_arg8 (by decide)).trans (main_arg8_at15 m ρ c)
theorem main_arg8_at17 : W17 m ρ c (Proc.devRef .tc main_arg8) = m ((c : Thread nD τ).loc main_arg8) :=
  (by keep_host hostOps7 : W17 m ρ c (Proc.devRef .tc main_arg8) = W16 m ρ c (Proc.devRef .tc main_arg8)).trans (main_arg8_at16 m ρ c)
theorem main_arg8_at18 : W18 m ρ c (Proc.devRef .tc main_arg8) = m ((c : Thread nD τ).loc main_arg8) :=
  (W18_of_ne m ρ c main_arg8 (by decide)).trans (main_arg8_at17 m ρ c)
theorem main_arg8_at19 : W19 m ρ c (Proc.devRef .tc main_arg8) = m ((c : Thread nD τ).loc main_arg8) :=
  (by keep_host hostOps8 : W19 m ρ c (Proc.devRef .tc main_arg8) = W18 m ρ c (Proc.devRef .tc main_arg8)).trans (main_arg8_at18 m ρ c)
theorem main_arg8_at20 : W20 m ρ c (Proc.devRef .tc main_arg8) = m ((c : Thread nD τ).loc main_arg8) :=
  (W20_of_ne m ρ c main_arg8 (by decide)).trans (main_arg8_at19 m ρ c)
theorem main_arg8_at21 : W21 m ρ c (Proc.devRef .tc main_arg8) = m ((c : Thread nD τ).loc main_arg8) :=
  (by keep_host hostOps9 : W21 m ρ c (Proc.devRef .tc main_arg8) = W20 m ρ c (Proc.devRef .tc main_arg8)).trans (main_arg8_at20 m ρ c)
theorem main_arg8_at22 : W22 m ρ c (Proc.devRef .tc main_arg8) = m ((c : Thread nD τ).loc main_arg8) :=
  (W22_of_ne m ρ c main_arg8 (by decide)).trans (main_arg8_at21 m ρ c)
theorem main_arg8_at23 : W23 m ρ c (Proc.devRef .tc main_arg8) = m ((c : Thread nD τ).loc main_arg8) :=
  (by keep_host hostOps10 : W23 m ρ c (Proc.devRef .tc main_arg8) = W22 m ρ c (Proc.devRef .tc main_arg8)).trans (main_arg8_at22 m ρ c)
theorem main_arg8_at24 : W24 m ρ c (Proc.devRef .tc main_arg8) = m ((c : Thread nD τ).loc main_arg8) :=
  (W24_of_ne m ρ c main_arg8 (by decide)).trans (main_arg8_at23 m ρ c)

/-! ### main_v3, from the first kernel's entry on -/

theorem main_v3_at4 : W4 m ρ c (Proc.devRef .tc main_v3) = W3 m ρ c (Proc.devRef .tc main_v3) :=
  (W4_of_ne m ρ c main_v3 (by decide))
theorem main_v3_at5 : W5 m ρ c (Proc.devRef .tc main_v3) = W3 m ρ c (Proc.devRef .tc main_v3) :=
  (by keep_host hostOps1 : W5 m ρ c (Proc.devRef .tc main_v3) = W4 m ρ c (Proc.devRef .tc main_v3)).trans (main_v3_at4 m ρ c)
theorem main_v3_at6 : W6 m ρ c (Proc.devRef .tc main_v3) = W3 m ρ c (Proc.devRef .tc main_v3) :=
  (W6_of_ne m ρ c main_v3 (by decide)).trans (main_v3_at5 m ρ c)
theorem main_v3_at7 : W7 m ρ c (Proc.devRef .tc main_v3) = W3 m ρ c (Proc.devRef .tc main_v3) :=
  (by keep_host hostOps2 : W7 m ρ c (Proc.devRef .tc main_v3) = W6 m ρ c (Proc.devRef .tc main_v3)).trans (main_v3_at6 m ρ c)
theorem main_v3_at8 : W8 m ρ c (Proc.devRef .tc main_v3) = W3 m ρ c (Proc.devRef .tc main_v3) :=
  (W8_of_ne m ρ c main_v3 (by decide)).trans (main_v3_at7 m ρ c)
theorem main_v3_at9 : W9 m ρ c (Proc.devRef .tc main_v3) = W3 m ρ c (Proc.devRef .tc main_v3) :=
  (by keep_host hostOps3 : W9 m ρ c (Proc.devRef .tc main_v3) = W8 m ρ c (Proc.devRef .tc main_v3)).trans (main_v3_at8 m ρ c)
theorem main_v3_at10 : W10 m ρ c (Proc.devRef .tc main_v3) = W3 m ρ c (Proc.devRef .tc main_v3) :=
  (W10_of_ne m ρ c main_v3 (by decide)).trans (main_v3_at9 m ρ c)
theorem main_v3_at11 : W11 m ρ c (Proc.devRef .tc main_v3) = W3 m ρ c (Proc.devRef .tc main_v3) :=
  (by keep_host hostOps4 : W11 m ρ c (Proc.devRef .tc main_v3) = W10 m ρ c (Proc.devRef .tc main_v3)).trans (main_v3_at10 m ρ c)
theorem main_v3_at12 : W12 m ρ c (Proc.devRef .tc main_v3) = W3 m ρ c (Proc.devRef .tc main_v3) :=
  (W12_of_ne m ρ c main_v3 (by decide)).trans (main_v3_at11 m ρ c)
theorem main_v3_at13 : W13 m ρ c (Proc.devRef .tc main_v3) = W3 m ρ c (Proc.devRef .tc main_v3) :=
  (by keep_host hostOps5 : W13 m ρ c (Proc.devRef .tc main_v3) = W12 m ρ c (Proc.devRef .tc main_v3)).trans (main_v3_at12 m ρ c)
theorem main_v3_at14 : W14 m ρ c (Proc.devRef .tc main_v3) = W3 m ρ c (Proc.devRef .tc main_v3) :=
  (W14_of_ne m ρ c main_v3 (by decide)).trans (main_v3_at13 m ρ c)
theorem main_v3_at15 : W15 m ρ c (Proc.devRef .tc main_v3) = W3 m ρ c (Proc.devRef .tc main_v3) :=
  (by keep_host hostOps6 : W15 m ρ c (Proc.devRef .tc main_v3) = W14 m ρ c (Proc.devRef .tc main_v3)).trans (main_v3_at14 m ρ c)
theorem main_v3_at16 : W16 m ρ c (Proc.devRef .tc main_v3) = W3 m ρ c (Proc.devRef .tc main_v3) :=
  (W16_of_ne m ρ c main_v3 (by decide)).trans (main_v3_at15 m ρ c)

/-! ### main_v6, from the first kernel's entry on -/

theorem main_v6_at4 : W4 m ρ c (Proc.devRef .tc main_v6) = W3 m ρ c (Proc.devRef .tc main_v6) :=
  (W4_of_ne m ρ c main_v6 (by decide))
theorem main_v6_at5 : W5 m ρ c (Proc.devRef .tc main_v6) = W3 m ρ c (Proc.devRef .tc main_v6) :=
  (by keep_host hostOps1 : W5 m ρ c (Proc.devRef .tc main_v6) = W4 m ρ c (Proc.devRef .tc main_v6)).trans (main_v6_at4 m ρ c)
theorem main_v6_at6 : W6 m ρ c (Proc.devRef .tc main_v6) = W3 m ρ c (Proc.devRef .tc main_v6) :=
  (W6_of_ne m ρ c main_v6 (by decide)).trans (main_v6_at5 m ρ c)
theorem main_v6_at7 : W7 m ρ c (Proc.devRef .tc main_v6) = W3 m ρ c (Proc.devRef .tc main_v6) :=
  (by keep_host hostOps2 : W7 m ρ c (Proc.devRef .tc main_v6) = W6 m ρ c (Proc.devRef .tc main_v6)).trans (main_v6_at6 m ρ c)
theorem main_v6_at8 : W8 m ρ c (Proc.devRef .tc main_v6) = W3 m ρ c (Proc.devRef .tc main_v6) :=
  (W8_of_ne m ρ c main_v6 (by decide)).trans (main_v6_at7 m ρ c)
theorem main_v6_at9 : W9 m ρ c (Proc.devRef .tc main_v6) = W3 m ρ c (Proc.devRef .tc main_v6) :=
  (by keep_host hostOps3 : W9 m ρ c (Proc.devRef .tc main_v6) = W8 m ρ c (Proc.devRef .tc main_v6)).trans (main_v6_at8 m ρ c)
theorem main_v6_at10 : W10 m ρ c (Proc.devRef .tc main_v6) = W3 m ρ c (Proc.devRef .tc main_v6) :=
  (W10_of_ne m ρ c main_v6 (by decide)).trans (main_v6_at9 m ρ c)
theorem main_v6_at11 : W11 m ρ c (Proc.devRef .tc main_v6) = W3 m ρ c (Proc.devRef .tc main_v6) :=
  (by keep_host hostOps4 : W11 m ρ c (Proc.devRef .tc main_v6) = W10 m ρ c (Proc.devRef .tc main_v6)).trans (main_v6_at10 m ρ c)
theorem main_v6_at12 : W12 m ρ c (Proc.devRef .tc main_v6) = W3 m ρ c (Proc.devRef .tc main_v6) :=
  (W12_of_ne m ρ c main_v6 (by decide)).trans (main_v6_at11 m ρ c)
theorem main_v6_at13 : W13 m ρ c (Proc.devRef .tc main_v6) = W3 m ρ c (Proc.devRef .tc main_v6) :=
  (by keep_host hostOps5 : W13 m ρ c (Proc.devRef .tc main_v6) = W12 m ρ c (Proc.devRef .tc main_v6)).trans (main_v6_at12 m ρ c)
theorem main_v6_at14 : W14 m ρ c (Proc.devRef .tc main_v6) = W3 m ρ c (Proc.devRef .tc main_v6) :=
  (W14_of_ne m ρ c main_v6 (by decide)).trans (main_v6_at13 m ρ c)
theorem main_v6_at15 : W15 m ρ c (Proc.devRef .tc main_v6) = W3 m ρ c (Proc.devRef .tc main_v6) :=
  (by keep_host hostOps6 : W15 m ρ c (Proc.devRef .tc main_v6) = W14 m ρ c (Proc.devRef .tc main_v6)).trans (main_v6_at14 m ρ c)
theorem main_v6_at16 : W16 m ρ c (Proc.devRef .tc main_v6) = W3 m ρ c (Proc.devRef .tc main_v6) :=
  (W16_of_ne m ρ c main_v6 (by decide)).trans (main_v6_at15 m ρ c)

/-! ### main_v32, from the first kernel's entry on -/

theorem main_v32_at4 : W4 m ρ c (Proc.devRef .tc main_v32) = W3 m ρ c (Proc.devRef .tc main_v32) :=
  (W4_of_ne m ρ c main_v32 (by decide))
theorem main_v32_at5 : W5 m ρ c (Proc.devRef .tc main_v32) = W3 m ρ c (Proc.devRef .tc main_v32) :=
  (by keep_host hostOps1 : W5 m ρ c (Proc.devRef .tc main_v32) = W4 m ρ c (Proc.devRef .tc main_v32)).trans (main_v32_at4 m ρ c)
theorem main_v32_at6 : W6 m ρ c (Proc.devRef .tc main_v32) = W3 m ρ c (Proc.devRef .tc main_v32) :=
  (W6_of_ne m ρ c main_v32 (by decide)).trans (main_v32_at5 m ρ c)
theorem main_v32_at7 : W7 m ρ c (Proc.devRef .tc main_v32) = W3 m ρ c (Proc.devRef .tc main_v32) :=
  (by keep_host hostOps2 : W7 m ρ c (Proc.devRef .tc main_v32) = W6 m ρ c (Proc.devRef .tc main_v32)).trans (main_v32_at6 m ρ c)
theorem main_v32_at8 : W8 m ρ c (Proc.devRef .tc main_v32) = W3 m ρ c (Proc.devRef .tc main_v32) :=
  (W8_of_ne m ρ c main_v32 (by decide)).trans (main_v32_at7 m ρ c)
theorem main_v32_at9 : W9 m ρ c (Proc.devRef .tc main_v32) = W3 m ρ c (Proc.devRef .tc main_v32) :=
  (by keep_host hostOps3 : W9 m ρ c (Proc.devRef .tc main_v32) = W8 m ρ c (Proc.devRef .tc main_v32)).trans (main_v32_at8 m ρ c)
theorem main_v32_at10 : W10 m ρ c (Proc.devRef .tc main_v32) = W3 m ρ c (Proc.devRef .tc main_v32) :=
  (W10_of_ne m ρ c main_v32 (by decide)).trans (main_v32_at9 m ρ c)
theorem main_v32_at11 : W11 m ρ c (Proc.devRef .tc main_v32) = W3 m ρ c (Proc.devRef .tc main_v32) :=
  (by keep_host hostOps4 : W11 m ρ c (Proc.devRef .tc main_v32) = W10 m ρ c (Proc.devRef .tc main_v32)).trans (main_v32_at10 m ρ c)
theorem main_v32_at12 : W12 m ρ c (Proc.devRef .tc main_v32) = W3 m ρ c (Proc.devRef .tc main_v32) :=
  (W12_of_ne m ρ c main_v32 (by decide)).trans (main_v32_at11 m ρ c)
theorem main_v32_at13 : W13 m ρ c (Proc.devRef .tc main_v32) = W3 m ρ c (Proc.devRef .tc main_v32) :=
  (by keep_host hostOps5 : W13 m ρ c (Proc.devRef .tc main_v32) = W12 m ρ c (Proc.devRef .tc main_v32)).trans (main_v32_at12 m ρ c)
theorem main_v32_at14 : W14 m ρ c (Proc.devRef .tc main_v32) = W3 m ρ c (Proc.devRef .tc main_v32) :=
  (W14_of_ne m ρ c main_v32 (by decide)).trans (main_v32_at13 m ρ c)
theorem main_v32_at15 : W15 m ρ c (Proc.devRef .tc main_v32) = W3 m ρ c (Proc.devRef .tc main_v32) :=
  (by keep_host hostOps6 : W15 m ρ c (Proc.devRef .tc main_v32) = W14 m ρ c (Proc.devRef .tc main_v32)).trans (main_v32_at14 m ρ c)
theorem main_v32_at16 : W16 m ρ c (Proc.devRef .tc main_v32) = W3 m ρ c (Proc.devRef .tc main_v32) :=
  (W16_of_ne m ρ c main_v32 (by decide)).trans (main_v32_at15 m ρ c)

end Cert.KernelIdeal.Chain

end
-- ==== Proof.LibFoldSteps.lean ====
/-
  A straight-line program in single-assignment form, read one operation at a time at the END valuation.

  A line of operations runs from given buffer contents; each operation rewrites the one buffer it writes, as a
  function of the contents of its operand buffers at that moment, and leaves every other buffer alone. Suppose each
  buffer is written by at most one operation of the line, and an operation's operands are written before it (or not
  at all). Then an operand is never written again after the operation has read it, and neither is the operation's
  own result: so at the END of the line the operation's buffer holds its function of the END contents of its
  operands. That is one equation per operation about one and the same valuation — the contents after the whole
  line — and the end contents of every buffer follow in program order, each from the equations of its operands; no
  composed term is ever built.

  The line is a list `ops`; `wrs` names, in order, the buffer each operation writes (one fact, `hw`, ties the two
  lists together), and "not written from the `k`-th operation on" is non-membership in `wrs.drop k`, decided over the
  references. `step_nullary … step_ternary` are the equation for an operation of zero to three operands, given which
  operation stands at position `k`. The variants `step_nullaryT … step_ternaryT` are the same for the operations of a
  called function, which carry each buffer with the type of the value it holds and move contents between that type and
  the buffer's own along the equation of the two: at a literal buffer that equation is `rfl`, the moves are the
  identity, and the variants' conclusion is the operation's own function at the operands' end contents, with no
  move left in it.
-/
import Idealize.ShloMosaic.Lib.StableHlo.Run

noncomputable section

namespace Cert.LibFoldSteps

open Idealize.ShloMosaic Idealize.ShloMosaic.TcCoe Idealize.SL.Sem Idealize.ShloMosaic.StableHlo

section General

variable {τ : Topo} {sig : RefSig} {Val : EltTy → Type}

/-- Running two lines one after the other is running their concatenation. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

variable {ops : List (HloOp τ sig Val)} {wrs : List (Ref sig .tc)}

/-- A buffer that none of the operations from the `k`-th on writes keeps its contents through them: `wrs` names, in
    order, the one buffer each operation writes. -/
theorem after_drop_frame (hw : ops.map HloOp.writes = wrs.map fun r => ({Proc.devRef .tc r} : Finset (DevRef τ sig)))
    (k : ℕ) (X : Valuation τ sig Val) (r : Ref sig .tc) (hr : r ∉ wrs.drop k) :
    after (ops.drop k) X (Proc.devRef .tc r) = X (Proc.devRef .tc r) := by
  refine after_of_forall_not_mem _ X fun op hop hmem => hr ?_
  have h1 : op.writes ∈ ((ops.map HloOp.writes).drop k) := by
    rw [← List.map_drop]; exact List.mem_map_of_mem hop
  rw [hw, ← List.map_drop] at h1
  obtain ⟨r', hr', he⟩ := List.mem_map.mp h1
  rw [← he, Finset.mem_singleton] at hmem
  exact (Proc.devRef_injective _ hmem) ▸ hr'

/-- The line split at its `k`-th operation. -/
theorem after_split {k : ℕ} {op : HloOp τ sig Val} (hk : ops[k]? = some op) (V₀ : Valuation τ sig Val) :
    after ops V₀ = after (ops.drop (k + 1)) (op.result (after (ops.take k) V₀)) := by
  obtain ⟨h, rfl⟩ := List.getElem?_eq_some_iff.mp hk
  conv_lhs => rw [← List.take_append_drop k ops, after_append, List.drop_eq_getElem_cons h, after_cons]

/-- An operand of the `k`-th operation, not written from there on, holds at the end what it held before the operation. -/
theorem read_operand (hw : ops.map HloOp.writes = wrs.map fun r => ({Proc.devRef .tc r} : Finset (DevRef τ sig)))
    (k : ℕ) (V₀ : Valuation τ sig Val) (a : Ref sig .tc) (ha : a ∉ wrs.drop k) :
    after (ops.take k) V₀ (Proc.devRef .tc a) = after ops V₀ (Proc.devRef .tc a) := by
  conv_rhs => rw [← List.take_append_drop k ops, after_append]
  exact (after_drop_frame hw k _ a ha).symm

/-- The end contents of the buffer of a `k`-th operation without operands. -/
theorem step_nullary (hw : ops.map HloOp.writes = wrs.map fun r => ({Proc.devRef .tc r} : Finset (DevRef τ sig)))
    (k : ℕ) {y : Ref sig .tc} {v : y.ty.Contents Val} {hy}
    (hk : ops[k]? = some (nullary y v hy)) (hy' : y ∉ wrs.drop (k + 1)) (V₀ : Valuation τ sig Val) :
    after ops V₀ (Proc.devRef .tc y) = v := by
  rw [after_split hk V₀, after_drop_frame hw (k + 1) _ y hy', nullary_result]

/-- The end contents of the buffer of a `k`-th operation of one operand, from the operand's. -/
theorem step_unary (hw : ops.map HloOp.writes = wrs.map fun r => ({Proc.devRef .tc r} : Finset (DevRef τ sig)))
    (k : ℕ) {x y : Ref sig .tc} {f : x.ty.Contents Val → y.ty.Contents Val} {hx hy}
    (hk : ops[k]? = some (unary x y f hx hy)) (hy' : y ∉ wrs.drop (k + 1)) (hx' : x ∉ wrs.drop k)
    (V₀ : Valuation τ sig Val) {vx : x.ty.Contents Val} (Hx : after ops V₀ (Proc.devRef .tc x) = vx) :
    after ops V₀ (Proc.devRef .tc y) = f vx := by
  rw [after_split hk V₀, after_drop_frame hw (k + 1) _ y hy', unary_result, read_operand hw k V₀ x hx', Hx]

/-- The same for two operands. -/
theorem step_binary (hw : ops.map HloOp.writes = wrs.map fun r => ({Proc.devRef .tc r} : Finset (DevRef τ sig)))
    (k : ℕ) {a b y : Ref sig .tc} {f : a.ty.Contents Val → b.ty.Contents Val → y.ty.Contents Val} {ha hb hy}
    (hk : ops[k]? = some (binary a b y f ha hb hy)) (hy' : y ∉ wrs.drop (k + 1)) (ha' : a ∉ wrs.drop k)
    (hb' : b ∉ wrs.drop k) (V₀ : Valuation τ sig Val) {va : a.ty.Contents Val} {vb : b.ty.Contents Val}
    (Ha : after ops V₀ (Proc.devRef .tc a) = va) (Hb : after ops V₀ (Proc.devRef .tc b) = vb) :
    after ops V₀ (Proc.devRef .tc y) = f va vb := by
  rw [after_split hk V₀, after_drop_frame hw (k + 1) _ y hy', binary_result, read_operand hw k V₀ a ha',
    read_operand hw k V₀ b hb', Ha, Hb]

/-- The same for three operands. -/
theorem step_ternary (hw : ops.map HloOp.writes = wrs.map fun r => ({Proc.devRef .tc r} : Finset (DevRef τ sig)))
    (k : ℕ) {c a b y : Ref sig .tc} {f : c.ty.Contents Val → a.ty.Contents Val → b.ty.Contents Val → y.ty.Contents Val}
    {hc ha hb hy}
    (hk : ops[k]? = some (ternary c a b y f hc ha hb hy)) (hy' : y ∉ wrs.drop (k + 1)) (hc' : c ∉ wrs.drop k)
    (ha' : a ∉ wrs.drop k) (hb' : b ∉ wrs.drop k) (V₀ : Valuation τ sig Val)
    {vc : c.ty.Contents Val} {va : a.ty.Contents Val} {vb : b.ty.Contents Val}
    (Hc : after ops V₀ (Proc.devRef .tc c) = vc) (Ha : after ops V₀ (Proc.devRef .tc a) = va)
    (Hb : after ops V₀ (Proc.devRef .tc b) = vb) :
    after ops V₀ (Proc.devRef .tc y) = f vc va vb := by
  rw [after_split hk V₀, after_drop_frame hw (k + 1) _ y hy', ternary_result, read_operand hw k V₀ c hc',
    read_operand hw k V₀ a ha', read_operand hw k V₀ b hb', Hc, Ha, Hb]

/-! A called function's operations carry each buffer with the type of the value it holds, and move contents between
that type and the buffer's own along the equation of the two; at a literal buffer the equation is `rfl` and the
moves are the identity. The four steps again for such operations, stated without the moves, so that what a step
concludes is the operation's own function at the operands' end contents. -/

/-- The end contents of the buffer of a `k`-th operation without operands, in a called function. -/
theorem step_nullaryT (hw : ops.map HloOp.writes = wrs.map fun r => ({Proc.devRef .tc r} : Finset (DevRef τ sig)))
    (k : ℕ) {ry : Ref sig .tc} {hdy : ry.space ≠ .host} {huy : ry.isScoped = false} {v : ry.ty.Contents Val}
    (hk : ops[k]? = some (TRef.nullary (TRef.of (T := ry.ty) ry rfl hdy huy) v))
    (hy' : ry ∉ wrs.drop (k + 1)) (V₀ : Valuation τ sig Val) :
    after ops V₀ (Proc.devRef .tc ry) = v :=
  step_nullary hw k hk hy' V₀

/-- One operand. -/
theorem step_unaryT (hw : ops.map HloOp.writes = wrs.map fun r => ({Proc.devRef .tc r} : Finset (DevRef τ sig)))
    (k : ℕ) {rx ry : Ref sig .tc} {hdx : rx.space ≠ .host} {hux : rx.isScoped = false}
    {hdy : ry.space ≠ .host} {huy : ry.isScoped = false} {f : rx.ty.Contents Val → ry.ty.Contents Val}
    (hk : ops[k]? = some (TRef.unary (TRef.of (T := rx.ty) rx rfl hdx hux) (TRef.of (T := ry.ty) ry rfl hdy huy) f))
    (hy' : ry ∉ wrs.drop (k + 1)) (hx' : rx ∉ wrs.drop k) (V₀ : Valuation τ sig Val)
    {vx : rx.ty.Contents Val} (Hx : after ops V₀ (Proc.devRef .tc rx) = vx) :
    after ops V₀ (Proc.devRef .tc ry) = f vx :=
  step_unary hw k hk hy' hx' V₀ Hx

/-- Two operands. -/
theorem step_binaryT (hw : ops.map HloOp.writes = wrs.map fun r => ({Proc.devRef .tc r} : Finset (DevRef τ sig)))
    (k : ℕ) {ra rb ry : Ref sig .tc} {hda : ra.space ≠ .host} {hua : ra.isScoped = false}
    {hdb : rb.space ≠ .host} {hub : rb.isScoped = false} {hdy : ry.space ≠ .host} {huy : ry.isScoped = false}
    {f : ra.ty.Contents Val → rb.ty.Contents Val → ry.ty.Contents Val}
    (hk : ops[k]? = some (TRef.binary (TRef.of (T := ra.ty) ra rfl hda hua) (TRef.of (T := rb.ty) rb rfl hdb hub)
      (TRef.of (T := ry.ty) ry rfl hdy huy) f))
    (hy' : ry ∉ wrs.drop (k + 1)) (ha' : ra ∉ wrs.drop k) (hb' : rb ∉ wrs.drop k) (V₀ : Valuation τ sig Val)
    {va : ra.ty.Contents Val} {vb : rb.ty.Contents Val}
    (Ha : after ops V₀ (Proc.devRef .tc ra) = va) (Hb : after ops V₀ (Proc.devRef .tc rb) = vb) :
    after ops V₀ (Proc.devRef .tc ry) = f va vb :=
  step_binary hw k hk hy' ha' hb' V₀ Ha Hb

/-- Three operands. -/
theorem step_ternaryT (hw : ops.map HloOp.writes = wrs.map fun r => ({Proc.devRef .tc r} : Finset (DevRef τ sig)))
    (k : ℕ) {rc ra rb ry : Ref sig .tc} {hdc : rc.space ≠ .host} {huc : rc.isScoped = false}
    {hda : ra.space ≠ .host} {hua : ra.isScoped = false}
    {hdb : rb.space ≠ .host} {hub : rb.isScoped = false} {hdy : ry.space ≠ .host} {huy : ry.isScoped = false}
    {f : rc.ty.Contents Val → ra.ty.Contents Val → rb.ty.Contents Val → ry.ty.Contents Val}
    (hk : ops[k]? = some (TRef.ternary (TRef.of (T := rc.ty) rc rfl hdc huc) (TRef.of (T := ra.ty) ra rfl hda hua)
      (TRef.of (T := rb.ty) rb rfl hdb hub) (TRef.of (T := ry.ty) ry rfl hdy huy) f))
    (hy' : ry ∉ wrs.drop (k + 1)) (hc' : rc ∉ wrs.drop k) (ha' : ra ∉ wrs.drop k) (hb' : rb ∉ wrs.drop k)
    (V₀ : Valuation τ sig Val)
    {vc : rc.ty.Contents Val} {va : ra.ty.Contents Val} {vb : rb.ty.Contents Val}
    (Hc : after ops V₀ (Proc.devRef .tc rc) = vc) (Ha : after ops V₀ (Proc.devRef .tc ra) = va)
    (Hb : after ops V₀ (Proc.devRef .tc rb) = vb) :
    after ops V₀ (Proc.devRef .tc ry) = f vc va vb :=
  step_ternary hw k hk hy' hc' ha' hb' V₀ Hc Ha Hb

end General

end Cert.LibFoldSteps

end
-- ==== Proof.ChainGraph.lean ====
/-
  The graph part of @main, computed once before the first kernel: the edge lists with the self loops appended
  and the per-edge normalisation factors are what the reference computes from the same edge list.

  The host operations before the first kernel run in three stretches, each a straight line in single-assignment
  form, and they are the reference's first operations: so at the end of a stretch each buffer it writes holds the
  reference's stage function of the edge list, read one operation at a time from the end contents of the
  operands; a buffer written in an earlier stretch keeps its contents through the later ones.
-/
import proofs.«126339_j45595372814849_1_alg».proof.Proof.Carry
import proofs.«126339_j45595372814849_1_alg».proof.Proof.Net
import proofs.«126339_j45595372814849_1_alg».proof.Proof.LibFoldSteps

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.ReferenceIdeal.ReadP Cert.LibFoldSteps

/-- The buffers the first stretch writes, in order. -/
abbrev wrs0 : List (Ref sig .tc) :=
  [main_v0, main_v1, main_v2, main_v3, main_v4, main_v5, main_v6, main_cst, main_v7, main_cst_0, main_v8, main_v9, main_v10, main_cst_1, main_v11, main_v12, main_cst_2, main_v13, main_v14, main_v15, main_cst_3]
theorem hw0 : (hostOps0 (F := Ideal)).map HloOp.writes = wrs0.map fun r => ({Proc.devRef .tc r} : Finset (DevRef τ sig)) := rfl

/-- The buffers the second stretch writes, in order. -/
abbrev wrs1 : List (Ref sig .tc) :=
  [main_call0_v0, main_call0_v1, main_v16]
theorem hw1 : (hostOps0_1 (F := Ideal)).map HloOp.writes = wrs1.map fun r => ({Proc.devRef .tc r} : Finset (DevRef τ sig)) := rfl

/-- The buffers the third stretch writes, in order. -/
abbrev wrs2 : List (Ref sig .tc) :=
  [main_c, main_v17, main_v18, main_c_4, main_v19, main_v20, main_v21, main_v22, main_v23, main_c_5, main_v24, main_v25, main_c_6, main_v26, main_v27, main_v28, main_v29, main_v30, main_v31, main_v32, main_v33, main_v34]
theorem hw2 : (hostOps0_2 (F := Ideal)).map HloOp.writes = wrs2.map fun r => ({Proc.devRef .tc r} : Finset (DevRef τ sig)) := rfl

/-- The end contents of the buffer of a `k`-th operation that re-shapes its operand, from the operand's. -/
theorem step_reshape {τ : Topo} {sig : RefSig} {Val : EltTy → Type} {ops : List (HloOp τ sig Val)} {wrs : List (Ref sig .tc)}
    (hw : ops.map HloOp.writes = wrs.map fun r => ({Proc.devRef .tc r} : Finset (DevRef τ sig)))
    (k : ℕ) {x y : Ref sig .tc} {he : x.ty.elt = y.ty.elt} {hn : x.ty.shape.ShapeCasts y.ty.shape} {hx hy}
    (hk : ops[k]? = some (reshape x y he hn hx hy)) (hy' : y ∉ wrs.drop (k + 1)) (hx' : x ∉ wrs.drop k)
    (V₀ : Valuation τ sig Val) {vx : x.ty.Contents Val} (Hx : after ops V₀ (Proc.devRef .tc x) = vx) :
    after ops V₀ (Proc.devRef .tc y) = fun i => he ▸ shapeCast y.ty.shape vx hn i := by
  rw [after_split hk V₀, after_drop_frame hw (k + 1) _ y hy', reshape_result, read_operand hw k V₀ x hx', Hx]

variable (m : (ℓ : Loc nD τ sig) → Buf (Elt Ideal) ℓ) (ρ : Dev nD → PrngReg) (c : Dev nD)

set_option quotPrecheck false

local notation "𝐚9" => m ((c : Thread nD τ).loc main_arg9)

theorem g_arg9_at0 : W0 m ρ c (Proc.devRef .tc main_arg9) = 𝐚9 := rfl

/-! ### The edge lists with the self loops appended, and the degree's inverse square root -/

theorem g_v0_at1 : W1 m ρ c (Proc.devRef .tc main_v0) = val_main_v0 (F := Ideal) :=
  (step_nullary hw0 0 rfl (by decide) (W0 m ρ c)).trans rfl
theorem g_arg9_at1 : W1 m ρ c (Proc.devRef .tc main_arg9) = 𝐚9 :=
  (after_drop_frame hw0 0 (W0 m ρ c) main_arg9 (by decide)).trans (g_arg9_at0 m ρ c)
theorem g_v1_at1 : W1 m ρ c (Proc.devRef .tc main_v1) = val_main_v1 (F := Ideal) 𝐚9 :=
  (step_unary hw0 1 rfl (by decide) (by decide) (W0 m ρ c) (g_arg9_at1 m ρ c)).trans rfl
theorem g_v2_at1 : W1 m ρ c (Proc.devRef .tc main_v2) = val_main_v2 (F := Ideal) 𝐚9 :=
  (step_reshape hw0 2 rfl (by decide) (by decide) (W0 m ρ c) (g_v1_at1 m ρ c)).trans rfl
theorem g_v3_at1 : W1 m ρ c (Proc.devRef .tc main_v3) = val_main_v3 (F := Ideal) 𝐚9 :=
  (step_binary hw0 3 rfl (by decide) (by decide) (by decide) (W0 m ρ c) (g_v2_at1 m ρ c) (g_v0_at1 m ρ c)).trans rfl
theorem g_v4_at1 : W1 m ρ c (Proc.devRef .tc main_v4) = val_main_v4 (F := Ideal) 𝐚9 :=
  (step_unary hw0 4 rfl (by decide) (by decide) (W0 m ρ c) (g_arg9_at1 m ρ c)).trans rfl
theorem g_v5_at1 : W1 m ρ c (Proc.devRef .tc main_v5) = val_main_v5 (F := Ideal) 𝐚9 :=
  (step_reshape hw0 5 rfl (by decide) (by decide) (W0 m ρ c) (g_v4_at1 m ρ c)).trans rfl
theorem g_v6_at1 : W1 m ρ c (Proc.devRef .tc main_v6) = val_main_v6 (F := Ideal) 𝐚9 :=
  (step_binary hw0 6 rfl (by decide) (by decide) (by decide) (W0 m ρ c) (g_v5_at1 m ρ c) (g_v0_at1 m ρ c)).trans rfl
theorem g_cst_at1 : W1 m ρ c (Proc.devRef .tc main_cst) = val_main_cst (F := Ideal) :=
  (step_nullary hw0 7 rfl (by decide) (W0 m ρ c)).trans rfl
theorem g_v7_at1 : W1 m ρ c (Proc.devRef .tc main_v7) = val_main_v7 (F := Ideal) :=
  (step_unary hw0 8 rfl (by decide) (by decide) (W0 m ρ c) (g_cst_at1 m ρ c)).trans rfl
theorem g_cst_0_at1 : W1 m ρ c (Proc.devRef .tc main_cst_0) = val_main_cst_0 (F := Ideal) :=
  (step_nullary hw0 9 rfl (by decide) (W0 m ρ c)).trans rfl
theorem g_v8_at1 : W1 m ρ c (Proc.devRef .tc main_v8) = val_main_v8 (F := Ideal) :=
  (step_unary hw0 10 rfl (by decide) (by decide) (W0 m ρ c) (g_cst_0_at1 m ρ c)).trans rfl
theorem g_v9_at1 : W1 m ρ c (Proc.devRef .tc main_v9) = val_main_v9 (F := Ideal) 𝐚9 :=
  (step_unary hw0 11 rfl (by decide) (by decide) (W0 m ρ c) (g_v6_at1 m ρ c)).trans rfl
theorem g_v10_at1 : W1 m ρ c (Proc.devRef .tc main_v10) = val_main_v10 (F := Ideal) 𝐚9 :=
  (step_ternary hw0 12 rfl (by decide) (by decide) (by decide) (by decide) (W0 m ρ c) (g_v8_at1 m ρ c) (g_v9_at1 m ρ c) (g_v7_at1 m ρ c)).trans rfl
theorem g_cst_1_at1 : W1 m ρ c (Proc.devRef .tc main_cst_1) = val_main_cst_1 (F := Ideal) :=
  (step_nullary hw0 13 rfl (by decide) (W0 m ρ c)).trans rfl
theorem g_v11_at1 : W1 m ρ c (Proc.devRef .tc main_v11) = val_main_v11 (F := Ideal) :=
  (step_unary hw0 14 rfl (by decide) (by decide) (W0 m ρ c) (g_cst_1_at1 m ρ c)).trans rfl
theorem g_v12_at1 : W1 m ρ c (Proc.devRef .tc main_v12) = val_main_v12 (F := Ideal) 𝐚9 :=
  (step_binary hw0 15 rfl (by decide) (by decide) (by decide) (W0 m ρ c) (g_v10_at1 m ρ c) (g_v11_at1 m ρ c)).trans rfl
theorem g_cst_2_at1 : W1 m ρ c (Proc.devRef .tc main_cst_2) = val_main_cst_2 (F := Ideal) :=
  (step_nullary hw0 16 rfl (by decide) (W0 m ρ c)).trans rfl
theorem g_v13_at1 : W1 m ρ c (Proc.devRef .tc main_v13) = val_main_v13 (F := Ideal) :=
  (step_unary hw0 17 rfl (by decide) (by decide) (W0 m ρ c) (g_cst_2_at1 m ρ c)).trans rfl
theorem g_v14_at1 : W1 m ρ c (Proc.devRef .tc main_v14) = val_main_v14 (F := Ideal) 𝐚9 :=
  (step_binary hw0 18 rfl (by decide) (by decide) (by decide) (W0 m ρ c) (g_v10_at1 m ρ c) (g_v13_at1 m ρ c)).trans rfl
theorem g_v15_at1 : W1 m ρ c (Proc.devRef .tc main_v15) = val_main_v15 (F := Ideal) 𝐚9 :=
  (step_unary hw0 19 rfl (by decide) (by decide) (W0 m ρ c) (g_v14_at1 m ρ c)).trans rfl
theorem g_cst_3_at1 : W1 m ρ c (Proc.devRef .tc main_cst_3) = val_main_cst_3 (F := Ideal) :=
  (step_nullary hw0 20 rfl (by decide) (W0 m ρ c)).trans rfl

/-! ### The inverse square root where the degree is positive, zero elsewhere -/

theorem g_cst_3_at2 : W2 m ρ c (Proc.devRef .tc main_cst_3) = val_main_cst_3 (F := Ideal) :=
  (after_drop_frame hw1 0 (W1 m ρ c) main_cst_3 (by decide)).trans (g_cst_3_at1 m ρ c)
theorem g_call0_v0_at2 : W2 m ρ c (Proc.devRef .tc main_call0_v0) = val_main_call0_v0 (F := Ideal) :=
  (step_unaryT hw1 0 rfl (by decide) (by decide) (W1 m ρ c) (g_cst_3_at2 m ρ c)).trans rfl
theorem g_call0_v1_at2 : W2 m ρ c (Proc.devRef .tc main_call0_v1) = val_main_call0_v1 (F := Ideal) :=
  (step_unaryT hw1 1 rfl (by decide) (by decide) (W1 m ρ c) (g_call0_v0_at2 m ρ c)).trans rfl
theorem g_v12_at2 : W2 m ρ c (Proc.devRef .tc main_v12) = val_main_v12 (F := Ideal) 𝐚9 :=
  (after_drop_frame hw1 0 (W1 m ρ c) main_v12 (by decide)).trans (g_v12_at1 m ρ c)
theorem g_v15_at2 : W2 m ρ c (Proc.devRef .tc main_v15) = val_main_v15 (F := Ideal) 𝐚9 :=
  (after_drop_frame hw1 0 (W1 m ρ c) main_v15 (by decide)).trans (g_v15_at1 m ρ c)
theorem g_v16_at2 : W2 m ρ c (Proc.devRef .tc main_v16) = val_main_v16 (F := Ideal) 𝐚9 :=
  (step_ternaryT hw1 2 rfl (by decide) (by decide) (by decide) (by decide) (W1 m ρ c) (g_v12_at2 m ρ c) (g_v15_at2 m ρ c) (g_call0_v1_at2 m ρ c)).trans rfl

/-! ### The per-edge normalisation factors -/

theorem g_c_at3 : W3 m ρ c (Proc.devRef .tc main_c) = val_main_c (F := Ideal) :=
  (step_nullary hw2 0 rfl (by decide) (W2 m ρ c)).trans rfl
theorem g_v17_at3 : W3 m ρ c (Proc.devRef .tc main_v17) = val_main_v17 (F := Ideal) :=
  (step_unary hw2 1 rfl (by decide) (by decide) (W2 m ρ c) (g_c_at3 m ρ c)).trans rfl
theorem g_v3_at2 : W2 m ρ c (Proc.devRef .tc main_v3) = val_main_v3 (F := Ideal) 𝐚9 :=
  (after_drop_frame hw1 0 (W1 m ρ c) main_v3 (by decide)).trans (g_v3_at1 m ρ c)
theorem g_v3_at3 : W3 m ρ c (Proc.devRef .tc main_v3) = val_main_v3 (F := Ideal) 𝐚9 :=
  (after_drop_frame hw2 0 (W2 m ρ c) main_v3 (by decide)).trans (g_v3_at2 m ρ c)
theorem g_v18_at3 : W3 m ρ c (Proc.devRef .tc main_v18) = val_main_v18 (F := Ideal) 𝐚9 :=
  (step_binary hw2 2 rfl (by decide) (by decide) (by decide) (W2 m ρ c) (g_v3_at3 m ρ c) (g_v17_at3 m ρ c)).trans rfl
theorem g_c_4_at3 : W3 m ρ c (Proc.devRef .tc main_c_4) = val_main_c_4 (F := Ideal) :=
  (step_nullary hw2 3 rfl (by decide) (W2 m ρ c)).trans rfl
theorem g_v19_at3 : W3 m ρ c (Proc.devRef .tc main_v19) = val_main_v19 (F := Ideal) :=
  (step_unary hw2 4 rfl (by decide) (by decide) (W2 m ρ c) (g_c_4_at3 m ρ c)).trans rfl
theorem g_v20_at3 : W3 m ρ c (Proc.devRef .tc main_v20) = val_main_v20 (F := Ideal) 𝐚9 :=
  (step_binary hw2 5 rfl (by decide) (by decide) (by decide) (W2 m ρ c) (g_v3_at3 m ρ c) (g_v19_at3 m ρ c)).trans rfl
theorem g_v21_at3 : W3 m ρ c (Proc.devRef .tc main_v21) = val_main_v21 (F := Ideal) 𝐚9 :=
  (step_ternary hw2 6 rfl (by decide) (by decide) (by decide) (by decide) (W2 m ρ c) (g_v18_at3 m ρ c) (g_v20_at3 m ρ c) (g_v3_at3 m ρ c)).trans rfl
theorem g_v22_at3 : W3 m ρ c (Proc.devRef .tc main_v22) = val_main_v22 (F := Ideal) 𝐚9 :=
  (step_unary hw2 7 rfl (by decide) (by decide) (W2 m ρ c) (g_v21_at3 m ρ c)).trans rfl
theorem g_v16_at3 : W3 m ρ c (Proc.devRef .tc main_v16) = val_main_v16 (F := Ideal) 𝐚9 :=
  (after_drop_frame hw2 0 (W2 m ρ c) main_v16 (by decide)).trans (g_v16_at2 m ρ c)
theorem g_v23_at3 : W3 m ρ c (Proc.devRef .tc main_v23) = val_main_v23 (F := Ideal) 𝐚9 :=
  (step_binary hw2 8 rfl (by decide) (by decide) (by decide) (W2 m ρ c) (g_v16_at3 m ρ c) (g_v22_at3 m ρ c)).trans rfl
theorem g_c_5_at3 : W3 m ρ c (Proc.devRef .tc main_c_5) = val_main_c_5 (F := Ideal) :=
  (step_nullary hw2 9 rfl (by decide) (W2 m ρ c)).trans rfl
theorem g_v24_at3 : W3 m ρ c (Proc.devRef .tc main_v24) = val_main_v24 (F := Ideal) :=
  (step_unary hw2 10 rfl (by decide) (by decide) (W2 m ρ c) (g_c_5_at3 m ρ c)).trans rfl
theorem g_v6_at2 : W2 m ρ c (Proc.devRef .tc main_v6) = val_main_v6 (F := Ideal) 𝐚9 :=
  (after_drop_frame hw1 0 (W1 m ρ c) main_v6 (by decide)).trans (g_v6_at1 m ρ c)
theorem g_v6_at3 : W3 m ρ c (Proc.devRef .tc main_v6) = val_main_v6 (F := Ideal) 𝐚9 :=
  (after_drop_frame hw2 0 (W2 m ρ c) main_v6 (by decide)).trans (g_v6_at2 m ρ c)
theorem g_v25_at3 : W3 m ρ c (Proc.devRef .tc main_v25) = val_main_v25 (F := Ideal) 𝐚9 :=
  (step_binary hw2 11 rfl (by decide) (by decide) (by decide) (W2 m ρ c) (g_v6_at3 m ρ c) (g_v24_at3 m ρ c)).trans rfl
theorem g_c_6_at3 : W3 m ρ c (Proc.devRef .tc main_c_6) = val_main_c_6 (F := Ideal) :=
  (step_nullary hw2 12 rfl (by decide) (W2 m ρ c)).trans rfl
theorem g_v26_at3 : W3 m ρ c (Proc.devRef .tc main_v26) = val_main_v26 (F := Ideal) :=
  (step_unary hw2 13 rfl (by decide) (by decide) (W2 m ρ c) (g_c_6_at3 m ρ c)).trans rfl
theorem g_v27_at3 : W3 m ρ c (Proc.devRef .tc main_v27) = val_main_v27 (F := Ideal) 𝐚9 :=
  (step_binary hw2 14 rfl (by decide) (by decide) (by decide) (W2 m ρ c) (g_v6_at3 m ρ c) (g_v26_at3 m ρ c)).trans rfl
theorem g_v28_at3 : W3 m ρ c (Proc.devRef .tc main_v28) = val_main_v28 (F := Ideal) 𝐚9 :=
  (step_ternary hw2 15 rfl (by decide) (by decide) (by decide) (by decide) (W2 m ρ c) (g_v25_at3 m ρ c) (g_v27_at3 m ρ c) (g_v6_at3 m ρ c)).trans rfl
theorem g_v29_at3 : W3 m ρ c (Proc.devRef .tc main_v29) = val_main_v29 (F := Ideal) 𝐚9 :=
  (step_unary hw2 16 rfl (by decide) (by decide) (W2 m ρ c) (g_v28_at3 m ρ c)).trans rfl
theorem g_v30_at3 : W3 m ρ c (Proc.devRef .tc main_v30) = val_main_v30 (F := Ideal) 𝐚9 :=
  (step_binary hw2 17 rfl (by decide) (by decide) (by decide) (W2 m ρ c) (g_v16_at3 m ρ c) (g_v29_at3 m ρ c)).trans rfl
theorem g_v31_at3 : W3 m ρ c (Proc.devRef .tc main_v31) = val_main_v31 (F := Ideal) 𝐚9 :=
  (step_binary hw2 18 rfl (by decide) (by decide) (by decide) (W2 m ρ c) (g_v23_at3 m ρ c) (g_v30_at3 m ρ c)).trans rfl
theorem g_v32_at3 : W3 m ρ c (Proc.devRef .tc main_v32) = val_main_v32 (F := Ideal) 𝐚9 :=
  (step_unary hw2 19 rfl (by decide) (by decide) (W2 m ρ c) (g_v31_at3 m ρ c)).trans rfl

/-! ### At the first kernel's entry -/

/-- The source list with the self loops appended. -/
theorem main_v3_at3 : W3 m ρ c (Proc.devRef .tc main_v3) = Cert.ReferenceIdeal.ReadP.val_main_v3 (F := Ideal) 𝐚9 :=
  g_v3_at3 m ρ c

/-- The destination list with the self loops appended. -/
theorem main_v6_at3 : W3 m ρ c (Proc.devRef .tc main_v6) = Cert.ReferenceIdeal.ReadP.val_main_v6 (F := Ideal) 𝐚9 :=
  g_v6_at3 m ρ c

/-- The per-edge normalisation factors, as a column. -/
theorem main_v32_at3 : W3 m ρ c (Proc.devRef .tc main_v32) = Cert.ReferenceIdeal.ReadP.val_main_v32 (F := Ideal) 𝐚9 :=
  g_v32_at3 m ρ c

end Cert.KernelIdeal.Chain

end
-- ==== Proof.GlueRows.lean ====
/-
  The host's arithmetic on one row of 128 column statistics, read at an index.

  Between two regions the host turns the row of column sums into the row of column means, and the rows of sums and of
  sums of squares into the row of variances. It works on the row re-laid as a plain vector of 128 entries: it divides
  every entry by the number of rows (the constant 50000, repeated 128 times), for the variance subtracts the squared
  mean from the mean of squares, and lays the result out as one row again. Entry (0, q) of a row re-laid as a vector
  is entry q of the vector and back, so the results are `Cert.Spec.meanOf` and `Cert.Spec.varRaw` of the rows.
-/
import proofs.«126339_j45595372814849_1_alg».proof.KernelIdeal
import proofs.«126339_j45595372814849_1_alg».proof.Proof.Spec
import Idealize.ShloMosaic.Lib.Pipeline.Value
import Idealize.ShloMosaic.Lib.ValueLayout

noncomputable section

namespace Cert.KernelIdeal.Glue

open Cert.KernelIdeal Idealize.ShloMosaic Idealize.ShloMosaic.ValueIdx

/-- The row count repeated along a vector of 128 entries reads the row count at every entry. -/
theorem rowCount_apply (hb : S_.BroadcastsInDim S128 (![] : Fin 0 → Fin S128.rank)) (q : Fin 128) :
    broadcastInDim S128 ![] hb (constant (F := Ideal) S_ .f32 0x47435000#32) (ix1 q) = Cert.Spec.nRows :=
  (broadcastInDim_apply (![] : Fin 0 → Fin S128.rank) hb (constant (F := Ideal) S_ .f32 0x47435000#32) (ix1 q) ix0
    (fun a => a.elim0)).trans rfl

/-- A vector of 128 entries laid out as one row reads, at (0, q), the vector's entry q. -/
theorem row_of_vector (h2 : S128.ShapeCasts S1x128) (v : FVec Ideal S128 .f32) :
    shapeCast S1x128 v h2 = (fun i => v (ix1 (i 1))) := by
  funext i
  obtain ⟨u, q, rfl⟩ : ∃ (u : Fin 1) (q : Fin 128), i = ix2 u q := ⟨i 0, i 1, eq_ix2 i⟩
  exact shapeCast_a_1a_apply v h2 u q

/-- The row of column sums divided by the row count, entry by entry, is the row of column means. -/
theorem mean_row (h1 : S1x128.ShapeCasts S128) (h2 : S128.ShapeCasts S1x128)
    (hb : S_.BroadcastsInDim S128 (![] : Fin 0 → Fin S128.rank)) (s : FVec Ideal S1x128 .f32) :
    shapeCast S1x128 (Host.divf (F := Ideal) (shapeCast S128 s h1)
      (broadcastInDim S128 ![] hb (constant (F := Ideal) S_ .f32 0x47435000#32))) h2 = Cert.Spec.meanOf s := by
  funext i
  obtain ⟨u, q, rfl⟩ : ∃ (u : Fin 1) (q : Fin 128), i = ix2 u q := ⟨i 0, i 1, eq_ix2 i⟩
  refine (shapeCast_a_1a_apply _ h2 u q).trans ?_
  show Ideal.div (shapeCast S128 s h1 (ix1 q))
      (broadcastInDim S128 ![] hb (constant (F := Ideal) S_ .f32 0x47435000#32) (ix1 q)) = Ideal.div (s (ix2 (0 : Fin 1) q)) Cert.Spec.nRows
  rw [shapeCast_1a_a_apply s h1 q, rowCount_apply hb q]

/-- The mean of squares minus the squared mean, entry by entry, is the raw-moment variance of the two rows of sums. -/
theorem var_row (h1 : S1x128.ShapeCasts S128) (h2 : S128.ShapeCasts S1x128)
    (hb : S_.BroadcastsInDim S128 (![] : Fin 0 → Fin S128.rank)) (s ss : FVec Ideal S1x128 .f32) :
    shapeCast S1x128 (subf (Host.divf (F := Ideal) (shapeCast S128 ss h1)
        (broadcastInDim S128 ![] hb (constant (F := Ideal) S_ .f32 0x47435000#32)))
      (mulf (Host.divf (F := Ideal) (shapeCast S128 s h1) (broadcastInDim S128 ![] hb (constant (F := Ideal) S_ .f32 0x47435000#32)))
        (Host.divf (F := Ideal) (shapeCast S128 s h1) (broadcastInDim S128 ![] hb (constant (F := Ideal) S_ .f32 0x47435000#32))))) h2
      = Cert.Spec.varRaw s ss := by
  funext i
  obtain ⟨u, q, rfl⟩ : ∃ (u : Fin 1) (q : Fin 128), i = ix2 u q := ⟨i 0, i 1, eq_ix2 i⟩
  refine (shapeCast_a_1a_apply _ h2 u q).trans ?_
  show Ideal.div (shapeCast S128 ss h1 (ix1 q)) (broadcastInDim S128 ![] hb (constant (F := Ideal) S_ .f32 0x47435000#32) (ix1 q))
      - Ideal.div (shapeCast S128 s h1 (ix1 q)) (broadcastInDim S128 ![] hb (constant (F := Ideal) S_ .f32 0x47435000#32) (ix1 q))
        * Ideal.div (shapeCast S128 s h1 (ix1 q)) (broadcastInDim S128 ![] hb (constant (F := Ideal) S_ .f32 0x47435000#32) (ix1 q))
    = Ideal.div (ss (ix2 (0 : Fin 1) q)) Cert.Spec.nRows
      - Ideal.div (s (ix2 (0 : Fin 1) q)) Cert.Spec.nRows * Ideal.div (s (ix2 (0 : Fin 1) q)) Cert.Spec.nRows
  rw [shapeCast_1a_a_apply ss h1 q, shapeCast_1a_a_apply s h1 q, rowCount_apply hb q]

end Cert.KernelIdeal.Glue

end
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.RegMatmul.lean ====
/-
  The three plain matrix-product regions, each read off its generated frame as one array equation.

  A region walks the 50000 rows in five blocks of 10000. At a block the body loads the block's 10000 × 128 rows and the
  whole 128 × 128 weight matrix and stores their product into the zero accumulator: entry (p, q) of the stored block is
  the sum over k of row p of the loaded rows times column q of the weights. The row block of point t sits at rows
  10000 t … 10000 t + 9999 of both the operand and the result, on all 128 columns, and the weights' one block is the
  whole matrix; so what point t writes back is block t of the full product, and since every row lies in the block
  numbered (row / 10000) the five blocks cover the result array, which therefore ends holding the full product.
-/
import proofs.«126339_j45595372814849_1_alg».proof.Proof.Gen.KernelIdeal.Frame
import proofs.«126339_j45595372814849_1_alg».proof.Proof.Spec
import proofs.«126339_j45595372814849_1_alg».proof.Proof.LibPlainMatmul
import Idealize.ShloMosaic.Lib.Pipeline.Value
import Idealize.ShloMosaic.Lib.ValueIdx

noncomputable section

namespace Cert.KernelIdeal.RegVal

open Cert.KernelIdeal Cert.KernelIdeal.Gen Idealize.ShloMosaic Idealize.ShloMosaic.ValueIdx
open Idealize.ShloMosaic.TcCoe Idealize.SL.Sem
open Idealize.ShloMosaic.Pipeline (Dat)
open scoped BigOperators

/-- The zero offsets of a whole-block access, as the constant function. -/
theorem zeroOff2 : (![0, 0] : Fin 2 → Nat) = fun _ => 0 := funext fun a => by fin_cases a <;> rfl

variable (V : (c : Dev nD) → (b : Ref sig .tc) → Buf (Elt Ideal) ((c : Thread nD τ).loc b))

/-! ## Region 0: rows of `main_arg0` times the weights `main_v34` -/

/-- The stored block at (p, q): row p of the loaded rows against column q of the loaded weights. -/
theorem pay0_apply (x0 : Vec Ideal S10000x128 .f32) (x1 : Vec Ideal S128x128 .f32) (p : Fin 10000) (q : Fin 128) :
    k0_pay1 x0 x1 (ix2 p q) = ∑ k : Fin 128, x0 (ix2 p k) * x1 (ix2 k q) := by
  unfold k0_pay1
  simp only [shapeCast_self]
  exact Cert.LibPlainMatmul.matmul_zero_plain dot_S10000x128_S128x128_S10000x128_1_0_0_1_n_n_wf x0 x1 p q

/-- The printed index maps over the five points: the row block of the operand and of the result is the point's number,
    on column block 0; the weights' block is (0, 0). -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 4 :=
  (by decide +kernel : ∀ t : Fin grid0.N, _)

/-- Every one of the five row blocks is some point's. -/
theorem idx_onto0 : ∀ q0 : Fin 5, ∃ t : Fin cfg0.N, win0_2.index t = ![q0.val, 0] :=
  (by decide +kernel : ∀ q0 : Fin 5, ∃ t : Fin grid0.N, win0_2.index t = ![q0.val, 0])

/-- What point t writes back is block t of the full product. -/
theorem flushed0_eq (c : Dev nD) (t : Fin cfg0.N) :
    (dat0 (F := Ideal) V c).flushed 2 t
      = ((cfg0.win 2).blk t).view.read (Elt Ideal) (Cert.Spec.mm (V c main_arg0) (V c main_v34)) := by
  show (cfg0.win 2).cut (grid0.coords t) ((dat0 (F := Ideal) V c).after 2 t) = _
  rw [after0_2]
  unfold out0_2
  rw [View.canon_unit_zero zeroOff2]
  simp only [View.ld_unit_zero (S := S10000x128) zeroOff2, View.ld_unit_zero (S := S128x128) zeroOff2]
  obtain ⟨e0, e1, e2, e3, e4, e5⟩ := idx_facts0 t
  funext j
  obtain ⟨p, q, rfl⟩ : ∃ (p : Fin 10000) (q : Fin 128), j = ix2 p q := ⟨j 0, j 1, eq_ix2 j⟩
  show k0_pay1 (iblk0 V c 0 t) (iblk0 V c 1 t) (ix2 p q)
    = Cert.Spec.mm (V c main_arg0) (V c main_v34) (((cfg0.win 2).blk t).view.emb (ix2 p q))
  refine (pay0_apply (iblk0 V c 0 t) (iblk0 V c 1 t) p q).trans ?_
  unfold Cert.Spec.mm
  refine Finset.sum_congr rfl fun k _ => ?_
  have h0 : (iblk0 V c 0 t : Vec Ideal S10000x128 .f32) (ix2 p k)
      = (V c main_arg0 : S50000x128.Idx → EReal) (ix2 ((((cfg0.win 2).blk t).view.emb (ix2 p q)) 0) k) := by
    show (V c main_arg0 : S50000x128.Idx → EReal) (((cfg0.win 0).blk t).view.emb (ix2 p k)) = _
    refine congrArg _ (funext fun a => Fin.ext ?_)
    match a with
    | ⟨0, _⟩ =>
      show win0_0.index t (0 : Fin 2) * 10000 + 1 * p.val = win0_2.index t (0 : Fin 2) * 10000 + 1 * p.val
      omega
    | ⟨1, _⟩ =>
      show win0_0.index t (1 : Fin 2) * 128 + 1 * k.val = k.val
      omega
  have h1 : (iblk0 V c 1 t : Vec Ideal S128x128 .f32) (ix2 k q)
      = (V c main_v34 : S128x128.Idx → EReal) (ix2 k ((((cfg0.win 2).blk t).view.emb (ix2 p q)) 1)) := by
    show (V c main_v34 : S128x128.Idx → EReal) (((cfg0.win 1).blk t).view.emb (ix2 k q)) = _
    refine congrArg _ (funext fun a => Fin.ext ?_)
    match a with
    | ⟨0, _⟩ =>
      show win0_1.index t (0 : Fin 2) * 128 + 1 * k.val = k.val
      omega
    | ⟨1, _⟩ =>
      show win0_1.index t (1 : Fin 2) * 128 + 1 * q.val = win0_2.index t (1 : Fin 2) * 128 + 1 * q.val
      omega
  rw [h0, h1]

/-- A row and column of the result are in point t's block iff each lies in the block's range on its axis. -/
theorem mem_blk0 (t : Fin cfg0.N) (i : S50000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v35).slice (win0_2.rect t)).set ↔ _
  rw [View.set_slice_whole, Rect.mem_set_unit]
  exact Iff.rfl

/-- Every entry of the result lies in the block of the point numbered (row / 10000). -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk0]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 128 ≤ (i 1).val ∧ (i 1).val < win0_2.index t (1 : Fin 2) * 128 + 128
    omega

/-- The result array after the region is the full product of the two arrays the region finds. -/
theorem region0_out (c : Dev nD) :
    (dat0 (F := Ideal) V c).arrAt 2 cfg0.N = Cert.Spec.mm (V c main_arg0) (V c main_v34) :=
  (dat0 (F := Ideal) V c).arrAt_eq_of_cover 2 (Cert.Spec.mm (V c main_arg0) (V c main_v34))
    (fun t _ => flushed0_eq V c t) cover0

/-! ## Region 3: rows of `main_v68` times the weights `main_v70` -/

/-- The stored block at (p, q): row p of the loaded rows against column q of the loaded weights. -/
theorem pay3_apply (x0 : Vec Ideal S10000x128 .f32) (x1 : Vec Ideal S128x128 .f32) (p : Fin 10000) (q : Fin 128) :
    k3_pay1 x0 x1 (ix2 p q) = ∑ k : Fin 128, x0 (ix2 p k) * x1 (ix2 k q) := by
  unfold k3_pay1
  simp only [shapeCast_self]
  exact Cert.LibPlainMatmul.matmul_zero_plain dot_S10000x128_S128x128_S10000x128_1_0_0_1_n_n_wf x0 x1 p q

/-- The printed index maps over the five points: the row block of the operand and of the result is the point's number,
    on column block 0; the weights' block is (0, 0). -/
theorem idx_facts3 : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) ≤ 4 :=
  (by decide +kernel : ∀ t : Fin grid3.N, _)

/-- Every one of the five row blocks is some point's. -/
theorem idx_onto3 : ∀ q0 : Fin 5, ∃ t : Fin cfg3.N, win3_2.index t = ![q0.val, 0] :=
  (by decide +kernel : ∀ q0 : Fin 5, ∃ t : Fin grid3.N, win3_2.index t = ![q0.val, 0])

/-- What point t writes back is block t of the full product. -/
theorem flushed3_eq (c : Dev nD) (t : Fin cfg3.N) :
    (dat3 (F := Ideal) V c).flushed 2 t
      = ((cfg3.win 2).blk t).view.read (Elt Ideal) (Cert.Spec.mm (V c main_v68) (V c main_v70)) := by
  show (cfg3.win 2).cut (grid3.coords t) ((dat3 (F := Ideal) V c).after 2 t) = _
  rw [after3_2]
  unfold out3_2
  rw [View.canon_unit_zero zeroOff2]
  simp only [View.ld_unit_zero (S := S10000x128) zeroOff2, View.ld_unit_zero (S := S128x128) zeroOff2]
  obtain ⟨e0, e1, e2, e3, e4, e5⟩ := idx_facts3 t
  funext j
  obtain ⟨p, q, rfl⟩ : ∃ (p : Fin 10000) (q : Fin 128), j = ix2 p q := ⟨j 0, j 1, eq_ix2 j⟩
  show k3_pay1 (iblk3 V c 0 t) (iblk3 V c 1 t) (ix2 p q)
    = Cert.Spec.mm (V c main_v68) (V c main_v70) (((cfg3.win 2).blk t).view.emb (ix2 p q))
  refine (pay3_apply (iblk3 V c 0 t) (iblk3 V c 1 t) p q).trans ?_
  unfold Cert.Spec.mm
  refine Finset.sum_congr rfl fun k _ => ?_
  have h0 : (iblk3 V c 0 t : Vec Ideal S10000x128 .f32) (ix2 p k)
      = (V c main_v68 : S50000x128.Idx → EReal) (ix2 ((((cfg3.win 2).blk t).view.emb (ix2 p q)) 0) k) := by
    show (V c main_v68 : S50000x128.Idx → EReal) (((cfg3.win 0).blk t).view.emb (ix2 p k)) = _
    refine congrArg _ (funext fun a => Fin.ext ?_)
    match a with
    | ⟨0, _⟩ =>
      show win3_0.index t (0 : Fin 2) * 10000 + 1 * p.val = win3_2.index t (0 : Fin 2) * 10000 + 1 * p.val
      omega
    | ⟨1, _⟩ =>
      show win3_0.index t (1 : Fin 2) * 128 + 1 * k.val = k.val
      omega
  have h1 : (iblk3 V c 1 t : Vec Ideal S128x128 .f32) (ix2 k q)
      = (V c main_v70 : S128x128.Idx → EReal) (ix2 k ((((cfg3.win 2).blk t).view.emb (ix2 p q)) 1)) := by
    show (V c main_v70 : S128x128.Idx → EReal) (((cfg3.win 1).blk t).view.emb (ix2 k q)) = _
    refine congrArg _ (funext fun a => Fin.ext ?_)
    match a with
    | ⟨0, _⟩ =>
      show win3_1.index t (0 : Fin 2) * 128 + 1 * k.val = k.val
      omega
    | ⟨1, _⟩ =>
      show win3_1.index t (1 : Fin 2) * 128 + 1 * q.val = win3_2.index t (1 : Fin 2) * 128 + 1 * q.val
      omega
  rw [h0, h1]

/-- A row and column of the result are in point t's block iff each lies in the block's range on its axis. -/
theorem mem_blk3 (t : Fin cfg3.N) (i : S50000x128.Idx) :
    i ∈ ((cfg3.win 2).blk t).view.set ↔ ∀ a : Fin 2, win3_2.index t a * S10000x128.size a ≤ (i a).val
      ∧ (i a).val < win3_2.index t a * S10000x128.size a + S10000x128.size a := by
  show i ∈ ((View.whole main_v71).slice (win3_2.rect t)).set ↔ _
  rw [View.set_slice_whole, Rect.mem_set_unit]
  exact Iff.rfl

/-- Every entry of the result lies in the block of the point numbered (row / 10000). -/
theorem cover3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := idx_onto3 ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk3]
  intro a
  match a with
  | ⟨0, _⟩ =>
    show win3_2.index t (0 : Fin 2) * 10000 ≤ (i 0).val ∧ (i 0).val < win3_2.index t (0 : Fin 2) * 10000 + 10000
    omega
  | ⟨1, _⟩ =>
    show win3_2.index t (1 : Fin 2) * 128 ≤ (i 1).val ∧ (i 1).val < win3_2.index t (1 : Fin 2) * 128 + 128
    omega

/-- The result array after the region is the full product of the two arrays the region finds. -/
theorem region3_out (c : Dev nD) :
    (dat3 (F := Ideal) V c).arrAt 2 cfg3.N = Cert.Spec.mm (V c main_v68) (V c main_v70) :=
  (dat3 (F := Ideal) V c).arrAt_eq_of_cover 2 (Cert.Spec.mm (V c main_v68) (V c main_v70))
    (fun t _ => flushed3_eq V c t) cover3

/-! ## Region 6: rows of `main_v104` times the weights `main_v106` -/

/-- The stored block at (p, q): row p of the loaded rows against column q of the loaded weights. -/
theorem pay6_apply (x0 : Vec Ideal S10000x128 .f32) (x1 : Vec Ideal S128x128 .f32) (p : Fin 10000) (q : Fin 128) :
    k6_pay1 x0 x1 (ix2 p q) = ∑ k : Fin 128, x0 (ix2 p k) * x1 (ix2 k q) := by
  unfold k6_pay1
  simp only [shapeCast_self]
  exact Cert.LibPlainMatmul.matmul_zero_plain dot_S10000x128_S128x128_S10000x128_1_0_0_1_n_n_wf x0 x1 p q

/-- The printed index maps over the five points: the row block of the operand and of the result is the point's number,
    on column block 0; the weights' block is (0, 0). -/
theorem idx_facts6 : ∀ t : Fin cfg6.N, win6_0.index t (0 : Fin 2) = win6_2.index t (0 : Fin 2)
    ∧ win6_0.index t (1 : Fin 2) = 0
    ∧ win6_1.index t (0 : Fin 2) = 0
    ∧ win6_1.index t (1 : Fin 2) = 0
    ∧ win6_2.index t (1 : Fin 2) = 0
    ∧ win6_2.index t (0 : Fin 2) ≤ 4 :=
  (by decide +kernel : ∀ t : Fin grid6.N, _)

/-- Every one of the five row blocks is some point's. -/
theorem idx_onto6 : ∀ q0 : Fin 5, ∃ t : Fin cfg6.N, win6_2.index t = ![q0.val, 0] :=
  (by decide +kernel : ∀ q0 : Fin 5, ∃ t : Fin grid6.N, win6_2.index t = ![q0.val, 0])

/-- What point t writes back is block t of the full product. -/
theorem flushed6_eq (c : Dev nD) (t : Fin cfg6.N) :
    (dat6 (F := Ideal) V c).flushed 2 t
      = ((cfg6.win 2).blk t).view.read (Elt Ideal) (Cert.Spec.mm (V c main_v104) (V c main_v106)) := by
  show (cfg6.win 2).cut (grid6.coords t) ((dat6 (F := Ideal) V c).after 2 t) = _
  rw [after6_2]
  unfold out6_2
  rw [View.canon_unit_zero zeroOff2]
  simp only [View.ld_unit_zero (S := S10000x128) zeroOff2, View.ld_unit_zero (S := S128x128) zeroOff2]
  obtain ⟨e0, e1, e2, e3, e4, e5⟩ := idx_facts6 t
  funext j
  obtain ⟨p, q, rfl⟩ : ∃ (p : Fin 10000) (q : Fin 128), j = ix2 p q := ⟨j 0, j 1, eq_ix2 j⟩
  show k6_pay1 (iblk6 V c 0 t) (iblk6 V c 1 t) (ix2 p q)
    = Cert.Spec.mm (V c main_v104) (V c main_v106) (((cfg6.win 2).blk t).view.emb (ix2 p q))
  refine (pay6_apply (iblk6 V c 0 t) (iblk6 V c 1 t) p q).trans ?_
  unfold Cert.Spec.mm
  refine Finset.sum_congr rfl fun k _ => ?_
  have h0 : (iblk6 V c 0 t : Vec Ideal S10000x128 .f32) (ix2 p k)
      = (V c main_v104 : S50000x128.Idx → EReal) (ix2 ((((cfg6.win 2).blk t).view.emb (ix2 p q)) 0) k) := by
    show (V c main_v104 : S50000x128.Idx → EReal) (((cfg6.win 0).blk t).view.emb (ix2 p k)) = _
    refine congrArg _ (funext fun a => Fin.ext ?_)
    match a with
    | ⟨0, _⟩ =>
      show win6_0.index t (0 : Fin 2) * 10000 + 1 * p.val = win6_2.index t (0 : Fin 2) * 10000 + 1 * p.val
      omega
    | ⟨1, _⟩ =>
      show win6_0.index t (1 : Fin 2) * 128 + 1 * k.val = k.val
      omega
  have h1 : (iblk6 V c 1 t : Vec Ideal S128x128 .f32) (ix2 k q)
      = (V c main_v106 : S128x128.Idx → EReal) (ix2 k ((((cfg6.win 2).blk t).view.emb (ix2 p q)) 1)) := by
    show (V c main_v106 : S128x128.Idx → EReal) (((cfg6.win 1).blk t).view.emb (ix2 k q)) = _
    refine congrArg _ (funext fun a => Fin.ext ?_)
    match a with
    | ⟨0, _⟩ =>
      show win6_1.index t (0 : Fin 2) * 128 + 1 * k.val = k.val
      omega
    | ⟨1, _⟩ =>
      show win6_1.index t (1 : Fin 2) * 128 + 1 * q.val = win6_2.index t (1 : Fin 2) * 128 + 1 * q.val
      omega
  rw [h0, h1]

/-- A row and column of the result are in point t's block iff each lies in the block's range on its axis. -/
theorem mem_blk6 (t : Fin cfg6.N) (i : S50000x128.Idx) :
    i ∈ ((cfg6.win 2).blk t).view.set ↔ ∀ a : Fin 2, win6_2.index t a * S10000x128.size a ≤ (i a).val
      ∧ (i a).val < win6_2.index t a * S10000x128.size a + S10000x128.size a := by
  show i ∈ ((View.whole main_v107).slice (win6_2.rect t)).set ↔ _
  rw [View.set_slice_whole, Rect.mem_set_unit]
  exact Iff.rfl

/-- Every entry of the result lies in the block of the point numbered (row / 10000). -/
theorem cover6 (i : S50000x128.Idx) :
    ∃ t : Fin cfg6.N, (cfg6.win 2).flush t = true ∧ i ∈ ((cfg6.win 2).blk t).view.set := by
  have hi0 : (i 0).val < 50000 := (i 0).isLt
  have hi1 : (i 1).val < 128 := (i 1).isLt
  obtain ⟨t, ht⟩ := idx_onto6 ⟨(i 0).val / 10000, by omega⟩
  have q0 : win6_2.index t (0 : Fin 2) = (i 0).val / 10000 := congrFun ht 0
  have q1 : win6_2.index t (1 : Fin 2) = 0 := congrFun ht 1
  refine ⟨t, flush6_2 t, ?_⟩
  rw [mem_blk6]
  intro a
  match a with
  | ⟨0, _⟩ =>
    show win6_2.index t (0 : Fin 2) * 10000 ≤ (i 0).val ∧ (i 0).val < win6_2.index t (0 : Fin 2) * 10000 + 10000
    omega
  | ⟨1, _⟩ =>
    show win6_2.index t (1 : Fin 2) * 128 ≤ (i 1).val ∧ (i 1).val < win6_2.index t (1 : Fin 2) * 128 + 128
    omega

/-- The result array after the region is the full product of the two arrays the region finds. -/
theorem region6_out (c : Dev nD) :
    (dat6 (F := Ideal) V c).arrAt 2 cfg6.N = Cert.Spec.mm (V c main_v104) (V c main_v106) :=
  (dat6 (F := Ideal) V c).arrAt_eq_of_cover 2 (Cert.Spec.mm (V c main_v104) (V c main_v106))
    (fun t _ => flushed6_eq V c t) cover6

end Cert.KernelIdeal.RegVal

end
-- ==== Proof.LibBlockedSum.lean ====
/-
  General lemmas for a contraction that a kernel accumulates block by block along the contracted axis.

  Arrays are read at NATURAL coordinates (their entry inside the extents, zero outside), so that a block's offset
  arithmetic is plain arithmetic on naturals: at2 for a matrix, at1 for a vector, and at2_of_idx / at1_of_idx to pass
  from an entry at an index to the reading at the index's coordinates.

  A sum over 0 .. B n - 1 is the sum, over the n consecutive blocks, of each block's B terms (sum_range_blocks over
  ranges, sum_fin_blocks with the inner and the whole sum over finite index types). Only associativity and
  commutativity of + are used, so the lemmas hold in any commutative additive monoid, in particular on the extended
  reals without any finiteness assumption. blocked_contraction is the form a matrix product with a bias takes:
  accumulated from zero over n blocks of B along the contracted axis, then the bias added, against the whole
  contraction plus the bias.
-/
import Idealize.ShloMosaic.Lib.ValueIdx
import Idealize.ShloMosaic.PureOps.Ideal.Laws

noncomputable section

namespace Cert.BlockedSum

open Idealize.ShloMosaic Idealize.ShloMosaic.ValueIdx

/-- A matrix read at natural coordinates: its entry inside the extents, zero outside. -/
def at2 {n0 n1 : ℕ} (x : (⟨2, ![n0, n1]⟩ : Shape).Idx → EReal) (a b : ℕ) : EReal :=
  if h : a < n0 ∧ b < n1 then x (ix2 ⟨a, h.1⟩ ⟨b, h.2⟩) else 0

/-- A vector read at a natural coordinate: its entry inside the extent, zero outside. -/
def at1 {n : ℕ} (x : (⟨1, ![n]⟩ : Shape).Idx → EReal) (a : ℕ) : EReal :=
  if h : a < n then x (ix1 ⟨a, h⟩) else 0

/-- An entry of a matrix is its reading at the index's coordinates. -/
theorem at2_of_idx {n0 n1 : ℕ} (x : (⟨2, ![n0, n1]⟩ : Shape).Idx → EReal) (j : (⟨2, ![n0, n1]⟩ : Shape).Idx)
    (a b : ℕ) (ha : (j 0).val = a) (hb : (j 1).val = b) : x j = at2 x a b := by
  subst ha; subst hb
  unfold at2
  rw [dif_pos ⟨idx2_lt0 j, idx2_lt1 j⟩]
  exact congrArg x (eq_ix2 j)

/-- An entry of a vector is its reading at the index's coordinate. -/
theorem at1_of_idx {n : ℕ} (x : (⟨1, ![n]⟩ : Shape).Idx → EReal) (j : (⟨1, ![n]⟩ : Shape).Idx)
    (a : ℕ) (ha : (j 0).val = a) : x j = at1 x a := by
  subst ha
  unfold at1
  rw [dif_pos (show (j 0).val < n from (j 0).isLt)]
  exact congrArg x (eq_ix1 j)

/-- A sum over 0 .. B n - 1 is the sum over n consecutive blocks of B terms each. -/
theorem sum_range_blocks {β : Type*} [AddCommMonoid β] (f : ℕ → β) (B : ℕ) (n : ℕ) :
    ∑ s ∈ Finset.range n, ∑ k ∈ Finset.range B, f (B * s + k) = ∑ k ∈ Finset.range (B * n), f k := by
  induction n with
  | zero => simp
  | succ n ih => rw [Finset.sum_range_succ, ih, Nat.mul_succ, Finset.sum_range_add]

/-- The same with each block and the whole sum over finite index types: N = B n terms as n blocks of B. -/
theorem sum_fin_blocks {β : Type*} [AddCommMonoid β] (f : ℕ → β) (B n N : ℕ) (hN : N = B * n) :
    ∑ s ∈ Finset.range n, ∑ k : Fin B, f (B * s + k.val) = ∑ k : Fin N, f k.val := by
  subst hN
  rw [Fin.sum_univ_eq_sum_range (fun k => f k) (B * n), ← sum_range_blocks f B n]
  exact Finset.sum_congr rfl fun s _ => Fin.sum_univ_eq_sum_range (fun k => f (B * s + k)) B

/-- A contraction over N = B n terms, accumulated from zero in n blocks of B, then the bias added: the whole
    contraction plus the bias. -/
theorem blocked_contraction (X W : ℕ → ℕ → EReal) (b : ℕ → EReal) (p q : ℕ) (B n N : ℕ) (hN : N = B * n) :
    (0 + ∑ s ∈ Finset.range n, ∑ k : Fin B, X p (B * s + k.val) * W (B * s + k.val) q) + b q
      = (∑ k : Fin N, X p k.val * W k.val q) + b q := by
  rw [zero_add]
  exact congrArg (· + b q) (sum_fin_blocks (fun k => X p k * W k q) B n N hN)

end Cert.BlockedSum

end
-- ==== Proof.RegStats.lean ====
/-
  The batch-norm statistics kernels of the three graph-convolution layers, read as values.

  Each of the three kernels walks the 50000 rows in five blocks of 10000. At every block it adds the bias row to the
  block of aggregated features (the third kernel then clamps below at zero), stores the result block, and adds the
  block's column sums, and the column sums of the squares, onto two one-row accumulators that the first block starts
  from zero. The stored blocks tile the result array, so the array is the bias-added matrix itself. After block n
  an accumulator holds, at column j, the sum of the first (n + 1) * 10000 rows of its matrix at column j: addition on
  the extended reals is commutative and associative, zero is neutral, so the five block sums added in order are the
  column sum over all 50000 rows. The accumulators are written back once, after the last block.
-/
import proofs.«126339_j45595372814849_1_alg».proof.Proof.Gen.KernelIdeal.Frame
import proofs.«126339_j45595372814849_1_alg».proof.Proof.Spec
import proofs.«126339_j45595372814849_1_alg».proof.Proof.LibBlockedSum
import Idealize.ShloMosaic.Lib.Pipeline.Value
import Idealize.ShloMosaic.Lib.ValueLayout
import Idealize.ShloMosaic.Lib.Tactic

noncomputable section

open scoped BigOperators
open Idealize.ShloMosaic Idealize.ShloMosaic.TcCoe Idealize.SL.Sem
open Idealize.ShloMosaic.Pipeline (Dat)

namespace Cert.KernelIdeal.RegVal

open Cert.KernelIdeal Cert.KernelIdeal.Gen Idealize.ShloMosaic Idealize.ShloMosaic.ValueIdx

/-! ## Sums over the rows, block by block -/

theorem hz : (![0, 0] : Fin 2 → Nat) = fun _ => 0 := funext fun a => by fin_cases a <;> rfl

/-- Row `a` of a matrix at column `j`; zero past the last row. -/
def rowAt (Z : Cert.Spec.M 50000 128) (a : ℕ) (j : Fin 128) : EReal :=
  if h : a < 50000 then Z (ix2 ⟨a, h⟩ j) else 0

/-- The sum, at column `j`, of the rows of the first `n` blocks of 10000 rows. -/
def psum (Z : Cert.Spec.M 50000 128) (n : ℕ) (j : Fin 128) : EReal :=
  ∑ s ∈ Finset.range n, ∑ k : Fin 10000, rowAt Z (10000 * s + k.val) j

theorem psum_zero (Z : Cert.Spec.M 50000 128) (j : Fin 128) : psum Z 0 j = 0 := Finset.sum_range_zero _

theorem psum_succ (Z : Cert.Spec.M 50000 128) (n : ℕ) (j : Fin 128) :
    psum Z (n + 1) j = psum Z n j + ∑ k : Fin 10000, rowAt Z (10000 * n + k.val) j := Finset.sum_range_succ _ _

/-- Five blocks are all the rows. -/
theorem psum_five (Z : Cert.Spec.M 50000 128) (j : Fin 128) : psum Z 5 j = ∑ n : Fin 50000, Z (ix2 n j) := by
  unfold psum
  rw [Cert.BlockedSum.sum_fin_blocks (fun a => rowAt Z a j) 10000 5 50000 (by norm_num)]
  exact Finset.sum_congr rfl fun n _ => by unfold rowAt; rw [dif_pos n.isLt]

/-- A row of the entrywise square is the square of the row. -/
theorem rowAt_sq (Z : Cert.Spec.M 50000 128) (a : ℕ) (j : Fin 128) (h : a < 50000) :
    rowAt (Cert.Spec.sq Z) a j = rowAt Z a j * rowAt Z a j := by
  unfold rowAt; rw [dif_pos h, dif_pos h]; rfl

theorem rowAt_of_lt (Z : Cert.Spec.M 50000 128) (a : ℕ) (j : Fin 128) (h : a < 50000) :
    rowAt Z a j = Z (ix2 ⟨a, h⟩ j) := by
  unfold rowAt; rw [dif_pos h]

/-! ## A block's column sums -/

/-- The column sum of a block of 10000 rows, as the lane reduction computes it. -/
theorem colsum_block (z : FVec Ideal S10000x128 .f32) (hacc : (0x00000000#32 : BitVec 32) = 0x00000000#32) (j : Fin 128) :
    shapeCast S1x128 (multiReduction (F := Ideal) .add [0] S128 z 0x00000000#32 reduces_S10000x128_S128 (.inl rfl) hacc)
      shapeCasts_S128_S1x128 (ix2 (0 : Fin 1) j) = ∑ r : Fin 10000, z (ix2 r j) := by
  refine (shapeCast_a_1a_apply _ _ 0 j).trans ?_
  refine (Ideal.multiReduction_add_single z 0x00000000#32 reduces_S10000x128_S128 (.inl rfl) hacc (ix1 j)).trans ?_
  exact Finset.sum_congr rfl fun r _ => congrArg z (funext fun a => Fin.ext (by
    match a with
    | ⟨0, _⟩ => rfl
    | ⟨1, _⟩ => rfl))

/-! # Region 1 -/

section Region1

/-! ## What each case of the body leaves in the staging buffers -/

section Pieces
variable {F : FTy → Type} [FloatOps F]
variable (c : Dev nD) (i : grid1.Coords)
  (a1 : Memref sig .tc .vmem S10000x128 .f32) (h1 : a1.IsWhole) (a2 : Memref sig .tc .vmem S1x128 .f32) (h2 : a2.IsWhole)
  (a3 : Memref sig .tc .vmem S10000x128 .f32) (h3 : a3.IsWhole) (a4 : Memref sig .tc .vmem S1x128 .f32) (h4 : a4.IsWhole)
  (a5 : Memref sig .tc .vmem S1x128 .f32) (h5 : a5.IsWhole)
  (x0 : Vec F S10000x128 .f32) (x1 : Vec F S1x128 .f32) (xo3 xo4 : Vec F S1x128 .f32)

/-- The first block: the result block is the bias-added block. -/
theorem out1_A_2_eq (hc : cond1_0 i) :
    out1_A_2 c i a1 h1 a2 h2 a3 h3 a4 h4 a5 h5 hc x0 x1 = k1_pay3 x0 x1 := by
  unfold out1_A_2
  rw [View.read_writes_eq_canon _ _ _ (cover1_A_2 c i a1 h1 a2 h2 a3 h3 a4 h4 a5 h5 hc x0 x1)]
  unfold kernelRun1_A
  dsimp only
  sl_unfold_words
  rw [View.canon_unit_zero hz]
  simp only [View.readAt_eq_ld, h1.read_unread, h2.read_unread, View.ld_unit_zero (S := S10000x128) hz,
    View.ld_unit_zero (S := S1x128) hz]

/-- The first block: the sum accumulator is the block's column sums added onto the zero row. -/
theorem out1_A_3_eq (hc : cond1_0 i) :
    out1_A_3 c i a1 h1 a2 h2 a3 h3 a4 h4 a5 h5 hc x0 x1 = k1_pay4 x0 x1 k1_pay1 := by
  unfold out1_A_3
  rw [View.read_writes_eq_canon _ _ _ (cover1_A_3 c i a1 h1 a2 h2 a3 h3 a4 h4 a5 h5 hc x0 x1)]
  unfold kernelRun1_A
  dsimp only
  sl_unfold_words
  rw [View.canon_cons_unit_zero (S := S1x128) hz, View.readCov_unit_zero (S := S1x128) _ hz]
  simp only [View.readAt_eq_ld, h1.read_unread, h2.read_unread, View.ld_unit_zero (S := S10000x128) hz,
    View.ld_unit_zero (S := S1x128) hz]

/-- The first block: the accumulator of squares likewise. -/
theorem out1_A_4_eq (hc : cond1_0 i) :
    out1_A_4 c i a1 h1 a2 h2 a3 h3 a4 h4 a5 h5 hc x0 x1 = k1_pay5 x0 x1 k1_pay2 := by
  unfold out1_A_4
  rw [View.read_writes_eq_canon _ _ _ (cover1_A_4 c i a1 h1 a2 h2 a3 h3 a4 h4 a5 h5 hc x0 x1)]
  unfold kernelRun1_A
  dsimp only
  sl_unfold_words
  rw [View.canon_cons_unit_zero (S := S1x128) hz, View.readCov_unit_zero (S := S1x128) _ hz]
  simp only [View.readAt_eq_ld, h1.read_unread, h2.read_unread, View.ld_unit_zero (S := S10000x128) hz,
    View.ld_unit_zero (S := S1x128) hz]

/-- A later block: the result block is the bias-added block. -/
theorem out1_B_2_eq (hc : ¬cond1_0 i) :
    out1_B_2 c i a1 h1 a2 h2 a3 h3 a4 h4 a5 h5 hc x0 x1 xo3 xo4 = k1_pay3 x0 x1 := by
  unfold out1_B_2
  rw [View.read_writes_eq_canon _ _ _ (cover1_B_2 c i a1 h1 a2 h2 a3 h3 a4 h4 a5 h5 hc x0 x1 xo3 xo4)]
  unfold kernelRun1_B
  dsimp only
  sl_unfold_words
  rw [View.canon_unit_zero hz]
  simp only [View.readAt_eq_ld, h1.read_unread, h2.read_unread, View.ld_unit_zero (S := S10000x128) hz,
    View.ld_unit_zero (S := S1x128) hz]

/-- A later block: the block's column sums added onto what the accumulator held. -/
theorem out1_B_3_eq (hc : ¬cond1_0 i) :
    out1_B_3 c i a1 h1 a2 h2 a3 h3 a4 h4 a5 h5 hc x0 x1 xo3 xo4 = k1_pay4 x0 x1 xo3 := by
  unfold out1_B_3
  rw [View.read_writes_eq_canon _ _ _ (cover1_B_3 c i a1 h1 a2 h2 a3 h3 a4 h4 a5 h5 hc x0 x1 xo3 xo4)]
  unfold kernelRun1_B
  dsimp only
  sl_unfold_words
  rw [View.canon_unit_zero hz]
  simp only [View.readAt_eq_ld, h1.read_unread, h2.read_unread, h4.read_unread, View.ld_unit_zero (S := S10000x128) hz,
    View.ld_unit_zero (S := S1x128) hz]

/-- A later block: the accumulator of squares likewise. -/
theorem out1_B_4_eq (hc : ¬cond1_0 i) :
    out1_B_4 c i a1 h1 a2 h2 a3 h3 a4 h4 a5 h5 hc x0 x1 xo3 xo4 = k1_pay5 x0 x1 xo4 := by
  unfold out1_B_4
  rw [View.read_writes_eq_canon _ _ _ (cover1_B_4 c i a1 h1 a2 h2 a3 h3 a4 h4 a5 h5 hc x0 x1 xo3 xo4)]
  unfold kernelRun1_B
  dsimp only
  sl_unfold_words
  rw [View.canon_unit_zero hz]
  simp only [View.readAt_eq_ld, h1.read_unread, h2.read_unread, h5.read_unread, View.ld_unit_zero (S := S10000x128) hz,
    View.ld_unit_zero (S := S1x128) hz]

end Pieces

/-! ## The payloads at an index -/

/-- The bias-added block at row `r`, column `j`. -/
theorem k1_pay3_apply (x0 : Vec Ideal S10000x128 .f32) (x1 : Vec Ideal S1x128 .f32) (r : Fin 10000) (j : Fin 128) :
    k1_pay3 (F := Ideal) x0 x1 (ix2 r j) = x0 (ix2 r j) + x1 (ix2 (0 : Fin 1) j) := by
  unfold k1_pay3
  show shapeCast S10000x128 x0 shapeCasts_S10000x128_S10000x128 (ix2 r j)
    + broadcastTo S10000x128 (shapeCast S1x128 x1 shapeCasts_S1x128_S1x128) broadcasts_S1x128_S10000x128 (ix2 r j) = _
  rw [shapeCast_self, shapeCast_self, broadcastTo_1b_ab_apply]

/-- The sum accumulator after a block: what it held plus the block's column sums. -/
theorem k1_pay4_apply (x0 : Vec Ideal S10000x128 .f32) (x1 : Vec Ideal S1x128 .f32) (acc : Vec Ideal S1x128 .f32) (j : Fin 128) :
    k1_pay4 (F := Ideal) x0 x1 acc (ix2 (0 : Fin 1) j)
      = acc (ix2 (0 : Fin 1) j) + ∑ r : Fin 10000, k1_pay3 (F := Ideal) x0 x1 (ix2 r j) := by
  unfold k1_pay4
  show shapeCast S1x128 acc shapeCasts_S1x128_S1x128 (ix2 (0 : Fin 1) j)
    + shapeCast S1x128 (multiReduction (F := Ideal) .add [0] S128 (k1_pay3 x0 x1) 0x00000000#32 reduces_S10000x128_S128 (.inl rfl) rfl)
        shapeCasts_S128_S1x128 (ix2 (0 : Fin 1) j) = _
  rw [shapeCast_self]
  exact congrArg (acc (ix2 (0 : Fin 1) j) + ·) (colsum_block (k1_pay3 x0 x1) rfl j)

/-- The accumulator of squares after a block: what it held plus the column sums of the block's squares. -/
theorem k1_pay5_apply (x0 : Vec Ideal S10000x128 .f32) (x1 : Vec Ideal S1x128 .f32) (acc : Vec Ideal S1x128 .f32) (j : Fin 128) :
    k1_pay5 (F := Ideal) x0 x1 acc (ix2 (0 : Fin 1) j)
      = acc (ix2 (0 : Fin 1) j) + ∑ r : Fin 10000, k1_pay3 (F := Ideal) x0 x1 (ix2 r j) * k1_pay3 (F := Ideal) x0 x1 (ix2 r j) := by
  unfold k1_pay5
  show shapeCast S1x128 acc shapeCasts_S1x128_S1x128 (ix2 (0 : Fin 1) j)
    + shapeCast S1x128 (multiReduction (F := Ideal) .add [0] S128 (mulf (k1_pay3 x0 x1) (k1_pay3 x0 x1)) 0x00000000#32 reduces_S10000x128_S128 (.inl rfl) rfl)
        shapeCasts_S128_S1x128 (ix2 (0 : Fin 1) j) = _
  rw [shapeCast_self]
  exact congrArg (acc (ix2 (0 : Fin 1) j) + ·) (colsum_block (mulf (k1_pay3 x0 x1) (k1_pay3 x0 x1)) rfl j)

/-- The zero rows the first block stores. -/
theorem k1_pay1_apply (i : S1x128.Idx) : k1_pay1 (F := Ideal) i = 0 := Ideal.ofBits_zero_f32
theorem k1_pay2_apply (i : S1x128.Idx) : k1_pay2 (F := Ideal) i = 0 := Ideal.ofBits_zero_f32

/-! ## The blocks the windows read -/

variable (V : (c : Dev nD) → (b : Ref sig .tc) → Buf (Elt Ideal) ((c : Thread nD τ).loc b))

/-- The printed index maps over the grid: the row windows move with the point, the one-row windows stay. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The bias-added matrix. -/
abbrev Z1 (c : Dev nD) : Cert.Spec.M 50000 128 := Cert.Spec.addRow (V c main_v47) (V c main_v50)

/-- Block `t` of the aggregated features is its rows `10000 t …`. -/
theorem blk1_0_apply (c : Dev nD) (t : Fin cfg1.N) (r : Fin 10000) (j : Fin 128) (h : 10000 * t.val + r.val < 50000) :
    (iblk1 (F := Ideal) V c 0 t : Vec Ideal S10000x128 .f32) (ix2 r j)
      = (V c main_v47 : Cert.Spec.M 50000 128) (ix2 ⟨10000 * t.val + r.val, h⟩ j) := by
  obtain ⟨e0, e1, -⟩ := idx_facts1 t
  unfold iblk1
  rw [View.read_apply]
  show V c main_v47 (((cfg1.win 0).blk t).view.emb (ix2 r j)) = V c main_v47 _
  refine congrArg (V c main_v47) (funext fun a => Fin.ext ?_)
  match a with
  | ⟨0, _⟩ => show win1_0.index t (0 : Fin 2) * 10000 + 1 * r.val = 10000 * t.val + r.val; rw [e0]; omega
  | ⟨1, _⟩ => show win1_0.index t (1 : Fin 2) * 128 + 1 * j.val = j.val; rw [e1]; omega

/-- The bias row's block is the bias row at every point. -/
theorem blk1_1_apply (c : Dev nD) (t : Fin cfg1.N) (j : Fin 128) :
    (iblk1 (F := Ideal) V c 1 t : Vec Ideal S1x128 .f32) (ix2 (0 : Fin 1) j)
      = (V c main_v50 : Cert.Spec.M 1 128) (ix2 (0 : Fin 1) j) := by
  obtain ⟨-, -, e0, e1, -⟩ := idx_facts1 t
  unfold iblk1
  rw [View.read_apply]
  show V c main_v50 (((cfg1.win 1).blk t).view.emb (ix2 (0 : Fin 1) j)) = V c main_v50 _
  refine congrArg (V c main_v50) (funext fun a => Fin.ext ?_)
  match a with
  | ⟨0, _⟩ => show win1_1.index t (0 : Fin 2) * 1 + 1 * 0 = 0; rw [e0]
  | ⟨1, _⟩ => show win1_1.index t (1 : Fin 2) * 128 + 1 * j.val = j.val; rw [e1]; omega

/-- The bias-added block at point `t` is the bias-added matrix at the block's rows. -/
theorem pay3_blk1 (c : Dev nD) (t : Fin cfg1.N) (r : Fin 10000) (j : Fin 128) (h : 10000 * t.val + r.val < 50000) :
    k1_pay3 (F := Ideal) (iblk1 V c 0 t) (iblk1 V c 1 t) (ix2 r j) = Z1 V c (ix2 ⟨10000 * t.val + r.val, h⟩ j) := by
  refine (k1_pay3_apply (iblk1 V c 0 t) (iblk1 V c 1 t) r j).trans ?_
  exact congrArg₂ (· + ·) (blk1_0_apply V c t r j h) (blk1_1_apply V c t j)

theorem pay3_row1 (c : Dev nD) (t : Fin cfg1.N) (r : Fin 10000) (j : Fin 128) :
    k1_pay3 (F := Ideal) (iblk1 V c 0 t) (iblk1 V c 1 t) (ix2 r j) = rowAt (Z1 V c) (10000 * t.val + r.val) j := by
  have hN : t.val < 5 := lt_of_lt_of_eq t.isLt (show cfg1.N = 5 from N_1)
  have h : 10000 * t.val + r.val < 50000 := by have := r.isLt; omega
  rw [rowAt_of_lt _ _ _ h]
  exact pay3_blk1 V c t r j h

/-! ## What the staging buffers hold after each point -/

theorem outs1_zero (c : Dev nD) (hn : 0 < cfg1.N) :
    outsAt1 (F := Ideal) V c 0 hn = (k1_pay3 (iblk1 V c 0 ⟨0, hn⟩) (iblk1 V c 1 ⟨0, hn⟩),
      k1_pay4 (iblk1 V c 0 ⟨0, hn⟩) (iblk1 V c 1 ⟨0, hn⟩) (k1_pay1 (F := Ideal)),
      k1_pay5 (iblk1 V c 0 ⟨0, hn⟩) (iblk1 V c 1 ⟨0, hn⟩) (k1_pay2 (F := Ideal))) :=
  (outsAt1_A V c ⟨0, hn⟩ rfl).trans (congrArg₂ Prod.mk
    (out1_A_2_eq c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (iblk1 V c 0 ⟨0, hn⟩) (iblk1 V c 1 ⟨0, hn⟩) _)
    (congrArg₂ Prod.mk
      (out1_A_3_eq c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (iblk1 V c 0 ⟨0, hn⟩) (iblk1 V c 1 ⟨0, hn⟩) _)
      (out1_A_4_eq c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (iblk1 V c 0 ⟨0, hn⟩) (iblk1 V c 1 ⟨0, hn⟩) _)))

theorem outs1_succ (c : Dev nD) (n : ℕ) (hn : n + 1 < cfg1.N) :
    outsAt1 (F := Ideal) V c (n + 1) hn = (k1_pay3 (iblk1 V c 0 ⟨n + 1, hn⟩) (iblk1 V c 1 ⟨n + 1, hn⟩),
      k1_pay4 (iblk1 V c 0 ⟨n + 1, hn⟩) (iblk1 V c 1 ⟨n + 1, hn⟩) (outsAt1 V c n (Nat.lt_of_succ_lt hn)).2.1,
      k1_pay5 (iblk1 V c 0 ⟨n + 1, hn⟩) (iblk1 V c 1 ⟨n + 1, hn⟩) (outsAt1 V c n (Nat.lt_of_succ_lt hn)).2.2) := by
  have hN : cfg1.N = 5 := N_1
  have hB : ¬(⟨n + 1, hn⟩ : Fin cfg1.N).val % 5 = 0 := by dsimp only; omega
  exact (outsAt1_B V c ⟨n + 1, hn⟩ hB).trans (congrArg₂ Prod.mk
    (out1_B_2_eq c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (iblk1 V c 0 ⟨n + 1, hn⟩) (iblk1 V c 1 ⟨n + 1, hn⟩) (outsAt1 V c n (Nat.lt_of_succ_lt hn)).2.1 (outsAt1 V c n (Nat.lt_of_succ_lt hn)).2.2 _)
    (congrArg₂ Prod.mk
      (out1_B_3_eq c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (iblk1 V c 0 ⟨n + 1, hn⟩) (iblk1 V c 1 ⟨n + 1, hn⟩) (outsAt1 V c n (Nat.lt_of_succ_lt hn)).2.1 (outsAt1 V c n (Nat.lt_of_succ_lt hn)).2.2 _)
      (out1_B_4_eq c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (iblk1 V c 0 ⟨n + 1, hn⟩) (iblk1 V c 1 ⟨n + 1, hn⟩) (outsAt1 V c n (Nat.lt_of_succ_lt hn)).2.1 (outsAt1 V c n (Nat.lt_of_succ_lt hn)).2.2 _)))

/-- The result block at every point is the bias-added block. -/
theorem outs1_fst (c : Dev nD) : ∀ (n : ℕ) (hn : n < cfg1.N),
    (outsAt1 (F := Ideal) V c n hn).1 = k1_pay3 (iblk1 V c 0 ⟨n, hn⟩) (iblk1 V c 1 ⟨n, hn⟩)
  | 0, hn => congrArg Prod.fst (outs1_zero V c hn)
  | n + 1, hn => congrArg Prod.fst (outs1_succ V c n hn)

/-- After point `n` the sum accumulator holds the column sums of the first `n + 1` blocks. -/
theorem sum_inv1 (c : Dev nD) : ∀ (n : ℕ) (hn : n < cfg1.N) (j : Fin 128),
    (outsAt1 (F := Ideal) V c n hn).2.1 (ix2 (0 : Fin 1) j) = psum (Z1 V c) (n + 1) j
  | 0, hn, j => by
    rw [outs1_zero V c hn, psum_succ, psum_zero]
    refine (k1_pay4_apply (iblk1 V c 0 ⟨0, hn⟩) (iblk1 V c 1 ⟨0, hn⟩) (k1_pay1 (F := Ideal)) j).trans ?_
    exact congrArg₂ (· + ·) (k1_pay1_apply _) (Finset.sum_congr rfl fun r _ => pay3_row1 V c ⟨0, hn⟩ r j)
  | n + 1, hn, j => by
    rw [outs1_succ V c n hn, psum_succ]
    refine (k1_pay4_apply (iblk1 V c 0 ⟨n + 1, hn⟩) (iblk1 V c 1 ⟨n + 1, hn⟩) (outsAt1 V c n (Nat.lt_of_succ_lt hn)).2.1 j).trans ?_
    exact congrArg₂ (· + ·) (sum_inv1 c n (Nat.lt_of_succ_lt hn) j) (Finset.sum_congr rfl fun r _ => pay3_row1 V c ⟨n + 1, hn⟩ r j)

/-- After point `n` the accumulator of squares holds the column sums of the squares of the first `n + 1` blocks. -/
theorem sq_inv1 (c : Dev nD) : ∀ (n : ℕ) (hn : n < cfg1.N) (j : Fin 128),
    (outsAt1 (F := Ideal) V c n hn).2.2 (ix2 (0 : Fin 1) j) = psum (Cert.Spec.sq (Z1 V c)) (n + 1) j
  | 0, hn, j => by
    have hN : cfg1.N = 5 := N_1
    rw [outs1_zero V c hn, psum_succ, psum_zero]
    refine (k1_pay5_apply (iblk1 V c 0 ⟨0, hn⟩) (iblk1 V c 1 ⟨0, hn⟩) (k1_pay2 (F := Ideal)) j).trans ?_
    refine congrArg₂ (· + ·) (k1_pay2_apply _) (Finset.sum_congr rfl fun r _ => ?_)
    rw [rowAt_sq (Z1 V c) (10000 * 0 + r.val) j (by have := r.isLt; omega), pay3_row1 V c ⟨0, hn⟩ r j]
  | n + 1, hn, j => by
    have hN : cfg1.N = 5 := N_1
    rw [outs1_succ V c n hn, psum_succ]
    refine (k1_pay5_apply (iblk1 V c 0 ⟨n + 1, hn⟩) (iblk1 V c 1 ⟨n + 1, hn⟩) (outsAt1 V c n (Nat.lt_of_succ_lt hn)).2.2 j).trans ?_
    refine congrArg₂ (· + ·) (sq_inv1 c n (Nat.lt_of_succ_lt hn) j) (Finset.sum_congr rfl fun r _ => ?_)
    rw [rowAt_sq (Z1 V c) (10000 * (n + 1) + r.val) j (by have := r.isLt; omega), pay3_row1 V c ⟨n + 1, hn⟩ r j]

/-! ## The write-backs and the arrays after the region -/

/-- The five blocks of the result window are the bias-added matrix's. -/
theorem flushed1_2_eq (c : Dev nD) (t : Fin cfg1.N) :
    (dat1 (F := Ideal) V c).flushed 2 t = ((cfg1.win 2).blk t).view.read (Elt Ideal) (Z1 V c) := by
  have hN : t.val < 5 := lt_of_lt_of_eq t.isLt (show cfg1.N = 5 from N_1)
  obtain ⟨-, -, -, -, e0, e1⟩ := idx_facts1 t
  show (cfg1.win 2).cut (grid1.coords t) ((dat1 V c).after 2 t) = _
  rw [after1_2, outs1_fst V c t.val t.isLt]
  funext y
  rw [View.read_apply]
  have hy0 : (y 0).val < 10000 := (y 0).isLt
  have hy1 : (y 1).val < 128 := (y 1).isLt
  have h : 10000 * t.val + (⟨(y 0).val, hy0⟩ : Fin 10000).val < 50000 := by dsimp only; omega
  have ey : y = ix2 (⟨(y 0).val, hy0⟩ : Fin 10000) (⟨(y 1).val, hy1⟩ : Fin 128) := funext fun a => by
    match a with
    | ⟨0, _⟩ => rfl
    | ⟨1, _⟩ => rfl
  refine (congrArg (k1_pay3 (F := Ideal) (iblk1 V c 0 t) (iblk1 V c 1 t)) ey).trans ?_
  refine (pay3_blk1 V c t ⟨(y 0).val, hy0⟩ ⟨(y 1).val, hy1⟩ h).trans ?_
  show Z1 V c _ = Z1 V c (((cfg1.win 2).blk t).view.emb y)
  refine congrArg (Z1 V c) (funext fun a => Fin.ext ?_)
  match a with
  | ⟨0, _⟩ => show 10000 * t.val + (y 0).val = win1_2.index t (0 : Fin 2) * 10000 + 1 * (y 0).val; rw [e0]; omega
  | ⟨1, _⟩ => show (y 1).val = win1_2.index t (1 : Fin 2) * 128 + 1 * (y 1).val; rw [e1]; omega

/-- An index of the result array is in point `t`'s block iff each coordinate is in the block's range. -/
theorem mem_blk1_2 (t : Fin cfg1.N) (i : S50000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v51_0).slice (win1_2.rect t)).set ↔ _
  rw [View.set_slice_whole, Rect.mem_set_unit]
  exact Iff.rfl

/-- The result array is the bias-added matrix. -/
theorem region1_z (c : Dev nD) :
    (dat1 (F := Ideal) V c).arrAt 2 cfg1.N = Cert.Spec.addRow (V c main_v47) (V c main_v50) :=
  (dat1 (F := Ideal) V c).arrAt_eq_of_cover 2 (Z1 V c) (fun t _ => flushed1_2_eq V c t) fun i => by
    have hi0 : (i 0).val < 50000 := (i 0).isLt
    have hi1 : (i 1).val < 128 := (i 1).isLt
    have hN : cfg1.N = 5 := N_1
    refine ⟨⟨(i 0).val / 10000, by rw [hN]; omega⟩, flush1_2 _, ?_⟩
    rw [mem_blk1_2]
    obtain ⟨-, -, -, -, e0, e1⟩ := idx_facts1 ⟨(i 0).val / 10000, by rw [hN]; omega⟩
    intro a
    match a with
    | ⟨0, _⟩ =>
      show win1_2.index ⟨(i 0).val / 10000, _⟩ (0 : Fin 2) * 10000 ≤ (i 0).val ∧ (i 0).val < win1_2.index ⟨(i 0).val / 10000, _⟩ (0 : Fin 2) * 10000 + 10000
      rw [e0]; dsimp only; omega
    | ⟨1, _⟩ =>
      show win1_2.index ⟨(i 0).val / 10000, _⟩ (1 : Fin 2) * 128 ≤ (i 1).val ∧ (i 1).val < win1_2.index ⟨(i 0).val / 10000, _⟩ (1 : Fin 2) * 128 + 128
      rw [e1]; omega

/-- After the last point the sum accumulator is the column sum of the bias-added matrix. -/
theorem sum_last1 (c : Dev nD) : (outsAt1 (F := Ideal) V c t1_4.val t1_4.isLt).2.1 = Cert.Spec.colSum (Z1 V c) := by
  funext i
  obtain ⟨u, j, rfl⟩ : ∃ (u : Fin 1) (j : Fin 128), i = ix2 u j := ⟨i 0, i 1, eq_ix2 i⟩
  obtain rfl : u = 0 := Subsingleton.elim _ _
  exact (sum_inv1 V c 4 t1_4.isLt j).trans (psum_five _ j)

theorem sq_last1 (c : Dev nD) :
    (outsAt1 (F := Ideal) V c t1_4.val t1_4.isLt).2.2 = Cert.Spec.colSum (Cert.Spec.sq (Z1 V c)) := by
  funext i
  obtain ⟨u, j, rfl⟩ : ∃ (u : Fin 1) (j : Fin 128), i = ix2 u j := ⟨i 0, i 1, eq_ix2 i⟩
  obtain rfl : u = 0 := Subsingleton.elim _ _
  exact (sq_inv1 V c 4 t1_4.isLt j).trans (psum_five _ j)

/-- The one write-back of the sum accumulator, after the last point: its block is the whole one-row array. -/
theorem flushed1_3_eq (c : Dev nD) (t : Fin cfg1.N) (hf : (cfg1.win 3).flush t = true) :
    (dat1 (F := Ideal) V c).flushed 3 t = ((cfg1.win 3).blk t).view.read (Elt Ideal) (Cert.Spec.colSum (Z1 V c)) := by
  have hN : cfg1.N = 5 := N_1
  have h4 : t.val = 4 := by have := (flush1_3 t).mp hf; have := t.isLt; omega
  obtain rfl : t = t1_4 := Fin.ext h4
  show (cfg1.win 3).cut (grid1.coords t1_4) ((dat1 V c).after 3 t1_4) = _
  rw [after1_3, sum_last1]
  have hz' : (fun a => win1_3.index t1_4 a * main_v51_1.ty.shape.size a) = fun _ => 0 := funext fun a => by fin_cases a <;> decide
  exact (Memref.read_access_unit_zero (Elt Ideal) main_v51_1 hz' (fun a => by rw [congrFun hz' a]; simp) (Cert.Spec.colSum (Z1 V c))).symm

theorem flushed1_4_eq (c : Dev nD) (t : Fin cfg1.N) (hf : (cfg1.win 4).flush t = true) :
    (dat1 (F := Ideal) V c).flushed 4 t = ((cfg1.win 4).blk t).view.read (Elt Ideal) (Cert.Spec.colSum (Cert.Spec.sq (Z1 V c))) := by
  have hN : cfg1.N = 5 := N_1
  have h4 : t.val = 4 := by have := (flush1_4 t).mp hf; have := t.isLt; omega
  obtain rfl : t = t1_4 := Fin.ext h4
  show (cfg1.win 4).cut (grid1.coords t1_4) ((dat1 V c).after 4 t1_4) = _
  rw [after1_4, sq_last1]
  have hz' : (fun a => win1_4.index t1_4 a * main_v51_2.ty.shape.size a) = fun _ => 0 := funext fun a => by fin_cases a <;> decide
  exact (Memref.read_access_unit_zero (Elt Ideal) main_v51_2 hz' (fun a => by rw [congrFun hz' a]; simp) (Cert.Spec.colSum (Cert.Spec.sq (Z1 V c)))).symm

/-- The array of column sums. -/
theorem region1_s (c : Dev nD) :
    (dat1 (F := Ideal) V c).arrAt 3 cfg1.N = Cert.Spec.colSum (Cert.Spec.addRow (V c main_v47) (V c main_v50)) :=
  (dat1 (F := Ideal) V c).arrAt_eq_of_cover 3 (Cert.Spec.colSum (Z1 V c)) (flushed1_3_eq V c) fun i =>
    ⟨t1_4, (flush1_3 t1_4).mpr rfl, by
      show i ∈ ((View.whole main_v51_1).slice (win1_3.rect t1_4)).set
      rw [View.set_slice_whole, Rect.mem_set_unit]
      intro a
      have h0 : (i 0 : Nat) < 1 := (i 0).isLt
      have h1 : (i 1 : Nat) < 128 := (i 1).isLt
      match a with
      | ⟨0, _⟩ => show win1_3.index t1_4 0 * win1_3.size 0 ≤ (i 0 : Nat) ∧ (i 0 : Nat) < win1_3.index t1_4 0 * win1_3.size 0 + win1_3.xsize (grid1.coords t1_4) 0
                  rw [show win1_3.index t1_4 0 * win1_3.size 0 = 0 from by decide +kernel, show win1_3.xsize (grid1.coords t1_4) 0 = 1 from by decide +kernel]; omega
      | ⟨1, _⟩ => show win1_3.index t1_4 1 * win1_3.size 1 ≤ (i 1 : Nat) ∧ (i 1 : Nat) < win1_3.index t1_4 1 * win1_3.size 1 + win1_3.xsize (grid1.coords t1_4) 1
                  rw [show win1_3.index t1_4 1 * win1_3.size 1 = 0 from by decide +kernel, show win1_3.xsize (grid1.coords t1_4) 1 = 128 from by decide +kernel]; omega⟩

/-- The array of column sums of squares. -/
theorem region1_ss (c : Dev nD) :
    (dat1 (F := Ideal) V c).arrAt 4 cfg1.N = Cert.Spec.colSum (Cert.Spec.sq (Cert.Spec.addRow (V c main_v47) (V c main_v50))) :=
  (dat1 (F := Ideal) V c).arrAt_eq_of_cover 4 (Cert.Spec.colSum (Cert.Spec.sq (Z1 V c))) (flushed1_4_eq V c) fun i =>
    ⟨t1_4, (flush1_4 t1_4).mpr rfl, by
      show i ∈ ((View.whole main_v51_2).slice (win1_4.rect t1_4)).set
      rw [View.set_slice_whole, Rect.mem_set_unit]
      intro a
      have h0 : (i 0 : Nat) < 1 := (i 0).isLt
      have h1 : (i 1 : Nat) < 128 := (i 1).isLt
      match a with
      | ⟨0, _⟩ => show win1_4.index t1_4 0 * win1_4.size 0 ≤ (i 0 : Nat) ∧ (i 0 : Nat) < win1_4.index t1_4 0 * win1_4.size 0 + win1_4.xsize (grid1.coords t1_4) 0
                  rw [show win1_4.index t1_4 0 * win1_4.size 0 = 0 from by decide +kernel, show win1_4.xsize (grid1.coords t1_4) 0 = 1 from by decide +kernel]; omega
      | ⟨1, _⟩ => show win1_4.index t1_4 1 * win1_4.size 1 ≤ (i 1 : Nat) ∧ (i 1 : Nat) < win1_4.index t1_4 1 * win1_4.size 1 + win1_4.xsize (grid1.coords t1_4) 1
                  rw [show win1_4.index t1_4 1 * win1_4.size 1 = 0 from by decide +kernel, show win1_4.xsize (grid1.coords t1_4) 1 = 128 from by decide +kernel]; omega⟩

end Region1

/-! # Region 4 -/

section Region4

/-! ## What each case of the body leaves in the staging buffers -/

section Pieces
variable {F : FTy → Type} [FloatOps F]
variable (c : Dev nD) (i : grid4.Coords)
  (a1 : Memref sig .tc .vmem S10000x128 .f32) (h1 : a1.IsWhole) (a2 : Memref sig .tc .vmem S1x128 .f32) (h2 : a2.IsWhole)
  (a3 : Memref sig .tc .vmem S10000x128 .f32) (h3 : a3.IsWhole) (a4 : Memref sig .tc .vmem S1x128 .f32) (h4 : a4.IsWhole)
  (a5 : Memref sig .tc .vmem S1x128 .f32) (h5 : a5.IsWhole)
  (x0 : Vec F S10000x128 .f32) (x1 : Vec F S1x128 .f32) (xo3 xo4 : Vec F S1x128 .f32)

/-- The first block: the result block is the bias-added block. -/
theorem out4_A_2_eq (hc : cond4_0 i) :
    out4_A_2 c i a1 h1 a2 h2 a3 h3 a4 h4 a5 h5 hc x0 x1 = k4_pay3 x0 x1 := by
  unfold out4_A_2
  rw [View.read_writes_eq_canon _ _ _ (cover4_A_2 c i a1 h1 a2 h2 a3 h3 a4 h4 a5 h5 hc x0 x1)]
  unfold kernelRun4_A
  dsimp only
  sl_unfold_words
  rw [View.canon_unit_zero hz]
  simp only [View.readAt_eq_ld, h1.read_unread, h2.read_unread, View.ld_unit_zero (S := S10000x128) hz,
    View.ld_unit_zero (S := S1x128) hz]

/-- The first block: the sum accumulator is the block's column sums added onto the zero row. -/
theorem out4_A_3_eq (hc : cond4_0 i) :
    out4_A_3 c i a1 h1 a2 h2 a3 h3 a4 h4 a5 h5 hc x0 x1 = k4_pay4 x0 x1 k4_pay1 := by
  unfold out4_A_3
  rw [View.read_writes_eq_canon _ _ _ (cover4_A_3 c i a1 h1 a2 h2 a3 h3 a4 h4 a5 h5 hc x0 x1)]
  unfold kernelRun4_A
  dsimp only
  sl_unfold_words
  rw [View.canon_cons_unit_zero (S := S1x128) hz, View.readCov_unit_zero (S := S1x128) _ hz]
  simp only [View.readAt_eq_ld, h1.read_unread, h2.read_unread, View.ld_unit_zero (S := S10000x128) hz,
    View.ld_unit_zero (S := S1x128) hz]

/-- The first block: the accumulator of squares likewise. -/
theorem out4_A_4_eq (hc : cond4_0 i) :
    out4_A_4 c i a1 h1 a2 h2 a3 h3 a4 h4 a5 h5 hc x0 x1 = k4_pay5 x0 x1 k4_pay2 := by
  unfold out4_A_4
  rw [View.read_writes_eq_canon _ _ _ (cover4_A_4 c i a1 h1 a2 h2 a3 h3 a4 h4 a5 h5 hc x0 x1)]
  unfold kernelRun4_A
  dsimp only
  sl_unfold_words
  rw [View.canon_cons_unit_zero (S := S1x128) hz, View.readCov_unit_zero (S := S1x128) _ hz]
  simp only [View.readAt_eq_ld, h1.read_unread, h2.read_unread, View.ld_unit_zero (S := S10000x128) hz,
    View.ld_unit_zero (S := S1x128) hz]

/-- A later block: the result block is the bias-added block. -/
theorem out4_B_2_eq (hc : ¬cond4_0 i) :
    out4_B_2 c i a1 h1 a2 h2 a3 h3 a4 h4 a5 h5 hc x0 x1 xo3 xo4 = k4_pay3 x0 x1 := by
  unfold out4_B_2
  rw [View.read_writes_eq_canon _ _ _ (cover4_B_2 c i a1 h1 a2 h2 a3 h3 a4 h4 a5 h5 hc x0 x1 xo3 xo4)]
  unfold kernelRun4_B
  dsimp only
  sl_unfold_words
  rw [View.canon_unit_zero hz]
  simp only [View.readAt_eq_ld, h1.read_unread, h2.read_unread, View.ld_unit_zero (S := S10000x128) hz,
    View.ld_unit_zero (S := S1x128) hz]

/-- A later block: the block's column sums added onto what the accumulator held. -/
theorem out4_B_3_eq (hc : ¬cond4_0 i) :
    out4_B_3 c i a1 h1 a2 h2 a3 h3 a4 h4 a5 h5 hc x0 x1 xo3 xo4 = k4_pay4 x0 x1 xo3 := by
  unfold out4_B_3
  rw [View.read_writes_eq_canon _ _ _ (cover4_B_3 c i a1 h1 a2 h2 a3 h3 a4 h4 a5 h5 hc x0 x1 xo3 xo4)]
  unfold kernelRun4_B
  dsimp only
  sl_unfold_words
  rw [View.canon_unit_zero hz]
  simp only [View.readAt_eq_ld, h1.read_unread, h2.read_unread, h4.read_unread, View.ld_unit_zero (S := S10000x128) hz,
    View.ld_unit_zero (S := S1x128) hz]

/-- A later block: the accumulator of squares likewise. -/
theorem out4_B_4_eq (hc : ¬cond4_0 i) :
    out4_B_4 c i a1 h1 a2 h2 a3 h3 a4 h4 a5 h5 hc x0 x1 xo3 xo4 = k4_pay5 x0 x1 xo4 := by
  unfold out4_B_4
  rw [View.read_writes_eq_canon _ _ _ (cover4_B_4 c i a1 h1 a2 h2 a3 h3 a4 h4 a5 h5 hc x0 x1 xo3 xo4)]
  unfold kernelRun4_B
  dsimp only
  sl_unfold_words
  rw [View.canon_unit_zero hz]
  simp only [View.readAt_eq_ld, h1.read_unread, h2.read_unread, h5.read_unread, View.ld_unit_zero (S := S10000x128) hz,
    View.ld_unit_zero (S := S1x128) hz]

end Pieces

/-! ## The payloads at an index -/

/-- The bias-added block at row `r`, column `j`. -/
theorem k4_pay3_apply (x0 : Vec Ideal S10000x128 .f32) (x1 : Vec Ideal S1x128 .f32) (r : Fin 10000) (j : Fin 128) :
    k4_pay3 (F := Ideal) x0 x1 (ix2 r j) = x0 (ix2 r j) + x1 (ix2 (0 : Fin 1) j) := by
  unfold k4_pay3
  show shapeCast S10000x128 x0 shapeCasts_S10000x128_S10000x128 (ix2 r j)
    + broadcastTo S10000x128 (shapeCast S1x128 x1 shapeCasts_S1x128_S1x128) broadcasts_S1x128_S10000x128 (ix2 r j) = _
  rw [shapeCast_self, shapeCast_self, broadcastTo_1b_ab_apply]

/-- The sum accumulator after a block: what it held plus the block's column sums. -/
theorem k4_pay4_apply (x0 : Vec Ideal S10000x128 .f32) (x1 : Vec Ideal S1x128 .f32) (acc : Vec Ideal S1x128 .f32) (j : Fin 128) :
    k4_pay4 (F := Ideal) x0 x1 acc (ix2 (0 : Fin 1) j)
      = acc (ix2 (0 : Fin 1) j) + ∑ r : Fin 10000, k4_pay3 (F := Ideal) x0 x1 (ix2 r j) := by
  unfold k4_pay4
  show shapeCast S1x128 acc shapeCasts_S1x128_S1x128 (ix2 (0 : Fin 1) j)
    + shapeCast S1x128 (multiReduction (F := Ideal) .add [0] S128 (k4_pay3 x0 x1) 0x00000000#32 reduces_S10000x128_S128 (.inl rfl) rfl)
        shapeCasts_S128_S1x128 (ix2 (0 : Fin 1) j) = _
  rw [shapeCast_self]
  exact congrArg (acc (ix2 (0 : Fin 1) j) + ·) (colsum_block (k4_pay3 x0 x1) rfl j)

/-- The accumulator of squares after a block: what it held plus the column sums of the block's squares. -/
theorem k4_pay5_apply (x0 : Vec Ideal S10000x128 .f32) (x1 : Vec Ideal S1x128 .f32) (acc : Vec Ideal S1x128 .f32) (j : Fin 128) :
    k4_pay5 (F := Ideal) x0 x1 acc (ix2 (0 : Fin 1) j)
      = acc (ix2 (0 : Fin 1) j) + ∑ r : Fin 10000, k4_pay3 (F := Ideal) x0 x1 (ix2 r j) * k4_pay3 (F := Ideal) x0 x1 (ix2 r j) := by
  unfold k4_pay5
  show shapeCast S1x128 acc shapeCasts_S1x128_S1x128 (ix2 (0 : Fin 1) j)
    + shapeCast S1x128 (multiReduction (F := Ideal) .add [0] S128 (mulf (k4_pay3 x0 x1) (k4_pay3 x0 x1)) 0x00000000#32 reduces_S10000x128_S128 (.inl rfl) rfl)
        shapeCasts_S128_S1x128 (ix2 (0 : Fin 1) j) = _
  rw [shapeCast_self]
  exact congrArg (acc (ix2 (0 : Fin 1) j) + ·) (colsum_block (mulf (k4_pay3 x0 x1) (k4_pay3 x0 x1)) rfl j)

/-- The zero rows the first block stores. -/
theorem k4_pay1_apply (i : S1x128.Idx) : k4_pay1 (F := Ideal) i = 0 := Ideal.ofBits_zero_f32
theorem k4_pay2_apply (i : S1x128.Idx) : k4_pay2 (F := Ideal) i = 0 := Ideal.ofBits_zero_f32

/-! ## The blocks the windows read -/

variable (V : (c : Dev nD) → (b : Ref sig .tc) → Buf (Elt Ideal) ((c : Thread nD τ).loc b))

/-- The printed index maps over the grid: the row windows move with the point, the one-row windows stay. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The bias-added matrix. -/
abbrev Z4 (c : Dev nD) : Cert.Spec.M 50000 128 := Cert.Spec.addRow (V c main_v83) (V c main_v86)

/-- Block `t` of the aggregated features is its rows `10000 t …`. -/
theorem blk4_0_apply (c : Dev nD) (t : Fin cfg4.N) (r : Fin 10000) (j : Fin 128) (h : 10000 * t.val + r.val < 50000) :
    (iblk4 (F := Ideal) V c 0 t : Vec Ideal S10000x128 .f32) (ix2 r j)
      = (V c main_v83 : Cert.Spec.M 50000 128) (ix2 ⟨10000 * t.val + r.val, h⟩ j) := by
  obtain ⟨e0, e1, -⟩ := idx_facts4 t
  unfold iblk4
  rw [View.read_apply]
  show V c main_v83 (((cfg4.win 0).blk t).view.emb (ix2 r j)) = V c main_v83 _
  refine congrArg (V c main_v83) (funext fun a => Fin.ext ?_)
  match a with
  | ⟨0, _⟩ => show win4_0.index t (0 : Fin 2) * 10000 + 1 * r.val = 10000 * t.val + r.val; rw [e0]; omega
  | ⟨1, _⟩ => show win4_0.index t (1 : Fin 2) * 128 + 1 * j.val = j.val; rw [e1]; omega

/-- The bias row's block is the bias row at every point. -/
theorem blk4_1_apply (c : Dev nD) (t : Fin cfg4.N) (j : Fin 128) :
    (iblk4 (F := Ideal) V c 1 t : Vec Ideal S1x128 .f32) (ix2 (0 : Fin 1) j)
      = (V c main_v86 : Cert.Spec.M 1 128) (ix2 (0 : Fin 1) j) := by
  obtain ⟨-, -, e0, e1, -⟩ := idx_facts4 t
  unfold iblk4
  rw [View.read_apply]
  show V c main_v86 (((cfg4.win 1).blk t).view.emb (ix2 (0 : Fin 1) j)) = V c main_v86 _
  refine congrArg (V c main_v86) (funext fun a => Fin.ext ?_)
  match a with
  | ⟨0, _⟩ => show win4_1.index t (0 : Fin 2) * 1 + 1 * 0 = 0; rw [e0]
  | ⟨1, _⟩ => show win4_1.index t (1 : Fin 2) * 128 + 1 * j.val = j.val; rw [e1]; omega

/-- The bias-added block at point `t` is the bias-added matrix at the block's rows. -/
theorem pay3_blk4 (c : Dev nD) (t : Fin cfg4.N) (r : Fin 10000) (j : Fin 128) (h : 10000 * t.val + r.val < 50000) :
    k4_pay3 (F := Ideal) (iblk4 V c 0 t) (iblk4 V c 1 t) (ix2 r j) = Z4 V c (ix2 ⟨10000 * t.val + r.val, h⟩ j) := by
  refine (k4_pay3_apply (iblk4 V c 0 t) (iblk4 V c 1 t) r j).trans ?_
  exact congrArg₂ (· + ·) (blk4_0_apply V c t r j h) (blk4_1_apply V c t j)

theorem pay3_row4 (c : Dev nD) (t : Fin cfg4.N) (r : Fin 10000) (j : Fin 128) :
    k4_pay3 (F := Ideal) (iblk4 V c 0 t) (iblk4 V c 1 t) (ix2 r j) = rowAt (Z4 V c) (10000 * t.val + r.val) j := by
  have hN : t.val < 5 := lt_of_lt_of_eq t.isLt (show cfg4.N = 5 from N_4)
  have h : 10000 * t.val + r.val < 50000 := by have := r.isLt; omega
  rw [rowAt_of_lt _ _ _ h]
  exact pay3_blk4 V c t r j h

/-! ## What the staging buffers hold after each point -/

theorem outs4_zero (c : Dev nD) (hn : 0 < cfg4.N) :
    outsAt4 (F := Ideal) V c 0 hn = (k4_pay3 (iblk4 V c 0 ⟨0, hn⟩) (iblk4 V c 1 ⟨0, hn⟩),
      k4_pay4 (iblk4 V c 0 ⟨0, hn⟩) (iblk4 V c 1 ⟨0, hn⟩) (k4_pay1 (F := Ideal)),
      k4_pay5 (iblk4 V c 0 ⟨0, hn⟩) (iblk4 V c 1 ⟨0, hn⟩) (k4_pay2 (F := Ideal))) :=
  (outsAt4_A V c ⟨0, hn⟩ rfl).trans (congrArg₂ Prod.mk
    (out4_A_2_eq c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (iblk4 V c 0 ⟨0, hn⟩) (iblk4 V c 1 ⟨0, hn⟩) _)
    (congrArg₂ Prod.mk
      (out4_A_3_eq c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (iblk4 V c 0 ⟨0, hn⟩) (iblk4 V c 1 ⟨0, hn⟩) _)
      (out4_A_4_eq c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (iblk4 V c 0 ⟨0, hn⟩) (iblk4 V c 1 ⟨0, hn⟩) _)))

theorem outs4_succ (c : Dev nD) (n : ℕ) (hn : n + 1 < cfg4.N) :
    outsAt4 (F := Ideal) V c (n + 1) hn = (k4_pay3 (iblk4 V c 0 ⟨n + 1, hn⟩) (iblk4 V c 1 ⟨n + 1, hn⟩),
      k4_pay4 (iblk4 V c 0 ⟨n + 1, hn⟩) (iblk4 V c 1 ⟨n + 1, hn⟩) (outsAt4 V c n (Nat.lt_of_succ_lt hn)).2.1,
      k4_pay5 (iblk4 V c 0 ⟨n + 1, hn⟩) (iblk4 V c 1 ⟨n + 1, hn⟩) (outsAt4 V c n (Nat.lt_of_succ_lt hn)).2.2) := by
  have hN : cfg4.N = 5 := N_4
  have hB : ¬(⟨n + 1, hn⟩ : Fin cfg4.N).val % 5 = 0 := by dsimp only; omega
  exact (outsAt4_B V c ⟨n + 1, hn⟩ hB).trans (congrArg₂ Prod.mk
    (out4_B_2_eq c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (iblk4 V c 0 ⟨n + 1, hn⟩) (iblk4 V c 1 ⟨n + 1, hn⟩) (outsAt4 V c n (Nat.lt_of_succ_lt hn)).2.1 (outsAt4 V c n (Nat.lt_of_succ_lt hn)).2.2 _)
    (congrArg₂ Prod.mk
      (out4_B_3_eq c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (iblk4 V c 0 ⟨n + 1, hn⟩) (iblk4 V c 1 ⟨n + 1, hn⟩) (outsAt4 V c n (Nat.lt_of_succ_lt hn)).2.1 (outsAt4 V c n (Nat.lt_of_succ_lt hn)).2.2 _)
      (out4_B_4_eq c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (iblk4 V c 0 ⟨n + 1, hn⟩) (iblk4 V c 1 ⟨n + 1, hn⟩) (outsAt4 V c n (Nat.lt_of_succ_lt hn)).2.1 (outsAt4 V c n (Nat.lt_of_succ_lt hn)).2.2 _)))

/-- The result block at every point is the bias-added block. -/
theorem outs4_fst (c : Dev nD) : ∀ (n : ℕ) (hn : n < cfg4.N),
    (outsAt4 (F := Ideal) V c n hn).1 = k4_pay3 (iblk4 V c 0 ⟨n, hn⟩) (iblk4 V c 1 ⟨n, hn⟩)
  | 0, hn => congrArg Prod.fst (outs4_zero V c hn)
  | n + 1, hn => congrArg Prod.fst (outs4_succ V c n hn)

/-- After point `n` the sum accumulator holds the column sums of the first `n + 1` blocks. -/
theorem sum_inv4 (c : Dev nD) : ∀ (n : ℕ) (hn : n < cfg4.N) (j : Fin 128),
    (outsAt4 (F := Ideal) V c n hn).2.1 (ix2 (0 : Fin 1) j) = psum (Z4 V c) (n + 1) j
  | 0, hn, j => by
    rw [outs4_zero V c hn, psum_succ, psum_zero]
    refine (k4_pay4_apply (iblk4 V c 0 ⟨0, hn⟩) (iblk4 V c 1 ⟨0, hn⟩) (k4_pay1 (F := Ideal)) j).trans ?_
    exact congrArg₂ (· + ·) (k4_pay1_apply _) (Finset.sum_congr rfl fun r _ => pay3_row4 V c ⟨0, hn⟩ r j)
  | n + 1, hn, j => by
    rw [outs4_succ V c n hn, psum_succ]
    refine (k4_pay4_apply (iblk4 V c 0 ⟨n + 1, hn⟩) (iblk4 V c 1 ⟨n + 1, hn⟩) (outsAt4 V c n (Nat.lt_of_succ_lt hn)).2.1 j).trans ?_
    exact congrArg₂ (· + ·) (sum_inv4 c n (Nat.lt_of_succ_lt hn) j) (Finset.sum_congr rfl fun r _ => pay3_row4 V c ⟨n + 1, hn⟩ r j)

/-- After point `n` the accumulator of squares holds the column sums of the squares of the first `n + 1` blocks. -/
theorem sq_inv4 (c : Dev nD) : ∀ (n : ℕ) (hn : n < cfg4.N) (j : Fin 128),
    (outsAt4 (F := Ideal) V c n hn).2.2 (ix2 (0 : Fin 1) j) = psum (Cert.Spec.sq (Z4 V c)) (n + 1) j
  | 0, hn, j => by
    have hN : cfg4.N = 5 := N_4
    rw [outs4_zero V c hn, psum_succ, psum_zero]
    refine (k4_pay5_apply (iblk4 V c 0 ⟨0, hn⟩) (iblk4 V c 1 ⟨0, hn⟩) (k4_pay2 (F := Ideal)) j).trans ?_
    refine congrArg₂ (· + ·) (k4_pay2_apply _) (Finset.sum_congr rfl fun r _ => ?_)
    rw [rowAt_sq (Z4 V c) (10000 * 0 + r.val) j (by have := r.isLt; omega), pay3_row4 V c ⟨0, hn⟩ r j]
  | n + 1, hn, j => by
    have hN : cfg4.N = 5 := N_4
    rw [outs4_succ V c n hn, psum_succ]
    refine (k4_pay5_apply (iblk4 V c 0 ⟨n + 1, hn⟩) (iblk4 V c 1 ⟨n + 1, hn⟩) (outsAt4 V c n (Nat.lt_of_succ_lt hn)).2.2 j).trans ?_
    refine congrArg₂ (· + ·) (sq_inv4 c n (Nat.lt_of_succ_lt hn) j) (Finset.sum_congr rfl fun r _ => ?_)
    rw [rowAt_sq (Z4 V c) (10000 * (n + 1) + r.val) j (by have := r.isLt; omega), pay3_row4 V c ⟨n + 1, hn⟩ r j]

/-! ## The write-backs and the arrays after the region -/

/-- The five blocks of the result window are the bias-added matrix's. -/
theorem flushed4_2_eq (c : Dev nD) (t : Fin cfg4.N) :
    (dat4 (F := Ideal) V c).flushed 2 t = ((cfg4.win 2).blk t).view.read (Elt Ideal) (Z4 V c) := by
  have hN : t.val < 5 := lt_of_lt_of_eq t.isLt (show cfg4.N = 5 from N_4)
  obtain ⟨-, -, -, -, e0, e1⟩ := idx_facts4 t
  show (cfg4.win 2).cut (grid4.coords t) ((dat4 V c).after 2 t) = _
  rw [after4_2, outs4_fst V c t.val t.isLt]
  funext y
  rw [View.read_apply]
  have hy0 : (y 0).val < 10000 := (y 0).isLt
  have hy1 : (y 1).val < 128 := (y 1).isLt
  have h : 10000 * t.val + (⟨(y 0).val, hy0⟩ : Fin 10000).val < 50000 := by dsimp only; omega
  have ey : y = ix2 (⟨(y 0).val, hy0⟩ : Fin 10000) (⟨(y 1).val, hy1⟩ : Fin 128) := funext fun a => by
    match a with
    | ⟨0, _⟩ => rfl
    | ⟨1, _⟩ => rfl
  refine (congrArg (k4_pay3 (F := Ideal) (iblk4 V c 0 t) (iblk4 V c 1 t)) ey).trans ?_
  refine (pay3_blk4 V c t ⟨(y 0).val, hy0⟩ ⟨(y 1).val, hy1⟩ h).trans ?_
  show Z4 V c _ = Z4 V c (((cfg4.win 2).blk t).view.emb y)
  refine congrArg (Z4 V c) (funext fun a => Fin.ext ?_)
  match a with
  | ⟨0, _⟩ => show 10000 * t.val + (y 0).val = win4_2.index t (0 : Fin 2) * 10000 + 1 * (y 0).val; rw [e0]; omega
  | ⟨1, _⟩ => show (y 1).val = win4_2.index t (1 : Fin 2) * 128 + 1 * (y 1).val; rw [e1]; omega

/-- An index of the result array is in point `t`'s block iff each coordinate is in the block's range. -/
theorem mem_blk4_2 (t : Fin cfg4.N) (i : S50000x128.Idx) :
    i ∈ ((cfg4.win 2).blk t).view.set ↔ ∀ a : Fin 2, win4_2.index t a * S10000x128.size a ≤ (i a).val ∧ (i a).val < win4_2.index t a * S10000x128.size a + S10000x128.size a := by
  show i ∈ ((View.whole main_v87_0).slice (win4_2.rect t)).set ↔ _
  rw [View.set_slice_whole, Rect.mem_set_unit]
  exact Iff.rfl

/-- The result array is the bias-added matrix. -/
theorem region4_z (c : Dev nD) :
    (dat4 (F := Ideal) V c).arrAt 2 cfg4.N = Cert.Spec.addRow (V c main_v83) (V c main_v86) :=
  (dat4 (F := Ideal) V c).arrAt_eq_of_cover 2 (Z4 V c) (fun t _ => flushed4_2_eq V c t) fun i => by
    have hi0 : (i 0).val < 50000 := (i 0).isLt
    have hi1 : (i 1).val < 128 := (i 1).isLt
    have hN : cfg4.N = 5 := N_4
    refine ⟨⟨(i 0).val / 10000, by rw [hN]; omega⟩, flush4_2 _, ?_⟩
    rw [mem_blk4_2]
    obtain ⟨-, -, -, -, e0, e1⟩ := idx_facts4 ⟨(i 0).val / 10000, by rw [hN]; omega⟩
    intro a
    match a with
    | ⟨0, _⟩ =>
      show win4_2.index ⟨(i 0).val / 10000, _⟩ (0 : Fin 2) * 10000 ≤ (i 0).val ∧ (i 0).val < win4_2.index ⟨(i 0).val / 10000, _⟩ (0 : Fin 2) * 10000 + 10000
      rw [e0]; dsimp only; omega
    | ⟨1, _⟩ =>
      show win4_2.index ⟨(i 0).val / 10000, _⟩ (1 : Fin 2) * 128 ≤ (i 1).val ∧ (i 1).val < win4_2.index ⟨(i 0).val / 10000, _⟩ (1 : Fin 2) * 128 + 128
      rw [e1]; omega

/-- After the last point the sum accumulator is the column sum of the bias-added matrix. -/
theorem sum_last4 (c : Dev nD) : (outsAt4 (F := Ideal) V c t4_4.val t4_4.isLt).2.1 = Cert.Spec.colSum (Z4 V c) := by
  funext i
  obtain ⟨u, j, rfl⟩ : ∃ (u : Fin 1) (j : Fin 128), i = ix2 u j := ⟨i 0, i 1, eq_ix2 i⟩
  obtain rfl : u = 0 := Subsingleton.elim _ _
  exact (sum_inv4 V c 4 t4_4.isLt j).trans (psum_five _ j)

theorem sq_last4 (c : Dev nD) :
    (outsAt4 (F := Ideal) V c t4_4.val t4_4.isLt).2.2 = Cert.Spec.colSum (Cert.Spec.sq (Z4 V c)) := by
  funext i
  obtain ⟨u, j, rfl⟩ : ∃ (u : Fin 1) (j : Fin 128), i = ix2 u j := ⟨i 0, i 1, eq_ix2 i⟩
  obtain rfl : u = 0 := Subsingleton.elim _ _
  exact (sq_inv4 V c 4 t4_4.isLt j).trans (psum_five _ j)

/-- The one write-back of the sum accumulator, after the last point: its block is the whole one-row array. -/
theorem flushed4_3_eq (c : Dev nD) (t : Fin cfg4.N) (hf : (cfg4.win 3).flush t = true) :
    (dat4 (F := Ideal) V c).flushed 3 t = ((cfg4.win 3).blk t).view.read (Elt Ideal) (Cert.Spec.colSum (Z4 V c)) := by
  have hN : cfg4.N = 5 := N_4
  have h4 : t.val = 4 := by have := (flush4_3 t).mp hf; have := t.isLt; omega
  obtain rfl : t = t4_4 := Fin.ext h4
  show (cfg4.win 3).cut (grid4.coords t4_4) ((dat4 V c).after 3 t4_4) = _
  rw [after4_3, sum_last4]
  have hz' : (fun a => win4_3.index t4_4 a * main_v87_1.ty.shape.size a) = fun _ => 0 := funext fun a => by fin_cases a <;> decide
  exact (Memref.read_access_unit_zero (Elt Ideal) main_v87_1 hz' (fun a => by rw [congrFun hz' a]; simp) (Cert.Spec.colSum (Z4 V c))).symm

theorem flushed4_4_eq (c : Dev nD) (t : Fin cfg4.N) (hf : (cfg4.win 4).flush t = true) :
    (dat4 (F := Ideal) V c).flushed 4 t = ((cfg4.win 4).blk t).view.read (Elt Ideal) (Cert.Spec.colSum (Cert.Spec.sq (Z4 V c))) := by
  have hN : cfg4.N = 5 := N_4
  have h4 : t.val = 4 := by have := (flush4_4 t).mp hf; have := t.isLt; omega
  obtain rfl : t = t4_4 := Fin.ext h4
  show (cfg4.win 4).cut (grid4.coords t4_4) ((dat4 V c).after 4 t4_4) = _
  rw [after4_4, sq_last4]
  have hz' : (fun a => win4_4.index t4_4 a * main_v87_2.ty.shape.size a) = fun _ => 0 := funext fun a => by fin_cases a <;> decide
  exact (Memref.read_access_unit_zero (Elt Ideal) main_v87_2 hz' (fun a => by rw [congrFun hz' a]; simp) (Cert.Spec.colSum (Cert.Spec.sq (Z4 V c)))).symm

/-- The array of column sums. -/
theorem region4_s (c : Dev nD) :
    (dat4 (F := Ideal) V c).arrAt 3 cfg4.N = Cert.Spec.colSum (Cert.Spec.addRow (V c main_v83) (V c main_v86)) :=
  (dat4 (F := Ideal) V c).arrAt_eq_of_cover 3 (Cert.Spec.colSum (Z4 V c)) (flushed4_3_eq V c) fun i =>
    ⟨t4_4, (flush4_3 t4_4).mpr rfl, by
      show i ∈ ((View.whole main_v87_1).slice (win4_3.rect t4_4)).set
      rw [View.set_slice_whole, Rect.mem_set_unit]
      intro a
      have h0 : (i 0 : Nat) < 1 := (i 0).isLt
      have h1 : (i 1 : Nat) < 128 := (i 1).isLt
      match a with
      | ⟨0, _⟩ => show win4_3.index t4_4 0 * win4_3.size 0 ≤ (i 0 : Nat) ∧ (i 0 : Nat) < win4_3.index t4_4 0 * win4_3.size 0 + win4_3.xsize (grid4.coords t4_4) 0
                  rw [show win4_3.index t4_4 0 * win4_3.size 0 = 0 from by decide +kernel, show win4_3.xsize (grid4.coords t4_4) 0 = 1 from by decide +kernel]; omega
      | ⟨1, _⟩ => show win4_3.index t4_4 1 * win4_3.size 1 ≤ (i 1 : Nat) ∧ (i 1 : Nat) < win4_3.index t4_4 1 * win4_3.size 1 + win4_3.xsize (grid4.coords t4_4) 1
                  rw [show win4_3.index t4_4 1 * win4_3.size 1 = 0 from by decide +kernel, show win4_3.xsize (grid4.coords t4_4) 1 = 128 from by decide +kernel]; omega⟩

/-- The array of column sums of squares. -/
theorem region4_ss (c : Dev nD) :
    (dat4 (F := Ideal) V c).arrAt 4 cfg4.N = Cert.Spec.colSum (Cert.Spec.sq (Cert.Spec.addRow (V c main_v83) (V c main_v86))) :=
  (dat4 (F := Ideal) V c).arrAt_eq_of_cover 4 (Cert.Spec.colSum (Cert.Spec.sq (Z4 V c))) (flushed4_4_eq V c) fun i =>
    ⟨t4_4, (flush4_4 t4_4).mpr rfl, by
      show i ∈ ((View.whole main_v87_2).slice (win4_4.rect t4_4)).set
      rw [View.set_slice_whole, Rect.mem_set_unit]
      intro a
      have h0 : (i 0 : Nat) < 1 := (i 0).isLt
      have h1 : (i 1 : Nat) < 128 := (i 1).isLt
      match a with
      | ⟨0, _⟩ => show win4_4.index t4_4 0 * win4_4.size 0 ≤ (i 0 : Nat) ∧ (i 0 : Nat) < win4_4.index t4_4 0 * win4_4.size 0 + win4_4.xsize (grid4.coords t4_4) 0
                  rw [show win4_4.index t4_4 0 * win4_4.size 0 = 0 from by decide +kernel, show win4_4.xsize (grid4.coords t4_4) 0 = 1 from by decide +kernel]; omega
      | ⟨1, _⟩ => show win4_4.index t4_4 1 * win4_4.size 1 ≤ (i 1 : Nat) ∧ (i 1 : Nat) < win4_4.index t4_4 1 * win4_4.size 1 + win4_4.xsize (grid4.coords t4_4) 1
                  rw [show win4_4.index t4_4 1 * win4_4.size 1 = 0 from by decide +kernel, show win4_4.xsize (grid4.coords t4_4) 1 = 128 from by decide +kernel]; omega⟩

end Region4

/-! # Region 7 -/

section Region7

/-! ## What each case of the body leaves in the staging buffers -/

section Pieces
variable {F : FTy → Type} [FloatOps F]
variable (c : Dev nD) (i : grid7.Coords)
  (a1 : Memref sig .tc .vmem S10000x128 .f32) (h1 : a1.IsWhole) (a2 : Memref sig .tc .vmem S1x128 .f32) (h2 : a2.IsWhole)
  (a3 : Memref sig .tc .vmem S10000x128 .f32) (h3 : a3.IsWhole) (a4 : Memref sig .tc .vmem S1x128 .f32) (h4 : a4.IsWhole)
  (a5 : Memref sig .tc .vmem S1x128 .f32) (h5 : a5.IsWhole)
  (x0 : Vec F S10000x128 .f32) (x1 : Vec F S1x128 .f32) (xo3 xo4 : Vec F S1x128 .f32)

/-- The first block: the result block is the bias-added block. -/
theorem out7_A_2_eq (hc : cond7_0 i) :
    out7_A_2 c i a1 h1 a2 h2 a3 h3 a4 h4 a5 h5 hc x0 x1 = k7_pay3 x0 x1 := by
  unfold out7_A_2
  rw [View.read_writes_eq_canon _ _ _ (cover7_A_2 c i a1 h1 a2 h2 a3 h3 a4 h4 a5 h5 hc x0 x1)]
  unfold kernelRun7_A
  dsimp only
  sl_unfold_words
  rw [View.canon_unit_zero hz]
  simp only [View.readAt_eq_ld, h1.read_unread, h2.read_unread, View.ld_unit_zero (S := S10000x128) hz,
    View.ld_unit_zero (S := S1x128) hz]

/-- The first block: the sum accumulator is the block's column sums added onto the zero row. -/
theorem out7_A_3_eq (hc : cond7_0 i) :
    out7_A_3 c i a1 h1 a2 h2 a3 h3 a4 h4 a5 h5 hc x0 x1 = k7_pay4 x0 x1 k7_pay1 := by
  unfold out7_A_3
  rw [View.read_writes_eq_canon _ _ _ (cover7_A_3 c i a1 h1 a2 h2 a3 h3 a4 h4 a5 h5 hc x0 x1)]
  unfold kernelRun7_A
  dsimp only
  sl_unfold_words
  rw [View.canon_cons_unit_zero (S := S1x128) hz, View.readCov_unit_zero (S := S1x128) _ hz]
  simp only [View.readAt_eq_ld, h1.read_unread, h2.read_unread, View.ld_unit_zero (S := S10000x128) hz,
    View.ld_unit_zero (S := S1x128) hz]

/-- The first block: the accumulator of squares likewise. -/
theorem out7_A_4_eq (hc : cond7_0 i) :
    out7_A_4 c i a1 h1 a2 h2 a3 h3 a4 h4 a5 h5 hc x0 x1 = k7_pay5 x0 x1 k7_pay2 := by
  unfold out7_A_4
  rw [View.read_writes_eq_canon _ _ _ (cover7_A_4 c i a1 h1 a2 h2 a3 h3 a4 h4 a5 h5 hc x0 x1)]
  unfold kernelRun7_A
  dsimp only
  sl_unfold_words
  rw [View.canon_cons_unit_zero (S := S1x128) hz, View.readCov_unit_zero (S := S1x128) _ hz]
  simp only [View.readAt_eq_ld, h1.read_unread, h2.read_unread, View.ld_unit_zero (S := S10000x128) hz,
    View.ld_unit_zero (S := S1x128) hz]

/-- A later block: the result block is the bias-added block. -/
theorem out7_B_2_eq (hc : ¬cond7_0 i) :
    out7_B_2 c i a1 h1 a2 h2 a3 h3 a4 h4 a5 h5 hc x0 x1 xo3 xo4 = k7_pay3 x0 x1 := by
  unfold out7_B_2
  rw [View.read_writes_eq_canon _ _ _ (cover7_B_2 c i a1 h1 a2 h2 a3 h3 a4 h4 a5 h5 hc x0 x1 xo3 xo4)]
  unfold kernelRun7_B
  dsimp only
  sl_unfold_words
  rw [View.canon_unit_zero hz]
  simp only [View.readAt_eq_ld, h1.read_unread, h2.read_unread, View.ld_unit_zero (S := S10000x128) hz,
    View.ld_unit_zero (S := S1x128) hz]

/-- A later block: the block's column sums added onto what the accumulator held. -/
theorem out7_B_3_eq (hc : ¬cond7_0 i) :
    out7_B_3 c i a1 h1 a2 h2 a3 h3 a4 h4 a5 h5 hc x0 x1 xo3 xo4 = k7_pay4 x0 x1 xo3 := by
  unfold out7_B_3
  rw [View.read_writes_eq_canon _ _ _ (cover7_B_3 c i a1 h1 a2 h2 a3 h3 a4 h4 a5 h5 hc x0 x1 xo3 xo4)]
  unfold kernelRun7_B
  dsimp only
  sl_unfold_words
  rw [View.canon_unit_zero hz]
  simp only [View.readAt_eq_ld, h1.read_unread, h2.read_unread, h4.read_unread, View.ld_unit_zero (S := S10000x128) hz,
    View.ld_unit_zero (S := S1x128) hz]

/-- A later block: the accumulator of squares likewise. -/
theorem out7_B_4_eq (hc : ¬cond7_0 i) :
    out7_B_4 c i a1 h1 a2 h2 a3 h3 a4 h4 a5 h5 hc x0 x1 xo3 xo4 = k7_pay5 x0 x1 xo4 := by
  unfold out7_B_4
  rw [View.read_writes_eq_canon _ _ _ (cover7_B_4 c i a1 h1 a2 h2 a3 h3 a4 h4 a5 h5 hc x0 x1 xo3 xo4)]
  unfold kernelRun7_B
  dsimp only
  sl_unfold_words
  rw [View.canon_unit_zero hz]
  simp only [View.readAt_eq_ld, h1.read_unread, h2.read_unread, h5.read_unread, View.ld_unit_zero (S := S10000x128) hz,
    View.ld_unit_zero (S := S1x128) hz]

end Pieces

/-! ## The payloads at an index -/

/-- The bias-added block, clamped below at zero, at row `r`, column `j`. -/
theorem k7_pay3_apply (x0 : Vec Ideal S10000x128 .f32) (x1 : Vec Ideal S1x128 .f32) (r : Fin 10000) (j : Fin 128) :
    k7_pay3 (F := Ideal) x0 x1 (ix2 r j) = max (x0 (ix2 r j) + x1 (ix2 (0 : Fin 1) j)) 0 := by
  unfold k7_pay3
  show max (shapeCast S10000x128 x0 shapeCasts_S10000x128_S10000x128 (ix2 r j)
    + broadcastTo S10000x128 (shapeCast S1x128 x1 shapeCasts_S1x128_S1x128) broadcasts_S1x128_S10000x128 (ix2 r j))
      (Ideal.ofBits .f32 0x00000000#32) = _
  rw [shapeCast_self, shapeCast_self, broadcastTo_1b_ab_apply, Ideal.ofBits_zero_f32]

/-- The sum accumulator after a block: what it held plus the block's column sums. -/
theorem k7_pay4_apply (x0 : Vec Ideal S10000x128 .f32) (x1 : Vec Ideal S1x128 .f32) (acc : Vec Ideal S1x128 .f32) (j : Fin 128) :
    k7_pay4 (F := Ideal) x0 x1 acc (ix2 (0 : Fin 1) j)
      = acc (ix2 (0 : Fin 1) j) + ∑ r : Fin 10000, k7_pay3 (F := Ideal) x0 x1 (ix2 r j) := by
  unfold k7_pay4
  show shapeCast S1x128 acc shapeCasts_S1x128_S1x128 (ix2 (0 : Fin 1) j)
    + shapeCast S1x128 (multiReduction (F := Ideal) .add [0] S128 (k7_pay3 x0 x1) 0x00000000#32 reduces_S10000x128_S128 (.inl rfl) rfl)
        shapeCasts_S128_S1x128 (ix2 (0 : Fin 1) j) = _
  rw [shapeCast_self]
  exact congrArg (acc (ix2 (0 : Fin 1) j) + ·) (colsum_block (k7_pay3 x0 x1) rfl j)

/-- The accumulator of squares after a block: what it held plus the column sums of the block's squares. -/
theorem k7_pay5_apply (x0 : Vec Ideal S10000x128 .f32) (x1 : Vec Ideal S1x128 .f32) (acc : Vec Ideal S1x128 .f32) (j : Fin 128) :
    k7_pay5 (F := Ideal) x0 x1 acc (ix2 (0 : Fin 1) j)
      = acc (ix2 (0 : Fin 1) j) + ∑ r : Fin 10000, k7_pay3 (F := Ideal) x0 x1 (ix2 r j) * k7_pay3 (F := Ideal) x0 x1 (ix2 r j) := by
  unfold k7_pay5
  show shapeCast S1x128 acc shapeCasts_S1x128_S1x128 (ix2 (0 : Fin 1) j)
    + shapeCast S1x128 (multiReduction (F := Ideal) .add [0] S128 (mulf (k7_pay3 x0 x1) (k7_pay3 x0 x1)) 0x00000000#32 reduces_S10000x128_S128 (.inl rfl) rfl)
        shapeCasts_S128_S1x128 (ix2 (0 : Fin 1) j) = _
  rw [shapeCast_self]
  exact congrArg (acc (ix2 (0 : Fin 1) j) + ·) (colsum_block (mulf (k7_pay3 x0 x1) (k7_pay3 x0 x1)) rfl j)

/-- The zero rows the first block stores. -/
theorem k7_pay1_apply (i : S1x128.Idx) : k7_pay1 (F := Ideal) i = 0 := Ideal.ofBits_zero_f32
theorem k7_pay2_apply (i : S1x128.Idx) : k7_pay2 (F := Ideal) i = 0 := Ideal.ofBits_zero_f32

/-! ## The blocks the windows read -/

variable (V : (c : Dev nD) → (b : Ref sig .tc) → Buf (Elt Ideal) ((c : Thread nD τ).loc b))

/-- The printed index maps over the grid: the row windows move with the point, the one-row windows stay. -/
theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- The bias-added matrix, clamped below at zero. -/
abbrev Z7 (c : Dev nD) : Cert.Spec.M 50000 128 := Cert.Spec.relu (Cert.Spec.addRow (V c main_v119) (V c main_v122))

/-- Block `t` of the aggregated features is its rows `10000 t …`. -/
theorem blk7_0_apply (c : Dev nD) (t : Fin cfg7.N) (r : Fin 10000) (j : Fin 128) (h : 10000 * t.val + r.val < 50000) :
    (iblk7 (F := Ideal) V c 0 t : Vec Ideal S10000x128 .f32) (ix2 r j)
      = (V c main_v119 : Cert.Spec.M 50000 128) (ix2 ⟨10000 * t.val + r.val, h⟩ j) := by
  obtain ⟨e0, e1, -⟩ := idx_facts7 t
  unfold iblk7
  rw [View.read_apply]
  show V c main_v119 (((cfg7.win 0).blk t).view.emb (ix2 r j)) = V c main_v119 _
  refine congrArg (V c main_v119) (funext fun a => Fin.ext ?_)
  match a with
  | ⟨0, _⟩ => show win7_0.index t (0 : Fin 2) * 10000 + 1 * r.val = 10000 * t.val + r.val; rw [e0]; omega
  | ⟨1, _⟩ => show win7_0.index t (1 : Fin 2) * 128 + 1 * j.val = j.val; rw [e1]; omega

/-- The bias row's block is the bias row at every point. -/
theorem blk7_1_apply (c : Dev nD) (t : Fin cfg7.N) (j : Fin 128) :
    (iblk7 (F := Ideal) V c 1 t : Vec Ideal S1x128 .f32) (ix2 (0 : Fin 1) j)
      = (V c main_v122 : Cert.Spec.M 1 128) (ix2 (0 : Fin 1) j) := by
  obtain ⟨-, -, e0, e1, -⟩ := idx_facts7 t
  unfold iblk7
  rw [View.read_apply]
  show V c main_v122 (((cfg7.win 1).blk t).view.emb (ix2 (0 : Fin 1) j)) = V c main_v122 _
  refine congrArg (V c main_v122) (funext fun a => Fin.ext ?_)
  match a with
  | ⟨0, _⟩ => show win7_1.index t (0 : Fin 2) * 1 + 1 * 0 = 0; rw [e0]
  | ⟨1, _⟩ => show win7_1.index t (1 : Fin 2) * 128 + 1 * j.val = j.val; rw [e1]; omega

/-- The bias-added block at point `t` is the clamped bias-added matrix at the block's rows. -/
theorem pay3_blk7 (c : Dev nD) (t : Fin cfg7.N) (r : Fin 10000) (j : Fin 128) (h : 10000 * t.val + r.val < 50000) :
    k7_pay3 (F := Ideal) (iblk7 V c 0 t) (iblk7 V c 1 t) (ix2 r j) = Z7 V c (ix2 ⟨10000 * t.val + r.val, h⟩ j) := by
  refine (k7_pay3_apply (iblk7 V c 0 t) (iblk7 V c 1 t) r j).trans ?_
  exact congrArg (fun x => max x 0) (congrArg₂ (· + ·) (blk7_0_apply V c t r j h) (blk7_1_apply V c t j))

theorem pay3_row7 (c : Dev nD) (t : Fin cfg7.N) (r : Fin 10000) (j : Fin 128) :
    k7_pay3 (F := Ideal) (iblk7 V c 0 t) (iblk7 V c 1 t) (ix2 r j) = rowAt (Z7 V c) (10000 * t.val + r.val) j := by
  have hN : t.val < 5 := lt_of_lt_of_eq t.isLt (show cfg7.N = 5 from N_7)
  have h : 10000 * t.val + r.val < 50000 := by have := r.isLt; omega
  rw [rowAt_of_lt _ _ _ h]
  exact pay3_blk7 V c t r j h

/-! ## What the staging buffers hold after each point -/

theorem outs7_zero (c : Dev nD) (hn : 0 < cfg7.N) :
    outsAt7 (F := Ideal) V c 0 hn = (k7_pay3 (iblk7 V c 0 ⟨0, hn⟩) (iblk7 V c 1 ⟨0, hn⟩),
      k7_pay4 (iblk7 V c 0 ⟨0, hn⟩) (iblk7 V c 1 ⟨0, hn⟩) (k7_pay1 (F := Ideal)),
      k7_pay5 (iblk7 V c 0 ⟨0, hn⟩) (iblk7 V c 1 ⟨0, hn⟩) (k7_pay2 (F := Ideal))) :=
  (outsAt7_A V c ⟨0, hn⟩ rfl).trans (congrArg₂ Prod.mk
    (out7_A_2_eq c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (iblk7 V c 0 ⟨0, hn⟩) (iblk7 V c 1 ⟨0, hn⟩) _)
    (congrArg₂ Prod.mk
      (out7_A_3_eq c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (iblk7 V c 0 ⟨0, hn⟩) (iblk7 V c 1 ⟨0, hn⟩) _)
      (out7_A_4_eq c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (iblk7 V c 0 ⟨0, hn⟩) (iblk7 V c 1 ⟨0, hn⟩) _)))

theorem outs7_succ (c : Dev nD) (n : ℕ) (hn : n + 1 < cfg7.N) :
    outsAt7 (F := Ideal) V c (n + 1) hn = (k7_pay3 (iblk7 V c 0 ⟨n + 1, hn⟩) (iblk7 V c 1 ⟨n + 1, hn⟩),
      k7_pay4 (iblk7 V c 0 ⟨n + 1, hn⟩) (iblk7 V c 1 ⟨n + 1, hn⟩) (outsAt7 V c n (Nat.lt_of_succ_lt hn)).2.1,
      k7_pay5 (iblk7 V c 0 ⟨n + 1, hn⟩) (iblk7 V c 1 ⟨n + 1, hn⟩) (outsAt7 V c n (Nat.lt_of_succ_lt hn)).2.2) := by
  have hN : cfg7.N = 5 := N_7
  have hB : ¬(⟨n + 1, hn⟩ : Fin cfg7.N).val % 5 = 0 := by dsimp only; omega
  exact (outsAt7_B V c ⟨n + 1, hn⟩ hB).trans (congrArg₂ Prod.mk
    (out7_B_2_eq c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (iblk7 V c 0 ⟨n + 1, hn⟩) (iblk7 V c 1 ⟨n + 1, hn⟩) (outsAt7 V c n (Nat.lt_of_succ_lt hn)).2.1 (outsAt7 V c n (Nat.lt_of_succ_lt hn)).2.2 _)
    (congrArg₂ Prod.mk
      (out7_B_3_eq c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (iblk7 V c 0 ⟨n + 1, hn⟩) (iblk7 V c 1 ⟨n + 1, hn⟩) (outsAt7 V c n (Nat.lt_of_succ_lt hn)).2.1 (outsAt7 V c n (Nat.lt_of_succ_lt hn)).2.2 _)
      (out7_B_4_eq c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (iblk7 V c 0 ⟨n + 1, hn⟩) (iblk7 V c 1 ⟨n + 1, hn⟩) (outsAt7 V c n (Nat.lt_of_succ_lt hn)).2.1 (outsAt7 V c n (Nat.lt_of_succ_lt hn)).2.2 _)))

/-- The result block at every point is the bias-added block. -/
theorem outs7_fst (c : Dev nD) : ∀ (n : ℕ) (hn : n < cfg7.N),
    (outsAt7 (F := Ideal) V c n hn).1 = k7_pay3 (iblk7 V c 0 ⟨n, hn⟩) (iblk7 V c 1 ⟨n, hn⟩)
  | 0, hn => congrArg Prod.fst (outs7_zero V c hn)
  | n + 1, hn => congrArg Prod.fst (outs7_succ V c n hn)

/-- After point `n` the sum accumulator holds the column sums of the first `n + 1` blocks. -/
theorem sum_inv7 (c : Dev nD) : ∀ (n : ℕ) (hn : n < cfg7.N) (j : Fin 128),
    (outsAt7 (F := Ideal) V c n hn).2.1 (ix2 (0 : Fin 1) j) = psum (Z7 V c) (n + 1) j
  | 0, hn, j => by
    rw [outs7_zero V c hn, psum_succ, psum_zero]
    refine (k7_pay4_apply (iblk7 V c 0 ⟨0, hn⟩) (iblk7 V c 1 ⟨0, hn⟩) (k7_pay1 (F := Ideal)) j).trans ?_
    exact congrArg₂ (· + ·) (k7_pay1_apply _) (Finset.sum_congr rfl fun r _ => pay3_row7 V c ⟨0, hn⟩ r j)
  | n + 1, hn, j => by
    rw [outs7_succ V c n hn, psum_succ]
    refine (k7_pay4_apply (iblk7 V c 0 ⟨n + 1, hn⟩) (iblk7 V c 1 ⟨n + 1, hn⟩) (outsAt7 V c n (Nat.lt_of_succ_lt hn)).2.1 j).trans ?_
    exact congrArg₂ (· + ·) (sum_inv7 c n (Nat.lt_of_succ_lt hn) j) (Finset.sum_congr rfl fun r _ => pay3_row7 V c ⟨n + 1, hn⟩ r j)

/-- After point `n` the accumulator of squares holds the column sums of the squares of the first `n + 1` blocks. -/
theorem sq_inv7 (c : Dev nD) : ∀ (n : ℕ) (hn : n < cfg7.N) (j : Fin 128),
    (outsAt7 (F := Ideal) V c n hn).2.2 (ix2 (0 : Fin 1) j) = psum (Cert.Spec.sq (Z7 V c)) (n + 1) j
  | 0, hn, j => by
    have hN : cfg7.N = 5 := N_7
    rw [outs7_zero V c hn, psum_succ, psum_zero]
    refine (k7_pay5_apply (iblk7 V c 0 ⟨0, hn⟩) (iblk7 V c 1 ⟨0, hn⟩) (k7_pay2 (F := Ideal)) j).trans ?_
    refine congrArg₂ (· + ·) (k7_pay2_apply _) (Finset.sum_congr rfl fun r _ => ?_)
    rw [rowAt_sq (Z7 V c) (10000 * 0 + r.val) j (by have := r.isLt; omega), pay3_row7 V c ⟨0, hn⟩ r j]
  | n + 1, hn, j => by
    have hN : cfg7.N = 5 := N_7
    rw [outs7_succ V c n hn, psum_succ]
    refine (k7_pay5_apply (iblk7 V c 0 ⟨n + 1, hn⟩) (iblk7 V c 1 ⟨n + 1, hn⟩) (outsAt7 V c n (Nat.lt_of_succ_lt hn)).2.2 j).trans ?_
    refine congrArg₂ (· + ·) (sq_inv7 c n (Nat.lt_of_succ_lt hn) j) (Finset.sum_congr rfl fun r _ => ?_)
    rw [rowAt_sq (Z7 V c) (10000 * (n + 1) + r.val) j (by have := r.isLt; omega), pay3_row7 V c ⟨n + 1, hn⟩ r j]

/-! ## The write-backs and the arrays after the region -/

/-- The five blocks of the result window are the clamped bias-added matrix's. -/
theorem flushed7_2_eq (c : Dev nD) (t : Fin cfg7.N) :
    (dat7 (F := Ideal) V c).flushed 2 t = ((cfg7.win 2).blk t).view.read (Elt Ideal) (Z7 V c) := by
  have hN : t.val < 5 := lt_of_lt_of_eq t.isLt (show cfg7.N = 5 from N_7)
  obtain ⟨-, -, -, -, e0, e1⟩ := idx_facts7 t
  show (cfg7.win 2).cut (grid7.coords t) ((dat7 V c).after 2 t) = _
  rw [after7_2, outs7_fst V c t.val t.isLt]
  funext y
  rw [View.read_apply]
  have hy0 : (y 0).val < 10000 := (y 0).isLt
  have hy1 : (y 1).val < 128 := (y 1).isLt
  have h : 10000 * t.val + (⟨(y 0).val, hy0⟩ : Fin 10000).val < 50000 := by dsimp only; omega
  have ey : y = ix2 (⟨(y 0).val, hy0⟩ : Fin 10000) (⟨(y 1).val, hy1⟩ : Fin 128) := funext fun a => by
    match a with
    | ⟨0, _⟩ => rfl
    | ⟨1, _⟩ => rfl
  refine (congrArg (k7_pay3 (F := Ideal) (iblk7 V c 0 t) (iblk7 V c 1 t)) ey).trans ?_
  refine (pay3_blk7 V c t ⟨(y 0).val, hy0⟩ ⟨(y 1).val, hy1⟩ h).trans ?_
  show Z7 V c _ = Z7 V c (((cfg7.win 2).blk t).view.emb y)
  refine congrArg (Z7 V c) (funext fun a => Fin.ext ?_)
  match a with
  | ⟨0, _⟩ => show 10000 * t.val + (y 0).val = win7_2.index t (0 : Fin 2) * 10000 + 1 * (y 0).val; rw [e0]; omega
  | ⟨1, _⟩ => show (y 1).val = win7_2.index t (1 : Fin 2) * 128 + 1 * (y 1).val; rw [e1]; omega

/-- An index of the result array is in point `t`'s block iff each coordinate is in the block's range. -/
theorem mem_blk7_2 (t : Fin cfg7.N) (i : S50000x128.Idx) :
    i ∈ ((cfg7.win 2).blk t).view.set ↔ ∀ a : Fin 2, win7_2.index t a * S10000x128.size a ≤ (i a).val ∧ (i a).val < win7_2.index t a * S10000x128.size a + S10000x128.size a := by
  show i ∈ ((View.whole main_v123_0).slice (win7_2.rect t)).set ↔ _
  rw [View.set_slice_whole, Rect.mem_set_unit]
  exact Iff.rfl

/-- The result array is the bias-added matrix clamped below at zero. -/
theorem region7_z (c : Dev nD) :
    (dat7 (F := Ideal) V c).arrAt 2 cfg7.N = Cert.Spec.relu (Cert.Spec.addRow (V c main_v119) (V c main_v122)) :=
  (dat7 (F := Ideal) V c).arrAt_eq_of_cover 2 (Z7 V c) (fun t _ => flushed7_2_eq V c t) fun i => by
    have hi0 : (i 0).val < 50000 := (i 0).isLt
    have hi1 : (i 1).val < 128 := (i 1).isLt
    have hN : cfg7.N = 5 := N_7
    refine ⟨⟨(i 0).val / 10000, by rw [hN]; omega⟩, flush7_2 _, ?_⟩
    rw [mem_blk7_2]
    obtain ⟨-, -, -, -, e0, e1⟩ := idx_facts7 ⟨(i 0).val / 10000, by rw [hN]; omega⟩
    intro a
    match a with
    | ⟨0, _⟩ =>
      show win7_2.index ⟨(i 0).val / 10000, _⟩ (0 : Fin 2) * 10000 ≤ (i 0).val ∧ (i 0).val < win7_2.index ⟨(i 0).val / 10000, _⟩ (0 : Fin 2) * 10000 + 10000
      rw [e0]; dsimp only; omega
    | ⟨1, _⟩ =>
      show win7_2.index ⟨(i 0).val / 10000, _⟩ (1 : Fin 2) * 128 ≤ (i 1).val ∧ (i 1).val < win7_2.index ⟨(i 0).val / 10000, _⟩ (1 : Fin 2) * 128 + 128
      rw [e1]; omega

/-- After the last point the sum accumulator is the column sum of the clamped bias-added matrix. -/
theorem sum_last7 (c : Dev nD) : (outsAt7 (F := Ideal) V c t7_4.val t7_4.isLt).2.1 = Cert.Spec.colSum (Z7 V c) := by
  funext i
  obtain ⟨u, j, rfl⟩ : ∃ (u : Fin 1) (j : Fin 128), i = ix2 u j := ⟨i 0, i 1, eq_ix2 i⟩
  obtain rfl : u = 0 := Subsingleton.elim _ _
  exact (sum_inv7 V c 4 t7_4.isLt j).trans (psum_five _ j)

theorem sq_last7 (c : Dev nD) :
    (outsAt7 (F := Ideal) V c t7_4.val t7_4.isLt).2.2 = Cert.Spec.colSum (Cert.Spec.sq (Z7 V c)) := by
  funext i
  obtain ⟨u, j, rfl⟩ : ∃ (u : Fin 1) (j : Fin 128), i = ix2 u j := ⟨i 0, i 1, eq_ix2 i⟩
  obtain rfl : u = 0 := Subsingleton.elim _ _
  exact (sq_inv7 V c 4 t7_4.isLt j).trans (psum_five _ j)

/-- The one write-back of the sum accumulator, after the last point: its block is the whole one-row array. -/
theorem flushed7_3_eq (c : Dev nD) (t : Fin cfg7.N) (hf : (cfg7.win 3).flush t = true) :
    (dat7 (F := Ideal) V c).flushed 3 t = ((cfg7.win 3).blk t).view.read (Elt Ideal) (Cert.Spec.colSum (Z7 V c)) := by
  have hN : cfg7.N = 5 := N_7
  have h4 : t.val = 4 := by have := (flush7_3 t).mp hf; have := t.isLt; omega
  obtain rfl : t = t7_4 := Fin.ext h4
  show (cfg7.win 3).cut (grid7.coords t7_4) ((dat7 V c).after 3 t7_4) = _
  rw [after7_3, sum_last7]
  have hz' : (fun a => win7_3.index t7_4 a * main_v123_1.ty.shape.size a) = fun _ => 0 := funext fun a => by fin_cases a <;> decide
  exact (Memref.read_access_unit_zero (Elt Ideal) main_v123_1 hz' (fun a => by rw [congrFun hz' a]; simp) (Cert.Spec.colSum (Z7 V c))).symm

theorem flushed7_4_eq (c : Dev nD) (t : Fin cfg7.N) (hf : (cfg7.win 4).flush t = true) :
    (dat7 (F := Ideal) V c).flushed 4 t = ((cfg7.win 4).blk t).view.read (Elt Ideal) (Cert.Spec.colSum (Cert.Spec.sq (Z7 V c))) := by
  have hN : cfg7.N = 5 := N_7
  have h4 : t.val = 4 := by have := (flush7_4 t).mp hf; have := t.isLt; omega
  obtain rfl : t = t7_4 := Fin.ext h4
  show (cfg7.win 4).cut (grid7.coords t7_4) ((dat7 V c).after 4 t7_4) = _
  rw [after7_4, sq_last7]
  have hz' : (fun a => win7_4.index t7_4 a * main_v123_2.ty.shape.size a) = fun _ => 0 := funext fun a => by fin_cases a <;> decide
  exact (Memref.read_access_unit_zero (Elt Ideal) main_v123_2 hz' (fun a => by rw [congrFun hz' a]; simp) (Cert.Spec.colSum (Cert.Spec.sq (Z7 V c)))).symm

/-- The array of column sums. -/
theorem region7_s (c : Dev nD) :
    (dat7 (F := Ideal) V c).arrAt 3 cfg7.N = Cert.Spec.colSum (Cert.Spec.relu (Cert.Spec.addRow (V c main_v119) (V c main_v122))) :=
  (dat7 (F := Ideal) V c).arrAt_eq_of_cover 3 (Cert.Spec.colSum (Z7 V c)) (flushed7_3_eq V c) fun i =>
    ⟨t7_4, (flush7_3 t7_4).mpr rfl, by
      show i ∈ ((View.whole main_v123_1).slice (win7_3.rect t7_4)).set
      rw [View.set_slice_whole, Rect.mem_set_unit]
      intro a
      have h0 : (i 0 : Nat) < 1 := (i 0).isLt
      have h1 : (i 1 : Nat) < 128 := (i 1).isLt
      match a with
      | ⟨0, _⟩ => show win7_3.index t7_4 0 * win7_3.size 0 ≤ (i 0 : Nat) ∧ (i 0 : Nat) < win7_3.index t7_4 0 * win7_3.size 0 + win7_3.xsize (grid7.coords t7_4) 0
                  rw [show win7_3.index t7_4 0 * win7_3.size 0 = 0 from by decide +kernel, show win7_3.xsize (grid7.coords t7_4) 0 = 1 from by decide +kernel]; omega
      | ⟨1, _⟩ => show win7_3.index t7_4 1 * win7_3.size 1 ≤ (i 1 : Nat) ∧ (i 1 : Nat) < win7_3.index t7_4 1 * win7_3.size 1 + win7_3.xsize (grid7.coords t7_4) 1
                  rw [show win7_3.index t7_4 1 * win7_3.size 1 = 0 from by decide +kernel, show win7_3.xsize (grid7.coords t7_4) 1 = 128 from by decide +kernel]; omega⟩

/-- The array of column sums of squares. -/
theorem region7_ss (c : Dev nD) :
    (dat7 (F := Ideal) V c).arrAt 4 cfg7.N = Cert.Spec.colSum (Cert.Spec.sq (Cert.Spec.relu (Cert.Spec.addRow (V c main_v119) (V c main_v122)))) :=
  (dat7 (F := Ideal) V c).arrAt_eq_of_cover 4 (Cert.Spec.colSum (Cert.Spec.sq (Z7 V c))) (flushed7_4_eq V c) fun i =>
    ⟨t7_4, (flush7_4 t7_4).mpr rfl, by
      show i ∈ ((View.whole main_v123_2).slice (win7_4.rect t7_4)).set
      rw [View.set_slice_whole, Rect.mem_set_unit]
      intro a
      have h0 : (i 0 : Nat) < 1 := (i 0).isLt
      have h1 : (i 1 : Nat) < 128 := (i 1).isLt
      match a with
      | ⟨0, _⟩ => show win7_4.index t7_4 0 * win7_4.size 0 ≤ (i 0 : Nat) ∧ (i 0 : Nat) < win7_4.index t7_4 0 * win7_4.size 0 + win7_4.xsize (grid7.coords t7_4) 0
                  rw [show win7_4.index t7_4 0 * win7_4.size 0 = 0 from by decide +kernel, show win7_4.xsize (grid7.coords t7_4) 0 = 1 from by decide +kernel]; omega
      | ⟨1, _⟩ => show win7_4.index t7_4 1 * win7_4.size 1 ≤ (i 1 : Nat) ∧ (i 1 : Nat) < win7_4.index t7_4 1 * win7_4.size 1 + win7_4.xsize (grid7.coords t7_4) 1
                  rw [show win7_4.index t7_4 1 * win7_4.size 1 = 0 from by decide +kernel, show win7_4.xsize (grid7.coords t7_4) 1 = 128 from by decide +kernel]; omega⟩

end Region7

end Cert.KernelIdeal.RegVal

end
-- ==== Proof.RegNorm.lean ====
/-
  The batch-norm apply regions, read as one function of the arrays each region finds.

  Each of the three regions walks the 50000 rows of an activation matrix in five blocks of 10000 rows. At every
  block it holds four rows of 128 numbers — the column means, the column variances, a scale and a shift —, the same
  four at every block, and writes back, entry by entry,
      (z − mean) · rsqrt (var + ε) · scale + shift,
  the row vectors repeated down the rows of the block; the first two regions then clamp the result below at zero.
  Row r of the matrix lies in block r / 10000 at row r % 10000 of it and the five blocks tile the rows, so after the
  last block the output array is that expression of the input arrays at every index: the normalisation
  `Cert.Spec.bnApply` (under `Cert.Spec.relu` for the first two).
-/
import proofs.«126339_j45595372814849_1_alg».proof.Proof.Gen.KernelIdeal.Frame
import proofs.«126339_j45595372814849_1_alg».proof.Proof.Spec
import Idealize.ShloMosaic.Lib.Pipeline.Value
import Idealize.ShloMosaic.Lib.ValueLayout

set_option maxRecDepth 16384

noncomputable section

namespace Cert.KernelIdeal.RegVal

open Cert.KernelIdeal Cert.KernelIdeal.Gen Idealize.ShloMosaic Idealize.ShloMosaic.ValueIdx
open Idealize.ShloMosaic.TcCoe Idealize.SL.Sem
open Idealize.ShloMosaic.Pipeline (Dat)

-- the buffer contents when a region is entered: every statement below holds for any such contents
variable (V : (c : Dev nD) → (b : Ref sig .tc) → Buf (Elt Ideal) ((c : Thread nD τ).loc b))

/-- The zero offsets of a whole-buffer access, as a constant function. -/
theorem zero_offsets : (![0, 0] : Fin 2 → Nat) = fun _ => 0 := funext fun a => by fin_cases a <;> rfl

/-! ## Region 2 -/

/-- The body's arithmetic at row `p`, column `q` of a block: the four rows are read at column `q`, the variance
    row gets ε added and its reciprocal square root taken, and the result is clamped below at zero. -/
theorem pay2_apply (v0 : Vec Ideal S1x128 .f32) (v5 : Vec Ideal S10000x128 .f32) (v7 v13 v17 : Vec Ideal S1x128 .f32)
    (p : Fin 10000) (q : Fin 128) :
    k2_pay1 (F := Ideal) v0 v5 v7 v13 v17 (ix2 p q)
      = max ((v5 (ix2 p q) - v7 (ix2 (0 : Fin 1) q)) * Ideal.rsqrt (v0 (ix2 (0 : Fin 1) q) + Cert.Spec.eps)
          * v13 (ix2 (0 : Fin 1) q) + v17 (ix2 (0 : Fin 1) q)) 0 := by
  unfold k2_pay1
  simp only [shapeCast_self]
  show max (((v5 (ix2 p q) - broadcastTo S10000x128 v7 broadcasts_S1x128_S10000x128 (ix2 p q))
        * broadcastTo S10000x128 (rsqrt (F := Ideal) (addf (F := Ideal) v0 (broadcast S1x128 (Scalar.ofBits (F := Ideal) .f32 0x3727C5AC#32)))) broadcasts_S1x128_S10000x128 (ix2 p q))
        * broadcastTo S10000x128 v13 broadcasts_S1x128_S10000x128 (ix2 p q)
      + broadcastTo S10000x128 v17 broadcasts_S1x128_S10000x128 (ix2 p q)) (Ideal.ofBits .f32 0x00000000#32) = _
  rw [broadcastTo_1b_ab_apply, broadcastTo_1b_ab_apply, broadcastTo_1b_ab_apply, broadcastTo_1b_ab_apply, Ideal.ofBits_zero_f32]
  rfl

/-- One entry of a block's result is the normalisation at the array index it is written to: for a block `x0` whose
    entry `y` is the array's entry `i` in the same column, and the four rows as the arrays have them. -/
theorem block2_apply (x0 : Vec Ideal S10000x128 .f32) (x1 x2 x3 x4 : Vec Ideal S1x128 .f32)
    (Z : Cert.Spec.M 50000 128) (Mn Vr Gm Bt : Cert.Spec.M 1 128) (y : S10000x128.Idx) (i : S50000x128.Idx)
    (hi : (i 1).val = (y 1).val) (h0 : x0 y = Z i)
    (h1 : ∀ q : Fin 128, x1 (ix2 (0 : Fin 1) q) = Mn (ix2 (0 : Fin 1) q))
    (h2 : ∀ q : Fin 128, x2 (ix2 (0 : Fin 1) q) = Vr (ix2 (0 : Fin 1) q))
    (h3 : ∀ q : Fin 128, x3 (ix2 (0 : Fin 1) q) = Gm (ix2 (0 : Fin 1) q))
    (h4 : ∀ q : Fin 128, x4 (ix2 (0 : Fin 1) q) = Bt (ix2 (0 : Fin 1) q)) :
    k2_pay1 (F := Ideal) x2 x0 x1 x3 x4 y = Cert.Spec.relu (Cert.Spec.bnApply Z Mn Vr Gm Bt) i := by
  obtain ⟨p, q, rfl⟩ : ∃ (p : Fin 10000) (q : Fin 128), y = ix2 p q := ⟨y 0, y 1, eq_ix2 y⟩
  obtain ⟨r, q', rfl⟩ : ∃ (r : Fin 50000) (q' : Fin 128), i = ix2 r q' := ⟨i 0, i 1, eq_ix2 i⟩
  obtain rfl : q' = q := Fin.ext hi
  rw [pay2_apply, h0, h1, h2, h3, h4]
  rfl

/-- The printed index maps, decided over the five grid points: the input block moves with the output block, the
    four rows stay at block (0, 0), and the output's blocks are the five row blocks. -/
theorem idx_facts2 : ∀ t : Fin cfg2.N,
    win2_0.index t (0 : Fin 2) = win2_5.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (1 : Fin 2) = 0 :=
  (by decide +kernel : ∀ t : Fin grid2.N, _)

/-- Every one of the five row blocks is some grid point's. -/
theorem idx_onto2 : ∀ q0 : Fin 5, ∃ t : Fin cfg2.N, win2_5.index t = ![q0.val, 0] :=
  (by decide +kernel : ∀ q0 : Fin 5, ∃ t : Fin grid2.N, win2_5.index t = ![q0.val, 0])

/-- A row of 128 numbers staged whole at block (0, 0) is the array's row. -/
theorem row2_1 (c : Dev nD) (t : Fin cfg2.N) (q : Fin 128) :
    (iblk2 V c 1 t : Vec Ideal S1x128 .f32) (ix2 (0 : Fin 1) q) = (V c main_v64 : Cert.Spec.M 1 128) (ix2 (0 : Fin 1) q) := by
  obtain ⟨-, -, e0, e1, -⟩ := idx_facts2 t
  show (V c main_v64 : Cert.Spec.M 1 128) (((cfg2.win 1).blk t).view.emb (ix2 (0 : Fin 1) q)) = _
  refine congrArg (V c main_v64 : Cert.Spec.M 1 128) (funext fun a => Fin.ext ?_)
  match a with
  | ⟨0, _⟩ => show win2_1.index t (0 : Fin 2) * 1 + 1 * 0 = 0; omega
  | ⟨1, _⟩ => show win2_1.index t (1 : Fin 2) * 128 + 1 * q.val = q.val; omega
theorem row2_2 (c : Dev nD) (t : Fin cfg2.N) (q : Fin 128) :
    (iblk2 V c 2 t : Vec Ideal S1x128 .f32) (ix2 (0 : Fin 1) q) = (V c main_v65 : Cert.Spec.M 1 128) (ix2 (0 : Fin 1) q) := by
  obtain ⟨-, -, -, -, e0, e1, -⟩ := idx_facts2 t
  show (V c main_v65 : Cert.Spec.M 1 128) (((cfg2.win 2).blk t).view.emb (ix2 (0 : Fin 1) q)) = _
  refine congrArg (V c main_v65 : Cert.Spec.M 1 128) (funext fun a => Fin.ext ?_)
  match a with
  | ⟨0, _⟩ => show win2_2.index t (0 : Fin 2) * 1 + 1 * 0 = 0; omega
  | ⟨1, _⟩ => show win2_2.index t (1 : Fin 2) * 128 + 1 * q.val = q.val; omega
theorem row2_3 (c : Dev nD) (t : Fin cfg2.N) (q : Fin 128) :
    (iblk2 V c 3 t : Vec Ideal S1x128 .f32) (ix2 (0 : Fin 1) q) = (V c main_v66 : Cert.Spec.M 1 128) (ix2 (0 : Fin 1) q) := by
  obtain ⟨-, -, -, -, -, -, e0, e1, -⟩ := idx_facts2 t
  show (V c main_v66 : Cert.Spec.M 1 128) (((cfg2.win 3).blk t).view.emb (ix2 (0 : Fin 1) q)) = _
  refine congrArg (V c main_v66 : Cert.Spec.M 1 128) (funext fun a => Fin.ext ?_)
  match a with
  | ⟨0, _⟩ => show win2_3.index t (0 : Fin 2) * 1 + 1 * 0 = 0; omega
  | ⟨1, _⟩ => show win2_3.index t (1 : Fin 2) * 128 + 1 * q.val = q.val; omega
theorem row2_4 (c : Dev nD) (t : Fin cfg2.N) (q : Fin 128) :
    (iblk2 V c 4 t : Vec Ideal S1x128 .f32) (ix2 (0 : Fin 1) q) = (V c main_v67 : Cert.Spec.M 1 128) (ix2 (0 : Fin 1) q) := by
  obtain ⟨-, -, -, -, -, -, -, -, e0, e1, -⟩ := idx_facts2 t
  show (V c main_v67 : Cert.Spec.M 1 128) (((cfg2.win 4).blk t).view.emb (ix2 (0 : Fin 1) q)) = _
  refine congrArg (V c main_v67 : Cert.Spec.M 1 128) (funext fun a => Fin.ext ?_)
  match a with
  | ⟨0, _⟩ => show win2_4.index t (0 : Fin 2) * 1 + 1 * 0 = 0; omega
  | ⟨1, _⟩ => show win2_4.index t (1 : Fin 2) * 128 + 1 * q.val = q.val; omega

/-- What grid point `t` writes back is block `t` of the normalisation of the arrays the region finds. -/
theorem flushed2_eq (c : Dev nD) (t : Fin cfg2.N) :
    (dat2 (F := Ideal) V c).flushed 5 t = ((cfg2.win 5).blk t).view.read (Elt Ideal)
      (Cert.Spec.relu (Cert.Spec.bnApply (V c main_v51_0) (V c main_v64) (V c main_v65) (V c main_v66) (V c main_v67)) : Cert.Spec.M 50000 128) := by
  show (cfg2.win 5).cut (grid2.coords t) ((dat2 (F := Ideal) V c).after 5 t) = _
  rw [after2_5]
  unfold out2_5
  rw [View.canon_unit_zero zero_offsets]
  simp only [View.ld_unit_zero (S := S10000x128) zero_offsets, View.ld_unit_zero (S := S1x128) zero_offsets]
  obtain ⟨e00, e01, -, -, -, -, -, -, -, -, e51⟩ := idx_facts2 t
  funext j
  show k2_pay1 (F := Ideal) (iblk2 V c 2 t) (iblk2 V c 0 t) (iblk2 V c 1 t) (iblk2 V c 3 t) (iblk2 V c 4 t) j
    = (Cert.Spec.relu (Cert.Spec.bnApply (V c main_v51_0) (V c main_v64) (V c main_v65) (V c main_v66) (V c main_v67)) : Cert.Spec.M 50000 128) (((cfg2.win 5).blk t).view.emb j)
  refine block2_apply (iblk2 V c 0 t) (iblk2 V c 1 t) (iblk2 V c 2 t) (iblk2 V c 3 t) (iblk2 V c 4 t)
    (V c main_v51_0) (V c main_v64) (V c main_v65) (V c main_v66) (V c main_v67) j (((cfg2.win 5).blk t).view.emb j) ?_ ?_
    (row2_1 V c t) (row2_2 V c t) (row2_3 V c t) (row2_4 V c t)
  · show win2_5.index t (1 : Fin 2) * 128 + 1 * (j 1).val = (j 1).val
    omega
  · show (V c main_v51_0 : Cert.Spec.M 50000 128) (((cfg2.win 0).blk t).view.emb j)
      = (V c main_v51_0 : Cert.Spec.M 50000 128) (((cfg2.win 5).blk t).view.emb j)
    refine congrArg (V c main_v51_0 : Cert.Spec.M 50000 128) (funext fun a => Fin.ext ?_)
    match a with
    | ⟨0, _⟩ => show win2_0.index t (0 : Fin 2) * 10000 + 1 * (j 0).val = win2_5.index t (0 : Fin 2) * 10000 + 1 * (j 0).val; omega
    | ⟨1, _⟩ => show win2_0.index t (1 : Fin 2) * 128 + 1 * (j 1).val = win2_5.index t (1 : Fin 2) * 128 + 1 * (j 1).val; omega

/-- An index of the array is in point `t`'s block iff each coordinate is in the block's range on its axis. -/
theorem mem_blk2 (t : Fin cfg2.N) (i : S50000x128.Idx) :
    i ∈ ((cfg2.win 5).blk t).view.set ↔ ∀ a : Fin 2, win2_5.index t a * S10000x128.size a ≤ (i a).val
      ∧ (i a).val < win2_5.index t a * S10000x128.size a + S10000x128.size a := by
  show i ∈ ((View.whole main_v68).slice (win2_5.rect t)).set ↔ _
  rw [View.set_slice_whole, Rect.mem_set_unit]
  exact Iff.rfl

/-- The five blocks tile the rows: row `r` is in the block of point `r / 10000`. -/
theorem cover2 (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht⟩ := idx_onto2 ⟨(i 0).val / 10000, by omega⟩
  have q0 : win2_5.index t (0 : Fin 2) = (i 0).val / 10000 := congrFun ht 0
  have q1 : win2_5.index t (1 : Fin 2) = 0 := congrFun ht 1
  refine ⟨t, flush2_5 t, ?_⟩
  rw [mem_blk2]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 128 ≤ (i 1).val ∧ (i 1).val < win2_5.index t (1 : Fin 2) * 128 + 128; omega

/-- After the region the output array is the normalisation, clamped below at zero, of the arrays the region finds. -/
theorem region2_out (c : Dev nD) : (dat2 (F := Ideal) V c).arrAt 5 cfg2.N
    = Cert.Spec.relu (Cert.Spec.bnApply (V c main_v51_0) (V c main_v64) (V c main_v65) (V c main_v66) (V c main_v67)) :=
  (dat2 (F := Ideal) V c).arrAt_eq_of_cover 5 _ (fun t _ => flushed2_eq V c t) cover2

/-! ## Region 5 -/

/-- The body's arithmetic at row `p`, column `q` of a block: the four rows are read at column `q`, the variance
    row gets ε added and its reciprocal square root taken, and the result is clamped below at zero. -/
theorem pay5_apply (v0 : Vec Ideal S1x128 .f32) (v5 : Vec Ideal S10000x128 .f32) (v7 v13 v17 : Vec Ideal S1x128 .f32)
    (p : Fin 10000) (q : Fin 128) :
    k5_pay1 (F := Ideal) v0 v5 v7 v13 v17 (ix2 p q)
      = max ((v5 (ix2 p q) - v7 (ix2 (0 : Fin 1) q)) * Ideal.rsqrt (v0 (ix2 (0 : Fin 1) q) + Cert.Spec.eps)
          * v13 (ix2 (0 : Fin 1) q) + v17 (ix2 (0 : Fin 1) q)) 0 := by
  unfold k5_pay1
  simp only [shapeCast_self]
  show max (((v5 (ix2 p q) - broadcastTo S10000x128 v7 broadcasts_S1x128_S10000x128 (ix2 p q))
        * broadcastTo S10000x128 (rsqrt (F := Ideal) (addf (F := Ideal) v0 (broadcast S1x128 (Scalar.ofBits (F := Ideal) .f32 0x3727C5AC#32)))) broadcasts_S1x128_S10000x128 (ix2 p q))
        * broadcastTo S10000x128 v13 broadcasts_S1x128_S10000x128 (ix2 p q)
      + broadcastTo S10000x128 v17 broadcasts_S1x128_S10000x128 (ix2 p q)) (Ideal.ofBits .f32 0x00000000#32) = _
  rw [broadcastTo_1b_ab_apply, broadcastTo_1b_ab_apply, broadcastTo_1b_ab_apply, broadcastTo_1b_ab_apply, Ideal.ofBits_zero_f32]
  rfl

/-- One entry of a block's result is the normalisation at the array index it is written to: for a block `x0` whose
    entry `y` is the array's entry `i` in the same column, and the four rows as the arrays have them. -/
theorem block5_apply (x0 : Vec Ideal S10000x128 .f32) (x1 x2 x3 x4 : Vec Ideal S1x128 .f32)
    (Z : Cert.Spec.M 50000 128) (Mn Vr Gm Bt : Cert.Spec.M 1 128) (y : S10000x128.Idx) (i : S50000x128.Idx)
    (hi : (i 1).val = (y 1).val) (h0 : x0 y = Z i)
    (h1 : ∀ q : Fin 128, x1 (ix2 (0 : Fin 1) q) = Mn (ix2 (0 : Fin 1) q))
    (h2 : ∀ q : Fin 128, x2 (ix2 (0 : Fin 1) q) = Vr (ix2 (0 : Fin 1) q))
    (h3 : ∀ q : Fin 128, x3 (ix2 (0 : Fin 1) q) = Gm (ix2 (0 : Fin 1) q))
    (h4 : ∀ q : Fin 128, x4 (ix2 (0 : Fin 1) q) = Bt (ix2 (0 : Fin 1) q)) :
    k5_pay1 (F := Ideal) x2 x0 x1 x3 x4 y = Cert.Spec.relu (Cert.Spec.bnApply Z Mn Vr Gm Bt) i := by
  obtain ⟨p, q, rfl⟩ : ∃ (p : Fin 10000) (q : Fin 128), y = ix2 p q := ⟨y 0, y 1, eq_ix2 y⟩
  obtain ⟨r, q', rfl⟩ : ∃ (r : Fin 50000) (q' : Fin 128), i = ix2 r q' := ⟨i 0, i 1, eq_ix2 i⟩
  obtain rfl : q' = q := Fin.ext hi
  rw [pay5_apply, h0, h1, h2, h3, h4]
  rfl

/-- The printed index maps, decided over the five grid points: the input block moves with the output block, the
    four rows stay at block (0, 0), and the output's blocks are the five row blocks. -/
theorem idx_facts5 : ∀ t : Fin cfg5.N,
    win5_0.index t (0 : Fin 2) = win5_5.index t (0 : Fin 2) ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (1 : Fin 2) = 0 :=
  (by decide +kernel : ∀ t : Fin grid5.N, _)

/-- Every one of the five row blocks is some grid point's. -/
theorem idx_onto5 : ∀ q0 : Fin 5, ∃ t : Fin cfg5.N, win5_5.index t = ![q0.val, 0] :=
  (by decide +kernel : ∀ q0 : Fin 5, ∃ t : Fin grid5.N, win5_5.index t = ![q0.val, 0])

/-- A row of 128 numbers staged whole at block (0, 0) is the array's row. -/
theorem row5_1 (c : Dev nD) (t : Fin cfg5.N) (q : Fin 128) :
    (iblk5 V c 1 t : Vec Ideal S1x128 .f32) (ix2 (0 : Fin 1) q) = (V c main_v100 : Cert.Spec.M 1 128) (ix2 (0 : Fin 1) q) := by
  obtain ⟨-, -, e0, e1, -⟩ := idx_facts5 t
  show (V c main_v100 : Cert.Spec.M 1 128) (((cfg5.win 1).blk t).view.emb (ix2 (0 : Fin 1) q)) = _
  refine congrArg (V c main_v100 : Cert.Spec.M 1 128) (funext fun a => Fin.ext ?_)
  match a with
  | ⟨0, _⟩ => show win5_1.index t (0 : Fin 2) * 1 + 1 * 0 = 0; omega
  | ⟨1, _⟩ => show win5_1.index t (1 : Fin 2) * 128 + 1 * q.val = q.val; omega
theorem row5_2 (c : Dev nD) (t : Fin cfg5.N) (q : Fin 128) :
    (iblk5 V c 2 t : Vec Ideal S1x128 .f32) (ix2 (0 : Fin 1) q) = (V c main_v101 : Cert.Spec.M 1 128) (ix2 (0 : Fin 1) q) := by
  obtain ⟨-, -, -, -, e0, e1, -⟩ := idx_facts5 t
  show (V c main_v101 : Cert.Spec.M 1 128) (((cfg5.win 2).blk t).view.emb (ix2 (0 : Fin 1) q)) = _
  refine congrArg (V c main_v101 : Cert.Spec.M 1 128) (funext fun a => Fin.ext ?_)
  match a with
  | ⟨0, _⟩ => show win5_2.index t (0 : Fin 2) * 1 + 1 * 0 = 0; omega
  | ⟨1, _⟩ => show win5_2.index t (1 : Fin 2) * 128 + 1 * q.val = q.val; omega
theorem row5_3 (c : Dev nD) (t : Fin cfg5.N) (q : Fin 128) :
    (iblk5 V c 3 t : Vec Ideal S1x128 .f32) (ix2 (0 : Fin 1) q) = (V c main_v102 : Cert.Spec.M 1 128) (ix2 (0 : Fin 1) q) := by
  obtain ⟨-, -, -, -, -, -, e0, e1, -⟩ := idx_facts5 t
  show (V c main_v102 : Cert.Spec.M 1 128) (((cfg5.win 3).blk t).view.emb (ix2 (0 : Fin 1) q)) = _
  refine congrArg (V c main_v102 : Cert.Spec.M 1 128) (funext fun a => Fin.ext ?_)
  match a with
  | ⟨0, _⟩ => show win5_3.index t (0 : Fin 2) * 1 + 1 * 0 = 0; omega
  | ⟨1, _⟩ => show win5_3.index t (1 : Fin 2) * 128 + 1 * q.val = q.val; omega
theorem row5_4 (c : Dev nD) (t : Fin cfg5.N) (q : Fin 128) :
    (iblk5 V c 4 t : Vec Ideal S1x128 .f32) (ix2 (0 : Fin 1) q) = (V c main_v103 : Cert.Spec.M 1 128) (ix2 (0 : Fin 1) q) := by
  obtain ⟨-, -, -, -, -, -, -, -, e0, e1, -⟩ := idx_facts5 t
  show (V c main_v103 : Cert.Spec.M 1 128) (((cfg5.win 4).blk t).view.emb (ix2 (0 : Fin 1) q)) = _
  refine congrArg (V c main_v103 : Cert.Spec.M 1 128) (funext fun a => Fin.ext ?_)
  match a with
  | ⟨0, _⟩ => show win5_4.index t (0 : Fin 2) * 1 + 1 * 0 = 0; omega
  | ⟨1, _⟩ => show win5_4.index t (1 : Fin 2) * 128 + 1 * q.val = q.val; omega

/-- What grid point `t` writes back is block `t` of the normalisation of the arrays the region finds. -/
theorem flushed5_eq (c : Dev nD) (t : Fin cfg5.N) :
    (dat5 (F := Ideal) V c).flushed 5 t = ((cfg5.win 5).blk t).view.read (Elt Ideal)
      (Cert.Spec.relu (Cert.Spec.bnApply (V c main_v87_0) (V c main_v100) (V c main_v101) (V c main_v102) (V c main_v103)) : Cert.Spec.M 50000 128) := by
  show (cfg5.win 5).cut (grid5.coords t) ((dat5 (F := Ideal) V c).after 5 t) = _
  rw [after5_5]
  unfold out5_5
  rw [View.canon_unit_zero zero_offsets]
  simp only [View.ld_unit_zero (S := S10000x128) zero_offsets, View.ld_unit_zero (S := S1x128) zero_offsets]
  obtain ⟨e00, e01, -, -, -, -, -, -, -, -, e51⟩ := idx_facts5 t
  funext j
  show k5_pay1 (F := Ideal) (iblk5 V c 2 t) (iblk5 V c 0 t) (iblk5 V c 1 t) (iblk5 V c 3 t) (iblk5 V c 4 t) j
    = (Cert.Spec.relu (Cert.Spec.bnApply (V c main_v87_0) (V c main_v100) (V c main_v101) (V c main_v102) (V c main_v103)) : Cert.Spec.M 50000 128) (((cfg5.win 5).blk t).view.emb j)
  refine block5_apply (iblk5 V c 0 t) (iblk5 V c 1 t) (iblk5 V c 2 t) (iblk5 V c 3 t) (iblk5 V c 4 t)
    (V c main_v87_0) (V c main_v100) (V c main_v101) (V c main_v102) (V c main_v103) j (((cfg5.win 5).blk t).view.emb j) ?_ ?_
    (row5_1 V c t) (row5_2 V c t) (row5_3 V c t) (row5_4 V c t)
  · show win5_5.index t (1 : Fin 2) * 128 + 1 * (j 1).val = (j 1).val
    omega
  · show (V c main_v87_0 : Cert.Spec.M 50000 128) (((cfg5.win 0).blk t).view.emb j)
      = (V c main_v87_0 : Cert.Spec.M 50000 128) (((cfg5.win 5).blk t).view.emb j)
    refine congrArg (V c main_v87_0 : Cert.Spec.M 50000 128) (funext fun a => Fin.ext ?_)
    match a with
    | ⟨0, _⟩ => show win5_0.index t (0 : Fin 2) * 10000 + 1 * (j 0).val = win5_5.index t (0 : Fin 2) * 10000 + 1 * (j 0).val; omega
    | ⟨1, _⟩ => show win5_0.index t (1 : Fin 2) * 128 + 1 * (j 1).val = win5_5.index t (1 : Fin 2) * 128 + 1 * (j 1).val; omega

/-- An index of the array is in point `t`'s block iff each coordinate is in the block's range on its axis. -/
theorem mem_blk5 (t : Fin cfg5.N) (i : S50000x128.Idx) :
    i ∈ ((cfg5.win 5).blk t).view.set ↔ ∀ a : Fin 2, win5_5.index t a * S10000x128.size a ≤ (i a).val
      ∧ (i a).val < win5_5.index t a * S10000x128.size a + S10000x128.size a := by
  show i ∈ ((View.whole main_v104).slice (win5_5.rect t)).set ↔ _
  rw [View.set_slice_whole, Rect.mem_set_unit]
  exact Iff.rfl

/-- The five blocks tile the rows: row `r` is in the block of point `r / 10000`. -/
theorem cover5 (i : S50000x128.Idx) :
    ∃ t : Fin cfg5.N, (cfg5.win 5).flush t = true ∧ i ∈ ((cfg5.win 5).blk t).view.set := by
  have hi0 : (i 0).val < 50000 := (i 0).isLt
  have hi1 : (i 1).val < 128 := (i 1).isLt
  obtain ⟨t, ht⟩ := idx_onto5 ⟨(i 0).val / 10000, by omega⟩
  have q0 : win5_5.index t (0 : Fin 2) = (i 0).val / 10000 := congrFun ht 0
  have q1 : win5_5.index t (1 : Fin 2) = 0 := congrFun ht 1
  refine ⟨t, flush5_5 t, ?_⟩
  rw [mem_blk5]
  intro a
  match a with
  | ⟨0, _⟩ => show win5_5.index t (0 : Fin 2) * 10000 ≤ (i 0).val ∧ (i 0).val < win5_5.index t (0 : Fin 2) * 10000 + 10000; omega
  | ⟨1, _⟩ => show win5_5.index t (1 : Fin 2) * 128 ≤ (i 1).val ∧ (i 1).val < win5_5.index t (1 : Fin 2) * 128 + 128; omega

/-- After the region the output array is the normalisation, clamped below at zero, of the arrays the region finds. -/
theorem region5_out (c : Dev nD) : (dat5 (F := Ideal) V c).arrAt 5 cfg5.N
    = Cert.Spec.relu (Cert.Spec.bnApply (V c main_v87_0) (V c main_v100) (V c main_v101) (V c main_v102) (V c main_v103)) :=
  (dat5 (F := Ideal) V c).arrAt_eq_of_cover 5 _ (fun t _ => flushed5_eq V c t) cover5

/-! ## Region 8 -/

/-- The body's arithmetic at row `p`, column `q` of a block: the four rows are read at column `q`, the variance
    row gets ε added and its reciprocal square root taken. -/
theorem pay8_apply (v0 : Vec Ideal S1x128 .f32) (v5 : Vec Ideal S10000x128 .f32) (v7 v13 v17 : Vec Ideal S1x128 .f32)
    (p : Fin 10000) (q : Fin 128) :
    k8_pay1 (F := Ideal) v0 v5 v7 v13 v17 (ix2 p q)
      = (v5 (ix2 p q) - v7 (ix2 (0 : Fin 1) q)) * Ideal.rsqrt (v0 (ix2 (0 : Fin 1) q) + Cert.Spec.eps)
          * v13 (ix2 (0 : Fin 1) q) + v17 (ix2 (0 : Fin 1) q) := by
  unfold k8_pay1
  simp only [shapeCast_self]
  show ((v5 (ix2 p q) - broadcastTo S10000x128 v7 broadcasts_S1x128_S10000x128 (ix2 p q))
        * broadcastTo S10000x128 (rsqrt (F := Ideal) (addf (F := Ideal) v0 (broadcast S1x128 (Scalar.ofBits (F := Ideal) .f32 0x3727C5AC#32)))) broadcasts_S1x128_S10000x128 (ix2 p q))
        * broadcastTo S10000x128 v13 broadcasts_S1x128_S10000x128 (ix2 p q)
      + broadcastTo S10000x128 v17 broadcasts_S1x128_S10000x128 (ix2 p q) = _
  rw [broadcastTo_1b_ab_apply, broadcastTo_1b_ab_apply, broadcastTo_1b_ab_apply, broadcastTo_1b_ab_apply]
  rfl

/-- One entry of a block's result is the normalisation at the array index it is written to: for a block `x0` whose
    entry `y` is the array's entry `i` in the same column, and the four rows as the arrays have them. -/
theorem block8_apply (x0 : Vec Ideal S10000x128 .f32) (x1 x2 x3 x4 : Vec Ideal S1x128 .f32)
    (Z : Cert.Spec.M 50000 128) (Mn Vr Gm Bt : Cert.Spec.M 1 128) (y : S10000x128.Idx) (i : S50000x128.Idx)
    (hi : (i 1).val = (y 1).val) (h0 : x0 y = Z i)
    (h1 : ∀ q : Fin 128, x1 (ix2 (0 : Fin 1) q) = Mn (ix2 (0 : Fin 1) q))
    (h2 : ∀ q : Fin 128, x2 (ix2 (0 : Fin 1) q) = Vr (ix2 (0 : Fin 1) q))
    (h3 : ∀ q : Fin 128, x3 (ix2 (0 : Fin 1) q) = Gm (ix2 (0 : Fin 1) q))
    (h4 : ∀ q : Fin 128, x4 (ix2 (0 : Fin 1) q) = Bt (ix2 (0 : Fin 1) q)) :
    k8_pay1 (F := Ideal) x2 x0 x1 x3 x4 y = Cert.Spec.bnApply Z Mn Vr Gm Bt i := by
  obtain ⟨p, q, rfl⟩ : ∃ (p : Fin 10000) (q : Fin 128), y = ix2 p q := ⟨y 0, y 1, eq_ix2 y⟩
  obtain ⟨r, q', rfl⟩ : ∃ (r : Fin 50000) (q' : Fin 128), i = ix2 r q' := ⟨i 0, i 1, eq_ix2 i⟩
  obtain rfl : q' = q := Fin.ext hi
  rw [pay8_apply, h0, h1, h2, h3, h4]
  rfl

/-- The printed index maps, decided over the five grid points: the input block moves with the output block, the
    four rows stay at block (0, 0), and the output's blocks are the five row blocks. -/
theorem idx_facts8 : ∀ t : Fin cfg8.N,
    win8_0.index t (0 : Fin 2) = win8_5.index t (0 : Fin 2) ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (1 : Fin 2) = 0 :=
  (by decide +kernel : ∀ t : Fin grid8.N, _)

/-- Every one of the five row blocks is some grid point's. -/
theorem idx_onto8 : ∀ q0 : Fin 5, ∃ t : Fin cfg8.N, win8_5.index t = ![q0.val, 0] :=
  (by decide +kernel : ∀ q0 : Fin 5, ∃ t : Fin grid8.N, win8_5.index t = ![q0.val, 0])

/-- A row of 128 numbers staged whole at block (0, 0) is the array's row. -/
theorem row8_1 (c : Dev nD) (t : Fin cfg8.N) (q : Fin 128) :
    (iblk8 V c 1 t : Vec Ideal S1x128 .f32) (ix2 (0 : Fin 1) q) = (V c main_v136 : Cert.Spec.M 1 128) (ix2 (0 : Fin 1) q) := by
  obtain ⟨-, -, e0, e1, -⟩ := idx_facts8 t
  show (V c main_v136 : Cert.Spec.M 1 128) (((cfg8.win 1).blk t).view.emb (ix2 (0 : Fin 1) q)) = _
  refine congrArg (V c main_v136 : Cert.Spec.M 1 128) (funext fun a => Fin.ext ?_)
  match a with
  | ⟨0, _⟩ => show win8_1.index t (0 : Fin 2) * 1 + 1 * 0 = 0; omega
  | ⟨1, _⟩ => show win8_1.index t (1 : Fin 2) * 128 + 1 * q.val = q.val; omega
theorem row8_2 (c : Dev nD) (t : Fin cfg8.N) (q : Fin 128) :
    (iblk8 V c 2 t : Vec Ideal S1x128 .f32) (ix2 (0 : Fin 1) q) = (V c main_v137 : Cert.Spec.M 1 128) (ix2 (0 : Fin 1) q) := by
  obtain ⟨-, -, -, -, e0, e1, -⟩ := idx_facts8 t
  show (V c main_v137 : Cert.Spec.M 1 128) (((cfg8.win 2).blk t).view.emb (ix2 (0 : Fin 1) q)) = _
  refine congrArg (V c main_v137 : Cert.Spec.M 1 128) (funext fun a => Fin.ext ?_)
  match a with
  | ⟨0, _⟩ => show win8_2.index t (0 : Fin 2) * 1 + 1 * 0 = 0; omega
  | ⟨1, _⟩ => show win8_2.index t (1 : Fin 2) * 128 + 1 * q.val = q.val; omega
theorem row8_3 (c : Dev nD) (t : Fin cfg8.N) (q : Fin 128) :
    (iblk8 V c 3 t : Vec Ideal S1x128 .f32) (ix2 (0 : Fin 1) q) = (V c main_v138 : Cert.Spec.M 1 128) (ix2 (0 : Fin 1) q) := by
  obtain ⟨-, -, -, -, -, -, e0, e1, -⟩ := idx_facts8 t
  show (V c main_v138 : Cert.Spec.M 1 128) (((cfg8.win 3).blk t).view.emb (ix2 (0 : Fin 1) q)) = _
  refine congrArg (V c main_v138 : Cert.Spec.M 1 128) (funext fun a => Fin.ext ?_)
  match a with
  | ⟨0, _⟩ => show win8_3.index t (0 : Fin 2) * 1 + 1 * 0 = 0; omega
  | ⟨1, _⟩ => show win8_3.index t (1 : Fin 2) * 128 + 1 * q.val = q.val; omega
theorem row8_4 (c : Dev nD) (t : Fin cfg8.N) (q : Fin 128) :
    (iblk8 V c 4 t : Vec Ideal S1x128 .f32) (ix2 (0 : Fin 1) q) = (V c main_v139 : Cert.Spec.M 1 128) (ix2 (0 : Fin 1) q) := by
  obtain ⟨-, -, -, -, -, -, -, -, e0, e1, -⟩ := idx_facts8 t
  show (V c main_v139 : Cert.Spec.M 1 128) (((cfg8.win 4).blk t).view.emb (ix2 (0 : Fin 1) q)) = _
  refine congrArg (V c main_v139 : Cert.Spec.M 1 128) (funext fun a => Fin.ext ?_)
  match a with
  | ⟨0, _⟩ => show win8_4.index t (0 : Fin 2) * 1 + 1 * 0 = 0; omega
  | ⟨1, _⟩ => show win8_4.index t (1 : Fin 2) * 128 + 1 * q.val = q.val; omega

/-- What grid point `t` writes back is block `t` of the normalisation of the arrays the region finds. -/
theorem flushed8_eq (c : Dev nD) (t : Fin cfg8.N) :
    (dat8 (F := Ideal) V c).flushed 5 t = ((cfg8.win 5).blk t).view.read (Elt Ideal)
      (Cert.Spec.bnApply (V c main_v123_0) (V c main_v136) (V c main_v137) (V c main_v138) (V c main_v139) : Cert.Spec.M 50000 128) := by
  show (cfg8.win 5).cut (grid8.coords t) ((dat8 (F := Ideal) V c).after 5 t) = _
  rw [after8_5]
  unfold out8_5
  rw [View.canon_unit_zero zero_offsets]
  simp only [View.ld_unit_zero (S := S10000x128) zero_offsets, View.ld_unit_zero (S := S1x128) zero_offsets]
  obtain ⟨e00, e01, -, -, -, -, -, -, -, -, e51⟩ := idx_facts8 t
  funext j
  show k8_pay1 (F := Ideal) (iblk8 V c 2 t) (iblk8 V c 0 t) (iblk8 V c 1 t) (iblk8 V c 3 t) (iblk8 V c 4 t) j
    = (Cert.Spec.bnApply (V c main_v123_0) (V c main_v136) (V c main_v137) (V c main_v138) (V c main_v139) : Cert.Spec.M 50000 128) (((cfg8.win 5).blk t).view.emb j)
  refine block8_apply (iblk8 V c 0 t) (iblk8 V c 1 t) (iblk8 V c 2 t) (iblk8 V c 3 t) (iblk8 V c 4 t)
    (V c main_v123_0) (V c main_v136) (V c main_v137) (V c main_v138) (V c main_v139) j (((cfg8.win 5).blk t).view.emb j) ?_ ?_
    (row8_1 V c t) (row8_2 V c t) (row8_3 V c t) (row8_4 V c t)
  · show win8_5.index t (1 : Fin 2) * 128 + 1 * (j 1).val = (j 1).val
    omega
  · show (V c main_v123_0 : Cert.Spec.M 50000 128) (((cfg8.win 0).blk t).view.emb j)
      = (V c main_v123_0 : Cert.Spec.M 50000 128) (((cfg8.win 5).blk t).view.emb j)
    refine congrArg (V c main_v123_0 : Cert.Spec.M 50000 128) (funext fun a => Fin.ext ?_)
    match a with
    | ⟨0, _⟩ => show win8_0.index t (0 : Fin 2) * 10000 + 1 * (j 0).val = win8_5.index t (0 : Fin 2) * 10000 + 1 * (j 0).val; omega
    | ⟨1, _⟩ => show win8_0.index t (1 : Fin 2) * 128 + 1 * (j 1).val = win8_5.index t (1 : Fin 2) * 128 + 1 * (j 1).val; omega

/-- An index of the array is in point `t`'s block iff each coordinate is in the block's range on its axis. -/
theorem mem_blk8 (t : Fin cfg8.N) (i : S50000x128.Idx) :
    i ∈ ((cfg8.win 5).blk t).view.set ↔ ∀ a : Fin 2, win8_5.index t a * S10000x128.size a ≤ (i a).val
      ∧ (i a).val < win8_5.index t a * S10000x128.size a + S10000x128.size a := by
  show i ∈ ((View.whole main_v140).slice (win8_5.rect t)).set ↔ _
  rw [View.set_slice_whole, Rect.mem_set_unit]
  exact Iff.rfl

/-- The five blocks tile the rows: row `r` is in the block of point `r / 10000`. -/
theorem cover8 (i : S50000x128.Idx) :
    ∃ t : Fin cfg8.N, (cfg8.win 5).flush t = true ∧ i ∈ ((cfg8.win 5).blk t).view.set := by
  have hi0 : (i 0).val < 50000 := (i 0).isLt
  have hi1 : (i 1).val < 128 := (i 1).isLt
  obtain ⟨t, ht⟩ := idx_onto8 ⟨(i 0).val / 10000, by omega⟩
  have q0 : win8_5.index t (0 : Fin 2) = (i 0).val / 10000 := congrFun ht 0
  have q1 : win8_5.index t (1 : Fin 2) = 0 := congrFun ht 1
  refine ⟨t, flush8_5 t, ?_⟩
  rw [mem_blk8]
  intro a
  match a with
  | ⟨0, _⟩ => show win8_5.index t (0 : Fin 2) * 10000 ≤ (i 0).val ∧ (i 0).val < win8_5.index t (0 : Fin 2) * 10000 + 10000; omega
  | ⟨1, _⟩ => show win8_5.index t (1 : Fin 2) * 128 ≤ (i 1).val ∧ (i 1).val < win8_5.index t (1 : Fin 2) * 128 + 128; omega

/-- After the region the output array is the normalisation of the arrays the region finds. -/
theorem region8_out (c : Dev nD) : (dat8 (F := Ideal) V c).arrAt 5 cfg8.N
    = Cert.Spec.bnApply (V c main_v123_0) (V c main_v136) (V c main_v137) (V c main_v138) (V c main_v139) :=
  (dat8 (F := Ideal) V c).arrAt_eq_of_cover 5 _ (fun t _ => flushed8_eq V c t) cover8

end Cert.KernelIdeal.RegVal

end
-- ==== Proof.Chain0.lean ====
/-
  The first mixing layer of the kernel's @main, segment by segment: what each buffer holds at each boundary, as a
  function of the arguments.
-/
import proofs.«126339_j45595372814849_1_alg».proof.Proof.ChainGraph
import proofs.«126339_j45595372814849_1_alg».proof.Proof.GlueRows
import proofs.«126339_j45595372814849_1_alg».proof.Proof.RegMatmul
import proofs.«126339_j45595372814849_1_alg».proof.Proof.RegStats
import proofs.«126339_j45595372814849_1_alg».proof.Proof.RegNorm

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

set_option quotPrecheck false

local notation "𝐚0" => m ((c : Thread nD τ).loc main_arg0)
local notation "𝐚1" => m ((c : Thread nD τ).loc main_arg1)
local notation "𝐚2" => m ((c : Thread nD τ).loc main_arg2)
local notation "𝐚3" => m ((c : Thread nD τ).loc main_arg3)
local notation "𝐚4" => m ((c : Thread nD τ).loc main_arg4)
local notation "𝐚5" => m ((c : Thread nD τ).loc main_arg5)
local notation "𝐚6" => m ((c : Thread nD τ).loc main_arg6)
local notation "𝐚7" => m ((c : Thread nD τ).loc main_arg7)
local notation "𝐚8" => m ((c : Thread nD τ).loc main_arg8)
local notation "𝐚9" => m ((c : Thread nD τ).loc main_arg9)

/-! ## Layer 0: weights, edge mixing, bias and statistics, normalisation -/

/-- The weight slice the matmul kernel reads. -/
theorem main_v34_at3 : W3 m ρ c (Proc.devRef .tc main_v34) = Cert.Net.w0 𝐚1 := by
  show StableHlo.after hostOps0_2 (W2 m ρ c) (Proc.devRef .tc main_v34) = _
  after_results
  rw [main_arg1_at0 m ρ c]
  rfl

/-- The matmul kernel's output: the layer's input times the weight slice. -/
theorem main_v35_at4 : W4 m ρ c (Proc.devRef .tc main_v35) = Cert.Spec.mm (𝐚0) (Cert.Net.w0 𝐚1) := by
  refine (W4_arr m ρ c 2).trans ((RegVal.region0_out (V3 m ρ) c).trans ?_)
  show Cert.Spec.mm (W3 m ρ c (Proc.devRef .tc main_arg0)) (W3 m ρ c (Proc.devRef .tc main_v34)) = _
  rw [main_arg0_at3 m ρ c, main_v34_at3 m ρ c]

set_option maxHeartbeats 1000000 in
/-- The mixed rows: gather at the sources, scale, scatter-add at the destinations. -/
theorem main_v47_at5 : W5 m ρ c (Proc.devRef .tc main_v47) = Cert.Net.agg (Cert.Spec.mm (𝐚0) (Cert.Net.w0 𝐚1)) 𝐚9 := by
  show StableHlo.after hostOps1 (W4 m ρ c) (Proc.devRef .tc main_v47) = _
  after_results_simp
  rw [main_v35_at4 m ρ c, main_v3_at4 m ρ c, main_v6_at4 m ρ c, main_v32_at4 m ρ c, main_v3_at3 m ρ c, main_v6_at3 m ρ c, main_v32_at3 m ρ c]
  rfl

/-- The bias row. -/
theorem main_v50_at5 : W5 m ρ c (Proc.devRef .tc main_v50) = Cert.Net.b0 𝐚2 := by
  show StableHlo.after hostOps1 (W4 m ρ c) (Proc.devRef .tc main_v50) = _
  after_results
  rw [main_arg2_at4 m ρ c]
  exact (Glue.row_of_vector _ _).trans rfl

/-- The statistics kernel's three outputs. -/
theorem main_v51_0_at6 : W6 m ρ c (Proc.devRef .tc main_v51_0) = Cert.Net.zPre 𝐚0 (Cert.Net.w0 𝐚1) (Cert.Net.b0 𝐚2) 𝐚9 := by
  refine (W6_arr m ρ c 2).trans ((RegVal.region1_z (V5 m ρ) c).trans ?_)
  show Cert.Spec.addRow (W5 m ρ c (Proc.devRef .tc main_v47)) (W5 m ρ c (Proc.devRef .tc main_v50)) = _
  rw [main_v47_at5 m ρ c, main_v50_at5 m ρ c]
  rfl
theorem main_v51_1_at6 : W6 m ρ c (Proc.devRef .tc main_v51_1) = Cert.Spec.colSum (Cert.Net.zPre 𝐚0 (Cert.Net.w0 𝐚1) (Cert.Net.b0 𝐚2) 𝐚9) := by
  refine (W6_arr m ρ c 3).trans ((RegVal.region1_s (V5 m ρ) c).trans ?_)
  show Cert.Spec.colSum (Cert.Spec.addRow (W5 m ρ c (Proc.devRef .tc main_v47)) (W5 m ρ c (Proc.devRef .tc main_v50))) = _
  rw [main_v47_at5 m ρ c, main_v50_at5 m ρ c]
  rfl
theorem main_v51_2_at6 : W6 m ρ c (Proc.devRef .tc main_v51_2) = Cert.Spec.colSum (Cert.Spec.sq (Cert.Net.zPre 𝐚0 (Cert.Net.w0 𝐚1) (Cert.Net.b0 𝐚2) 𝐚9)) := by
  refine (W6_arr m ρ c 4).trans ((RegVal.region1_ss (V5 m ρ) c).trans ?_)
  show Cert.Spec.colSum (Cert.Spec.sq (Cert.Spec.addRow (W5 m ρ c (Proc.devRef .tc main_v47)) (W5 m ρ c (Proc.devRef .tc main_v50)))) = _
  rw [main_v47_at5 m ρ c, main_v50_at5 m ρ c]
  rfl

/-- The host lines between the two kernels: mean and raw-moment variance as rows, the scale and shift rows. -/
theorem main_v64_at7 : W7 m ρ c (Proc.devRef .tc main_v64) = Cert.Spec.meanOf (Cert.Spec.colSum (Cert.Net.zPre 𝐚0 (Cert.Net.w0 𝐚1) (Cert.Net.b0 𝐚2) 𝐚9)) := by
  show StableHlo.after hostOps2 (W6 m ρ c) (Proc.devRef .tc main_v64) = _
  after_results
  rw [main_v51_1_at6 m ρ c]
  exact Glue.mean_row _ _ _ _
theorem main_v65_at7 : W7 m ρ c (Proc.devRef .tc main_v65) = Cert.Spec.varRaw (Cert.Spec.colSum (Cert.Net.zPre 𝐚0 (Cert.Net.w0 𝐚1) (Cert.Net.b0 𝐚2) 𝐚9)) (Cert.Spec.colSum (Cert.Spec.sq (Cert.Net.zPre 𝐚0 (Cert.Net.w0 𝐚1) (Cert.Net.b0 𝐚2) 𝐚9))) := by
  show StableHlo.after hostOps2 (W6 m ρ c) (Proc.devRef .tc main_v65) = _
  after_results
  rw [main_v51_1_at6 m ρ c, main_v51_2_at6 m ρ c]
  exact Glue.var_row _ _ _ _ _
theorem main_v66_at7 : W7 m ρ c (Proc.devRef .tc main_v66) = Cert.Net.r0 𝐚3 := by
  show StableHlo.after hostOps2 (W6 m ρ c) (Proc.devRef .tc main_v66) = _
  after_results
  rw [main_arg3_at6 m ρ c]
  exact (Glue.row_of_vector _ _).trans rfl
theorem main_v67_at7 : W7 m ρ c (Proc.devRef .tc main_v67) = Cert.Net.r0 𝐚4 := by
  show StableHlo.after hostOps2 (W6 m ρ c) (Proc.devRef .tc main_v67) = _
  after_results
  rw [main_arg4_at6 m ρ c]
  exact (Glue.row_of_vector _ _).trans rfl
theorem main_v51_0_at7 : W7 m ρ c (Proc.devRef .tc main_v51_0) = Cert.Net.zPre 𝐚0 (Cert.Net.w0 𝐚1) (Cert.Net.b0 𝐚2) 𝐚9 :=
  (by keep_host hostOps2 : W7 m ρ c (Proc.devRef .tc main_v51_0) = W6 m ρ c (Proc.devRef .tc main_v51_0)).trans (main_v51_0_at6 m ρ c)

/-- The normalisation kernel's output: the layer's output. -/
theorem main_v68_at8 : W8 m ρ c (Proc.devRef .tc main_v68) = Cert.Spec.relu (Cert.Net.bnR (Cert.Net.zPre 𝐚0 (Cert.Net.w0 𝐚1) (Cert.Net.b0 𝐚2) 𝐚9) (Cert.Net.r0 𝐚3) (Cert.Net.r0 𝐚4)) := by
  refine (W8_arr m ρ c 5).trans ((RegVal.region2_out (V7 m ρ) c).trans ?_)
  show Cert.Spec.relu (Cert.Spec.bnApply (W7 m ρ c (Proc.devRef .tc main_v51_0)) (W7 m ρ c (Proc.devRef .tc main_v64)) (W7 m ρ c (Proc.devRef .tc main_v65)) (W7 m ρ c (Proc.devRef .tc main_v66)) (W7 m ρ c (Proc.devRef .tc main_v67))) = _
  rw [main_v51_0_at7 m ρ c, main_v64_at7 m ρ c, main_v65_at7 m ρ c, main_v66_at7 m ρ c, main_v67_at7 m ρ c]
  rfl

end Cert.KernelIdeal.Chain

end
-- ==== Proof.Chain1.lean ====
/-
  The second mixing layer of the kernel's @main, segment by segment.
-/
import proofs.«126339_j45595372814849_1_alg».proof.Proof.Chain0

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

set_option quotPrecheck false

local notation "𝐚0" => m ((c : Thread nD τ).loc main_arg0)
local notation "𝐚1" => m ((c : Thread nD τ).loc main_arg1)
local notation "𝐚2" => m ((c : Thread nD τ).loc main_arg2)
local notation "𝐚3" => m ((c : Thread nD τ).loc main_arg3)
local notation "𝐚4" => m ((c : Thread nD τ).loc main_arg4)
local notation "𝐚5" => m ((c : Thread nD τ).loc main_arg5)
local notation "𝐚6" => m ((c : Thread nD τ).loc main_arg6)
local notation "𝐚7" => m ((c : Thread nD τ).loc main_arg7)
local notation "𝐚8" => m ((c : Thread nD τ).loc main_arg8)
local notation "𝐚9" => m ((c : Thread nD τ).loc main_arg9)

/-! ## Layer 1: weights, edge mixing, bias and statistics, normalisation -/

/-- The weight slice the matmul kernel reads. -/
theorem main_v70_at9 : W9 m ρ c (Proc.devRef .tc main_v70) = Cert.Net.w1 𝐚1 := by
  show StableHlo.after hostOps3 (W8 m ρ c) (Proc.devRef .tc main_v70) = _
  after_results
  rw [main_arg1_at8 m ρ c]
  rfl

/-- The layer's input, kept across the host lines that slice the weights. -/
theorem main_v68_at9 : W9 m ρ c (Proc.devRef .tc main_v68) = Cert.Spec.relu (Cert.Net.bnR (Cert.Net.zPre 𝐚0 (Cert.Net.w0 𝐚1) (Cert.Net.b0 𝐚2) 𝐚9) (Cert.Net.r0 𝐚3) (Cert.Net.r0 𝐚4)) :=
  (by keep_host hostOps3 : W9 m ρ c (Proc.devRef .tc main_v68) = W8 m ρ c (Proc.devRef .tc main_v68)).trans (main_v68_at8 m ρ c)

/-- The matmul kernel's output: the layer's input times the weight slice. -/
theorem main_v71_at10 : W10 m ρ c (Proc.devRef .tc main_v71) = Cert.Spec.mm (Cert.Spec.relu (Cert.Net.bnR (Cert.Net.zPre 𝐚0 (Cert.Net.w0 𝐚1) (Cert.Net.b0 𝐚2) 𝐚9) (Cert.Net.r0 𝐚3) (Cert.Net.r0 𝐚4))) (Cert.Net.w1 𝐚1) := by
  refine (W10_arr m ρ c 2).trans ((RegVal.region3_out (V9 m ρ) c).trans ?_)
  show Cert.Spec.mm (W9 m ρ c (Proc.devRef .tc main_v68)) (W9 m ρ c (Proc.devRef .tc main_v70)) = _
  rw [main_v68_at9 m ρ c, main_v70_at9 m ρ c]

set_option maxHeartbeats 1000000 in
/-- The mixed rows: gather at the sources, scale, scatter-add at the destinations. -/
theorem main_v83_at11 : W11 m ρ c (Proc.devRef .tc main_v83) = Cert.Net.agg (Cert.Spec.mm (Cert.Spec.relu (Cert.Net.bnR (Cert.Net.zPre 𝐚0 (Cert.Net.w0 𝐚1) (Cert.Net.b0 𝐚2) 𝐚9) (Cert.Net.r0 𝐚3) (Cert.Net.r0 𝐚4))) (Cert.Net.w1 𝐚1)) 𝐚9 := by
  show StableHlo.after hostOps4 (W10 m ρ c) (Proc.devRef .tc main_v83) = _
  after_results_simp
  rw [main_v71_at10 m ρ c, main_v3_at10 m ρ c, main_v6_at10 m ρ c, main_v32_at10 m ρ c, main_v3_at3 m ρ c, main_v6_at3 m ρ c, main_v32_at3 m ρ c]
  rfl

/-- The bias row. -/
theorem main_v86_at11 : W11 m ρ c (Proc.devRef .tc main_v86) = Cert.Net.b1 𝐚2 := by
  show StableHlo.after hostOps4 (W10 m ρ c) (Proc.devRef .tc main_v86) = _
  after_results
  rw [main_arg2_at10 m ρ c]
  exact (Glue.row_of_vector _ _).trans rfl

/-- The statistics kernel's three outputs. -/
theorem main_v87_0_at12 : W12 m ρ c (Proc.devRef .tc main_v87_0) = Cert.Net.zPre (Cert.Spec.relu (Cert.Net.bnR (Cert.Net.zPre 𝐚0 (Cert.Net.w0 𝐚1) (Cert.Net.b0 𝐚2) 𝐚9) (Cert.Net.r0 𝐚3) (Cert.Net.r0 𝐚4))) (Cert.Net.w1 𝐚1) (Cert.Net.b1 𝐚2) 𝐚9 := by
  refine (W12_arr m ρ c 2).trans ((RegVal.region4_z (V11 m ρ) c).trans ?_)
  show Cert.Spec.addRow (W11 m ρ c (Proc.devRef .tc main_v83)) (W11 m ρ c (Proc.devRef .tc main_v86)) = _
  rw [main_v83_at11 m ρ c, main_v86_at11 m ρ c]
  rfl
theorem main_v87_1_at12 : W12 m ρ c (Proc.devRef .tc main_v87_1) = Cert.Spec.colSum (Cert.Net.zPre (Cert.Spec.relu (Cert.Net.bnR (Cert.Net.zPre 𝐚0 (Cert.Net.w0 𝐚1) (Cert.Net.b0 𝐚2) 𝐚9) (Cert.Net.r0 𝐚3) (Cert.Net.r0 𝐚4))) (Cert.Net.w1 𝐚1) (Cert.Net.b1 𝐚2) 𝐚9) := by
  refine (W12_arr m ρ c 3).trans ((RegVal.region4_s (V11 m ρ) c).trans ?_)
  show Cert.Spec.colSum (Cert.Spec.addRow (W11 m ρ c (Proc.devRef .tc main_v83)) (W11 m ρ c (Proc.devRef .tc main_v86))) = _
  rw [main_v83_at11 m ρ c, main_v86_at11 m ρ c]
  rfl
theorem main_v87_2_at12 : W12 m ρ c (Proc.devRef .tc main_v87_2) = Cert.Spec.colSum (Cert.Spec.sq (Cert.Net.zPre (Cert.Spec.relu (Cert.Net.bnR (Cert.Net.zPre 𝐚0 (Cert.Net.w0 𝐚1) (Cert.Net.b0 𝐚2) 𝐚9) (Cert.Net.r0 𝐚3) (Cert.Net.r0 𝐚4))) (Cert.Net.w1 𝐚1) (Cert.Net.b1 𝐚2) 𝐚9)) := by
  refine (W12_arr m ρ c 4).trans ((RegVal.region4_ss (V11 m ρ) c).trans ?_)
  show Cert.Spec.colSum (Cert.Spec.sq (Cert.Spec.addRow (W11 m ρ c (Proc.devRef .tc main_v83)) (W11 m ρ c (Proc.devRef .tc main_v86)))) = _
  rw [main_v83_at11 m ρ c, main_v86_at11 m ρ c]
  rfl

/-- The host lines between the two kernels: mean and raw-moment variance as rows, the scale and shift rows. -/
theorem main_v100_at13 : W13 m ρ c (Proc.devRef .tc main_v100) = Cert.Spec.meanOf (Cert.Spec.colSum (Cert.Net.zPre (Cert.Spec.relu (Cert.Net.bnR (Cert.Net.zPre 𝐚0 (Cert.Net.w0 𝐚1) (Cert.Net.b0 𝐚2) 𝐚9) (Cert.Net.r0 𝐚3) (Cert.Net.r0 𝐚4))) (Cert.Net.w1 𝐚1) (Cert.Net.b1 𝐚2) 𝐚9)) := by
  show StableHlo.after hostOps5 (W12 m ρ c) (Proc.devRef .tc main_v100) = _
  after_results
  rw [main_v87_1_at12 m ρ c]
  exact Glue.mean_row _ _ _ _
theorem main_v101_at13 : W13 m ρ c (Proc.devRef .tc main_v101) = Cert.Spec.varRaw (Cert.Spec.colSum (Cert.Net.zPre (Cert.Spec.relu (Cert.Net.bnR (Cert.Net.zPre 𝐚0 (Cert.Net.w0 𝐚1) (Cert.Net.b0 𝐚2) 𝐚9) (Cert.Net.r0 𝐚3) (Cert.Net.r0 𝐚4))) (Cert.Net.w1 𝐚1) (Cert.Net.b1 𝐚2) 𝐚9)) (Cert.Spec.colSum (Cert.Spec.sq (Cert.Net.zPre (Cert.Spec.relu (Cert.Net.bnR (Cert.Net.zPre 𝐚0 (Cert.Net.w0 𝐚1) (Cert.Net.b0 𝐚2) 𝐚9) (Cert.Net.r0 𝐚3) (Cert.Net.r0 𝐚4))) (Cert.Net.w1 𝐚1) (Cert.Net.b1 𝐚2) 𝐚9))) := by
  show StableHlo.after hostOps5 (W12 m ρ c) (Proc.devRef .tc main_v101) = _
  after_results
  rw [main_v87_1_at12 m ρ c, main_v87_2_at12 m ρ c]
  exact Glue.var_row _ _ _ _ _
theorem main_v102_at13 : W13 m ρ c (Proc.devRef .tc main_v102) = Cert.Net.r1 𝐚3 := by
  show StableHlo.after hostOps5 (W12 m ρ c) (Proc.devRef .tc main_v102) = _
  after_results
  rw [main_arg3_at12 m ρ c]
  exact (Glue.row_of_vector _ _).trans rfl
theorem main_v103_at13 : W13 m ρ c (Proc.devRef .tc main_v103) = Cert.Net.r1 𝐚4 := by
  show StableHlo.after hostOps5 (W12 m ρ c) (Proc.devRef .tc main_v103) = _
  after_results
  rw [main_arg4_at12 m ρ c]
  exact (Glue.row_of_vector _ _).trans rfl
theorem main_v87_0_at13 : W13 m ρ c (Proc.devRef .tc main_v87_0) = Cert.Net.zPre (Cert.Spec.relu (Cert.Net.bnR (Cert.Net.zPre 𝐚0 (Cert.Net.w0 𝐚1) (Cert.Net.b0 𝐚2) 𝐚9) (Cert.Net.r0 𝐚3) (Cert.Net.r0 𝐚4))) (Cert.Net.w1 𝐚1) (Cert.Net.b1 𝐚2) 𝐚9 :=
  (by keep_host hostOps5 : W13 m ρ c (Proc.devRef .tc main_v87_0) = W12 m ρ c (Proc.devRef .tc main_v87_0)).trans (main_v87_0_at12 m ρ c)

/-- The normalisation kernel's output: the layer's output. -/
theorem main_v104_at14 : W14 m ρ c (Proc.devRef .tc main_v104) = Cert.Spec.relu (Cert.Net.bnR (Cert.Net.zPre (Cert.Spec.relu (Cert.Net.bnR (Cert.Net.zPre 𝐚0 (Cert.Net.w0 𝐚1) (Cert.Net.b0 𝐚2) 𝐚9) (Cert.Net.r0 𝐚3) (Cert.Net.r0 𝐚4))) (Cert.Net.w1 𝐚1) (Cert.Net.b1 𝐚2) 𝐚9) (Cert.Net.r1 𝐚3) (Cert.Net.r1 𝐚4)) := by
  refine (W14_arr m ρ c 5).trans ((RegVal.region5_out (V13 m ρ) c).trans ?_)
  show Cert.Spec.relu (Cert.Spec.bnApply (W13 m ρ c (Proc.devRef .tc main_v87_0)) (W13 m ρ c (Proc.devRef .tc main_v100)) (W13 m ρ c (Proc.devRef .tc main_v101)) (W13 m ρ c (Proc.devRef .tc main_v102)) (W13 m ρ c (Proc.devRef .tc main_v103))) = _
  rw [main_v87_0_at13 m ρ c, main_v100_at13 m ρ c, main_v101_at13 m ρ c, main_v102_at13 m ρ c, main_v103_at13 m ρ c]
  rfl

end Cert.KernelIdeal.Chain

end
-- ==== Proof.Chain2.lean ====
/-
  The third mixing layer of the kernel's @main, segment by segment: here the clamp comes before the
  normalisation, and the normalisation reuses the second row of its parameters.
-/
import proofs.«126339_j45595372814849_1_alg».proof.Proof.Chain1

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

set_option quotPrecheck false

local notation "𝐚0" => m ((c : Thread nD τ).loc main_arg0)
local notation "𝐚1" => m ((c : Thread nD τ).loc main_arg1)
local notation "𝐚2" => m ((c : Thread nD τ).loc main_arg2)
local notation "𝐚3" => m ((c : Thread nD τ).loc main_arg3)
local notation "𝐚4" => m ((c : Thread nD τ).loc main_arg4)
local notation "𝐚5" => m ((c : Thread nD τ).loc main_arg5)
local notation "𝐚6" => m ((c : Thread nD τ).loc main_arg6)
local notation "𝐚7" => m ((c : Thread nD τ).loc main_arg7)
local notation "𝐚8" => m ((c : Thread nD τ).loc main_arg8)
local notation "𝐚9" => m ((c : Thread nD τ).loc main_arg9)

/-! ## Layer 2: weights, edge mixing, bias and statistics, normalisation -/

/-- The weight slice the matmul kernel reads. -/
theorem main_v106_at15 : W15 m ρ c (Proc.devRef .tc main_v106) = Cert.Net.w2 𝐚1 := by
  show StableHlo.after hostOps6 (W14 m ρ c) (Proc.devRef .tc main_v106) = _
  after_results
  rw [main_arg1_at14 m ρ c]
  rfl

/-- The layer's input, kept across the host lines that slice the weights. -/
theorem main_v104_at15 : W15 m ρ c (Proc.devRef .tc main_v104) = Cert.Spec.relu (Cert.Net.bnR (Cert.Net.zPre (Cert.Spec.relu (Cert.Net.bnR (Cert.Net.zPre 𝐚0 (Cert.Net.w0 𝐚1) (Cert.Net.b0 𝐚2) 𝐚9) (Cert.Net.r0 𝐚3) (Cert.Net.r0 𝐚4))) (Cert.Net.w1 𝐚1) (Cert.Net.b1 𝐚2) 𝐚9) (Cert.Net.r1 𝐚3) (Cert.Net.r1 𝐚4)) :=
  (by keep_host hostOps6 : W15 m ρ c (Proc.devRef .tc main_v104) = W14 m ρ c (Proc.devRef .tc main_v104)).trans (main_v104_at14 m ρ c)

/-- The matmul kernel's output: the layer's input times the weight slice. -/
theorem main_v107_at16 : W16 m ρ c (Proc.devRef .tc main_v107) = Cert.Spec.mm (Cert.Spec.relu (Cert.Net.bnR (Cert.Net.zPre (Cert.Spec.relu (Cert.Net.bnR (Cert.Net.zPre 𝐚0 (Cert.Net.w0 𝐚1) (Cert.Net.b0 𝐚2) 𝐚9) (Cert.Net.r0 𝐚3) (Cert.Net.r0 𝐚4))) (Cert.Net.w1 𝐚1) (Cert.Net.b1 𝐚2) 𝐚9) (Cert.Net.r1 𝐚3) (Cert.Net.r1 𝐚4))) (Cert.Net.w2 𝐚1) := by
  refine (W16_arr m ρ c 2).trans ((RegVal.region6_out (V15 m ρ) c).trans ?_)
  show Cert.Spec.mm (W15 m ρ c (Proc.devRef .tc main_v104)) (W15 m ρ c (Proc.devRef .tc main_v106)) = _
  rw [main_v104_at15 m ρ c, main_v106_at15 m ρ c]

set_option maxHeartbeats 1000000 in
/-- The mixed rows: gather at the sources, scale, scatter-add at the destinations. -/
theorem main_v119_at17 : W17 m ρ c (Proc.devRef .tc main_v119) = Cert.Net.agg (Cert.Spec.mm (Cert.Spec.relu (Cert.Net.bnR (Cert.Net.zPre (Cert.Spec.relu (Cert.Net.bnR (Cert.Net.zPre 𝐚0 (Cert.Net.w0 𝐚1) (Cert.Net.b0 𝐚2) 𝐚9) (Cert.Net.r0 𝐚3) (Cert.Net.r0 𝐚4))) (Cert.Net.w1 𝐚1) (Cert.Net.b1 𝐚2) 𝐚9) (Cert.Net.r1 𝐚3) (Cert.Net.r1 𝐚4))) (Cert.Net.w2 𝐚1)) 𝐚9 := by
  show StableHlo.after hostOps7 (W16 m ρ c) (Proc.devRef .tc main_v119) = _
  after_results_simp
  rw [main_v107_at16 m ρ c, main_v3_at16 m ρ c, main_v6_at16 m ρ c, main_v32_at16 m ρ c, main_v3_at3 m ρ c, main_v6_at3 m ρ c, main_v32_at3 m ρ c]
  rfl

/-- The bias row. -/
theorem main_v122_at17 : W17 m ρ c (Proc.devRef .tc main_v122) = Cert.Net.b2 𝐚2 := by
  show StableHlo.after hostOps7 (W16 m ρ c) (Proc.devRef .tc main_v122) = _
  after_results
  rw [main_arg2_at16 m ρ c]
  exact (Glue.row_of_vector _ _).trans rfl

/-- The statistics kernel's three outputs. -/
theorem main_v123_0_at18 : W18 m ρ c (Proc.devRef .tc main_v123_0) = Cert.Spec.relu (Cert.Net.zPre (Cert.Spec.relu (Cert.Net.bnR (Cert.Net.zPre (Cert.Spec.relu (Cert.Net.bnR (Cert.Net.zPre 𝐚0 (Cert.Net.w0 𝐚1) (Cert.Net.b0 𝐚2) 𝐚9) (Cert.Net.r0 𝐚3) (Cert.Net.r0 𝐚4))) (Cert.Net.w1 𝐚1) (Cert.Net.b1 𝐚2) 𝐚9) (Cert.Net.r1 𝐚3) (Cert.Net.r1 𝐚4))) (Cert.Net.w2 𝐚1) (Cert.Net.b2 𝐚2) 𝐚9) := by
  refine (W18_arr m ρ c 2).trans ((RegVal.region7_z (V17 m ρ) c).trans ?_)
  show Cert.Spec.relu (Cert.Spec.addRow (W17 m ρ c (Proc.devRef .tc main_v119)) (W17 m ρ c (Proc.devRef .tc main_v122))) = _
  rw [main_v119_at17 m ρ c, main_v122_at17 m ρ c]
  rfl
theorem main_v123_1_at18 : W18 m ρ c (Proc.devRef .tc main_v123_1) = Cert.Spec.colSum (Cert.Spec.relu (Cert.Net.zPre (Cert.Spec.relu (Cert.Net.bnR (Cert.Net.zPre (Cert.Spec.relu (Cert.Net.bnR (Cert.Net.zPre 𝐚0 (Cert.Net.w0 𝐚1) (Cert.Net.b0 𝐚2) 𝐚9) (Cert.Net.r0 𝐚3) (Cert.Net.r0 𝐚4))) (Cert.Net.w1 𝐚1) (Cert.Net.b1 𝐚2) 𝐚9) (Cert.Net.r1 𝐚3) (Cert.Net.r1 𝐚4))) (Cert.Net.w2 𝐚1) (Cert.Net.b2 𝐚2) 𝐚9)) := by
  refine (W18_arr m ρ c 3).trans ((RegVal.region7_s (V17 m ρ) c).trans ?_)
  show Cert.Spec.colSum (Cert.Spec.relu (Cert.Spec.addRow (W17 m ρ c (Proc.devRef .tc main_v119)) (W17 m ρ c (Proc.devRef .tc main_v122)))) = _
  rw [main_v119_at17 m ρ c, main_v122_at17 m ρ c]
  rfl
theorem main_v123_2_at18 : W18 m ρ c (Proc.devRef .tc main_v123_2) = Cert.Spec.colSum (Cert.Spec.sq (Cert.Spec.relu (Cert.Net.zPre (Cert.Spec.relu (Cert.Net.bnR (Cert.Net.zPre (Cert.Spec.relu (Cert.Net.bnR (Cert.Net.zPre 𝐚0 (Cert.Net.w0 𝐚1) (Cert.Net.b0 𝐚2) 𝐚9) (Cert.Net.r0 𝐚3) (Cert.Net.r0 𝐚4))) (Cert.Net.w1 𝐚1) (Cert.Net.b1 𝐚2) 𝐚9) (Cert.Net.r1 𝐚3) (Cert.Net.r1 𝐚4))) (Cert.Net.w2 𝐚1) (Cert.Net.b2 𝐚2) 𝐚9))) := by
  refine (W18_arr m ρ c 4).trans ((RegVal.region7_ss (V17 m ρ) c).trans ?_)
  show Cert.Spec.colSum (Cert.Spec.sq (Cert.Spec.relu (Cert.Spec.addRow (W17 m ρ c (Proc.devRef .tc main_v119)) (W17 m ρ c (Proc.devRef .tc main_v122))))) = _
  rw [main_v119_at17 m ρ c, main_v122_at17 m ρ c]
  rfl

/-- The host lines between the two kernels: mean and raw-moment variance as rows, the scale and shift rows. -/
theorem main_v136_at19 : W19 m ρ c (Proc.devRef .tc main_v136) = Cert.Spec.meanOf (Cert.Spec.colSum (Cert.Spec.relu (Cert.Net.zPre (Cert.Spec.relu (Cert.Net.bnR (Cert.Net.zPre (Cert.Spec.relu (Cert.Net.bnR (Cert.Net.zPre 𝐚0 (Cert.Net.w0 𝐚1) (Cert.Net.b0 𝐚2) 𝐚9) (Cert.Net.r0 𝐚3) (Cert.Net.r0 𝐚4))) (Cert.Net.w1 𝐚1) (Cert.Net.b1 𝐚2) 𝐚9) (Cert.Net.r1 𝐚3) (Cert.Net.r1 𝐚4))) (Cert.Net.w2 𝐚1) (Cert.Net.b2 𝐚2) 𝐚9))) := by
  show StableHlo.after hostOps8 (W18 m ρ c) (Proc.devRef .tc main_v136) = _
  after_results
  rw [main_v123_1_at18 m ρ c]
  exact Glue.mean_row _ _ _ _
theorem main_v137_at19 : W19 m ρ c (Proc.devRef .tc main_v137) = Cert.Spec.varRaw (Cert.Spec.colSum (Cert.Spec.relu (Cert.Net.zPre (Cert.Spec.relu (Cert.Net.bnR (Cert.Net.zPre (Cert.Spec.relu (Cert.Net.bnR (Cert.Net.zPre 𝐚0 (Cert.Net.w0 𝐚1) (Cert.Net.b0 𝐚2) 𝐚9) (Cert.Net.r0 𝐚3) (Cert.Net.r0 𝐚4))) (Cert.Net.w1 𝐚1) (Cert.Net.b1 𝐚2) 𝐚9) (Cert.Net.r1 𝐚3) (Cert.Net.r1 𝐚4))) (Cert.Net.w2 𝐚1) (Cert.Net.b2 𝐚2) 𝐚9))) (Cert.Spec.colSum (Cert.Spec.sq (Cert.Spec.relu (Cert.Net.zPre (Cert.Spec.relu (Cert.Net.bnR (Cert.Net.zPre (Cert.Spec.relu (Cert.Net.bnR (Cert.Net.zPre 𝐚0 (Cert.Net.w0 𝐚1) (Cert.Net.b0 𝐚2) 𝐚9) (Cert.Net.r0 𝐚3) (Cert.Net.r0 𝐚4))) (Cert.Net.w1 𝐚1) (Cert.Net.b1 𝐚2) 𝐚9) (Cert.Net.r1 𝐚3) (Cert.Net.r1 𝐚4))) (Cert.Net.w2 𝐚1) (Cert.Net.b2 𝐚2) 𝐚9)))) := by
  show StableHlo.after hostOps8 (W18 m ρ c) (Proc.devRef .tc main_v137) = _
  after_results
  rw [main_v123_1_at18 m ρ c, main_v123_2_at18 m ρ c]
  exact Glue.var_row _ _ _ _ _
theorem main_v138_at19 : W19 m ρ c (Proc.devRef .tc main_v138) = Cert.Net.r1 𝐚3 := by
  show StableHlo.after hostOps8 (W18 m ρ c) (Proc.devRef .tc main_v138) = _
  after_results
  rw [main_arg3_at18 m ρ c]
  exact (Glue.row_of_vector _ _).trans rfl
theorem main_v139_at19 : W19 m ρ c (Proc.devRef .tc main_v139) = Cert.Net.r1 𝐚4 := by
  show StableHlo.after hostOps8 (W18 m ρ c) (Proc.devRef .tc main_v139) = _
  after_results
  rw [main_arg4_at18 m ρ c]
  exact (Glue.row_of_vector _ _).trans rfl
theorem main_v123_0_at19 : W19 m ρ c (Proc.devRef .tc main_v123_0) = Cert.Spec.relu (Cert.Net.zPre (Cert.Spec.relu (Cert.Net.bnR (Cert.Net.zPre (Cert.Spec.relu (Cert.Net.bnR (Cert.Net.zPre 𝐚0 (Cert.Net.w0 𝐚1) (Cert.Net.b0 𝐚2) 𝐚9) (Cert.Net.r0 𝐚3) (Cert.Net.r0 𝐚4))) (Cert.Net.w1 𝐚1) (Cert.Net.b1 𝐚2) 𝐚9) (Cert.Net.r1 𝐚3) (Cert.Net.r1 𝐚4))) (Cert.Net.w2 𝐚1) (Cert.Net.b2 𝐚2) 𝐚9) :=
  (by keep_host hostOps8 : W19 m ρ c (Proc.devRef .tc main_v123_0) = W18 m ρ c (Proc.devRef .tc main_v123_0)).trans (main_v123_0_at18 m ρ c)

/-- The normalisation kernel's output: the layer's output. -/
theorem main_v140_at20 : W20 m ρ c (Proc.devRef .tc main_v140) = Cert.Net.bnR (Cert.Spec.relu (Cert.Net.zPre (Cert.Spec.relu (Cert.Net.bnR (Cert.Net.zPre (Cert.Spec.relu (Cert.Net.bnR (Cert.Net.zPre 𝐚0 (Cert.Net.w0 𝐚1) (Cert.Net.b0 𝐚2) 𝐚9) (Cert.Net.r0 𝐚3) (Cert.Net.r0 𝐚4))) (Cert.Net.w1 𝐚1) (Cert.Net.b1 𝐚2) 𝐚9) (Cert.Net.r1 𝐚3) (Cert.Net.r1 𝐚4))) (Cert.Net.w2 𝐚1) (Cert.Net.b2 𝐚2) 𝐚9)) (Cert.Net.r1 𝐚3) (Cert.Net.r1 𝐚4) := by
  refine (W20_arr m ρ c 5).trans ((RegVal.region8_out (V19 m ρ) c).trans ?_)
  show Cert.Spec.bnApply (W19 m ρ c (Proc.devRef .tc main_v123_0)) (W19 m ρ c (Proc.devRef .tc main_v136)) (W19 m ρ c (Proc.devRef .tc main_v137)) (W19 m ρ c (Proc.devRef .tc main_v138)) (W19 m ρ c (Proc.devRef .tc main_v139)) = _
  rw [main_v123_0_at19 m ρ c, main_v136_at19 m ρ c, main_v137_at19 m ρ c, main_v138_at19 m ρ c, main_v139_at19 m ρ c]
  rfl

end Cert.KernelIdeal.Chain

end
-- ==== Proof.RegDense.lean ====
/-
  The three dense-layer regions, each read off its generated frame as one array equation.

  A region walks the 50000 rows in five blocks of 10000. At a block the body loads the block's rows, the whole weight
  matrix and the bias row, multiplies rows by weights into the zero accumulator, adds the bias row to every row, and
  applies the activation entry by entry: the maximum with zero for the two hidden layers (128 columns), the logistic
  function for the output head (one column). So entry (p, q) of the stored block is the activation of the sum over k of
  row p against column q of the weights, plus the bias at column q. The row block of point t sits at rows
  10000 t … 10000 t + 9999 of both the operand and the result, the weights' and the bias's one block is the whole
  array; what point t writes back is therefore block t of the full layer, and since every row lies in the block
  numbered (row / 10000) the five blocks cover the result array, which ends holding the full layer.
-/
import proofs.«126339_j45595372814849_1_alg».proof.Proof.Gen.KernelIdeal.Frame
import proofs.«126339_j45595372814849_1_alg».proof.Proof.Spec
import proofs.«126339_j45595372814849_1_alg».proof.Proof.LibPlainMatmul
import Idealize.ShloMosaic.Lib.Pipeline.Value
import Idealize.ShloMosaic.Lib.ValueIdx
import Idealize.ShloMosaic.Lib.ValueLayout

noncomputable section

namespace Cert.KernelIdeal.RegVal

open Cert.KernelIdeal Cert.KernelIdeal.Gen Idealize.ShloMosaic Idealize.ShloMosaic.ValueIdx
open Idealize.ShloMosaic.TcCoe Idealize.SL.Sem
open Idealize.ShloMosaic.Pipeline (Dat)
open scoped BigOperators

/-- The zero offsets of a whole-block access, as the constant function. -/
theorem zeroOffD : (![0, 0] : Fin 2 → Nat) = fun _ => 0 := funext fun a => by fin_cases a <;> rfl

variable (V : (c : Dev nD) → (b : Ref sig .tc) → Buf (Elt Ideal) ((c : Thread nD τ).loc b))

/-! ## Region 9: the maximum with zero of rows of `main_v140` times the weights `main_v142` plus the bias row `main_v145` -/

/-- The stored block at (p, q): row p of the loaded rows against column q of the loaded weights, plus the bias at q,
    clamped below at zero. -/
theorem pay9_apply (x0 : Vec Ideal S10000x128 .f32) (x1 : Vec Ideal S128x128 .f32) (x2 : Vec Ideal S1x128 .f32)
    (p : Fin 10000) (q : Fin 128) :
    k9_pay1 x0 x1 x2 (ix2 p q) = max ((∑ k : Fin 128, x0 (ix2 p k) * x1 (ix2 k q)) + x2 (ix2 (0 : Fin 1) q)) 0 := by
  have hm := Cert.LibPlainMatmul.matmul_zero_plain (φ₁ := .f32) (φ₂ := .f32)
    dot_S10000x128_S128x128_S10000x128_1_0_0_1_n_n_wf x0 x1 p q
  have hb := broadcastTo_1b_ab_apply x2 broadcasts_S1x128_S10000x128 p q
  have hz : (Ideal.ofBits .f32 0x00000000#32 : EReal) = 0 := Ideal.ofBits_zero_f32
  unfold k9_pay1
  simp only [shapeCast_self]
  exact (congrArg (fun z : EReal => max _ z) hz).trans (congrArg (fun z : EReal => max z 0) (congrArg₂ (· + ·) hm hb))

/-- The printed index maps over the five points: the row block of the operand and of the result is the point's number,
    on column block 0; the weights' and the bias's block is (0, 0). -/
theorem idx_facts9 : ∀ t : Fin cfg9.N, win9_0.index t (0 : Fin 2) = win9_3.index t (0 : Fin 2)
    ∧ win9_0.index t (1 : Fin 2) = 0
    ∧ win9_1.index t (0 : Fin 2) = 0
    ∧ win9_1.index t (1 : Fin 2) = 0
    ∧ win9_2.index t (0 : Fin 2) = 0
    ∧ win9_2.index t (1 : Fin 2) = 0
    ∧ win9_3.index t (1 : Fin 2) = 0
    ∧ win9_3.index t (0 : Fin 2) ≤ 4 :=
  (by decide +kernel : ∀ t : Fin grid9.N, _)

/-- Every one of the five row blocks is some point's. -/
theorem idx_onto9 : ∀ q0 : Fin 5, ∃ t : Fin cfg9.N, win9_3.index t = ![q0.val, 0] :=
  (by decide +kernel : ∀ q0 : Fin 5, ∃ t : Fin grid9.N, win9_3.index t = ![q0.val, 0])

/-- What point t writes back is block t of the full layer. -/
theorem flushed9_eq (c : Dev nD) (t : Fin cfg9.N) :
    (dat9 (F := Ideal) V c).flushed 3 t
      = ((cfg9.win 3).blk t).view.read (Elt Ideal)
          (Cert.Spec.relu (Cert.Spec.addRow (Cert.Spec.mm (V c main_v140) (V c main_v142)) (V c main_v145))) := by
  show (cfg9.win 3).cut (grid9.coords t) ((dat9 (F := Ideal) V c).after 3 t) = _
  rw [after9_3]
  unfold out9_3
  rw [View.canon_unit_zero zeroOffD]
  simp only [View.ld_unit_zero (S := S10000x128) zeroOffD, View.ld_unit_zero (S := S128x128) zeroOffD,
    View.ld_unit_zero (S := S1x128) zeroOffD]
  obtain ⟨e0, e1, e2, e3, e4, e5, e6, e7⟩ := idx_facts9 t
  funext j
  obtain ⟨p, q, rfl⟩ : ∃ (p : Fin 10000) (q : Fin 128), j = ix2 p q := ⟨j 0, j 1, eq_ix2 j⟩
  show k9_pay1 (iblk9 V c 0 t) (iblk9 V c 1 t) (iblk9 V c 2 t) (ix2 p q)
    = Cert.Spec.relu (Cert.Spec.addRow (Cert.Spec.mm (V c main_v140) (V c main_v142)) (V c main_v145))
        (((cfg9.win 3).blk t).view.emb (ix2 p q))
  refine (pay9_apply (iblk9 V c 0 t) (iblk9 V c 1 t) (iblk9 V c 2 t) p q).trans ?_
  unfold Cert.Spec.relu Cert.Spec.addRow Cert.Spec.mm
  have h2 : (iblk9 V c 2 t : Vec Ideal S1x128 .f32) (ix2 (0 : Fin 1) q)
      = (V c main_v145 : S1x128.Idx → EReal) (ix2 (0 : Fin 1) ((((cfg9.win 3).blk t).view.emb (ix2 p q)) 1)) := by
    show (V c main_v145 : S1x128.Idx → EReal) (((cfg9.win 2).blk t).view.emb (ix2 (0 : Fin 1) q)) = _
    refine congrArg _ (funext fun a => Fin.ext ?_)
    match a with
    | ⟨0, _⟩ =>
      show win9_2.index t (0 : Fin 2) * 1 + 1 * 0 = 0
      omega
    | ⟨1, _⟩ =>
      show win9_2.index t (1 : Fin 2) * 128 + 1 * q.val = win9_3.index t (1 : Fin 2) * 128 + 1 * q.val
      omega
  refine congrArg (fun z : EReal => max z 0) (congrArg₂ (· + ·) (Finset.sum_congr rfl fun k _ => ?_) h2)
  have h0 : (iblk9 V c 0 t : Vec Ideal S10000x128 .f32) (ix2 p k)
      = (V c main_v140 : S50000x128.Idx → EReal) (ix2 ((((cfg9.win 3).blk t).view.emb (ix2 p q)) 0) k) := by
    show (V c main_v140 : S50000x128.Idx → EReal) (((cfg9.win 0).blk t).view.emb (ix2 p k)) = _
    refine congrArg _ (funext fun a => Fin.ext ?_)
    match a with
    | ⟨0, _⟩ =>
      show win9_0.index t (0 : Fin 2) * 10000 + 1 * p.val = win9_3.index t (0 : Fin 2) * 10000 + 1 * p.val
      omega
    | ⟨1, _⟩ =>
      show win9_0.index t (1 : Fin 2) * 128 + 1 * k.val = k.val
      omega
  have h1 : (iblk9 V c 1 t : Vec Ideal S128x128 .f32) (ix2 k q)
      = (V c main_v142 : S128x128.Idx → EReal) (ix2 k ((((cfg9.win 3).blk t).view.emb (ix2 p q)) 1)) := by
    show (V c main_v142 : S128x128.Idx → EReal) (((cfg9.win 1).blk t).view.emb (ix2 k q)) = _
    refine congrArg _ (funext fun a => Fin.ext ?_)
    match a with
    | ⟨0, _⟩ =>
      show win9_1.index t (0 : Fin 2) * 128 + 1 * k.val = k.val
      omega
    | ⟨1, _⟩ =>
      show win9_1.index t (1 : Fin 2) * 128 + 1 * q.val = win9_3.index t (1 : Fin 2) * 128 + 1 * q.val
      omega
  exact congrArg₂ (· * ·) h0 h1

/-- A row and column of the result are in point t's block iff each lies in the block's range on its axis. -/
theorem mem_blk9 (t : Fin cfg9.N) (i : S50000x128.Idx) :
    i ∈ ((cfg9.win 3).blk t).view.set ↔ ∀ a : Fin 2, win9_3.index t a * S10000x128.size a ≤ (i a).val
      ∧ (i a).val < win9_3.index t a * S10000x128.size a + S10000x128.size a := by
  show i ∈ ((View.whole main_v146).slice (win9_3.rect t)).set ↔ _
  rw [View.set_slice_whole, Rect.mem_set_unit]
  exact Iff.rfl

/-- Every entry of the result lies in the block of the point numbered (row / 10000). -/
theorem cover9 (i : S50000x128.Idx) :
    ∃ t : Fin cfg9.N, (cfg9.win 3).flush t = true ∧ i ∈ ((cfg9.win 3).blk t).view.set := by
  have hi0 : (i 0).val < 50000 := (i 0).isLt
  have hi1 : (i 1).val < 128 := (i 1).isLt
  obtain ⟨t, ht⟩ := idx_onto9 ⟨(i 0).val / 10000, by omega⟩
  have q0 : win9_3.index t (0 : Fin 2) = (i 0).val / 10000 := congrFun ht 0
  have q1 : win9_3.index t (1 : Fin 2) = 0 := congrFun ht 1
  refine ⟨t, flush9_3 t, ?_⟩
  rw [mem_blk9]
  intro a
  match a with
  | ⟨0, _⟩ =>
    show win9_3.index t (0 : Fin 2) * 10000 ≤ (i 0).val ∧ (i 0).val < win9_3.index t (0 : Fin 2) * 10000 + 10000
    omega
  | ⟨1, _⟩ =>
    show win9_3.index t (1 : Fin 2) * 128 ≤ (i 1).val ∧ (i 1).val < win9_3.index t (1 : Fin 2) * 128 + 128
    omega

/-- The result array after the region is the full layer of the arrays the region finds. -/
theorem region9_out (c : Dev nD) :
    (dat9 (F := Ideal) V c).arrAt 3 cfg9.N
      = Cert.Spec.relu (Cert.Spec.addRow (Cert.Spec.mm (V c main_v140) (V c main_v142)) (V c main_v145)) :=
  (dat9 (F := Ideal) V c).arrAt_eq_of_cover 3
    (Cert.Spec.relu (Cert.Spec.addRow (Cert.Spec.mm (V c main_v140) (V c main_v142)) (V c main_v145)))
    (fun t _ => flushed9_eq V c t) cover9

/-! ## Region 10: the maximum with zero of rows of `main_v146` times the weights `main_v148` plus the bias row `main_v151` -/

/-- The stored block at (p, q): row p of the loaded rows against column q of the loaded weights, plus the bias at q,
    clamped below at zero. -/
theorem pay10_apply (x0 : Vec Ideal S10000x128 .f32) (x1 : Vec Ideal S128x128 .f32) (x2 : Vec Ideal S1x128 .f32)
    (p : Fin 10000) (q : Fin 128) :
    k10_pay1 x0 x1 x2 (ix2 p q) = max ((∑ k : Fin 128, x0 (ix2 p k) * x1 (ix2 k q)) + x2 (ix2 (0 : Fin 1) q)) 0 := by
  have hm := Cert.LibPlainMatmul.matmul_zero_plain (φ₁ := .f32) (φ₂ := .f32)
    dot_S10000x128_S128x128_S10000x128_1_0_0_1_n_n_wf x0 x1 p q
  have hb := broadcastTo_1b_ab_apply x2 broadcasts_S1x128_S10000x128 p q
  have hz : (Ideal.ofBits .f32 0x00000000#32 : EReal) = 0 := Ideal.ofBits_zero_f32
  unfold k10_pay1
  simp only [shapeCast_self]
  exact (congrArg (fun z : EReal => max _ z) hz).trans (congrArg (fun z : EReal => max z 0) (congrArg₂ (· + ·) hm hb))

/-- The printed index maps over the five points: the row block of the operand and of the result is the point's number,
    on column block 0; the weights' and the bias's block is (0, 0). -/
theorem idx_facts10 : ∀ t : Fin cfg10.N, win10_0.index t (0 : Fin 2) = win10_3.index t (0 : Fin 2)
    ∧ win10_0.index t (1 : Fin 2) = 0
    ∧ win10_1.index t (0 : Fin 2) = 0
    ∧ win10_1.index t (1 : Fin 2) = 0
    ∧ win10_2.index t (0 : Fin 2) = 0
    ∧ win10_2.index t (1 : Fin 2) = 0
    ∧ win10_3.index t (1 : Fin 2) = 0
    ∧ win10_3.index t (0 : Fin 2) ≤ 4 :=
  (by decide +kernel : ∀ t : Fin grid10.N, _)

/-- Every one of the five row blocks is some point's. -/
theorem idx_onto10 : ∀ q0 : Fin 5, ∃ t : Fin cfg10.N, win10_3.index t = ![q0.val, 0] :=
  (by decide +kernel : ∀ q0 : Fin 5, ∃ t : Fin grid10.N, win10_3.index t = ![q0.val, 0])

/-- What point t writes back is block t of the full layer. -/
theorem flushed10_eq (c : Dev nD) (t : Fin cfg10.N) :
    (dat10 (F := Ideal) V c).flushed 3 t
      = ((cfg10.win 3).blk t).view.read (Elt Ideal)
          (Cert.Spec.relu (Cert.Spec.addRow (Cert.Spec.mm (V c main_v146) (V c main_v148)) (V c main_v151))) := by
  show (cfg10.win 3).cut (grid10.coords t) ((dat10 (F := Ideal) V c).after 3 t) = _
  rw [after10_3]
  unfold out10_3
  rw [View.canon_unit_zero zeroOffD]
  simp only [View.ld_unit_zero (S := S10000x128) zeroOffD, View.ld_unit_zero (S := S128x128) zeroOffD,
    View.ld_unit_zero (S := S1x128) zeroOffD]
  obtain ⟨e0, e1, e2, e3, e4, e5, e6, e7⟩ := idx_facts10 t
  funext j
  obtain ⟨p, q, rfl⟩ : ∃ (p : Fin 10000) (q : Fin 128), j = ix2 p q := ⟨j 0, j 1, eq_ix2 j⟩
  show k10_pay1 (iblk10 V c 0 t) (iblk10 V c 1 t) (iblk10 V c 2 t) (ix2 p q)
    = Cert.Spec.relu (Cert.Spec.addRow (Cert.Spec.mm (V c main_v146) (V c main_v148)) (V c main_v151))
        (((cfg10.win 3).blk t).view.emb (ix2 p q))
  refine (pay10_apply (iblk10 V c 0 t) (iblk10 V c 1 t) (iblk10 V c 2 t) p q).trans ?_
  unfold Cert.Spec.relu Cert.Spec.addRow Cert.Spec.mm
  have h2 : (iblk10 V c 2 t : Vec Ideal S1x128 .f32) (ix2 (0 : Fin 1) q)
      = (V c main_v151 : S1x128.Idx → EReal) (ix2 (0 : Fin 1) ((((cfg10.win 3).blk t).view.emb (ix2 p q)) 1)) := by
    show (V c main_v151 : S1x128.Idx → EReal) (((cfg10.win 2).blk t).view.emb (ix2 (0 : Fin 1) q)) = _
    refine congrArg _ (funext fun a => Fin.ext ?_)
    match a with
    | ⟨0, _⟩ =>
      show win10_2.index t (0 : Fin 2) * 1 + 1 * 0 = 0
      omega
    | ⟨1, _⟩ =>
      show win10_2.index t (1 : Fin 2) * 128 + 1 * q.val = win10_3.index t (1 : Fin 2) * 128 + 1 * q.val
      omega
  refine congrArg (fun z : EReal => max z 0) (congrArg₂ (· + ·) (Finset.sum_congr rfl fun k _ => ?_) h2)
  have h0 : (iblk10 V c 0 t : Vec Ideal S10000x128 .f32) (ix2 p k)
      = (V c main_v146 : S50000x128.Idx → EReal) (ix2 ((((cfg10.win 3).blk t).view.emb (ix2 p q)) 0) k) := by
    show (V c main_v146 : S50000x128.Idx → EReal) (((cfg10.win 0).blk t).view.emb (ix2 p k)) = _
    refine congrArg _ (funext fun a => Fin.ext ?_)
    match a with
    | ⟨0, _⟩ =>
      show win10_0.index t (0 : Fin 2) * 10000 + 1 * p.val = win10_3.index t (0 : Fin 2) * 10000 + 1 * p.val
      omega
    | ⟨1, _⟩ =>
      show win10_0.index t (1 : Fin 2) * 128 + 1 * k.val = k.val
      omega
  have h1 : (iblk10 V c 1 t : Vec Ideal S128x128 .f32) (ix2 k q)
      = (V c main_v148 : S128x128.Idx → EReal) (ix2 k ((((cfg10.win 3).blk t).view.emb (ix2 p q)) 1)) := by
    show (V c main_v148 : S128x128.Idx → EReal) (((cfg10.win 1).blk t).view.emb (ix2 k q)) = _
    refine congrArg _ (funext fun a => Fin.ext ?_)
    match a with
    | ⟨0, _⟩ =>
      show win10_1.index t (0 : Fin 2) * 128 + 1 * k.val = k.val
      omega
    | ⟨1, _⟩ =>
      show win10_1.index t (1 : Fin 2) * 128 + 1 * q.val = win10_3.index t (1 : Fin 2) * 128 + 1 * q.val
      omega
  exact congrArg₂ (· * ·) h0 h1

/-- A row and column of the result are in point t's block iff each lies in the block's range on its axis. -/
theorem mem_blk10 (t : Fin cfg10.N) (i : S50000x128.Idx) :
    i ∈ ((cfg10.win 3).blk t).view.set ↔ ∀ a : Fin 2, win10_3.index t a * S10000x128.size a ≤ (i a).val
      ∧ (i a).val < win10_3.index t a * S10000x128.size a + S10000x128.size a := by
  show i ∈ ((View.whole main_v152).slice (win10_3.rect t)).set ↔ _
  rw [View.set_slice_whole, Rect.mem_set_unit]
  exact Iff.rfl

/-- Every entry of the result lies in the block of the point numbered (row / 10000). -/
theorem cover10 (i : S50000x128.Idx) :
    ∃ t : Fin cfg10.N, (cfg10.win 3).flush t = true ∧ i ∈ ((cfg10.win 3).blk t).view.set := by
  have hi0 : (i 0).val < 50000 := (i 0).isLt
  have hi1 : (i 1).val < 128 := (i 1).isLt
  obtain ⟨t, ht⟩ := idx_onto10 ⟨(i 0).val / 10000, by omega⟩
  have q0 : win10_3.index t (0 : Fin 2) = (i 0).val / 10000 := congrFun ht 0
  have q1 : win10_3.index t (1 : Fin 2) = 0 := congrFun ht 1
  refine ⟨t, flush10_3 t, ?_⟩
  rw [mem_blk10]
  intro a
  match a with
  | ⟨0, _⟩ =>
    show win10_3.index t (0 : Fin 2) * 10000 ≤ (i 0).val ∧ (i 0).val < win10_3.index t (0 : Fin 2) * 10000 + 10000
    omega
  | ⟨1, _⟩ =>
    show win10_3.index t (1 : Fin 2) * 128 ≤ (i 1).val ∧ (i 1).val < win10_3.index t (1 : Fin 2) * 128 + 128
    omega

/-- The result array after the region is the full layer of the arrays the region finds. -/
theorem region10_out (c : Dev nD) :
    (dat10 (F := Ideal) V c).arrAt 3 cfg10.N
      = Cert.Spec.relu (Cert.Spec.addRow (Cert.Spec.mm (V c main_v146) (V c main_v148)) (V c main_v151)) :=
  (dat10 (F := Ideal) V c).arrAt_eq_of_cover 3
    (Cert.Spec.relu (Cert.Spec.addRow (Cert.Spec.mm (V c main_v146) (V c main_v148)) (V c main_v151)))
    (fun t _ => flushed10_eq V c t) cover10

/-! ## Region 11: the logistic function of rows of `main_v152` times the one weight column `main_arg7` plus the bias `main_v153` -/

/-- The stored block at (p, q), q the one column: the logistic function of row p of the loaded rows against the
    weight column, plus the bias. -/
theorem pay11_apply (x0 : Vec Ideal S10000x128 .f32) (x1 : Vec Ideal S128x1 .f32) (x2 : Vec Ideal S1x1 .f32)
    (p : Fin 10000) (q : Fin 1) :
    k11_pay1 x0 x1 x2 (ix2 p q)
      = Ideal.logistic ((∑ k : Fin 128, x0 (ix2 p k) * x1 (ix2 k q)) + x2 (ix2 (0 : Fin 1) q)) := by
  have hm := Cert.LibPlainMatmul.matmul_zero_plain (φ₁ := .f32) (φ₂ := .f32)
    dot_S10000x128_S128x1_S10000x1_1_0_0_1_n_n_wf x0 x1 p q
  have hb := broadcastTo_1b_ab_apply x2 broadcasts_S1x1_S10000x1 p q
  unfold k11_pay1
  simp only [shapeCast_self]
  exact congrArg Ideal.logistic (congrArg₂ (· + ·) hm hb)

/-- The printed index maps over the five points: the row block of the operand and of the result is the point's number,
    on column block 0; the weight column's and the bias's block is (0, 0). -/
theorem idx_facts11 : ∀ t : Fin cfg11.N, win11_0.index t (0 : Fin 2) = win11_3.index t (0 : Fin 2)
    ∧ win11_0.index t (1 : Fin 2) = 0
    ∧ win11_1.index t (0 : Fin 2) = 0
    ∧ win11_1.index t (1 : Fin 2) = 0
    ∧ win11_2.index t (0 : Fin 2) = 0
    ∧ win11_2.index t (1 : Fin 2) = 0
    ∧ win11_3.index t (1 : Fin 2) = 0
    ∧ win11_3.index t (0 : Fin 2) ≤ 4 :=
  (by decide +kernel : ∀ t : Fin grid11.N, _)

/-- Every one of the five row blocks is some point's. -/
theorem idx_onto11 : ∀ q0 : Fin 5, ∃ t : Fin cfg11.N, win11_3.index t = ![q0.val, 0] :=
  (by decide +kernel : ∀ q0 : Fin 5, ∃ t : Fin grid11.N, win11_3.index t = ![q0.val, 0])

/-- What point t writes back is block t of the full output head. -/
theorem flushed11_eq (c : Dev nD) (t : Fin cfg11.N) :
    (dat11 (F := Ideal) V c).flushed 3 t
      = ((cfg11.win 3).blk t).view.read (Elt Ideal) (Cert.Spec.sigm (V c main_v152) (V c main_arg7) (V c main_v153)) := by
  show (cfg11.win 3).cut (grid11.coords t) ((dat11 (F := Ideal) V c).after 3 t) = _
  rw [after11_3]
  unfold out11_3
  rw [View.canon_unit_zero zeroOffD]
  simp only [View.ld_unit_zero (S := S10000x128) zeroOffD, View.ld_unit_zero (S := S128x1) zeroOffD,
    View.ld_unit_zero (S := S1x1) zeroOffD]
  obtain ⟨e0, e1, e2, e3, e4, e5, e6, e7⟩ := idx_facts11 t
  funext j
  obtain ⟨p, q, rfl⟩ : ∃ (p : Fin 10000) (q : Fin 1), j = ix2 p q := ⟨j 0, j 1, eq_ix2 j⟩
  show k11_pay1 (iblk11 V c 0 t) (iblk11 V c 1 t) (iblk11 V c 2 t) (ix2 p q)
    = Cert.Spec.sigm (V c main_v152) (V c main_arg7) (V c main_v153) (((cfg11.win 3).blk t).view.emb (ix2 p q))
  refine (pay11_apply (iblk11 V c 0 t) (iblk11 V c 1 t) (iblk11 V c 2 t) p q).trans ?_
  unfold Cert.Spec.sigm Cert.Spec.mm1
  have hq : q.val = 0 := by have := q.isLt; omega
  have h2 : (iblk11 V c 2 t : Vec Ideal S1x1 .f32) (ix2 (0 : Fin 1) q)
      = (V c main_v153 : S1x1.Idx → EReal) (ix2 (0 : Fin 1) (0 : Fin 1)) := by
    show (V c main_v153 : S1x1.Idx → EReal) (((cfg11.win 2).blk t).view.emb (ix2 (0 : Fin 1) q)) = _
    refine congrArg _ (funext fun a => Fin.ext ?_)
    match a with
    | ⟨0, _⟩ =>
      show win11_2.index t (0 : Fin 2) * 1 + 1 * 0 = 0
      omega
    | ⟨1, _⟩ =>
      show win11_2.index t (1 : Fin 2) * 1 + 1 * q.val = 0
      omega
  refine congrArg Ideal.logistic (congrArg₂ (· + ·) (Finset.sum_congr rfl fun k _ => ?_) h2)
  have h0 : (iblk11 V c 0 t : Vec Ideal S10000x128 .f32) (ix2 p k)
      = (V c main_v152 : S50000x128.Idx → EReal) (ix2 ((((cfg11.win 3).blk t).view.emb (ix2 p q)) 0) k) := by
    show (V c main_v152 : S50000x128.Idx → EReal) (((cfg11.win 0).blk t).view.emb (ix2 p k)) = _
    refine congrArg _ (funext fun a => Fin.ext ?_)
    match a with
    | ⟨0, _⟩ =>
      show win11_0.index t (0 : Fin 2) * 10000 + 1 * p.val = win11_3.index t (0 : Fin 2) * 10000 + 1 * p.val
      omega
    | ⟨1, _⟩ =>
      show win11_0.index t (1 : Fin 2) * 128 + 1 * k.val = k.val
      omega
  have h1 : (iblk11 V c 1 t : Vec Ideal S128x1 .f32) (ix2 k q)
      = (V c main_arg7 : S128x1.Idx → EReal) (ix2 k ((((cfg11.win 3).blk t).view.emb (ix2 p q)) 1)) := by
    show (V c main_arg7 : S128x1.Idx → EReal) (((cfg11.win 1).blk t).view.emb (ix2 k q)) = _
    refine congrArg _ (funext fun a => Fin.ext ?_)
    match a with
    | ⟨0, _⟩ =>
      show win11_1.index t (0 : Fin 2) * 128 + 1 * k.val = k.val
      omega
    | ⟨1, _⟩ =>
      show win11_1.index t (1 : Fin 2) * 1 + 1 * q.val = win11_3.index t (1 : Fin 2) * 1 + 1 * q.val
      omega
  exact congrArg₂ (· * ·) h0 h1

/-- A row of the result is in point t's block iff it lies in the block's range (the one column always does). -/
theorem mem_blk11 (t : Fin cfg11.N) (i : S50000x1.Idx) :
    i ∈ ((cfg11.win 3).blk t).view.set ↔ ∀ a : Fin 2, win11_3.index t a * S10000x1.size a ≤ (i a).val
      ∧ (i a).val < win11_3.index t a * S10000x1.size a + S10000x1.size a := by
  show i ∈ ((View.whole main_v154).slice (win11_3.rect t)).set ↔ _
  rw [View.set_slice_whole, Rect.mem_set_unit]
  exact Iff.rfl

/-- Every entry of the result lies in the block of the point numbered (row / 10000). -/
theorem cover11 (i : S50000x1.Idx) :
    ∃ t : Fin cfg11.N, (cfg11.win 3).flush t = true ∧ i ∈ ((cfg11.win 3).blk t).view.set := by
  have hi0 : (i 0).val < 50000 := (i 0).isLt
  have hi1 : (i 1).val < 1 := (i 1).isLt
  obtain ⟨t, ht⟩ := idx_onto11 ⟨(i 0).val / 10000, by omega⟩
  have q0 : win11_3.index t (0 : Fin 2) = (i 0).val / 10000 := congrFun ht 0
  have q1 : win11_3.index t (1 : Fin 2) = 0 := congrFun ht 1
  refine ⟨t, flush11_3 t, ?_⟩
  rw [mem_blk11]
  intro a
  match a with
  | ⟨0, _⟩ =>
    show win11_3.index t (0 : Fin 2) * 10000 ≤ (i 0).val ∧ (i 0).val < win11_3.index t (0 : Fin 2) * 10000 + 10000
    omega
  | ⟨1, _⟩ =>
    show win11_3.index t (1 : Fin 2) * 1 ≤ (i 1).val ∧ (i 1).val < win11_3.index t (1 : Fin 2) * 1 + 1
    omega

/-- The result array after the region is the full output head of the arrays the region finds. -/
theorem region11_out (c : Dev nD) :
    (dat11 (F := Ideal) V c).arrAt 3 cfg11.N = Cert.Spec.sigm (V c main_v152) (V c main_arg7) (V c main_v153) :=
  (dat11 (F := Ideal) V c).arrAt_eq_of_cover 3 (Cert.Spec.sigm (V c main_v152) (V c main_arg7) (V c main_v153))
    (fun t _ => flushed11_eq V c t) cover11

end Cert.KernelIdeal.RegVal

end
-- ==== Proof.ChainHead.lean ====
/-
  The head of the kernel's @main, segment by segment: two dense layers with a clamp, then the logistic output.

  From the third mixing layer's output `h3` on, @main alternates a few host lines with a kernel. The host lines cut
  one slice out of a stacked parameter and re-lay it — a [1,128,128] slab as a 128 × 128 matrix, a [1,128] slice as a
  vector and back as a row, the one-entry bias as a 1 × 1 cell — and write nothing else, so every other buffer keeps
  what it held. Each kernel's output array is the dense layer of the arrays it finds. Reading the six segments in
  order gives the output as the composition
      sigm (relu (addRow (mm (relu (addRow (mm h3 W₀) r₀)) W₁) r₁)) w b
  of the parameters' slices.
-/
import proofs.«126339_j45595372814849_1_alg».proof.Proof.Carry
import proofs.«126339_j45595372814849_1_alg».proof.Proof.Net
import proofs.«126339_j45595372814849_1_alg».proof.Proof.GlueRows
import proofs.«126339_j45595372814849_1_alg».proof.Proof.RegDense

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg) (c : Dev nD)

set_option quotPrecheck false

local notation "𝐚5" => m ((c : Thread nD τ).loc main_arg5)
local notation "𝐚6" => m ((c : Thread nD τ).loc main_arg6)
local notation "𝐚7" => m ((c : Thread nD τ).loc main_arg7)
local notation "𝐚8" => m ((c : Thread nD τ).loc main_arg8)

/-- A one-entry vector laid out as a 1 × 1 matrix holds that entry. -/
theorem cell_of_vector (h : S1.ShapeCasts S1x1) (v : FVec Ideal S1 .f32) :
    shapeCast S1x1 v h = (fun _ => v (ix1 (0 : Fin 1))) := by
  funext i
  obtain ⟨u, q, rfl⟩ : ∃ (u : Fin 1) (q : Fin 1), i = ix2 u q := ⟨i 0, i 1, eq_ix2 i⟩
  obtain rfl : q = 0 := Subsingleton.elim q 0
  exact shapeCast_a_1a_apply v h u 0

/-! ## The first dense layer -/

/-- Its weights: slab 0 of the stacked dense weights, as a matrix. -/
theorem main_v142_at21 : W21 m ρ c (Proc.devRef .tc main_v142) = Cert.Net.mw0 𝐚5 := by
  show StableHlo.after hostOps9 (W20 m ρ c) (Proc.devRef .tc main_v142) = _
  after_results
  rw [main_arg5_at20 m ρ c]
  rfl

/-- Its bias: row 0 of the stacked dense biases. -/
theorem main_v145_at21 : W21 m ρ c (Proc.devRef .tc main_v145) = Cert.Net.r0 𝐚6 := by
  show StableHlo.after hostOps9 (W20 m ρ c) (Proc.devRef .tc main_v145) = _
  after_results
  rw [main_arg6_at20 m ρ c]
  exact (Glue.row_of_vector _ _).trans rfl

/-- Its input is not written by the host lines. -/
theorem main_v140_at21 (h3 : Cert.Spec.M 50000 128) (hh : W20 m ρ c (Proc.devRef .tc main_v140) = h3) :
    W21 m ρ c (Proc.devRef .tc main_v140) = h3 :=
  (by keep_host hostOps9 : W21 m ρ c (Proc.devRef .tc main_v140) = W20 m ρ c (Proc.devRef .tc main_v140)).trans hh

/-- The kernel's output: the input times the weights, plus the bias row, clamped. -/
theorem main_v146_at22 (h3 : Cert.Spec.M 50000 128) (hh : W20 m ρ c (Proc.devRef .tc main_v140) = h3) :
    W22 m ρ c (Proc.devRef .tc main_v146)
      = Cert.Spec.relu (Cert.Spec.addRow (Cert.Spec.mm h3 (Cert.Net.mw0 𝐚5)) (Cert.Net.r0 𝐚6)) := by
  refine (W22_arr m ρ c 3).trans ((RegVal.region9_out (V21 m ρ) c).trans ?_)
  show Cert.Spec.relu (Cert.Spec.addRow (Cert.Spec.mm (W21 m ρ c (Proc.devRef .tc main_v140)) (W21 m ρ c (Proc.devRef .tc main_v142)))
    (W21 m ρ c (Proc.devRef .tc main_v145))) = _
  rw [main_v140_at21 m ρ c h3 hh, main_v142_at21 m ρ c, main_v145_at21 m ρ c]

/-! ## The second dense layer -/

/-- Its weights: slab 1 of the stacked dense weights, as a matrix. -/
theorem main_v148_at23 : W23 m ρ c (Proc.devRef .tc main_v148) = Cert.Net.mw1 𝐚5 := by
  show StableHlo.after hostOps10 (W22 m ρ c) (Proc.devRef .tc main_v148) = _
  after_results
  rw [main_arg5_at22 m ρ c]
  rfl

/-- Its bias: row 1 of the stacked dense biases. -/
theorem main_v151_at23 : W23 m ρ c (Proc.devRef .tc main_v151) = Cert.Net.r1 𝐚6 := by
  show StableHlo.after hostOps10 (W22 m ρ c) (Proc.devRef .tc main_v151) = _
  after_results
  rw [main_arg6_at22 m ρ c]
  exact (Glue.row_of_vector _ _).trans rfl

/-- Its input is not written by the host lines. -/
theorem main_v146_at23 (h3 : Cert.Spec.M 50000 128) (hh : W20 m ρ c (Proc.devRef .tc main_v140) = h3) :
    W23 m ρ c (Proc.devRef .tc main_v146)
      = Cert.Spec.relu (Cert.Spec.addRow (Cert.Spec.mm h3 (Cert.Net.mw0 𝐚5)) (Cert.Net.r0 𝐚6)) :=
  (by keep_host hostOps10 : W23 m ρ c (Proc.devRef .tc main_v146) = W22 m ρ c (Proc.devRef .tc main_v146)).trans
    (main_v146_at22 m ρ c h3 hh)

/-- The kernel's output: the first layer's output times the weights, plus the bias row, clamped. -/
theorem main_v152_at24 (h3 : Cert.Spec.M 50000 128) (hh : W20 m ρ c (Proc.devRef .tc main_v140) = h3) :
    W24 m ρ c (Proc.devRef .tc main_v152)
      = Cert.Spec.relu (Cert.Spec.addRow (Cert.Spec.mm
          (Cert.Spec.relu (Cert.Spec.addRow (Cert.Spec.mm h3 (Cert.Net.mw0 𝐚5)) (Cert.Net.r0 𝐚6))) (Cert.Net.mw1 𝐚5)) (Cert.Net.r1 𝐚6)) := by
  refine (W24_arr m ρ c 3).trans ((RegVal.region10_out (V23 m ρ) c).trans ?_)
  show Cert.Spec.relu (Cert.Spec.addRow (Cert.Spec.mm (W23 m ρ c (Proc.devRef .tc main_v146)) (W23 m ρ c (Proc.devRef .tc main_v148)))
    (W23 m ρ c (Proc.devRef .tc main_v151))) = _
  rw [main_v146_at23 m ρ c h3 hh, main_v148_at23 m ρ c, main_v151_at23 m ρ c]

/-! ## The output layer -/

/-- Its bias: the one-entry bias as a 1 × 1 cell. -/
theorem main_v153_at25 : W25 m ρ c (Proc.devRef .tc main_v153) = Cert.Net.cellOf 𝐚8 := by
  show StableHlo.after hostOps11 (W24 m ρ c) (Proc.devRef .tc main_v153) = _
  after_results
  rw [main_arg8_at24 m ρ c]
  exact (cell_of_vector _ _).trans rfl

/-- Its input is not written by the host line. -/
theorem main_v152_at25 (h3 : Cert.Spec.M 50000 128) (hh : W20 m ρ c (Proc.devRef .tc main_v140) = h3) :
    W25 m ρ c (Proc.devRef .tc main_v152)
      = Cert.Spec.relu (Cert.Spec.addRow (Cert.Spec.mm
          (Cert.Spec.relu (Cert.Spec.addRow (Cert.Spec.mm h3 (Cert.Net.mw0 𝐚5)) (Cert.Net.r0 𝐚6))) (Cert.Net.mw1 𝐚5)) (Cert.Net.r1 𝐚6)) :=
  (by keep_host hostOps11 : W25 m ρ c (Proc.devRef .tc main_v152) = W24 m ρ c (Proc.devRef .tc main_v152)).trans
    (main_v152_at24 m ρ c h3 hh)

/-- The last kernel's output: the logistic function of the second layer's output times the output column, plus the bias. -/
theorem head_chain (h3 : Cert.Spec.M 50000 128) (hh : W20 m ρ c (Proc.devRef .tc main_v140) = h3) :
    W26 m ρ c (Proc.devRef .tc main_v154)
      = Cert.Spec.sigm (Cert.Spec.relu (Cert.Spec.addRow (Cert.Spec.mm
          (Cert.Spec.relu (Cert.Spec.addRow (Cert.Spec.mm h3 (Cert.Net.mw0 𝐚5)) (Cert.Net.r0 𝐚6))) (Cert.Net.mw1 𝐚5)) (Cert.Net.r1 𝐚6)))
        𝐚7 (Cert.Net.cellOf 𝐚8) := by
  refine (W26_arr m ρ c 3).trans ((RegVal.region11_out (V25 m ρ) c).trans ?_)
  show Cert.Spec.sigm (W25 m ρ c (Proc.devRef .tc main_v152)) (W25 m ρ c (Proc.devRef .tc main_arg7))
    (W25 m ρ c (Proc.devRef .tc main_v153)) = _
  rw [main_v152_at25 m ρ c h3 hh, main_arg7_at25 m ρ c, main_v153_at25 m ρ c]

end Cert.KernelIdeal.Chain

end
-- ==== Proof.ChainAll.lean ====
/-
  The kernel's @main read whole: the output buffer after the last segment is the network of Net.lean, with the
  raw-moment variance in each normalisation, applied to the ten arguments.

  The three mixing layers give the third layer's output as a nested term over the arguments; the head — two dense
  layers and the logistic output — is stated for any such input. Composing the two is the network's definition
  unfolded.
-/
import proofs.«126339_j45595372814849_1_alg».proof.Proof.Chain2
import proofs.«126339_j45595372814849_1_alg».proof.Proof.ChainHead

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

set_option quotPrecheck false

local notation "𝐚0" => m ((c : Thread nD τ).loc main_arg0)
local notation "𝐚1" => m ((c : Thread nD τ).loc main_arg1)
local notation "𝐚2" => m ((c : Thread nD τ).loc main_arg2)
local notation "𝐚3" => m ((c : Thread nD τ).loc main_arg3)
local notation "𝐚4" => m ((c : Thread nD τ).loc main_arg4)
local notation "𝐚5" => m ((c : Thread nD τ).loc main_arg5)
local notation "𝐚6" => m ((c : Thread nD τ).loc main_arg6)
local notation "𝐚7" => m ((c : Thread nD τ).loc main_arg7)
local notation "𝐚8" => m ((c : Thread nD τ).loc main_arg8)
local notation "𝐚9" => m ((c : Thread nD τ).loc main_arg9)

/-- After the last segment the output buffer holds the network's value at the arguments. -/
theorem kernel_value : W26 m ρ c (Proc.devRef .tc main_v154)
    = Cert.Net.net Cert.Net.bnR 𝐚0 𝐚1 𝐚2 𝐚3 𝐚4 𝐚5 𝐚6 𝐚7 𝐚8 𝐚9 :=
  (head_chain m ρ c _ (main_v140_at20 m ρ c)).trans (by unfold Cert.Net.net; rfl)

end Cert.KernelIdeal.Chain

end
-- ==== Proof.LibFiniteOps.lean ====
/-
  Finiteness through the vector operations of the ideal values. With `AllReal v` (every entry of
  `v` a real number): a re-indexing of a finite vector (broadcasts, shape casts, slices, transposes,
  a gather) is finite; a matrix product (`tpu.matmul` onto a finite accumulator, the host's
  `dot_general`) of finite operands is finite — at each index a finite sum of products —; so are a
  sum reduction (`vector.multi_reduction <add>`, the host's `reduce … add` from a finite initial
  value) and the host's accumulating scatter of finite updates into a finite operand. A scatter of
  nonnegative updates into a nonnegative operand is nonnegative: a count (ones scattered into zeros)
  is a real `≥ 0`, and its maximum with `1` is a real `≥ 1`, in particular finite and nonzero — a
  divisor the quotient of finite values stays finite by.
-/
import proofs.«126339_j45595372814849_1_alg».proof.Proof.LibFinite

open scoped BigOperators
open Idealize.ShloMosaic

namespace LibFinite

variable {φ φ₁ φ₂ : FTy} {s t : Shape}

/-! ### Constants -/

/-- The f32 pattern of `1.0` is the extended real `1`. -/
theorem f32_one : Ideal.ofBits .f32 0x3F800000#32 = 1 := by
  simp [Ideal.ofBits, Ideal.ieee, -EReal.coe_mul]; norm_num

theorem allReal_constant_zero_f32 (s : Shape) : AllReal (constant (F := Ideal) s .f32 0x00000000#32) :=
  fun _ => by show IsReal (Ideal.ofBits .f32 0x00000000#32); rw [Ideal.ofBits_zero_f32]; exact isReal_zero
theorem allReal_constant_one_f32 (s : Shape) : AllReal (constant (F := Ideal) s .f32 0x3F800000#32) :=
  fun _ => by show IsReal (Ideal.ofBits .f32 0x3F800000#32); rw [f32_one]; exact isReal_one
/-- A constant whose pattern denotes a real. -/
theorem allReal_constant_of_eq (s : Shape) (φ : FTy) (b : BitVec φ.bits) {r : ℝ} (hb : Ideal.ofBits φ b = (r : EReal)) :
    AllReal (constant (F := Ideal) s φ b) :=
  fun _ => ⟨r, hb⟩

/-! ### Re-indexings -/

/-- Reading a finite vector through any map of indices gives a finite vector. -/
theorem allReal_comp {x : s.Idx → EReal} (hx : AllReal x) (f : t.Idx → s.Idx) : AllReal (fun j => x (f j)) :=
  fun j => hx (f j)

theorem allReal_broadcastTo {x : s.Idx → EReal} (hx : AllReal x) (t : Shape) (h : s.Broadcasts t) :
    AllReal (broadcastTo t x h) := fun _ => hx _
theorem allReal_broadcastInDim {x : s.Idx → EReal} (hx : AllReal x) (t : Shape) (dims : Fin s.rank → Fin t.rank)
    (h : s.BroadcastsInDim t dims) : AllReal (broadcastInDim t dims h x) := fun _ => hx _
theorem allReal_shapeCast {x : s.Idx → EReal} (hx : AllReal x) (t : Shape) (h : s.ShapeCasts t) :
    AllReal (shapeCast t x h) := fun _ => hx _
theorem allReal_extractStridedSlice {x : s.Idx → EReal} (hx : AllReal x) (t : Shape) (off : Fin s.rank → Nat)
    (h : s.Slices off t) : AllReal (extractStridedSlice t off x h) := fun _ => hx _
theorem allReal_transpose {x : s.Idx → EReal} (hx : AllReal x) (t : Shape) (perm : List (Fin s.rank))
    (h : s.Transposes perm t) : AllReal (transpose t perm x h) := fun _ => hx _
/-- The host's gather reads the operand at an index computed from the start indices: finite operand,
    finite result, whatever the indices. -/
theorem allReal_gather {si : Shape} {w : Nat} (d : GatherDims s si t) {x : s.Idx → EReal} (hx : AllReal x)
    (idx : IVec si w) : AllReal (Host.gather d x idx) := fun _ => hx _

/-! ### Products -/

/-- `tpu.matmul` of finite operands onto a finite accumulator. -/
theorem allReal_matmul {sl sr so : Shape} (d : DotDims sl sr so) (prec : Option ContractPrecision)
    {lhs : FVec Ideal sl φ₁} {rhs : FVec Ideal sr φ₂} {acc : FVec Ideal so .f32}
    (hl : AllReal lhs) (hr : AllReal rhs) (ha : AllReal acc) : AllReal (matmul d prec lhs rhs acc) := fun j => by
  show IsReal (FloatOps.matmul d prec lhs rhs acc j)
  rw [Ideal.matmul_apply]
  exact (ha j).add (isReal_sum _ _ fun k _ => (hl _).mul (hr _))

/-- …onto the zero splat. -/
theorem allReal_matmul_zero {sl sr so : Shape} (d : DotDims sl sr so) (prec : Option ContractPrecision)
    {lhs : FVec Ideal sl φ₁} {rhs : FVec Ideal sr φ₂} (hl : AllReal lhs) (hr : AllReal rhs) :
    AllReal (matmul d prec lhs rhs (constant so .f32 0x00000000#32)) :=
  allReal_matmul d prec hl hr (allReal_constant_zero_f32 so)

/-- The host's `dot_general` of finite operands, at any schedule key. -/
theorem allReal_dotGeneralAt {sl sr so : Shape} (d : DotDims sl sr so) (prec : Option ContractPrecision)
    (sched : HostSchedule) {lhs : FVec Ideal sl φ₁} {rhs : FVec Ideal sr φ₂} (hl : AllReal lhs) (hr : AllReal rhs) :
    AllReal (FloatOps.dotGeneral d prec sched lhs rhs) := fun j => by
  rw [Ideal.dotGeneral_apply]
  exact isReal_sum _ _ fun k _ => (hl _).mul (hr _)

theorem allReal_dotGeneral {sl sr so : Shape} (d : DotDims sl sr so) (prec : Option ContractPrecision)
    {lhs : FVec Ideal sl φ₁} {rhs : FVec Ideal sr φ₂} (hl : AllReal lhs) (hr : AllReal rhs) :
    AllReal (Host.dotGeneral d prec lhs rhs) := allReal_dotGeneralAt d prec .single hl hr

/-! ### Sum reductions -/

/-- `vector.multi_reduction <add>` of a finite vector, over any axes. -/
theorem allReal_multiReduction_add {axes : List (Fin s.rank)} {src : FVec Ideal s φ} (hsrc : AllReal src)
    (acc : BitVec φ.bits) (h : s.Reduces axes t) (hφ : FKind.Formats φ) (hacc : acc = FKind.add.neutral φ hφ) :
    AllReal (multiReduction .add axes t src acc h hφ hacc) := fun j => by
  show IsReal (Ideal.reduceAdd h src j)
  unfold Ideal.reduceAdd
  exact isReal_sum _ _ fun i _ => hsrc i

/-- The host's `reduce … add` of a finite vector from a finite initial value, over any axes. -/
theorem allReal_hostReduceAdd {axes : List (Fin s.rank)} {u : Shape} {x : FVec Ideal s φ} (hx : AllReal x)
    {init : u.Idx → Ideal φ} (hinit : ∀ k, IsReal (init k)) (h : s.ReducesTo axes t) (hu : 0 < u.numel) :
    AllReal (Host.reduceAdd x init h hu) := fun j => by
  show IsReal (Ideal.hostReduceAdd h x (init (Shape.Idx.first hu)) j)
  unfold Ideal.hostReduceAdd
  exact (hinit _).add (isReal_sum _ _ fun i _ => hx i)

/-! ### The accumulating scatter -/

/-- The host's float scatter-add of finite updates into a finite operand is finite, whatever the indices. -/
theorem allReal_scatterAdd {si u : Shape} {w : Nat} (d : ScatterDims s si u) {x : FVec Ideal s φ} (hx : AllReal x)
    (idx : IVec si w) {upd : FVec Ideal u φ} (hupd : AllReal upd) : AllReal (Host.scatterAdd d x idx upd) := fun i => by
  show IsReal (Ideal.hostScatterAdd d x idx upd i)
  unfold Ideal.hostScatterAdd
  exact (hx i).add (isReal_sum _ _ fun j _ => hupd j)

/-- …and nonnegative when the operand and the updates are. -/
theorem scatterAdd_nonneg {si u : Shape} {w : Nat} (d : ScatterDims s si u) {x : FVec Ideal s φ} (hx : ∀ i, 0 ≤ x i)
    (idx : IVec si w) {upd : FVec Ideal u φ} (hupd : ∀ j, 0 ≤ upd j) (i : s.Idx) : 0 ≤ Host.scatterAdd d x idx upd i := by
  show 0 ≤ Ideal.hostScatterAdd d x idx upd i
  unfold Ideal.hostScatterAdd
  exact add_nonneg (hx i) (Finset.sum_nonneg fun j _ => hupd j)

/-- A count — ones scattered into zeros — is at each element a real `≥ 0`. -/
theorem scatterAdd_count {si u : Shape} {w : Nat} (d : ScatterDims s si u) {x : FVec Ideal s φ} (hx : ∀ i, x i = 0)
    (idx : IVec si w) {upd : FVec Ideal u φ} (hupd : ∀ j, upd j = 1) (i : s.Idx) :
    IsReal (Host.scatterAdd d x idx upd i) ∧ 0 ≤ Host.scatterAdd d x idx upd i :=
  ⟨allReal_scatterAdd d (fun i => by rw [hx i]; exact isReal_zero) idx (fun j => by rw [hupd j]; exact isReal_one) i,
   scatterAdd_nonneg d (fun i => (hx i).ge) idx (fun j => by rw [hupd j]; exact zero_le_one) i⟩

/-- The maximum of a finite value with `1` is finite, at least `1`, and not zero. -/
theorem max_one_spec {c : EReal} (hc : IsReal c) : IsReal (max c 1) ∧ 1 ≤ max c 1 ∧ max c 1 ≠ 0 :=
  ⟨hc.max isReal_one, le_max_right c 1, (lt_of_lt_of_le zero_lt_one (le_max_right c 1)).ne'⟩

/-- Entrywise: `maximumf v ones` of a finite vector is finite and nowhere zero. -/
theorem allReal_max_one {v one : FVec Ideal s φ} (hv : AllReal v) (hone : ∀ i, one i = 1) :
    AllReal (maximumf v one) ∧ ∀ i, maximumf v one i ≠ 0 := by
  refine ⟨fun i => ?_, fun i => ?_⟩
  · show IsReal (max (v i) (one i)); rw [hone i]; exact (max_one_spec (hv i)).1
  · show max (v i) (one i) ≠ 0; rw [hone i]; exact (max_one_spec (hv i)).2.2

end LibFinite
-- ==== Proof.Bridge.lean ====
/-
  The network with the raw-moment variance equals the network with the centred variance on finite
  arguments.

  The two variances are the same extended real whenever the normalised matrix has only real entries, so it
  suffices that the input of each of the three normalisations is finite. Finiteness is carried through the
  layer: a product of finite matrices is at each index a finite sum of products of reals; the edge mixing
  gathers rows, scales them by the edges' normalisation factors and scatter-adds them into zeros, each a
  finite sum of reals — the factors are finite for any edge list, being products of reciprocal square roots
  of `max (degree, 1)`, where the degree (ones scatter-added into zeros) is a real `≥ 0`, so its maximum
  with one is a real `≥ 1`; adding a finite bias row keeps finiteness; the normalised value of a finite
  matrix with finite scale and shift is finite because the centred variance is a nonnegative real and
  `ε` a positive one, so `variance + ε` is a positive real with a finite reciprocal square root; clamping
  at zero keeps finiteness. After the third normalisation the two networks are the same text.
-/
import proofs.«126339_j45595372814849_1_alg».proof.Proof.Net
import proofs.«126339_j45595372814849_1_alg».proof.Proof.LibFinite
import proofs.«126339_j45595372814849_1_alg».proof.Proof.LibFiniteOps
import proofs.«126339_j45595372814849_1_alg».proof.Proof.LibBatchStats

noncomputable section

open scoped BigOperators
open Idealize.ShloMosaic Idealize.ShloMosaic.ValueIdx
open Cert.ReferenceIdeal Cert.ReferenceIdeal.ReadP Cert.Spec Cert.Net LibFinite LibBatchStats

namespace Cert.Bridge

/-! ### Finiteness through the mathematics of a layer -/

/-- A product of finite matrices is finite. -/
theorem fin_mm {h : M 50000 128} {w : M 128 128} (hh : Fin_ h) (hw : Fin_ w) : Fin_ (mm h w) :=
  fun _ => isReal_sum _ _ fun _ _ => (hh _).mul (hw _)

/-- Adding a finite row to every row of a finite matrix. -/
theorem fin_addRow {z : M 50000 128} {b : M 1 128} (hz : Fin_ z) (hb : Fin_ b) : Fin_ (addRow z b) :=
  fun i => (hz i).add (hb _)

/-- Clamping a finite matrix at zero. -/
theorem fin_relu {a b : Nat} {z : M a b} (hz : Fin_ z) : Fin_ (relu z) := fun i => (hz i).max isReal_zero

/-- The column means of a finite matrix are finite. -/
theorem fin_mean {z : M 50000 128} (hz : Fin_ z) : Fin_ (meanOf (colSum z)) := fun i => by
  show IsReal (Ideal.div (∑ n : Fin 50000, z (ix2 n (i 1))) nRows)
  rw [nRows_eq]
  exact isReal_mean (fun n : Fin 50000 => z (ix2 n (i 1))) (fun n => hz _) (by norm_num)

/-- The centred variance of a finite matrix is, column by column, a nonnegative real. -/
theorem varCentred_nonneg {z : M 50000 128} (hz : Fin_ z) (i : (⟨2, ![1, 128]⟩ : Shape).Idx) :
    ∃ v : ℝ, 0 ≤ v ∧ varCentred z i = (v : EReal) := by
  obtain ⟨v, hv, hvar⟩ := centred_var_nonneg (fun n : Fin 50000 => z (ix2 n (i 1))) (fun n => hz _)
    (N := 50000) (by norm_num)
  refine ⟨v, hv, ?_⟩
  show Ideal.div (∑ n : Fin 50000, (z (ix2 n (i 1)) - Ideal.div (∑ n : Fin 50000, z (ix2 n (i 1))) nRows)
    * (z (ix2 n (i 1)) - Ideal.div (∑ n : Fin 50000, z (ix2 n (i 1))) nRows)) nRows = (v : EReal)
  rw [nRows_eq]
  exact hvar

/-- The normalisation with the centred variance of a finite matrix, with finite scale and shift, is finite. -/
theorem fin_bnC {z : M 50000 128} {g be : M 1 128} (hz : Fin_ z) (hg : Fin_ g) (hbe : Fin_ be) :
    Fin_ (bnC z g be) := fun i => by
  obtain ⟨v, hv, hvar⟩ := varCentred_nonneg hz (ix2 0 (i 1))
  obtain ⟨e, he, heps⟩ := eps_pos
  show IsReal ((z i - meanOf (colSum z) (ix2 0 (i 1))) * Ideal.rsqrt (varCentred z (ix2 0 (i 1)) + eps)
    * g (ix2 0 (i 1)) + be (ix2 0 (i 1)))
  rw [hvar, show eps = (e : EReal) from heps]
  exact ((((hz i).sub (fin_mean hz _)).mul (isReal_rsqrt_add_eps hv he)).mul (hg _)).add (hbe _)

/-- On a finite matrix the two normalisations are the same. -/
theorem bnR_eq_bnC {z : M 50000 128} (hz : Fin_ z) (g be : M 1 128) : bnR z g be = bnC z g be := by
  unfold bnR bnC
  rw [varRaw_eq_varCentred z hz]

/-! ### The edges' normalisation factors are finite for any edge list -/

/-- The degree — ones scatter-added into zeros — is a real `≥ 0`. -/
theorem degree_spec (e : Edges) (i : S50000.Idx) :
    IsReal (val_main_v10 (F := Ideal) e i) ∧ (0 : EReal) ≤ val_main_v10 (F := Ideal) e i :=
  by
  unfold val_main_v10
  exact scatterAdd_count _ (fun i => by rw [val_main_v8_apply, val_main_cst_0_apply]; exact Ideal.ofBits_zero_f32) _
    (fun j => by rw [val_main_v7_apply, val_main_cst_apply]; exact f32_one) i

/-- Its maximum with one is a positive real. -/
theorem degree_max_spec (e : Edges) (i : S50000.Idx) :
    IsReal (val_main_v14 (F := Ideal) e i) ∧ (0 : EReal) < val_main_v14 (F := Ideal) e i := by
  have h1 : val_main_v13 (F := Ideal) i = (1 : EReal) := by
    rw [val_main_v13_apply, val_main_cst_2_apply]; exact f32_one
  have hc := (degree_spec e i).1
  rw [val_main_v14_apply, h1]
  generalize val_main_v10 (F := Ideal) e i = c at hc ⊢
  exact ⟨(max_one_spec hc).1, lt_of_lt_of_le zero_lt_one (max_one_spec hc).2.1⟩

/-- The reciprocal square root of that maximum is finite. -/
theorem fin_v15 (e : Edges) : AllReal (val_main_v15 (F := Ideal) e) := fun i => by
  rw [val_main_v15_apply]
  obtain ⟨hr, hp⟩ := degree_max_spec e i
  generalize val_main_v14 (F := Ideal) e i = c at hr hp ⊢
  exact isReal_hostRsqrt hr hp

/-- The zero vector the choice falls back to. -/
theorem fin_call0_v1 : AllReal (val_main_call0_v1 (F := Ideal)) := fun i => by
  rw [val_main_call0_v1_apply, val_main_call0_v0_apply, val_main_cst_3_apply]
  show IsReal (Ideal.ofBits .f32 0x00000000#32)
  rw [Ideal.ofBits_zero_f32]
  exact isReal_zero

/-- Choosing, node by node, between it and zero. -/
theorem fin_v16 (e : Edges) : AllReal (val_main_v16 (F := Ideal) e) := fun i => by
  rw [val_main_v16_apply]
  have ha := fin_v15 e i
  have hb := fin_call0_v1 i
  generalize val_main_v15 (F := Ideal) e i = a at ha ⊢
  generalize val_main_call0_v1 (F := Ideal) i = b at hb ⊢
  generalize val_main_v12 (F := Ideal) e i = c
  unfold Scalar.select
  split
  · exact ha
  · exact hb

/-- The factor of an edge: the product of the two end nodes' values. -/
theorem fin_v31 (e : Edges) : AllReal (val_main_v31 (F := Ideal) e) := by
  unfold val_main_v31 val_main_v23 val_main_v30
  exact allReal_mulf (allReal_gather _ (fin_v16 e) _) (allReal_gather _ (fin_v16 e) _)

/-- …repeated along every row. -/
theorem fin_v45 (e : Edges) : AllReal (val_main_v45 (F := Ideal) e) := fun i => by
  rw [val_main_v45_apply, val_main_v32_apply]
  exact fin_v31 e _

/-- The zeros the mixing accumulates into. -/
theorem fin_v47 : AllReal (val_main_v47 (F := Ideal)) := fun i => by
  rw [val_main_v47_apply, val_main_cst_9_apply]
  show IsReal (Ideal.ofBits .f32 0x00000000#32)
  rw [Ideal.ofBits_zero_f32]
  exact isReal_zero

/-- The edge mixing of a finite matrix is finite. -/
theorem fin_agg {ht : M 50000 128} (hh : Fin_ ht) (e : Edges) : Fin_ (agg ht e) := by
  unfold agg
  exact allReal_scatterAdd _ fin_v47 _ (allReal_mulf (allReal_gather _ hh _) (fin_v45 e))

/-! ### The slices of finite stacked parameters are finite -/

theorem fin_w0 {a : A1} (h : AllReal a) : Fin_ (w0 a) := fun i => by
  unfold w0; rw [val_main_v34_apply, val_main_v33_apply]; exact h _
theorem fin_w1 {a : A1} (h : AllReal a) : Fin_ (w1 a) := fun i => by
  unfold w1; rw [val_main_v84_apply, val_main_v83_apply]; exact h _
theorem fin_w2 {a : A1} (h : AllReal a) : Fin_ (w2 a) := fun i => by
  unfold w2; rw [val_main_v134_apply, val_main_v133_apply]; exact h _
theorem fin_b0 {a : A2} (h : AllReal a) : Fin_ (b0 a) := fun i => by
  unfold b0 rowOf; rw [val_main_v36_apply, val_main_v35_apply]; exact h _
theorem fin_b1 {a : A2} (h : AllReal a) : Fin_ (b1 a) := fun i => by
  unfold b1 rowOf; rw [val_main_v86_apply, val_main_v85_apply]; exact h _
theorem fin_b2 {a : A2} (h : AllReal a) : Fin_ (b2 a) := fun i => by
  unfold b2 rowOf; rw [val_main_v136_apply, val_main_v135_apply]; exact h _
theorem fin_r0 {a : A3} (h : AllReal a) : Fin_ (r0 a) := fun i => by
  unfold r0 rowOf; rw [val_main_v54_apply, val_main_v53_apply]; exact h _
theorem fin_r1 {a : A3} (h : AllReal a) : Fin_ (r1 a) := fun i => by
  unfold r1 rowOf; rw [val_main_v104_apply, val_main_v103_apply]; exact h _

/-! ### A layer, and the network -/

/-- Weights, edge mixing, bias: finite from finite inputs. -/
theorem fin_zPre {h : M 50000 128} {w : M 128 128} {b : M 1 128} (e : Edges) (hh : Fin_ h) (hw : Fin_ w)
    (hb : Fin_ b) : Fin_ (zPre h w b e) := fin_addRow (fin_agg (fin_mm hh hw) e) hb

/-- A whole layer — weights, mixing, bias, normalisation, clamp — is finite from finite inputs. -/
theorem fin_layer {h : M 50000 128} {w : M 128 128} {b g be : M 1 128} (e : Edges) (hh : Fin_ h) (hw : Fin_ w)
    (hb : Fin_ b) (hg : Fin_ g) (hbe : Fin_ be) : Fin_ (relu (bnC (zPre h w b e) g be)) :=
  fin_relu (fin_bnC (fin_zPre e hh hw hb) hg hbe)

/-- On finite features and finite layer parameters the network with the raw-moment variance is the network
    with the centred variance. -/
theorem net_eq (a0 : A0) (a1 : A1) (a2 : A2) (a3 a4 : A3) (a5 : A5) (a6 : A3) (a7 : A7) (a8 : A8) (a9 : Edges)
    (h0 : AllReal a0) (h1 : AllReal a1) (h2 : AllReal a2) (h3 : AllReal a3) (h4 : AllReal a4) :
    net bnR a0 a1 a2 a3 a4 a5 a6 a7 a8 a9 = net bnC a0 a1 a2 a3 a4 a5 a6 a7 a8 a9 := by
  have z1 : Fin_ (zPre a0 (w0 a1) (b0 a2) a9) := fin_zPre a9 h0 (fin_w0 h1) (fin_b0 h2)
  have f1 := fin_relu (fin_bnC z1 (fin_r0 h3) (fin_r0 h4))
  have z2 := fin_zPre a9 f1 (fin_w1 h1) (fin_b1 h2)
  have f2 := fin_relu (fin_bnC z2 (fin_r1 h3) (fin_r1 h4))
  have z3 := fin_relu (fin_zPre a9 f2 (fin_w2 h1) (fin_b2 h2))
  have e1 := bnR_eq_bnC z1 (r0 a3) (r0 a4)
  have e2 := bnR_eq_bnC z2 (r1 a3) (r1 a4)
  have e3 := bnR_eq_bnC z3 (r1 a3) (r1 a4)
  simp only [net, e1, e2, e3]

end Cert.Bridge

end
-- ==== Proof.RefNet.lean ====
/-
  The reference program computes the network of Net.lean with the centred variance, for all arguments.

  Every operation of the reference is a function of whole arrays. Each kind is read once, over variables: a matrix
  product is the rows-by-columns sum; a vector spread along the rows reads the vector at the column; the sum over
  the rows from the zero word is the column sum, and its quotient by the row count the column mean; the maximum with
  the spread zero word is the clamp at zero. The normalisation and the output head are each written as one function of
  their operands (`refBn`, `refHead`) and shown equal to the specification's (`bnC`, `sigm`). A stage of the
  reference is, by unfolding its definition, such a function of the stage before it, and the stages chain into
  `ref_eq`. Every step is an equation between extended reals that holds as written, so no entry has to be finite.
-/
import proofs.«126339_j45595372814849_1_alg».proof.Proof.Net
import proofs.«126339_j45595372814849_1_alg».proof.Proof.LibFiniteOps

noncomputable section

open scoped BigOperators
open Idealize.ShloMosaic Idealize.ShloMosaic.ValueIdx

namespace Cert.RefNet

open Cert.ReferenceIdeal Cert.ReferenceIdeal.Gen Cert.ReferenceIdeal.ReadP Cert.Spec Cert.Net

/-! ### The operations of the reference, each read once -/

/-- The reference's square matrix product is the rows-by-columns sum. -/
theorem dot_eq_mm (h : M 50000 128) (w : M 128 128) :
    Host.dotGeneral (F := Ideal) (φ₁ := .f32) (φ₂ := .f32) dot_S50000x128_S128x128_S50000x128_1_0_0_1_n_n none h w = mm h w := by
  funext i
  simp only [Host.dotGeneral]
  rw [Ideal.dotGeneral_apply, ← Equiv.sum_comp (contrEquiv1 dot_S50000x128_S128x128_S50000x128_1_0_0_1_n_n 128 rfl rfl).symm]
  unfold mm
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx i ((contrEquiv1 dot_S50000x128_S128x128_S50000x128_1_0_0_1_n_n 128 rfl rfl).symm k) = ix2 (i 0) k := funext fun a => Fin.ext (by
    match a with
    | ⟨0, _⟩ => exact ReadP.lhs_main_v37_0 _ _
    | ⟨1, _⟩ => exact (ReadP.lhs_main_v37_1 _ _).trans hk)
  have er : dot_S50000x128_S128x128_S50000x128_1_0_0_1_n_n.rhsIdx i ((contrEquiv1 dot_S50000x128_S128x128_S50000x128_1_0_0_1_n_n 128 rfl rfl).symm k) = ix2 k (i 1) := funext fun a => Fin.ext (by
    match a with
    | ⟨0, _⟩ => exact (ReadP.rhs_main_v37_0 _ _).trans hk
    | ⟨1, _⟩ => exact ReadP.rhs_main_v37_1 _ _)
  rw [el, er]
  rfl

/-- The reference's product with the one-column matrix likewise. -/
theorem dot_eq_mm1 (h : M 50000 128) (w : M 128 1) :
    Host.dotGeneral (F := Ideal) (φ₁ := .f32) (φ₂ := .f32) dot_S50000x128_S128x1_S50000x1_1_0_0_1_n_n none h w = mm1 h w := by
  funext i
  simp only [Host.dotGeneral]
  rw [Ideal.dotGeneral_apply, ← Equiv.sum_comp (contrEquiv1 dot_S50000x128_S128x1_S50000x1_1_0_0_1_n_n 128 rfl rfl).symm]
  unfold mm1
  refine Finset.sum_congr rfl fun k _ => ?_
  have hk := contrEquiv1_symm_val dot_S50000x128_S128x1_S50000x1_1_0_0_1_n_n 128 rfl rfl k
  have el : dot_S50000x128_S128x1_S50000x1_1_0_0_1_n_n.lhsIdx i ((contrEquiv1 dot_S50000x128_S128x1_S50000x1_1_0_0_1_n_n 128 rfl rfl).symm k) = ix2 (i 0) k := funext fun a => Fin.ext (by
    match a with
    | ⟨0, _⟩ => exact ReadP.lhs_main_v201_0 _ _
    | ⟨1, _⟩ => exact (ReadP.lhs_main_v201_1 _ _).trans hk)
  have er : dot_S50000x128_S128x1_S50000x1_1_0_0_1_n_n.rhsIdx i ((contrEquiv1 dot_S50000x128_S128x1_S50000x1_1_0_0_1_n_n 128 rfl rfl).symm k) = ix2 k (i 1) := funext fun a => Fin.ext (by
    match a with
    | ⟨0, _⟩ => exact (ReadP.rhs_main_v201_0 _ _).trans hk
    | ⟨1, _⟩ => exact ReadP.rhs_main_v201_1 _ _)
  rw [el, er]
  rfl

/-- A vector spread along the rows: the two broadcasts the reference writes for a row operand. -/
def bRow {α : Type} (v : S128.Idx → α) : S50000x128.Idx → α :=
  broadcastInDim S50000x128 ![0, 1] bcast_S1x128_S50000x128_0_1 (broadcastInDim S1x128 ![1] bcast_S128_S1x128_1 v)

/-- It reads the vector at the column. -/
theorem bRow_apply {α : Type} (v : S128.Idx → α) (i : S50000x128.Idx) : bRow v i = v (ix1 (i 1)) := by
  unfold bRow
  rw [broadcastInDim_apply _ bcast_S1x128_S50000x128_0_1 _ i (ix2 0 (i 1)) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])]
  exact broadcastInDim_apply _ bcast_S128_S1x128_1 v (ix2 0 (i 1)) (ix1 (i 1)) (fun a => match a with
    | ⟨0, _⟩ => by show (i 1).val = if (128 : Nat) = 1 then 0 else (i 1).val; rw [if_neg (by decide)])

/-- A scalar spread over a shape reads the scalar everywhere. -/
theorem bScalar_apply {α : Type} {t : Shape} (h : S_.BroadcastsInDim t (![] : Fin 0 → Fin t.rank)) (c : S_.Idx → α) (i : t.Idx) :
    broadcastInDim t ![] h c i = c ix0 :=
  broadcastInDim_apply _ h c i ix0 (fun a => a.elim0)

/-- Adding a spread row is adding the row to every row. -/
theorem add_bRow (x : M 50000 128) (v : (⟨S128, .f32⟩ : BufTy).Contents (Elt Ideal)) :
    addf (F := Ideal) (φ := .f32) x (bRow v) = addRow x (rowOf v) := by
  funext i
  rw [addf_apply, bRow_apply]
  rfl

/-- The maximum with the spread zero word is the clamp at zero. -/
theorem max_zero (x : M 50000 128) :
    maximumf (F := Ideal) (φ := .f32) x (broadcastInDim S50000x128 ![] bcast_S_S50000x128 (constant (F := Ideal) S_ .f32 0x00000000#32)) = relu x := by
  funext i
  rw [maximumf_apply, bScalar_apply, constant_apply, Ideal.ofBits_zero_f32]
  rfl

/-- The reference's column sums from the zero word. -/
theorem reduce_cols (z : M 50000 128) (j : S128.Idx) :
    Host.reduceAdd (F := Ideal) (φ := .f32) z (constant (F := Ideal) S_ .f32 0x00000000#32) reducesTo_S50000x128_S128_d0 h_S_ j
      = colSum z (ix2 0 (j 0)) := by
  simp only [Host.reduceAdd, Ideal.hostReduceAdd_def]
  rw [Ideal.hostReduceAdd_single reducesTo_S50000x128_S128_d0 (by decide), constant_apply, Ideal.ofBits_zero_f32, zero_add]
  unfold colSum
  refine Finset.sum_congr rfl fun k _ => ?_
  exact congrArg z (funext fun a => Fin.ext (by match a with | ⟨0, _⟩ => rfl | ⟨1, _⟩ => rfl))

/-- The reference's column means: the column sums over the row count. -/
def refMean (z : FVec Ideal S50000x128 .f32) : FVec Ideal S128 .f32 :=
  Host.divf (Host.reduceAdd z (constant (F := Ideal) S_ .f32 0x00000000#32) reducesTo_S50000x128_S128_d0 h_S_)
    (broadcastInDim S128 ![] bcast_S_S128 (constant (F := Ideal) S_ .f32 0x47435000#32))

theorem refMean_apply (z : M 50000 128) (j : S128.Idx) : refMean z j = meanOf (colSum z) (ix2 0 (j 0)) := by
  unfold refMean
  show FloatOps.hostDivf _ _ = _
  rw [Ideal.hostDivf_def, reduce_cols, bScalar_apply, constant_apply]
  rfl

/-- The reference's column variances: the mean of the squared deviations from the column mean. -/
def refVar (z : FVec Ideal S50000x128 .f32) : FVec Ideal S128 .f32 :=
  Host.divf (Host.reduceAdd (mulf (subf z (bRow (refMean z))) (subf z (bRow (refMean z))))
      (constant (F := Ideal) S_ .f32 0x00000000#32) reducesTo_S50000x128_S128_d0 h_S_)
    (broadcastInDim S128 ![] bcast_S_S128 (constant (F := Ideal) S_ .f32 0x47435000#32))

theorem refVar_apply (z : M 50000 128) (j : S128.Idx) : refVar z j = varCentred z (ix2 0 (j 0)) := by
  unfold refVar
  show FloatOps.hostDivf _ _ = _
  rw [Ideal.hostDivf_def, reduce_cols, bScalar_apply, constant_apply]
  show Ideal.div (∑ n : Fin 50000, _) nRows = Ideal.div (∑ n : Fin 50000, _) nRows
  refine congrArg (fun s => Ideal.div s nRows) (Finset.sum_congr rfl fun n _ => ?_)
  rw [mulf_apply, subf_apply, bRow_apply, refMean_apply]

/-- The reference's normalisation as one function of the array it normalises and the two parameter vectors. -/
def refBn (z : FVec Ideal S50000x128 .f32) (g b : FVec Ideal S128 .f32) : FVec Ideal S50000x128 .f32 :=
  addf (mulf (mulf (subf z (bRow (refMean z)))
      (bRow (Host.rsqrt (addf (refVar z) (broadcastInDim S128 ![] bcast_S_S128 (constant (F := Ideal) S_ .f32 0x3727C5AC#32))))))
    (bRow g)) (bRow b)

theorem refBn_eq (z : M 50000 128) (g b : (⟨S128, .f32⟩ : BufTy).Contents (Elt Ideal)) :
    refBn z g b = bnC z (rowOf g) (rowOf b) := by
  funext i
  unfold refBn
  rw [addf_apply, mulf_apply, mulf_apply, subf_apply, bRow_apply, bRow_apply, bRow_apply, bRow_apply, refMean_apply]
  show _ * FloatOps.hostUnary .rsqrt _ * _ + _ = _
  rw [Ideal.hostUnary_rsqrt_def, addf_apply, refVar_apply, bScalar_apply, constant_apply]
  rfl

/-- A one-entry vector spread over the one-column shape reads its entry everywhere. -/
theorem bCell_apply {α : Type} (c : S1.Idx → α) (i : S50000x1.Idx) :
    broadcastInDim S50000x1 ![0, 1] bcast_S1x1_S50000x1_0_1 (broadcastInDim S1x1 ![1] bcast_S1_S1x1_1 c) i = c (ix1 0) := by
  rw [broadcastInDim_apply _ bcast_S1x1_S50000x1_0_1 _ i (ix2 0 0) (fun a => match a with
    | ⟨0, _⟩ => by show 0 = if (1 : Nat) = 1 then 0 else (i 0).val; rw [if_pos rfl]
    | ⟨1, _⟩ => by show 0 = if (1 : Nat) = 1 then 0 else (i 1).val; rw [if_pos rfl])]
  exact broadcastInDim_apply _ bcast_S1_S1x1_1 c (ix2 0 0) (ix1 0) (fun a => match a with
    | ⟨0, _⟩ => by show 0 = if (1 : Nat) = 1 then 0 else 0; rw [if_pos rfl])

/-- The reference's output head as one function of its three operands: one over one plus the exponential of the
    negated affine column. -/
def refHead (h : FVec Ideal S50000x128 .f32) (w : FVec Ideal S128x1 .f32) (c : FVec Ideal S1 .f32) : FVec Ideal S50000x1 .f32 :=
  Host.divf (broadcastInDim S50000x1 ![] bcast_S_S50000x1 (constant (F := Ideal) S_ .f32 0x3F800000#32))
    (addf (broadcastInDim S50000x1 ![] bcast_S_S50000x1 (constant (F := Ideal) S_ .f32 0x3F800000#32))
      (Host.exp (Host.negf (addf (Host.dotGeneral dot_S50000x128_S128x1_S50000x1_1_0_0_1_n_n none h w)
        (broadcastInDim S50000x1 ![0, 1] bcast_S1x1_S50000x1_0_1 (broadcastInDim S1x1 ![1] bcast_S1_S1x1_1 c))))))

theorem refHead_eq (h : M 50000 128) (w : M 128 1) (c : A8) : refHead h w c = sigm h w (cellOf c) := by
  funext i
  unfold refHead
  show FloatOps.hostDivf _ (_ + FloatOps.hostUnary .exp (FloatOps.hostNegf (_ + _))) = _
  rw [Ideal.hostDivf_def, Ideal.hostUnary_exp_def, Ideal.hostNegf_def, Ideal.negf_def, bScalar_apply, constant_apply,
    LibFinite.f32_one, dot_eq_mm1, bCell_apply]
  rfl

/-! ### The stages of the reference, each a function of the stage before it -/

variable (a0 : A0) (a1 : A1) (a2 : A2) (a3 a4 : A3) (a5 : A5) (a6 : A3) (a7 : A7) (a8 : A8) (a9 : Edges)

/-! ### The first mixing layer -/

theorem v52_eq : val_main_v52 (F := Ideal) a0 a1 a2 a9 = zPre a0 (w0 a1) (b0 a2) a9 := by
  have e : val_main_v52 (F := Ideal) a0 a1 a2 a9
      = addf (F := Ideal) (φ := .f32) (agg (Host.dotGeneral (F := Ideal) (φ₁ := .f32) (φ₂ := .f32) dot_S50000x128_S128x128_S50000x128_1_0_0_1_n_n none a0 (val_main_v34 (F := Ideal) a1)) a9) (bRow (val_main_v36 (F := Ideal) a2)) := rfl
  rw [e, dot_eq_mm, add_bRow]
  rfl

theorem v81_eq : val_main_v81 (F := Ideal) a0 a1 a2 a3 a4 a9 = bnC (val_main_v52 (F := Ideal) a0 a1 a2 a9) (r0 a3) (r0 a4) := by
  have e : val_main_v81 (F := Ideal) a0 a1 a2 a3 a4 a9
      = refBn (val_main_v52 (F := Ideal) a0 a1 a2 a9) (val_main_v54 (F := Ideal) a3) (val_main_v54 (F := Ideal) a4) := rfl
  rw [e, refBn_eq]
  rfl

theorem v82_eq : val_main_v82 (F := Ideal) a0 a1 a2 a3 a4 a9 = relu (val_main_v81 (F := Ideal) a0 a1 a2 a3 a4 a9) := by
  have e : val_main_v82 (F := Ideal) a0 a1 a2 a3 a4 a9 = maximumf (F := Ideal) (φ := .f32) (val_main_v81 (F := Ideal) a0 a1 a2 a3 a4 a9) (broadcastInDim S50000x128 ![] bcast_S_S50000x128 (constant (F := Ideal) S_ .f32 0x00000000#32)) := rfl
  rw [e, max_zero]

/-! ### The second mixing layer -/

theorem v102_eq : val_main_v102 (F := Ideal) a0 a1 a2 a3 a4 a9 = zPre (val_main_v82 (F := Ideal) a0 a1 a2 a3 a4 a9) (w1 a1) (b1 a2) a9 := by
  have e : val_main_v102 (F := Ideal) a0 a1 a2 a3 a4 a9
      = addf (F := Ideal) (φ := .f32) (agg (Host.dotGeneral (F := Ideal) (φ₁ := .f32) (φ₂ := .f32) dot_S50000x128_S128x128_S50000x128_1_0_0_1_n_n none (val_main_v82 (F := Ideal) a0 a1 a2 a3 a4 a9) (val_main_v84 (F := Ideal) a1)) a9) (bRow (val_main_v86 (F := Ideal) a2)) := rfl
  rw [e, dot_eq_mm, add_bRow]
  rfl

theorem v131_eq : val_main_v131 (F := Ideal) a0 a1 a2 a3 a4 a9 = bnC (val_main_v102 (F := Ideal) a0 a1 a2 a3 a4 a9) (r1 a3) (r1 a4) := by
  have e : val_main_v131 (F := Ideal) a0 a1 a2 a3 a4 a9
      = refBn (val_main_v102 (F := Ideal) a0 a1 a2 a3 a4 a9) (val_main_v104 (F := Ideal) a3) (val_main_v104 (F := Ideal) a4) := rfl
  rw [e, refBn_eq]
  rfl

theorem v132_eq : val_main_v132 (F := Ideal) a0 a1 a2 a3 a4 a9 = relu (val_main_v131 (F := Ideal) a0 a1 a2 a3 a4 a9) := by
  have e : val_main_v132 (F := Ideal) a0 a1 a2 a3 a4 a9 = maximumf (F := Ideal) (φ := .f32) (val_main_v131 (F := Ideal) a0 a1 a2 a3 a4 a9) (broadcastInDim S50000x128 ![] bcast_S_S50000x128 (constant (F := Ideal) S_ .f32 0x00000000#32)) := rfl
  rw [e, max_zero]

/-! ### The third mixing layer: the clamp comes before the normalisation -/

theorem v152_eq : val_main_v152 (F := Ideal) a0 a1 a2 a3 a4 a9 = zPre (val_main_v132 (F := Ideal) a0 a1 a2 a3 a4 a9) (w2 a1) (b2 a2) a9 := by
  have e : val_main_v152 (F := Ideal) a0 a1 a2 a3 a4 a9
      = addf (F := Ideal) (φ := .f32) (agg (Host.dotGeneral (F := Ideal) (φ₁ := .f32) (φ₂ := .f32) dot_S50000x128_S128x128_S50000x128_1_0_0_1_n_n none (val_main_v132 (F := Ideal) a0 a1 a2 a3 a4 a9) (val_main_v134 (F := Ideal) a1)) a9) (bRow (val_main_v136 (F := Ideal) a2)) := rfl
  rw [e, dot_eq_mm, add_bRow]
  rfl

theorem v153_eq : val_main_v153 (F := Ideal) a0 a1 a2 a3 a4 a9 = relu (val_main_v152 (F := Ideal) a0 a1 a2 a3 a4 a9) := by
  have e : val_main_v153 (F := Ideal) a0 a1 a2 a3 a4 a9 = maximumf (F := Ideal) (φ := .f32) (val_main_v152 (F := Ideal) a0 a1 a2 a3 a4 a9) (broadcastInDim S50000x128 ![] bcast_S_S50000x128 (constant (F := Ideal) S_ .f32 0x00000000#32)) := rfl
  rw [e, max_zero]

theorem v182_eq : val_main_v182 (F := Ideal) a0 a1 a2 a3 a4 a9 = bnC (val_main_v153 (F := Ideal) a0 a1 a2 a3 a4 a9) (r1 a3) (r1 a4) := by
  have e : val_main_v182 (F := Ideal) a0 a1 a2 a3 a4 a9
      = refBn (val_main_v153 (F := Ideal) a0 a1 a2 a3 a4 a9) (val_main_v104 (F := Ideal) a3) (val_main_v104 (F := Ideal) a4) := rfl
  rw [e, refBn_eq]
  rfl

/-! ### The two dense layers -/

theorem v191_eq : val_main_v191 (F := Ideal) a0 a1 a2 a3 a4 a5 a6 a9 = relu (addRow (mm (val_main_v182 (F := Ideal) a0 a1 a2 a3 a4 a9) (mw0 a5)) (r0 a6)) := by
  have e : val_main_v191 (F := Ideal) a0 a1 a2 a3 a4 a5 a6 a9
      = maximumf (F := Ideal) (φ := .f32) (addf (F := Ideal) (φ := .f32) (Host.dotGeneral (F := Ideal) (φ₁ := .f32) (φ₂ := .f32) dot_S50000x128_S128x128_S50000x128_1_0_0_1_n_n none (val_main_v182 (F := Ideal) a0 a1 a2 a3 a4 a9) (val_main_v184 (F := Ideal) a5)) (bRow (val_main_v54 (F := Ideal) a6))) (broadcastInDim S50000x128 ![] bcast_S_S50000x128 (constant (F := Ideal) S_ .f32 0x00000000#32)) := rfl
  rw [e, dot_eq_mm, add_bRow, max_zero]
  rfl

theorem v200_eq : val_main_v200 (F := Ideal) a0 a1 a2 a3 a4 a5 a6 a9 = relu (addRow (mm (val_main_v191 (F := Ideal) a0 a1 a2 a3 a4 a5 a6 a9) (mw1 a5)) (r1 a6)) := by
  have e : val_main_v200 (F := Ideal) a0 a1 a2 a3 a4 a5 a6 a9
      = maximumf (F := Ideal) (φ := .f32) (addf (F := Ideal) (φ := .f32) (Host.dotGeneral (F := Ideal) (φ₁ := .f32) (φ₂ := .f32) dot_S50000x128_S128x128_S50000x128_1_0_0_1_n_n none (val_main_v191 (F := Ideal) a0 a1 a2 a3 a4 a5 a6 a9) (val_main_v193 (F := Ideal) a5)) (bRow (val_main_v104 (F := Ideal) a6))) (broadcastInDim S50000x128 ![] bcast_S_S50000x128 (constant (F := Ideal) S_ .f32 0x00000000#32)) := rfl
  rw [e, dot_eq_mm, add_bRow, max_zero]
  rfl

/-! ### The head -/

theorem v210_eq : val_main_v210 (F := Ideal) a0 a1 a2 a3 a4 a5 a6 a7 a8 a9 = sigm (val_main_v200 (F := Ideal) a0 a1 a2 a3 a4 a5 a6 a9) a7 (cellOf a8) := by
  have e : val_main_v210 (F := Ideal) a0 a1 a2 a3 a4 a5 a6 a7 a8 a9 = refHead (val_main_v200 (F := Ideal) a0 a1 a2 a3 a4 a5 a6 a9) a7 a8 := rfl
  rw [e, refHead_eq]

/-- The reference program's result is the network with the centred variance, for all arguments. -/
theorem ref_eq : val_main_v210 (F := Ideal) a0 a1 a2 a3 a4 a5 a6 a7 a8 a9 = net bnC a0 a1 a2 a3 a4 a5 a6 a7 a8 a9 := by
  rw [v210_eq, v200_eq, v191_eq, v182_eq, v153_eq, v152_eq, v132_eq, v131_eq, v102_eq, v82_eq, v81_eq, v52_eq]
  rfl

end Cert.RefNet

end
-- ==== Proof.RefRun.lean ====
/-
  The reference program's run, read one operation at a time.

  The program is a straight line of operations in single-assignment form: each buffer is written by one operation,
  after the operations that write its operands. So at the end of the line every operation's buffer holds the
  operation's function of the end contents of its operands, and the arguments, which nothing writes, hold what they
  held at the launch. The end contents of each buffer follow in program order from those of its operands; each is the
  stage function of the arguments that the read-at-an-index module names, which is by definition that operation's
  function of the operands' stage functions.
-/
import proofs.«126339_j45595372814849_1_alg».proof.Proof.RunP
import proofs.«126339_j45595372814849_1_alg».proof.Proof.ReadP
import proofs.«126339_j45595372814849_1_alg».proof.Proof.LibFoldSteps

noncomputable section

namespace Cert.RefRun

open Cert.ReferenceIdeal Cert.ReferenceIdeal.Gen Cert.ReferenceIdeal.ValueP Cert.ReferenceIdeal.ReadP Cert.LibFoldSteps
open Idealize.ShloMosaic Idealize.ShloMosaic.TcCoe Idealize.SL.Sem Idealize.ShloMosaic.StableHlo

/-- The buffer each operation writes, in program order. -/
abbrev wrs : List (Ref sig .tc) :=
  [main_v0, main_v1, main_v2, main_v3, main_v4, main_v5, main_v6, main_cst, main_v7, main_cst_0, main_v8, main_v9, main_v10, main_cst_1, main_v11, main_v12, main_cst_2, main_v13, main_v14, main_v15, main_cst_3, main_call0_v0, main_call0_v1, main_v16, main_c, main_v17, main_v18, main_c_4, main_v19, main_v20, main_v21, main_v22, main_v23, main_c_5, main_v24, main_v25, main_c_6, main_v26, main_v27, main_v28, main_v29, main_v30, main_v31, main_v32, main_v33, main_v34, main_v35, main_v36, main_v37, main_c_7, main_v38, main_v39, main_c_8, main_v40, main_v41, main_v42, main_v43, main_v44, main_v45, main_v46, main_cst_9, main_v47, main_v48, main_v49, main_v50, main_v51, main_v52, main_v53, main_v54, main_v55, main_v56, main_cst_10, main_v57, main_cst_11, main_v58, main_v59, main_v60, main_v61, main_v62, main_v63, main_cst_12, main_v64, main_cst_13, main_v65, main_v66, main_v67, main_v68, main_v69, main_cst_14, main_v70, main_v71, main_v72, main_v73, main_v74, main_v75, main_v76, main_v77, main_v78, main_v79, main_v80, main_v81, main_call1_cst, main_call1_v0, main_v82, main_v83, main_v84, main_v85, main_v86, main_v87, main_c_15, main_v88, main_v89, main_c_16, main_v90, main_v91, main_v92, main_v93, main_v94, main_v95, main_v96, main_cst_17, main_v97, main_v98, main_v99, main_v100, main_v101, main_v102, main_v103, main_v104, main_v105, main_v106, main_cst_18, main_v107, main_cst_19, main_v108, main_v109, main_v110, main_v111, main_v112, main_v113, main_cst_20, main_v114, main_cst_21, main_v115, main_v116, main_v117, main_v118, main_v119, main_cst_22, main_v120, main_v121, main_v122, main_v123, main_v124, main_v125, main_v126, main_v127, main_v128, main_v129, main_v130, main_v131, main_call2_cst, main_call2_v0, main_v132, main_v133, main_v134, main_v135, main_v136, main_v137, main_c_23, main_v138, main_v139, main_c_24, main_v140, main_v141, main_v142, main_v143, main_v144, main_v145, main_v146, main_cst_25, main_v147, main_v148, main_v149, main_v150, main_v151, main_v152, main_call3_cst, main_call3_v0, main_v153, main_v154, main_v155, main_v156, main_v157, main_cst_26, main_v158, main_cst_27, main_v159, main_v160, main_v161, main_v162, main_v163, main_v164, main_cst_28, main_v165, main_cst_29, main_v166, main_v167, main_v168, main_v169, main_v170, main_cst_30, main_v171, main_v172, main_v173, main_v174, main_v175, main_v176, main_v177, main_v178, main_v179, main_v180, main_v181, main_v182, main_v183, main_v184, main_v185, main_v186, main_v187, main_v188, main_v189, main_v190, main_call4_cst, main_call4_v0, main_v191, main_v192, main_v193, main_v194, main_v195, main_v196, main_v197, main_v198, main_v199, main_call5_cst, main_call5_v0, main_v200, main_v201, main_v202, main_v203, main_v204, main_v205, main_v206, main_cst_31, main_v207, main_v208, main_cst_32, main_v209, main_v210]

set_option maxRecDepth 8192 in
/-- Operation by operation, the line writes exactly these buffers. -/
theorem hw : (ops (F := Ideal)).map HloOp.writes = wrs.map fun r => ({Proc.devRef .tc r} : Finset (DevRef τ sig)) := rfl

/-- The end contents of the buffer of a `k`-th operation that re-shapes its operand, from the operand's. -/
theorem step_reshape {τ : Topo} {sig : RefSig} {Val : EltTy → Type} {ops : List (HloOp τ sig Val)} {wrs : List (Ref sig .tc)}
    (hw : ops.map HloOp.writes = wrs.map fun r => ({Proc.devRef .tc r} : Finset (DevRef τ sig)))
    (k : ℕ) {x y : Ref sig .tc} {he : x.ty.elt = y.ty.elt} {hn : x.ty.shape.ShapeCasts y.ty.shape} {hx hy}
    (hk : ops[k]? = some (reshape x y he hn hx hy)) (hy' : y ∉ wrs.drop (k + 1)) (hx' : x ∉ wrs.drop k)
    (V₀ : Valuation τ sig Val) {vx : x.ty.Contents Val} (Hx : after ops V₀ (Proc.devRef .tc x) = vx) :
    after ops V₀ (Proc.devRef .tc y) = fun i => he ▸ shapeCast y.ty.shape vx hn i := by
  rw [after_split hk V₀, after_drop_frame hw (k + 1) _ y hy', reshape_result, read_operand hw k V₀ x hx', Hx]

section Line

variable (m : (ℓ : Loc nD τ sig) → Buf (Elt Ideal) ℓ) (c : Dev nD)

/-- The contents at the end of the line, from the launch contents. -/
abbrev W : Valuation τ sig (Elt Ideal) := after (ops (F := Ideal)) (launchContents m c)

/-! ### The arguments are not written -/

theorem e_arg0 : W m c (Proc.devRef .tc main_arg0) = (m ((c.tc : Thread nD τ).loc main_arg0)) :=
  (after_drop_frame hw 0 (launchContents m c) main_arg0 (by decide)).trans rfl
theorem e_arg1 : W m c (Proc.devRef .tc main_arg1) = (m ((c.tc : Thread nD τ).loc main_arg1)) :=
  (after_drop_frame hw 0 (launchContents m c) main_arg1 (by decide)).trans rfl
theorem e_arg2 : W m c (Proc.devRef .tc main_arg2) = (m ((c.tc : Thread nD τ).loc main_arg2)) :=
  (after_drop_frame hw 0 (launchContents m c) main_arg2 (by decide)).trans rfl
theorem e_arg3 : W m c (Proc.devRef .tc main_arg3) = (m ((c.tc : Thread nD τ).loc main_arg3)) :=
  (after_drop_frame hw 0 (launchContents m c) main_arg3 (by decide)).trans rfl
theorem e_arg4 : W m c (Proc.devRef .tc main_arg4) = (m ((c.tc : Thread nD τ).loc main_arg4)) :=
  (after_drop_frame hw 0 (launchContents m c) main_arg4 (by decide)).trans rfl
theorem e_arg5 : W m c (Proc.devRef .tc main_arg5) = (m ((c.tc : Thread nD τ).loc main_arg5)) :=
  (after_drop_frame hw 0 (launchContents m c) main_arg5 (by decide)).trans rfl
theorem e_arg6 : W m c (Proc.devRef .tc main_arg6) = (m ((c.tc : Thread nD τ).loc main_arg6)) :=
  (after_drop_frame hw 0 (launchContents m c) main_arg6 (by decide)).trans rfl
theorem e_arg7 : W m c (Proc.devRef .tc main_arg7) = (m ((c.tc : Thread nD τ).loc main_arg7)) :=
  (after_drop_frame hw 0 (launchContents m c) main_arg7 (by decide)).trans rfl
theorem e_arg8 : W m c (Proc.devRef .tc main_arg8) = (m ((c.tc : Thread nD τ).loc main_arg8)) :=
  (after_drop_frame hw 0 (launchContents m c) main_arg8 (by decide)).trans rfl
theorem e_arg9 : W m c (Proc.devRef .tc main_arg9) = (m ((c.tc : Thread nD τ).loc main_arg9)) :=
  (after_drop_frame hw 0 (launchContents m c) main_arg9 (by decide)).trans rfl

/-! ### The operations, in program order -/

theorem e_v0 : W m c (Proc.devRef .tc main_v0) = val_main_v0 (F := Ideal) :=
  (step_nullary hw 0 rfl (by decide) (launchContents m c)).trans rfl
theorem e_v1 : W m c (Proc.devRef .tc main_v1) = val_main_v1 (F := Ideal) (m ((c.tc : Thread nD τ).loc main_arg9)) :=
  (step_unary hw 1 rfl (by decide) (by decide) (launchContents m c) (e_arg9 m c)).trans rfl
theorem e_v2 : W m c (Proc.devRef .tc main_v2) = val_main_v2 (F := Ideal) (m ((c.tc : Thread nD τ).loc main_arg9)) :=
  (step_reshape hw 2 rfl (by decide) (by decide) (launchContents m c) (e_v1 m c)).trans rfl
theorem e_v3 : W m c (Proc.devRef .tc main_v3) = val_main_v3 (F := Ideal) (m ((c.tc : Thread nD τ).loc main_arg9)) :=
  (step_binary hw 3 rfl (by decide) (by decide) (by decide) (launchContents m c) (e_v2 m c) (e_v0 m c)).trans rfl
theorem e_v4 : W m c (Proc.devRef .tc main_v4) = val_main_v4 (F := Ideal) (m ((c.tc : Thread nD τ).loc main_arg9)) :=
  (step_unary hw 4 rfl (by decide) (by decide) (launchContents m c) (e_arg9 m c)).trans rfl
theorem e_v5 : W m c (Proc.devRef .tc main_v5) = val_main_v5 (F := Ideal) (m ((c.tc : Thread nD τ).loc main_arg9)) :=
  (step_reshape hw 5 rfl (by decide) (by decide) (launchContents m c) (e_v4 m c)).trans rfl
theorem e_v6 : W m c (Proc.devRef .tc main_v6) = val_main_v6 (F := Ideal) (m ((c.tc : Thread nD τ).loc main_arg9)) :=
  (step_binary hw 6 rfl (by decide) (by decide) (by decide) (launchContents m c) (e_v5 m c) (e_v0 m c)).trans rfl
theorem e_cst : W m c (Proc.devRef .tc main_cst) = val_main_cst (F := Ideal) :=
  (step_nullary hw 7 rfl (by decide) (launchContents m c)).trans rfl
theorem e_v7 : W m c (Proc.devRef .tc main_v7) = val_main_v7 (F := Ideal) :=
  (step_unary hw 8 rfl (by decide) (by decide) (launchContents m c) (e_cst m c)).trans rfl
theorem e_cst_0 : W m c (Proc.devRef .tc main_cst_0) = val_main_cst_0 (F := Ideal) :=
  (step_nullary hw 9 rfl (by decide) (launchContents m c)).trans rfl
theorem e_v8 : W m c (Proc.devRef .tc main_v8) = val_main_v8 (F := Ideal) :=
  (step_unary hw 10 rfl (by decide) (by decide) (launchContents m c) (e_cst_0 m c)).trans rfl
theorem e_v9 : W m c (Proc.devRef .tc main_v9) = val_main_v9 (F := Ideal) (m ((c.tc : Thread nD τ).loc main_arg9)) :=
  (step_unary hw 11 rfl (by decide) (by decide) (launchContents m c) (e_v6 m c)).trans rfl
theorem e_v10 : W m c (Proc.devRef .tc main_v10) = val_main_v10 (F := Ideal) (m ((c.tc : Thread nD τ).loc main_arg9)) :=
  (step_ternary hw 12 rfl (by decide) (by decide) (by decide) (by decide) (launchContents m c) (e_v8 m c) (e_v9 m c) (e_v7 m c)).trans rfl
theorem e_cst_1 : W m c (Proc.devRef .tc main_cst_1) = val_main_cst_1 (F := Ideal) :=
  (step_nullary hw 13 rfl (by decide) (launchContents m c)).trans rfl
theorem e_v11 : W m c (Proc.devRef .tc main_v11) = val_main_v11 (F := Ideal) :=
  (step_unary hw 14 rfl (by decide) (by decide) (launchContents m c) (e_cst_1 m c)).trans rfl
theorem e_v12 : W m c (Proc.devRef .tc main_v12) = val_main_v12 (F := Ideal) (m ((c.tc : Thread nD τ).loc main_arg9)) :=
  (step_binary hw 15 rfl (by decide) (by decide) (by decide) (launchContents m c) (e_v10 m c) (e_v11 m c)).trans rfl
theorem e_cst_2 : W m c (Proc.devRef .tc main_cst_2) = val_main_cst_2 (F := Ideal) :=
  (step_nullary hw 16 rfl (by decide) (launchContents m c)).trans rfl
theorem e_v13 : W m c (Proc.devRef .tc main_v13) = val_main_v13 (F := Ideal) :=
  (step_unary hw 17 rfl (by decide) (by decide) (launchContents m c) (e_cst_2 m c)).trans rfl
theorem e_v14 : W m c (Proc.devRef .tc main_v14) = val_main_v14 (F := Ideal) (m ((c.tc : Thread nD τ).loc main_arg9)) :=
  (step_binary hw 18 rfl (by decide) (by decide) (by decide) (launchContents m c) (e_v10 m c) (e_v13 m c)).trans rfl
theorem e_v15 : W m c (Proc.devRef .tc main_v15) = val_main_v15 (F := Ideal) (m ((c.tc : Thread nD τ).loc main_arg9)) :=
  (step_unary hw 19 rfl (by decide) (by decide) (launchContents m c) (e_v14 m c)).trans rfl
theorem e_cst_3 : W m c (Proc.devRef .tc main_cst_3) = val_main_cst_3 (F := Ideal) :=
  (step_nullary hw 20 rfl (by decide) (launchContents m c)).trans rfl
theorem e_call0_v0 : W m c (Proc.devRef .tc main_call0_v0) = val_main_call0_v0 (F := Ideal) :=
  (step_unaryT hw 21 rfl (by decide) (by decide) (launchContents m c) (e_cst_3 m c)).trans rfl
theorem e_call0_v1 : W m c (Proc.devRef .tc main_call0_v1) = val_main_call0_v1 (F := Ideal) :=
  (step_unaryT hw 22 rfl (by decide) (by decide) (launchContents m c) (e_call0_v0 m c)).trans rfl
theorem e_v16 : W m c (Proc.devRef .tc main_v16) = val_main_v16 (F := Ideal) (m ((c.tc : Thread nD τ).loc main_arg9)) :=
  (step_ternaryT hw 23 rfl (by decide) (by decide) (by decide) (by decide) (launchContents m c) (e_v12 m c) (e_v15 m c) (e_call0_v1 m c)).trans rfl
theorem e_c : W m c (Proc.devRef .tc main_c) = val_main_c (F := Ideal) :=
  (step_nullary hw 24 rfl (by decide) (launchContents m c)).trans rfl
theorem e_v17 : W m c (Proc.devRef .tc main_v17) = val_main_v17 (F := Ideal) :=
  (step_unary hw 25 rfl (by decide) (by decide) (launchContents m c) (e_c m c)).trans rfl
theorem e_v18 : W m c (Proc.devRef .tc main_v18) = val_main_v18 (F := Ideal) (m ((c.tc : Thread nD τ).loc main_arg9)) :=
  (step_binary hw 26 rfl (by decide) (by decide) (by decide) (launchContents m c) (e_v3 m c) (e_v17 m c)).trans rfl
theorem e_c_4 : W m c (Proc.devRef .tc main_c_4) = val_main_c_4 (F := Ideal) :=
  (step_nullary hw 27 rfl (by decide) (launchContents m c)).trans rfl
theorem e_v19 : W m c (Proc.devRef .tc main_v19) = val_main_v19 (F := Ideal) :=
  (step_unary hw 28 rfl (by decide) (by decide) (launchContents m c) (e_c_4 m c)).trans rfl
theorem e_v20 : W m c (Proc.devRef .tc main_v20) = val_main_v20 (F := Ideal) (m ((c.tc : Thread nD τ).loc main_arg9)) :=
  (step_binary hw 29 rfl (by decide) (by decide) (by decide) (launchContents m c) (e_v3 m c) (e_v19 m c)).trans rfl
theorem e_v21 : W m c (Proc.devRef .tc main_v21) = val_main_v21 (F := Ideal) (m ((c.tc : Thread nD τ).loc main_arg9)) :=
  (step_ternary hw 30 rfl (by decide) (by decide) (by decide) (by decide) (launchContents m c) (e_v18 m c) (e_v20 m c) (e_v3 m c)).trans rfl
theorem e_v22 : W m c (Proc.devRef .tc main_v22) = val_main_v22 (F := Ideal) (m ((c.tc : Thread nD τ).loc main_arg9)) :=
  (step_unary hw 31 rfl (by decide) (by decide) (launchContents m c) (e_v21 m c)).trans rfl
theorem e_v23 : W m c (Proc.devRef .tc main_v23) = val_main_v23 (F := Ideal) (m ((c.tc : Thread nD τ).loc main_arg9)) :=
  (step_binary hw 32 rfl (by decide) (by decide) (by decide) (launchContents m c) (e_v16 m c) (e_v22 m c)).trans rfl
theorem e_c_5 : W m c (Proc.devRef .tc main_c_5) = val_main_c_5 (F := Ideal) :=
  (step_nullary hw 33 rfl (by decide) (launchContents m c)).trans rfl
theorem e_v24 : W m c (Proc.devRef .tc main_v24) = val_main_v24 (F := Ideal) :=
  (step_unary hw 34 rfl (by decide) (by decide) (launchContents m c) (e_c_5 m c)).trans rfl
theorem e_v25 : W m c (Proc.devRef .tc main_v25) = val_main_v25 (F := Ideal) (m ((c.tc : Thread nD τ).loc main_arg9)) :=
  (step_binary hw 35 rfl (by decide) (by decide) (by decide) (launchContents m c) (e_v6 m c) (e_v24 m c)).trans rfl
theorem e_c_6 : W m c (Proc.devRef .tc main_c_6) = val_main_c_6 (F := Ideal) :=
  (step_nullary hw 36 rfl (by decide) (launchContents m c)).trans rfl
theorem e_v26 : W m c (Proc.devRef .tc main_v26) = val_main_v26 (F := Ideal) :=
  (step_unary hw 37 rfl (by decide) (by decide) (launchContents m c) (e_c_6 m c)).trans rfl
theorem e_v27 : W m c (Proc.devRef .tc main_v27) = val_main_v27 (F := Ideal) (m ((c.tc : Thread nD τ).loc main_arg9)) :=
  (step_binary hw 38 rfl (by decide) (by decide) (by decide) (launchContents m c) (e_v6 m c) (e_v26 m c)).trans rfl
theorem e_v28 : W m c (Proc.devRef .tc main_v28) = val_main_v28 (F := Ideal) (m ((c.tc : Thread nD τ).loc main_arg9)) :=
  (step_ternary hw 39 rfl (by decide) (by decide) (by decide) (by decide) (launchContents m c) (e_v25 m c) (e_v27 m c) (e_v6 m c)).trans rfl
theorem e_v29 : W m c (Proc.devRef .tc main_v29) = val_main_v29 (F := Ideal) (m ((c.tc : Thread nD τ).loc main_arg9)) :=
  (step_unary hw 40 rfl (by decide) (by decide) (launchContents m c) (e_v28 m c)).trans rfl
theorem e_v30 : W m c (Proc.devRef .tc main_v30) = val_main_v30 (F := Ideal) (m ((c.tc : Thread nD τ).loc main_arg9)) :=
  (step_binary hw 41 rfl (by decide) (by decide) (by decide) (launchContents m c) (e_v16 m c) (e_v29 m c)).trans rfl
theorem e_v31 : W m c (Proc.devRef .tc main_v31) = val_main_v31 (F := Ideal) (m ((c.tc : Thread nD τ).loc main_arg9)) :=
  (step_binary hw 42 rfl (by decide) (by decide) (by decide) (launchContents m c) (e_v23 m c) (e_v30 m c)).trans rfl
theorem e_v32 : W m c (Proc.devRef .tc main_v32) = val_main_v32 (F := Ideal) (m ((c.tc : Thread nD τ).loc main_arg9)) :=
  (step_unary hw 43 rfl (by decide) (by decide) (launchContents m c) (e_v31 m c)).trans rfl
theorem e_v33 : W m c (Proc.devRef .tc main_v33) = val_main_v33 (F := Ideal) (m ((c.tc : Thread nD τ).loc main_arg1)) :=
  (step_unary hw 44 rfl (by decide) (by decide) (launchContents m c) (e_arg1 m c)).trans rfl
theorem e_v34 : W m c (Proc.devRef .tc main_v34) = val_main_v34 (F := Ideal) (m ((c.tc : Thread nD τ).loc main_arg1)) :=
  (step_reshape hw 45 rfl (by decide) (by decide) (launchContents m c) (e_v33 m c)).trans rfl
theorem e_v35 : W m c (Proc.devRef .tc main_v35) = val_main_v35 (F := Ideal) (m ((c.tc : Thread nD τ).loc main_arg2)) :=
  (step_unary hw 46 rfl (by decide) (by decide) (launchContents m c) (e_arg2 m c)).trans rfl
theorem e_v36 : W m c (Proc.devRef .tc main_v36) = val_main_v36 (F := Ideal) (m ((c.tc : Thread nD τ).loc main_arg2)) :=
  (step_reshape hw 47 rfl (by decide) (by decide) (launchContents m c) (e_v35 m c)).trans rfl
theorem e_v37 : W m c (Proc.devRef .tc main_v37) = val_main_v37 (F := Ideal) (m ((c.tc : Thread nD τ).loc main_arg0)) (m ((c.tc : Thread nD τ).loc main_arg1)) :=
  (step_binary hw 48 rfl (by decide) (by decide) (by decide) (launchContents m c) (e_arg0 m c) (e_v34 m c)).trans rfl
theorem e_c_7 : W m c (Proc.devRef .tc main_c_7) = val_main_c_7 (F := Ideal) :=
  (step_nullary hw 49 rfl (by decide) (launchContents m c)).trans rfl
theorem e_v38 : W m c (Proc.devRef .tc main_v38) = val_main_v38 (F := Ideal) :=
  (step_unary hw 50 rfl (by decide) (by decide) (launchContents m c) (e_c_7 m c)).trans rfl
theorem e_v39 : W m c (Proc.devRef .tc main_v39) = val_main_v39 (F := Ideal) (m ((c.tc : Thread nD τ).loc main_arg9)) :=
  (step_binary hw 51 rfl (by decide) (by decide) (by decide) (launchContents m c) (e_v3 m c) (e_v38 m c)).trans rfl
theorem e_c_8 : W m c (Proc.devRef .tc main_c_8) = val_main_c_8 (F := Ideal) :=
  (step_nullary hw 52 rfl (by decide) (launchContents m c)).trans rfl
theorem e_v40 : W m c (Proc.devRef .tc main_v40) = val_main_v40 (F := Ideal) :=
  (step_unary hw 53 rfl (by decide) (by decide) (launchContents m c) (e_c_8 m c)).trans rfl
theorem e_v41 : W m c (Proc.devRef .tc main_v41) = val_main_v41 (F := Ideal) (m ((c.tc : Thread nD τ).loc main_arg9)) :=
  (step_binary hw 54 rfl (by decide) (by decide) (by decide) (launchContents m c) (e_v3 m c) (e_v40 m c)).trans rfl
theorem e_v42 : W m c (Proc.devRef .tc main_v42) = val_main_v42 (F := Ideal) (m ((c.tc : Thread nD τ).loc main_arg9)) :=
  (step_ternary hw 55 rfl (by decide) (by decide) (by decide) (by decide) (launchContents m c) (e_v39 m c) (e_v41 m c) (e_v3 m c)).trans rfl
theorem e_v43 : W m c (Proc.devRef .tc main_v43) = val_main_v43 (F := Ideal) (m ((c.tc : Thread nD τ).loc main_arg9)) :=
  (step_unary hw 56 rfl (by decide) (by decide) (launchContents m c) (e_v42 m c)).trans rfl
theorem e_v44 : W m c (Proc.devRef .tc main_v44) = val_main_v44 (F := Ideal) (m ((c.tc : Thread nD τ).loc main_arg0)) (m ((c.tc : Thread nD τ).loc main_arg1)) (m ((c.tc : Thread nD τ).loc main_arg9)) :=
  (step_binary hw 57 rfl (by decide) (by decide) (by decide) (launchContents m c) (e_v37 m c) (e_v43 m c)).trans rfl
theorem e_v45 : W m c (Proc.devRef .tc main_v45) = val_main_v45 (F := Ideal) (m ((c.tc : Thread nD τ).loc main_arg9)) :=
  (step_unary hw 58 rfl (by decide) (by decide) (launchContents m c) (e_v32 m c)).trans rfl
theorem e_v46 : W m c (Proc.devRef .tc main_v46) = val_main_v46 (F := Ideal) (m ((c.tc : Thread nD τ).loc main_arg0)) (m ((c.tc : Thread nD τ).loc main_arg1)) (m ((c.tc : Thread nD τ).loc main_arg9)) :=
  (step_binary hw 59 rfl (by decide) (by decide) (by decide) (launchContents m c) (e_v44 m c) (e_v45 m c)).trans rfl
theorem e_cst_9 : W m c (Proc.devRef .tc main_cst_9) = val_main_cst_9 (F := Ideal) :=
  (step_nullary hw 60 rfl (by decide) (launchContents m c)).trans rfl
theorem e_v47 : W m c (Proc.devRef .tc main_v47) = val_main_v47 (F := Ideal) :=
  (step_unary hw 61 rfl (by decide) (by decide) (launchContents m c) (e_cst_9 m c)).trans rfl
theorem e_v48 : W m c (Proc.devRef .tc main_v48) = val_main_v48 (F := Ideal) (m ((c.tc : Thread nD τ).loc main_arg9)) :=
  (step_unary hw 62 rfl (by decide) (by decide) (launchContents m c) (e_v6 m c)).trans rfl
theorem e_v49 : W m c (Proc.devRef .tc main_v49) = val_main_v49 (F := Ideal) (m ((c.tc : Thread nD τ).loc main_arg0)) (m ((c.tc : Thread nD τ).loc main_arg1)) (m ((c.tc : Thread nD τ).loc main_arg9)) :=
  (step_ternary hw 63 rfl (by decide) (by decide) (by decide) (by decide) (launchContents m c) (e_v47 m c) (e_v48 m c) (e_v46 m c)).trans rfl
theorem e_v50 : W m c (Proc.devRef .tc main_v50) = val_main_v50 (F := Ideal) (m ((c.tc : Thread nD τ).loc main_arg2)) :=
  (step_unary hw 64 rfl (by decide) (by decide) (launchContents m c) (e_v36 m c)).trans rfl
theorem e_v51 : W m c (Proc.devRef .tc main_v51) = val_main_v51 (F := Ideal) (m ((c.tc : Thread nD τ).loc main_arg2)) :=
  (step_unary hw 65 rfl (by decide) (by decide) (launchContents m c) (e_v50 m c)).trans rfl
theorem e_v52 : W m c (Proc.devRef .tc main_v52) = val_main_v52 (F := Ideal) (m ((c.tc : Thread nD τ).loc main_arg0)) (m ((c.tc : Thread nD τ).loc main_arg1)) (m ((c.tc : Thread nD τ).loc main_arg2)) (m ((c.tc : Thread nD τ).loc main_arg9)) :=
  (step_binary hw 66 rfl (by decide) (by decide) (by decide) (launchContents m c) (e_v49 m c) (e_v51 m c)).trans rfl
theorem e_v53 : W m c (Proc.devRef .tc main_v53) = val_main_v53 (F := Ideal) (m ((c.tc : Thread nD τ).loc main_arg3)) :=
  (step_unary hw 67 rfl (by decide) (by decide) (launchContents m c) (e_arg3 m c)).trans rfl
theorem e_v54 : W m c (Proc.devRef .tc main_v54) = val_main_v54 (F := Ideal) (m ((c.tc : Thread nD τ).loc main_arg3)) :=
  (step_reshape hw 68 rfl (by decide) (by decide) (launchContents m c) (e_v53 m c)).trans rfl
theorem e_v55 : W m c (Proc.devRef .tc main_v55) = val_main_v55 (F := Ideal) (m ((c.tc : Thread nD τ).loc main_arg4)) :=
  (step_unary hw 69 rfl (by decide) (by decide) (launchContents m c) (e_arg4 m c)).trans rfl
theorem e_v56 : W m c (Proc.devRef .tc main_v56) = val_main_v56 (F := Ideal) (m ((c.tc : Thread nD τ).loc main_arg4)) :=
  (step_reshape hw 70 rfl (by decide) (by decide) (launchContents m c) (e_v55 m c)).trans rfl
theorem e_cst_10 : W m c (Proc.devRef .tc main_cst_10) = val_main_cst_10 (F := Ideal) :=
  (step_nullary hw 71 rfl (by decide) (launchContents m c)).trans rfl
theorem e_v57 : W m c (Proc.devRef .tc main_v57) = val_main_v57 (F := Ideal) (m ((c.tc : Thread nD τ).loc main_arg0)) (m ((c.tc : Thread nD τ).loc main_arg1)) (m ((c.tc : Thread nD τ).loc main_arg2)) (m ((c.tc : Thread nD τ).loc main_arg9)) :=
  (step_binary hw 72 rfl (by decide) (by decide) (by decide) (launchContents m c) (e_v52 m c) (e_cst_10 m c)).trans rfl
theorem e_cst_11 : W m c (Proc.devRef .tc main_cst_11) = val_main_cst_11 (F := Ideal) :=
  (step_nullary hw 73 rfl (by decide) (launchContents m c)).trans rfl
theorem e_v58 : W m c (Proc.devRef .tc main_v58) = val_main_v58 (F := Ideal) :=
  (step_unary hw 74 rfl (by decide) (by decide) (launchContents m c) (e_cst_11 m c)).trans rfl
theorem e_v59 : W m c (Proc.devRef .tc main_v59) = val_main_v59 (F := Ideal) (m ((c.tc : Thread nD τ).loc main_arg0)) (m ((c.tc : Thread nD τ).loc main_arg1)) (m ((c.tc : Thread nD τ).loc main_arg2)) (m ((c.tc : Thread nD τ).loc main_arg9)) :=
  (step_binary hw 75 rfl (by decide) (by decide) (by decide) (launchContents m c) (e_v57 m c) (e_v58 m c)).trans rfl
theorem e_v60 : W m c (Proc.devRef .tc main_v60) = val_main_v60 (F := Ideal) (m ((c.tc : Thread nD τ).loc main_arg0)) (m ((c.tc : Thread nD τ).loc main_arg1)) (m ((c.tc : Thread nD τ).loc main_arg2)) (m ((c.tc : Thread nD τ).loc main_arg9)) :=
  (step_unary hw 76 rfl (by decide) (by decide) (launchContents m c) (e_v59 m c)).trans rfl
theorem e_v61 : W m c (Proc.devRef .tc main_v61) = val_main_v61 (F := Ideal) (m ((c.tc : Thread nD τ).loc main_arg0)) (m ((c.tc : Thread nD τ).loc main_arg1)) (m ((c.tc : Thread nD τ).loc main_arg2)) (m ((c.tc : Thread nD τ).loc main_arg9)) :=
  (step_unary hw 77 rfl (by decide) (by decide) (launchContents m c) (e_v60 m c)).trans rfl
theorem e_v62 : W m c (Proc.devRef .tc main_v62) = val_main_v62 (F := Ideal) (m ((c.tc : Thread nD τ).loc main_arg0)) (m ((c.tc : Thread nD τ).loc main_arg1)) (m ((c.tc : Thread nD τ).loc main_arg2)) (m ((c.tc : Thread nD τ).loc main_arg9)) :=
  (step_binary hw 78 rfl (by decide) (by decide) (by decide) (launchContents m c) (e_v52 m c) (e_v61 m c)).trans rfl
theorem e_v63 : W m c (Proc.devRef .tc main_v63) = val_main_v63 (F := Ideal) (m ((c.tc : Thread nD τ).loc main_arg0)) (m ((c.tc : Thread nD τ).loc main_arg1)) (m ((c.tc : Thread nD τ).loc main_arg2)) (m ((c.tc : Thread nD τ).loc main_arg9)) :=
  (step_binary hw 79 rfl (by decide) (by decide) (by decide) (launchContents m c) (e_v62 m c) (e_v62 m c)).trans rfl
theorem e_cst_12 : W m c (Proc.devRef .tc main_cst_12) = val_main_cst_12 (F := Ideal) :=
  (step_nullary hw 80 rfl (by decide) (launchContents m c)).trans rfl
theorem e_v64 : W m c (Proc.devRef .tc main_v64) = val_main_v64 (F := Ideal) (m ((c.tc : Thread nD τ).loc main_arg0)) (m ((c.tc : Thread nD τ).loc main_arg1)) (m ((c.tc : Thread nD τ).loc main_arg2)) (m ((c.tc : Thread nD τ).loc main_arg9)) :=
  (step_binary hw 81 rfl (by decide) (by decide) (by decide) (launchContents m c) (e_v63 m c) (e_cst_12 m c)).trans rfl
theorem e_cst_13 : W m c (Proc.devRef .tc main_cst_13) = val_main_cst_13 (F := Ideal) :=
  (step_nullary hw 82 rfl (by decide) (launchContents m c)).trans rfl
theorem e_v65 : W m c (Proc.devRef .tc main_v65) = val_main_v65 (F := Ideal) :=
  (step_unary hw 83 rfl (by decide) (by decide) (launchContents m c) (e_cst_13 m c)).trans rfl
theorem e_v66 : W m c (Proc.devRef .tc main_v66) = val_main_v66 (F := Ideal) (m ((c.tc : Thread nD τ).loc main_arg0)) (m ((c.tc : Thread nD τ).loc main_arg1)) (m ((c.tc : Thread nD τ).loc main_arg2)) (m ((c.tc : Thread nD τ).loc main_arg9)) :=
  (step_binary hw 84 rfl (by decide) (by decide) (by decide) (launchContents m c) (e_v64 m c) (e_v65 m c)).trans rfl
theorem e_v67 : W m c (Proc.devRef .tc main_v67) = val_main_v67 (F := Ideal) (m ((c.tc : Thread nD τ).loc main_arg0)) (m ((c.tc : Thread nD τ).loc main_arg1)) (m ((c.tc : Thread nD τ).loc main_arg2)) (m ((c.tc : Thread nD τ).loc main_arg9)) :=
  (step_unary hw 85 rfl (by decide) (by decide) (launchContents m c) (e_v59 m c)).trans rfl
theorem e_v68 : W m c (Proc.devRef .tc main_v68) = val_main_v68 (F := Ideal) (m ((c.tc : Thread nD τ).loc main_arg0)) (m ((c.tc : Thread nD τ).loc main_arg1)) (m ((c.tc : Thread nD τ).loc main_arg2)) (m ((c.tc : Thread nD τ).loc main_arg9)) :=
  (step_unary hw 86 rfl (by decide) (by decide) (launchContents m c) (e_v67 m c)).trans rfl
theorem e_v69 : W m c (Proc.devRef .tc main_v69) = val_main_v69 (F := Ideal) (m ((c.tc : Thread nD τ).loc main_arg0)) (m ((c.tc : Thread nD τ).loc main_arg1)) (m ((c.tc : Thread nD τ).loc main_arg2)) (m ((c.tc : Thread nD τ).loc main_arg9)) :=
  (step_binary hw 87 rfl (by decide) (by decide) (by decide) (launchContents m c) (e_v52 m c) (e_v68 m c)).trans rfl
theorem e_cst_14 : W m c (Proc.devRef .tc main_cst_14) = val_main_cst_14 (F := Ideal) :=
  (step_nullary hw 88 rfl (by decide) (launchContents m c)).trans rfl
theorem e_v70 : W m c (Proc.devRef .tc main_v70) = val_main_v70 (F := Ideal) :=
  (step_unary hw 89 rfl (by decide) (by decide) (launchContents m c) (e_cst_14 m c)).trans rfl
theorem e_v71 : W m c (Proc.devRef .tc main_v71) = val_main_v71 (F := Ideal) (m ((c.tc : Thread nD τ).loc main_arg0)) (m ((c.tc : Thread nD τ).loc main_arg1)) (m ((c.tc : Thread nD τ).loc main_arg2)) (m ((c.tc : Thread nD τ).loc main_arg9)) :=
  (step_binary hw 90 rfl (by decide) (by decide) (by decide) (launchContents m c) (e_v66 m c) (e_v70 m c)).trans rfl
theorem e_v72 : W m c (Proc.devRef .tc main_v72) = val_main_v72 (F := Ideal) (m ((c.tc : Thread nD τ).loc main_arg0)) (m ((c.tc : Thread nD τ).loc main_arg1)) (m ((c.tc : Thread nD τ).loc main_arg2)) (m ((c.tc : Thread nD τ).loc main_arg9)) :=
  (step_unary hw 91 rfl (by decide) (by decide) (launchContents m c) (e_v71 m c)).trans rfl
theorem e_v73 : W m c (Proc.devRef .tc main_v73) = val_main_v73 (F := Ideal) (m ((c.tc : Thread nD τ).loc main_arg0)) (m ((c.tc : Thread nD τ).loc main_arg1)) (m ((c.tc : Thread nD τ).loc main_arg2)) (m ((c.tc : Thread nD τ).loc main_arg9)) :=
  (step_unary hw 92 rfl (by decide) (by decide) (launchContents m c) (e_v72 m c)).trans rfl
theorem e_v74 : W m c (Proc.devRef .tc main_v74) = val_main_v74 (F := Ideal) (m ((c.tc : Thread nD τ).loc main_arg0)) (m ((c.tc : Thread nD τ).loc main_arg1)) (m ((c.tc : Thread nD τ).loc main_arg2)) (m ((c.tc : Thread nD τ).loc main_arg9)) :=
  (step_unary hw 93 rfl (by decide) (by decide) (launchContents m c) (e_v73 m c)).trans rfl
theorem e_v75 : W m c (Proc.devRef .tc main_v75) = val_main_v75 (F := Ideal) (m ((c.tc : Thread nD τ).loc main_arg0)) (m ((c.tc : Thread nD τ).loc main_arg1)) (m ((c.tc : Thread nD τ).loc main_arg2)) (m ((c.tc : Thread nD τ).loc main_arg9)) :=
  (step_binary hw 94 rfl (by decide) (by decide) (by decide) (launchContents m c) (e_v69 m c) (e_v74 m c)).trans rfl
theorem e_v76 : W m c (Proc.devRef .tc main_v76) = val_main_v76 (F := Ideal) (m ((c.tc : Thread nD τ).loc main_arg3)) :=
  (step_unary hw 95 rfl (by decide) (by decide) (launchContents m c) (e_v54 m c)).trans rfl
theorem e_v77 : W m c (Proc.devRef .tc main_v77) = val_main_v77 (F := Ideal) (m ((c.tc : Thread nD τ).loc main_arg3)) :=
  (step_unary hw 96 rfl (by decide) (by decide) (launchContents m c) (e_v76 m c)).trans rfl
theorem e_v78 : W m c (Proc.devRef .tc main_v78) = val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg9)) :=
  (step_binary hw 97 rfl (by decide) (by decide) (by decide) (launchContents m c) (e_v75 m c) (e_v77 m c)).trans rfl
theorem e_v79 : W m c (Proc.devRef .tc main_v79) = val_main_v79 (F := Ideal) (m ((c.tc : Thread nD τ).loc main_arg4)) :=
  (step_unary hw 98 rfl (by decide) (by decide) (launchContents m c) (e_v56 m c)).trans rfl
theorem e_v80 : W m c (Proc.devRef .tc main_v80) = val_main_v80 (F := Ideal) (m ((c.tc : Thread nD τ).loc main_arg4)) :=
  (step_unary hw 99 rfl (by decide) (by decide) (launchContents m c) (e_v79 m c)).trans rfl
theorem e_v81 : W m c (Proc.devRef .tc main_v81) = val_main_v81 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) :=
  (step_binary hw 100 rfl (by decide) (by decide) (by decide) (launchContents m c) (e_v78 m c) (e_v80 m c)).trans rfl
theorem e_call1_cst : W m c (Proc.devRef .tc main_call1_cst) = val_main_call1_cst (F := Ideal) :=
  (step_nullaryT hw 101 rfl (by decide) (launchContents m c)).trans rfl
theorem e_call1_v0 : W m c (Proc.devRef .tc main_call1_v0) = val_main_call1_v0 (F := Ideal) :=
  (step_unaryT hw 102 rfl (by decide) (by decide) (launchContents m c) (e_call1_cst m c)).trans rfl
theorem e_v82 : W m c (Proc.devRef .tc main_v82) = val_main_v82 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) :=
  (step_binaryT hw 103 rfl (by decide) (by decide) (by decide) (launchContents m c) (e_v81 m c) (e_call1_v0 m c)).trans rfl
theorem e_v83 : W m c (Proc.devRef .tc main_v83) = val_main_v83 (F := Ideal) (m ((c.tc : Thread nD τ).loc main_arg1)) :=
  (step_unary hw 104 rfl (by decide) (by decide) (launchContents m c) (e_arg1 m c)).trans rfl
theorem e_v84 : W m c (Proc.devRef .tc main_v84) = val_main_v84 (F := Ideal) (m ((c.tc : Thread nD τ).loc main_arg1)) :=
  (step_reshape hw 105 rfl (by decide) (by decide) (launchContents m c) (e_v83 m c)).trans rfl
theorem e_v85 : W m c (Proc.devRef .tc main_v85) = val_main_v85 (F := Ideal) (m ((c.tc : Thread nD τ).loc main_arg2)) :=
  (step_unary hw 106 rfl (by decide) (by decide) (launchContents m c) (e_arg2 m c)).trans rfl
theorem e_v86 : W m c (Proc.devRef .tc main_v86) = val_main_v86 (F := Ideal) (m ((c.tc : Thread nD τ).loc main_arg2)) :=
  (step_reshape hw 107 rfl (by decide) (by decide) (launchContents m c) (e_v85 m c)).trans rfl
theorem e_v87 : W m c (Proc.devRef .tc main_v87) = val_main_v87 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) :=
  (step_binary hw 108 rfl (by decide) (by decide) (by decide) (launchContents m c) (e_v82 m c) (e_v84 m c)).trans rfl
theorem e_c_15 : W m c (Proc.devRef .tc main_c_15) = val_main_c_15 (F := Ideal) :=
  (step_nullary hw 109 rfl (by decide) (launchContents m c)).trans rfl
theorem e_v88 : W m c (Proc.devRef .tc main_v88) = val_main_v88 (F := Ideal) :=
  (step_unary hw 110 rfl (by decide) (by decide) (launchContents m c) (e_c_15 m c)).trans rfl
theorem e_v89 : W m c (Proc.devRef .tc main_v89) = val_main_v89 (F := Ideal) (m ((c.tc : Thread nD τ).loc main_arg9)) :=
  (step_binary hw 111 rfl (by decide) (by decide) (by decide) (launchContents m c) (e_v3 m c) (e_v88 m c)).trans rfl
theorem e_c_16 : W m c (Proc.devRef .tc main_c_16) = val_main_c_16 (F := Ideal) :=
  (step_nullary hw 112 rfl (by decide) (launchContents m c)).trans rfl
theorem e_v90 : W m c (Proc.devRef .tc main_v90) = val_main_v90 (F := Ideal) :=
  (step_unary hw 113 rfl (by decide) (by decide) (launchContents m c) (e_c_16 m c)).trans rfl
theorem e_v91 : W m c (Proc.devRef .tc main_v91) = val_main_v91 (F := Ideal) (m ((c.tc : Thread nD τ).loc main_arg9)) :=
  (step_binary hw 114 rfl (by decide) (by decide) (by decide) (launchContents m c) (e_v3 m c) (e_v90 m c)).trans rfl
theorem e_v92 : W m c (Proc.devRef .tc main_v92) = val_main_v92 (F := Ideal) (m ((c.tc : Thread nD τ).loc main_arg9)) :=
  (step_ternary hw 115 rfl (by decide) (by decide) (by decide) (by decide) (launchContents m c) (e_v89 m c) (e_v91 m c) (e_v3 m c)).trans rfl
theorem e_v93 : W m c (Proc.devRef .tc main_v93) = val_main_v93 (F := Ideal) (m ((c.tc : Thread nD τ).loc main_arg9)) :=
  (step_unary hw 116 rfl (by decide) (by decide) (launchContents m c) (e_v92 m c)).trans rfl
theorem e_v94 : W m c (Proc.devRef .tc main_v94) = val_main_v94 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) :=
  (step_binary hw 117 rfl (by decide) (by decide) (by decide) (launchContents m c) (e_v87 m c) (e_v93 m c)).trans rfl
theorem e_v95 : W m c (Proc.devRef .tc main_v95) = val_main_v95 (F := Ideal) (m ((c.tc : Thread nD τ).loc main_arg9)) :=
  (step_unary hw 118 rfl (by decide) (by decide) (launchContents m c) (e_v32 m c)).trans rfl
theorem e_v96 : W m c (Proc.devRef .tc main_v96) = val_main_v96 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) :=
  (step_binary hw 119 rfl (by decide) (by decide) (by decide) (launchContents m c) (e_v94 m c) (e_v95 m c)).trans rfl
theorem e_cst_17 : W m c (Proc.devRef .tc main_cst_17) = val_main_cst_17 (F := Ideal) :=
  (step_nullary hw 120 rfl (by decide) (launchContents m c)).trans rfl
theorem e_v97 : W m c (Proc.devRef .tc main_v97) = val_main_v97 (F := Ideal) :=
  (step_unary hw 121 rfl (by decide) (by decide) (launchContents m c) (e_cst_17 m c)).trans rfl
theorem e_v98 : W m c (Proc.devRef .tc main_v98) = val_main_v98 (F := Ideal) (m ((c.tc : Thread nD τ).loc main_arg9)) :=
  (step_unary hw 122 rfl (by decide) (by decide) (launchContents m c) (e_v6 m c)).trans rfl
theorem e_v99 : W m c (Proc.devRef .tc main_v99) = val_main_v99 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) :=
  (step_ternary hw 123 rfl (by decide) (by decide) (by decide) (by decide) (launchContents m c) (e_v97 m c) (e_v98 m c) (e_v96 m c)).trans rfl
theorem e_v100 : W m c (Proc.devRef .tc main_v100) = val_main_v100 (F := Ideal) (m ((c.tc : Thread nD τ).loc main_arg2)) :=
  (step_unary hw 124 rfl (by decide) (by decide) (launchContents m c) (e_v86 m c)).trans rfl
theorem e_v101 : W m c (Proc.devRef .tc main_v101) = val_main_v101 (F := Ideal) (m ((c.tc : Thread nD τ).loc main_arg2)) :=
  (step_unary hw 125 rfl (by decide) (by decide) (launchContents m c) (e_v100 m c)).trans rfl
theorem e_v102 : W m c (Proc.devRef .tc main_v102) = val_main_v102 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) :=
  (step_binary hw 126 rfl (by decide) (by decide) (by decide) (launchContents m c) (e_v99 m c) (e_v101 m c)).trans rfl
theorem e_v103 : W m c (Proc.devRef .tc main_v103) = val_main_v103 (F := Ideal) (m ((c.tc : Thread nD τ).loc main_arg3)) :=
  (step_unary hw 127 rfl (by decide) (by decide) (launchContents m c) (e_arg3 m c)).trans rfl
theorem e_v104 : W m c (Proc.devRef .tc main_v104) = val_main_v104 (F := Ideal) (m ((c.tc : Thread nD τ).loc main_arg3)) :=
  (step_reshape hw 128 rfl (by decide) (by decide) (launchContents m c) (e_v103 m c)).trans rfl
theorem e_v105 : W m c (Proc.devRef .tc main_v105) = val_main_v105 (F := Ideal) (m ((c.tc : Thread nD τ).loc main_arg4)) :=
  (step_unary hw 129 rfl (by decide) (by decide) (launchContents m c) (e_arg4 m c)).trans rfl
theorem e_v106 : W m c (Proc.devRef .tc main_v106) = val_main_v106 (F := Ideal) (m ((c.tc : Thread nD τ).loc main_arg4)) :=
  (step_reshape hw 130 rfl (by decide) (by decide) (launchContents m c) (e_v105 m c)).trans rfl
theorem e_cst_18 : W m c (Proc.devRef .tc main_cst_18) = val_main_cst_18 (F := Ideal) :=
  (step_nullary hw 131 rfl (by decide) (launchContents m c)).trans rfl
theorem e_v107 : W m c (Proc.devRef .tc main_v107) = val_main_v107 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) :=
  (step_binary hw 132 rfl (by decide) (by decide) (by decide) (launchContents m c) (e_v102 m c) (e_cst_18 m c)).trans rfl
theorem e_cst_19 : W m c (Proc.devRef .tc main_cst_19) = val_main_cst_19 (F := Ideal) :=
  (step_nullary hw 133 rfl (by decide) (launchContents m c)).trans rfl
theorem e_v108 : W m c (Proc.devRef .tc main_v108) = val_main_v108 (F := Ideal) :=
  (step_unary hw 134 rfl (by decide) (by decide) (launchContents m c) (e_cst_19 m c)).trans rfl
theorem e_v109 : W m c (Proc.devRef .tc main_v109) = val_main_v109 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) :=
  (step_binary hw 135 rfl (by decide) (by decide) (by decide) (launchContents m c) (e_v107 m c) (e_v108 m c)).trans rfl
theorem e_v110 : W m c (Proc.devRef .tc main_v110) = val_main_v110 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) :=
  (step_unary hw 136 rfl (by decide) (by decide) (launchContents m c) (e_v109 m c)).trans rfl
theorem e_v111 : W m c (Proc.devRef .tc main_v111) = val_main_v111 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) :=
  (step_unary hw 137 rfl (by decide) (by decide) (launchContents m c) (e_v110 m c)).trans rfl
theorem e_v112 : W m c (Proc.devRef .tc main_v112) = val_main_v112 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) :=
  (step_binary hw 138 rfl (by decide) (by decide) (by decide) (launchContents m c) (e_v102 m c) (e_v111 m c)).trans rfl
theorem e_v113 : W m c (Proc.devRef .tc main_v113) = val_main_v113 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) :=
  (step_binary hw 139 rfl (by decide) (by decide) (by decide) (launchContents m c) (e_v112 m c) (e_v112 m c)).trans rfl
theorem e_cst_20 : W m c (Proc.devRef .tc main_cst_20) = val_main_cst_20 (F := Ideal) :=
  (step_nullary hw 140 rfl (by decide) (launchContents m c)).trans rfl
theorem e_v114 : W m c (Proc.devRef .tc main_v114) = val_main_v114 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) :=
  (step_binary hw 141 rfl (by decide) (by decide) (by decide) (launchContents m c) (e_v113 m c) (e_cst_20 m c)).trans rfl
theorem e_cst_21 : W m c (Proc.devRef .tc main_cst_21) = val_main_cst_21 (F := Ideal) :=
  (step_nullary hw 142 rfl (by decide) (launchContents m c)).trans rfl
theorem e_v115 : W m c (Proc.devRef .tc main_v115) = val_main_v115 (F := Ideal) :=
  (step_unary hw 143 rfl (by decide) (by decide) (launchContents m c) (e_cst_21 m c)).trans rfl
theorem e_v116 : W m c (Proc.devRef .tc main_v116) = val_main_v116 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) :=
  (step_binary hw 144 rfl (by decide) (by decide) (by decide) (launchContents m c) (e_v114 m c) (e_v115 m c)).trans rfl
theorem e_v117 : W m c (Proc.devRef .tc main_v117) = val_main_v117 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) :=
  (step_unary hw 145 rfl (by decide) (by decide) (launchContents m c) (e_v109 m c)).trans rfl
theorem e_v118 : W m c (Proc.devRef .tc main_v118) = val_main_v118 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) :=
  (step_unary hw 146 rfl (by decide) (by decide) (launchContents m c) (e_v117 m c)).trans rfl
theorem e_v119 : W m c (Proc.devRef .tc main_v119) = val_main_v119 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) :=
  (step_binary hw 147 rfl (by decide) (by decide) (by decide) (launchContents m c) (e_v102 m c) (e_v118 m c)).trans rfl
theorem e_cst_22 : W m c (Proc.devRef .tc main_cst_22) = val_main_cst_22 (F := Ideal) :=
  (step_nullary hw 148 rfl (by decide) (launchContents m c)).trans rfl
theorem e_v120 : W m c (Proc.devRef .tc main_v120) = val_main_v120 (F := Ideal) :=
  (step_unary hw 149 rfl (by decide) (by decide) (launchContents m c) (e_cst_22 m c)).trans rfl
theorem e_v121 : W m c (Proc.devRef .tc main_v121) = val_main_v121 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) :=
  (step_binary hw 150 rfl (by decide) (by decide) (by decide) (launchContents m c) (e_v116 m c) (e_v120 m c)).trans rfl
theorem e_v122 : W m c (Proc.devRef .tc main_v122) = val_main_v122 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) :=
  (step_unary hw 151 rfl (by decide) (by decide) (launchContents m c) (e_v121 m c)).trans rfl
theorem e_v123 : W m c (Proc.devRef .tc main_v123) = val_main_v123 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) :=
  (step_unary hw 152 rfl (by decide) (by decide) (launchContents m c) (e_v122 m c)).trans rfl
theorem e_v124 : W m c (Proc.devRef .tc main_v124) = val_main_v124 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) :=
  (step_unary hw 153 rfl (by decide) (by decide) (launchContents m c) (e_v123 m c)).trans rfl
theorem e_v125 : W m c (Proc.devRef .tc main_v125) = val_main_v125 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) :=
  (step_binary hw 154 rfl (by decide) (by decide) (by decide) (launchContents m c) (e_v119 m c) (e_v124 m c)).trans rfl
theorem e_v126 : W m c (Proc.devRef .tc main_v126) = val_main_v126 (F := Ideal) (m ((c.tc : Thread nD τ).loc main_arg3)) :=
  (step_unary hw 155 rfl (by decide) (by decide) (launchContents m c) (e_v104 m c)).trans rfl
theorem e_v127 : W m c (Proc.devRef .tc main_v127) = val_main_v127 (F := Ideal) (m ((c.tc : Thread nD τ).loc main_arg3)) :=
  (step_unary hw 156 rfl (by decide) (by decide) (launchContents m c) (e_v126 m c)).trans rfl
theorem e_v128 : W m c (Proc.devRef .tc main_v128) = val_main_v128 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) :=
  (step_binary hw 157 rfl (by decide) (by decide) (by decide) (launchContents m c) (e_v125 m c) (e_v127 m c)).trans rfl
theorem e_v129 : W m c (Proc.devRef .tc main_v129) = val_main_v129 (F := Ideal) (m ((c.tc : Thread nD τ).loc main_arg4)) :=
  (step_unary hw 158 rfl (by decide) (by decide) (launchContents m c) (e_v106 m c)).trans rfl
theorem e_v130 : W m c (Proc.devRef .tc main_v130) = val_main_v130 (F := Ideal) (m ((c.tc : Thread nD τ).loc main_arg4)) :=
  (step_unary hw 159 rfl (by decide) (by decide) (launchContents m c) (e_v129 m c)).trans rfl
theorem e_v131 : W m c (Proc.devRef .tc main_v131) = val_main_v131 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) :=
  (step_binary hw 160 rfl (by decide) (by decide) (by decide) (launchContents m c) (e_v128 m c) (e_v130 m c)).trans rfl
theorem e_call2_cst : W m c (Proc.devRef .tc main_call2_cst) = val_main_call2_cst (F := Ideal) :=
  (step_nullaryT hw 161 rfl (by decide) (launchContents m c)).trans rfl
theorem e_call2_v0 : W m c (Proc.devRef .tc main_call2_v0) = val_main_call2_v0 (F := Ideal) :=
  (step_unaryT hw 162 rfl (by decide) (by decide) (launchContents m c) (e_call2_cst m c)).trans rfl
theorem e_v132 : W m c (Proc.devRef .tc main_v132) = val_main_v132 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) :=
  (step_binaryT hw 163 rfl (by decide) (by decide) (by decide) (launchContents m c) (e_v131 m c) (e_call2_v0 m c)).trans rfl
theorem e_v133 : W m c (Proc.devRef .tc main_v133) = val_main_v133 (F := Ideal) (m ((c.tc : Thread nD τ).loc main_arg1)) :=
  (step_unary hw 164 rfl (by decide) (by decide) (launchContents m c) (e_arg1 m c)).trans rfl
theorem e_v134 : W m c (Proc.devRef .tc main_v134) = val_main_v134 (F := Ideal) (m ((c.tc : Thread nD τ).loc main_arg1)) :=
  (step_reshape hw 165 rfl (by decide) (by decide) (launchContents m c) (e_v133 m c)).trans rfl
theorem e_v135 : W m c (Proc.devRef .tc main_v135) = val_main_v135 (F := Ideal) (m ((c.tc : Thread nD τ).loc main_arg2)) :=
  (step_unary hw 166 rfl (by decide) (by decide) (launchContents m c) (e_arg2 m c)).trans rfl
theorem e_v136 : W m c (Proc.devRef .tc main_v136) = val_main_v136 (F := Ideal) (m ((c.tc : Thread nD τ).loc main_arg2)) :=
  (step_reshape hw 167 rfl (by decide) (by decide) (launchContents m c) (e_v135 m c)).trans rfl
theorem e_v137 : W m c (Proc.devRef .tc main_v137) = val_main_v137 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) :=
  (step_binary hw 168 rfl (by decide) (by decide) (by decide) (launchContents m c) (e_v132 m c) (e_v134 m c)).trans rfl
theorem e_c_23 : W m c (Proc.devRef .tc main_c_23) = val_main_c_23 (F := Ideal) :=
  (step_nullary hw 169 rfl (by decide) (launchContents m c)).trans rfl
theorem e_v138 : W m c (Proc.devRef .tc main_v138) = val_main_v138 (F := Ideal) :=
  (step_unary hw 170 rfl (by decide) (by decide) (launchContents m c) (e_c_23 m c)).trans rfl
theorem e_v139 : W m c (Proc.devRef .tc main_v139) = val_main_v139 (F := Ideal) (m ((c.tc : Thread nD τ).loc main_arg9)) :=
  (step_binary hw 171 rfl (by decide) (by decide) (by decide) (launchContents m c) (e_v3 m c) (e_v138 m c)).trans rfl
theorem e_c_24 : W m c (Proc.devRef .tc main_c_24) = val_main_c_24 (F := Ideal) :=
  (step_nullary hw 172 rfl (by decide) (launchContents m c)).trans rfl
theorem e_v140 : W m c (Proc.devRef .tc main_v140) = val_main_v140 (F := Ideal) :=
  (step_unary hw 173 rfl (by decide) (by decide) (launchContents m c) (e_c_24 m c)).trans rfl
theorem e_v141 : W m c (Proc.devRef .tc main_v141) = val_main_v141 (F := Ideal) (m ((c.tc : Thread nD τ).loc main_arg9)) :=
  (step_binary hw 174 rfl (by decide) (by decide) (by decide) (launchContents m c) (e_v3 m c) (e_v140 m c)).trans rfl
theorem e_v142 : W m c (Proc.devRef .tc main_v142) = val_main_v142 (F := Ideal) (m ((c.tc : Thread nD τ).loc main_arg9)) :=
  (step_ternary hw 175 rfl (by decide) (by decide) (by decide) (by decide) (launchContents m c) (e_v139 m c) (e_v141 m c) (e_v3 m c)).trans rfl
theorem e_v143 : W m c (Proc.devRef .tc main_v143) = val_main_v143 (F := Ideal) (m ((c.tc : Thread nD τ).loc main_arg9)) :=
  (step_unary hw 176 rfl (by decide) (by decide) (launchContents m c) (e_v142 m c)).trans rfl
theorem e_v144 : W m c (Proc.devRef .tc main_v144) = val_main_v144 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) :=
  (step_binary hw 177 rfl (by decide) (by decide) (by decide) (launchContents m c) (e_v137 m c) (e_v143 m c)).trans rfl
theorem e_v145 : W m c (Proc.devRef .tc main_v145) = val_main_v145 (F := Ideal) (m ((c.tc : Thread nD τ).loc main_arg9)) :=
  (step_unary hw 178 rfl (by decide) (by decide) (launchContents m c) (e_v32 m c)).trans rfl
theorem e_v146 : W m c (Proc.devRef .tc main_v146) = val_main_v146 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) :=
  (step_binary hw 179 rfl (by decide) (by decide) (by decide) (launchContents m c) (e_v144 m c) (e_v145 m c)).trans rfl
theorem e_cst_25 : W m c (Proc.devRef .tc main_cst_25) = val_main_cst_25 (F := Ideal) :=
  (step_nullary hw 180 rfl (by decide) (launchContents m c)).trans rfl
theorem e_v147 : W m c (Proc.devRef .tc main_v147) = val_main_v147 (F := Ideal) :=
  (step_unary hw 181 rfl (by decide) (by decide) (launchContents m c) (e_cst_25 m c)).trans rfl
theorem e_v148 : W m c (Proc.devRef .tc main_v148) = val_main_v148 (F := Ideal) (m ((c.tc : Thread nD τ).loc main_arg9)) :=
  (step_unary hw 182 rfl (by decide) (by decide) (launchContents m c) (e_v6 m c)).trans rfl
theorem e_v149 : W m c (Proc.devRef .tc main_v149) = val_main_v149 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) :=
  (step_ternary hw 183 rfl (by decide) (by decide) (by decide) (by decide) (launchContents m c) (e_v147 m c) (e_v148 m c) (e_v146 m c)).trans rfl
theorem e_v150 : W m c (Proc.devRef .tc main_v150) = val_main_v150 (F := Ideal) (m ((c.tc : Thread nD τ).loc main_arg2)) :=
  (step_unary hw 184 rfl (by decide) (by decide) (launchContents m c) (e_v136 m c)).trans rfl
theorem e_v151 : W m c (Proc.devRef .tc main_v151) = val_main_v151 (F := Ideal) (m ((c.tc : Thread nD τ).loc main_arg2)) :=
  (step_unary hw 185 rfl (by decide) (by decide) (launchContents m c) (e_v150 m c)).trans rfl
theorem e_v152 : W m c (Proc.devRef .tc main_v152) = val_main_v152 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) :=
  (step_binary hw 186 rfl (by decide) (by decide) (by decide) (launchContents m c) (e_v149 m c) (e_v151 m c)).trans rfl
theorem e_call3_cst : W m c (Proc.devRef .tc main_call3_cst) = val_main_call3_cst (F := Ideal) :=
  (step_nullaryT hw 187 rfl (by decide) (launchContents m c)).trans rfl
theorem e_call3_v0 : W m c (Proc.devRef .tc main_call3_v0) = val_main_call3_v0 (F := Ideal) :=
  (step_unaryT hw 188 rfl (by decide) (by decide) (launchContents m c) (e_call3_cst m c)).trans rfl
theorem e_v153 : W m c (Proc.devRef .tc main_v153) = val_main_v153 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) :=
  (step_binaryT hw 189 rfl (by decide) (by decide) (by decide) (launchContents m c) (e_v152 m c) (e_call3_v0 m c)).trans rfl
theorem e_v154 : W m c (Proc.devRef .tc main_v154) = val_main_v154 (F := Ideal) (m ((c.tc : Thread nD τ).loc main_arg3)) :=
  (step_unary hw 190 rfl (by decide) (by decide) (launchContents m c) (e_arg3 m c)).trans rfl
theorem e_v155 : W m c (Proc.devRef .tc main_v155) = val_main_v155 (F := Ideal) (m ((c.tc : Thread nD τ).loc main_arg3)) :=
  (step_reshape hw 191 rfl (by decide) (by decide) (launchContents m c) (e_v154 m c)).trans rfl
theorem e_v156 : W m c (Proc.devRef .tc main_v156) = val_main_v156 (F := Ideal) (m ((c.tc : Thread nD τ).loc main_arg4)) :=
  (step_unary hw 192 rfl (by decide) (by decide) (launchContents m c) (e_arg4 m c)).trans rfl
theorem e_v157 : W m c (Proc.devRef .tc main_v157) = val_main_v157 (F := Ideal) (m ((c.tc : Thread nD τ).loc main_arg4)) :=
  (step_reshape hw 193 rfl (by decide) (by decide) (launchContents m c) (e_v156 m c)).trans rfl
theorem e_cst_26 : W m c (Proc.devRef .tc main_cst_26) = val_main_cst_26 (F := Ideal) :=
  (step_nullary hw 194 rfl (by decide) (launchContents m c)).trans rfl
theorem e_v158 : W m c (Proc.devRef .tc main_v158) = val_main_v158 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) :=
  (step_binary hw 195 rfl (by decide) (by decide) (by decide) (launchContents m c) (e_v153 m c) (e_cst_26 m c)).trans rfl
theorem e_cst_27 : W m c (Proc.devRef .tc main_cst_27) = val_main_cst_27 (F := Ideal) :=
  (step_nullary hw 196 rfl (by decide) (launchContents m c)).trans rfl
theorem e_v159 : W m c (Proc.devRef .tc main_v159) = val_main_v159 (F := Ideal) :=
  (step_unary hw 197 rfl (by decide) (by decide) (launchContents m c) (e_cst_27 m c)).trans rfl
theorem e_v160 : W m c (Proc.devRef .tc main_v160) = val_main_v160 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) :=
  (step_binary hw 198 rfl (by decide) (by decide) (by decide) (launchContents m c) (e_v158 m c) (e_v159 m c)).trans rfl
theorem e_v161 : W m c (Proc.devRef .tc main_v161) = val_main_v161 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) :=
  (step_unary hw 199 rfl (by decide) (by decide) (launchContents m c) (e_v160 m c)).trans rfl
theorem e_v162 : W m c (Proc.devRef .tc main_v162) = val_main_v162 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) :=
  (step_unary hw 200 rfl (by decide) (by decide) (launchContents m c) (e_v161 m c)).trans rfl
theorem e_v163 : W m c (Proc.devRef .tc main_v163) = val_main_v163 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) :=
  (step_binary hw 201 rfl (by decide) (by decide) (by decide) (launchContents m c) (e_v153 m c) (e_v162 m c)).trans rfl
theorem e_v164 : W m c (Proc.devRef .tc main_v164) = val_main_v164 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) :=
  (step_binary hw 202 rfl (by decide) (by decide) (by decide) (launchContents m c) (e_v163 m c) (e_v163 m c)).trans rfl
theorem e_cst_28 : W m c (Proc.devRef .tc main_cst_28) = val_main_cst_28 (F := Ideal) :=
  (step_nullary hw 203 rfl (by decide) (launchContents m c)).trans rfl
theorem e_v165 : W m c (Proc.devRef .tc main_v165) = val_main_v165 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) :=
  (step_binary hw 204 rfl (by decide) (by decide) (by decide) (launchContents m c) (e_v164 m c) (e_cst_28 m c)).trans rfl
theorem e_cst_29 : W m c (Proc.devRef .tc main_cst_29) = val_main_cst_29 (F := Ideal) :=
  (step_nullary hw 205 rfl (by decide) (launchContents m c)).trans rfl
theorem e_v166 : W m c (Proc.devRef .tc main_v166) = val_main_v166 (F := Ideal) :=
  (step_unary hw 206 rfl (by decide) (by decide) (launchContents m c) (e_cst_29 m c)).trans rfl
theorem e_v167 : W m c (Proc.devRef .tc main_v167) = val_main_v167 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) :=
  (step_binary hw 207 rfl (by decide) (by decide) (by decide) (launchContents m c) (e_v165 m c) (e_v166 m c)).trans rfl
theorem e_v168 : W m c (Proc.devRef .tc main_v168) = val_main_v168 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) :=
  (step_unary hw 208 rfl (by decide) (by decide) (launchContents m c) (e_v160 m c)).trans rfl
theorem e_v169 : W m c (Proc.devRef .tc main_v169) = val_main_v169 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) :=
  (step_unary hw 209 rfl (by decide) (by decide) (launchContents m c) (e_v168 m c)).trans rfl
theorem e_v170 : W m c (Proc.devRef .tc main_v170) = val_main_v170 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) :=
  (step_binary hw 210 rfl (by decide) (by decide) (by decide) (launchContents m c) (e_v153 m c) (e_v169 m c)).trans rfl
theorem e_cst_30 : W m c (Proc.devRef .tc main_cst_30) = val_main_cst_30 (F := Ideal) :=
  (step_nullary hw 211 rfl (by decide) (launchContents m c)).trans rfl
theorem e_v171 : W m c (Proc.devRef .tc main_v171) = val_main_v171 (F := Ideal) :=
  (step_unary hw 212 rfl (by decide) (by decide) (launchContents m c) (e_cst_30 m c)).trans rfl
theorem e_v172 : W m c (Proc.devRef .tc main_v172) = val_main_v172 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) :=
  (step_binary hw 213 rfl (by decide) (by decide) (by decide) (launchContents m c) (e_v167 m c) (e_v171 m c)).trans rfl
theorem e_v173 : W m c (Proc.devRef .tc main_v173) = val_main_v173 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) :=
  (step_unary hw 214 rfl (by decide) (by decide) (launchContents m c) (e_v172 m c)).trans rfl
theorem e_v174 : W m c (Proc.devRef .tc main_v174) = val_main_v174 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) :=
  (step_unary hw 215 rfl (by decide) (by decide) (launchContents m c) (e_v173 m c)).trans rfl
theorem e_v175 : W m c (Proc.devRef .tc main_v175) = val_main_v175 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) :=
  (step_unary hw 216 rfl (by decide) (by decide) (launchContents m c) (e_v174 m c)).trans rfl
theorem e_v176 : W m c (Proc.devRef .tc main_v176) = val_main_v176 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) :=
  (step_binary hw 217 rfl (by decide) (by decide) (by decide) (launchContents m c) (e_v170 m c) (e_v175 m c)).trans rfl
theorem e_v177 : W m c (Proc.devRef .tc main_v177) = val_main_v177 (F := Ideal) (m ((c.tc : Thread nD τ).loc main_arg3)) :=
  (step_unary hw 218 rfl (by decide) (by decide) (launchContents m c) (e_v155 m c)).trans rfl
theorem e_v178 : W m c (Proc.devRef .tc main_v178) = val_main_v178 (F := Ideal) (m ((c.tc : Thread nD τ).loc main_arg3)) :=
  (step_unary hw 219 rfl (by decide) (by decide) (launchContents m c) (e_v177 m c)).trans rfl
theorem e_v179 : W m c (Proc.devRef .tc main_v179) = val_main_v179 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) :=
  (step_binary hw 220 rfl (by decide) (by decide) (by decide) (launchContents m c) (e_v176 m c) (e_v178 m c)).trans rfl
theorem e_v180 : W m c (Proc.devRef .tc main_v180) = val_main_v180 (F := Ideal) (m ((c.tc : Thread nD τ).loc main_arg4)) :=
  (step_unary hw 221 rfl (by decide) (by decide) (launchContents m c) (e_v157 m c)).trans rfl
theorem e_v181 : W m c (Proc.devRef .tc main_v181) = val_main_v181 (F := Ideal) (m ((c.tc : Thread nD τ).loc main_arg4)) :=
  (step_unary hw 222 rfl (by decide) (by decide) (launchContents m c) (e_v180 m c)).trans rfl
theorem e_v182 : W m c (Proc.devRef .tc main_v182) = val_main_v182 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) :=
  (step_binary hw 223 rfl (by decide) (by decide) (by decide) (launchContents m c) (e_v179 m c) (e_v181 m c)).trans rfl
theorem e_v183 : W m c (Proc.devRef .tc main_v183) = val_main_v183 (F := Ideal) (m ((c.tc : Thread nD τ).loc main_arg5)) :=
  (step_unary hw 224 rfl (by decide) (by decide) (launchContents m c) (e_arg5 m c)).trans rfl
theorem e_v184 : W m c (Proc.devRef .tc main_v184) = val_main_v184 (F := Ideal) (m ((c.tc : Thread nD τ).loc main_arg5)) :=
  (step_reshape hw 225 rfl (by decide) (by decide) (launchContents m c) (e_v183 m c)).trans rfl
theorem e_v185 : W m c (Proc.devRef .tc main_v185) = val_main_v185 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg9)) :=
  (step_binary hw 226 rfl (by decide) (by decide) (by decide) (launchContents m c) (e_v182 m c) (e_v184 m c)).trans rfl
theorem e_v186 : W m c (Proc.devRef .tc main_v186) = val_main_v186 (F := Ideal) (m ((c.tc : Thread nD τ).loc main_arg6)) :=
  (step_unary hw 227 rfl (by decide) (by decide) (launchContents m c) (e_arg6 m c)).trans rfl
theorem e_v187 : W m c (Proc.devRef .tc main_v187) = val_main_v187 (F := Ideal) (m ((c.tc : Thread nD τ).loc main_arg6)) :=
  (step_reshape hw 228 rfl (by decide) (by decide) (launchContents m c) (e_v186 m c)).trans rfl
theorem e_v188 : W m c (Proc.devRef .tc main_v188) = val_main_v188 (F := Ideal) (m ((c.tc : Thread nD τ).loc main_arg6)) :=
  (step_unary hw 229 rfl (by decide) (by decide) (launchContents m c) (e_v187 m c)).trans rfl
theorem e_v189 : W m c (Proc.devRef .tc main_v189) = val_main_v189 (F := Ideal) (m ((c.tc : Thread nD τ).loc main_arg6)) :=
  (step_unary hw 230 rfl (by decide) (by decide) (launchContents m c) (e_v188 m c)).trans rfl
theorem e_v190 : W m c (Proc.devRef .tc main_v190) = val_main_v190 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) :=
  (step_binary hw 231 rfl (by decide) (by decide) (by decide) (launchContents m c) (e_v185 m c) (e_v189 m c)).trans rfl
theorem e_call4_cst : W m c (Proc.devRef .tc main_call4_cst) = val_main_call4_cst (F := Ideal) :=
  (step_nullaryT hw 232 rfl (by decide) (launchContents m c)).trans rfl
theorem e_call4_v0 : W m c (Proc.devRef .tc main_call4_v0) = val_main_call4_v0 (F := Ideal) :=
  (step_unaryT hw 233 rfl (by decide) (by decide) (launchContents m c) (e_call4_cst m c)).trans rfl
theorem e_v191 : W m c (Proc.devRef .tc main_v191) = val_main_v191 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) :=
  (step_binaryT hw 234 rfl (by decide) (by decide) (by decide) (launchContents m c) (e_v190 m c) (e_call4_v0 m c)).trans rfl
theorem e_v192 : W m c (Proc.devRef .tc main_v192) = val_main_v192 (F := Ideal) (m ((c.tc : Thread nD τ).loc main_arg5)) :=
  (step_unary hw 235 rfl (by decide) (by decide) (launchContents m c) (e_arg5 m c)).trans rfl
theorem e_v193 : W m c (Proc.devRef .tc main_v193) = val_main_v193 (F := Ideal) (m ((c.tc : Thread nD τ).loc main_arg5)) :=
  (step_reshape hw 236 rfl (by decide) (by decide) (launchContents m c) (e_v192 m c)).trans rfl
theorem e_v194 : W m c (Proc.devRef .tc main_v194) = val_main_v194 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) :=
  (step_binary hw 237 rfl (by decide) (by decide) (by decide) (launchContents m c) (e_v191 m c) (e_v193 m c)).trans rfl
theorem e_v195 : W m c (Proc.devRef .tc main_v195) = val_main_v195 (F := Ideal) (m ((c.tc : Thread nD τ).loc main_arg6)) :=
  (step_unary hw 238 rfl (by decide) (by decide) (launchContents m c) (e_arg6 m c)).trans rfl
theorem e_v196 : W m c (Proc.devRef .tc main_v196) = val_main_v196 (F := Ideal) (m ((c.tc : Thread nD τ).loc main_arg6)) :=
  (step_reshape hw 239 rfl (by decide) (by decide) (launchContents m c) (e_v195 m c)).trans rfl
theorem e_v197 : W m c (Proc.devRef .tc main_v197) = val_main_v197 (F := Ideal) (m ((c.tc : Thread nD τ).loc main_arg6)) :=
  (step_unary hw 240 rfl (by decide) (by decide) (launchContents m c) (e_v196 m c)).trans rfl
theorem e_v198 : W m c (Proc.devRef .tc main_v198) = val_main_v198 (F := Ideal) (m ((c.tc : Thread nD τ).loc main_arg6)) :=
  (step_unary hw 241 rfl (by decide) (by decide) (launchContents m c) (e_v197 m c)).trans rfl
theorem e_v199 : W m c (Proc.devRef .tc main_v199) = val_main_v199 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) :=
  (step_binary hw 242 rfl (by decide) (by decide) (by decide) (launchContents m c) (e_v194 m c) (e_v198 m c)).trans rfl
theorem e_call5_cst : W m c (Proc.devRef .tc main_call5_cst) = val_main_call5_cst (F := Ideal) :=
  (step_nullaryT hw 243 rfl (by decide) (launchContents m c)).trans rfl
theorem e_call5_v0 : W m c (Proc.devRef .tc main_call5_v0) = val_main_call5_v0 (F := Ideal) :=
  (step_unaryT hw 244 rfl (by decide) (by decide) (launchContents m c) (e_call5_cst m c)).trans rfl
theorem e_v200 : W m c (Proc.devRef .tc main_v200) = val_main_v200 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) :=
  (step_binaryT hw 245 rfl (by decide) (by decide) (by decide) (launchContents m c) (e_v199 m c) (e_call5_v0 m c)).trans rfl
theorem e_v201 : W m c (Proc.devRef .tc main_v201) = val_main_v201 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg9)) :=
  (step_binary hw 246 rfl (by decide) (by decide) (by decide) (launchContents m c) (e_v200 m c) (e_arg7 m c)).trans rfl
theorem e_v202 : W m c (Proc.devRef .tc main_v202) = val_main_v202 (F := Ideal) (m ((c.tc : Thread nD τ).loc main_arg8)) :=
  (step_unary hw 247 rfl (by decide) (by decide) (launchContents m c) (e_arg8 m c)).trans rfl
theorem e_v203 : W m c (Proc.devRef .tc main_v203) = val_main_v203 (F := Ideal) (m ((c.tc : Thread nD τ).loc main_arg8)) :=
  (step_unary hw 248 rfl (by decide) (by decide) (launchContents m c) (e_v202 m c)).trans rfl
theorem e_v204 : W m c (Proc.devRef .tc main_v204) = val_main_v204 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (step_binary hw 249 rfl (by decide) (by decide) (by decide) (launchContents m c) (e_v201 m c) (e_v203 m c)).trans rfl
theorem e_v205 : W m c (Proc.devRef .tc main_v205) = val_main_v205 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (step_unary hw 250 rfl (by decide) (by decide) (launchContents m c) (e_v204 m c)).trans rfl
theorem e_v206 : W m c (Proc.devRef .tc main_v206) = val_main_v206 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (step_unary hw 251 rfl (by decide) (by decide) (launchContents m c) (e_v205 m c)).trans rfl
theorem e_cst_31 : W m c (Proc.devRef .tc main_cst_31) = val_main_cst_31 (F := Ideal) :=
  (step_nullary hw 252 rfl (by decide) (launchContents m c)).trans rfl
theorem e_v207 : W m c (Proc.devRef .tc main_v207) = val_main_v207 (F := Ideal) :=
  (step_unary hw 253 rfl (by decide) (by decide) (launchContents m c) (e_cst_31 m c)).trans rfl
theorem e_v208 : W m c (Proc.devRef .tc main_v208) = val_main_v208 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (step_binary hw 254 rfl (by decide) (by decide) (by decide) (launchContents m c) (e_v207 m c) (e_v206 m c)).trans rfl
theorem e_cst_32 : W m c (Proc.devRef .tc main_cst_32) = val_main_cst_32 (F := Ideal) :=
  (step_nullary hw 255 rfl (by decide) (launchContents m c)).trans rfl
theorem e_v209 : W m c (Proc.devRef .tc main_v209) = val_main_v209 (F := Ideal) :=
  (step_unary hw 256 rfl (by decide) (by decide) (launchContents m c) (e_cst_32 m c)).trans rfl
theorem e_v210 : W m c (Proc.devRef .tc main_v210) = val_main_v210 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (step_binary hw 257 rfl (by decide) (by decide) (by decide) (launchContents m c) (e_v209 m c) (e_v208 m c)).trans rfl
end Line

set_option maxRecDepth 8192 in
/-- On every device, from any memory with zero counters: every weakly fair execution of the reference terminates with
    its result buffer at the last stage function of the arguments' launch contents, and the arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v210) = val_main_v210 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v210).trans (e_v210 m c),
      (h c main_arg0).trans (e_arg0 m c),
      (h c main_arg1).trans (e_arg1 m c),
      (h c main_arg2).trans (e_arg2 m c),
      (h c main_arg3).trans (e_arg3 m c),
      (h c main_arg4).trans (e_arg4 m c),
      (h c main_arg5).trans (e_arg5 m c),
      (h c main_arg6).trans (e_arg6 m c),
      (h c main_arg7).trans (e_arg7 m c),
      (h c main_arg8).trans (e_arg8 m c),
      (h c main_arg9).trans (e_arg9 m c)⟩)
    (run_seq scopedRefs_eq scopedSems_eq defs main (fun _ => ops) main_eq (fun _ => ops_sub) m ρ)

end Cert.RefRun

end
-- ==== Proof.lean ====
/-
  The certificate of a three-layer graph convolution network with batch normalisation and a dense head, computed by
  twelve tiled kernels among host lines, against the same network written with array operations.

  Both programs compute, per layer, rows times a weight matrix, a mixing of the rows along the graph's edges
  (gather at the sources, scale by the edge's normalisation factor, scatter-add at the destinations), a bias, and a
  normalisation of every column by its batch statistics. They differ in the variance: the kernels accumulate the
  column sums and the sums of squares tile by tile and take the mean of squares minus the squared mean; the array
  program takes the mean of the squared deviations from the mean. On extended reals the two agree when every entry is
  finite (the expansion of the square needs distributivity, which fails at the infinities): finiteness of the features
  and of the parameters is the precondition, and it is carried through every layer — products, finite sums, the edge
  mixing whatever the edge list holds, the reciprocal square root of a nonnegative variance plus a positive constant.
  Everything else is the same arithmetic on both sides: a tiled product is the sum over the shared axis, the column
  sums over five tiles of rows are the sums over all rows, and the logistic function is one function.

  The parts: the kernel's run with its result named (KRun), the value the kernel's segments leave in the result
  (ChainAll, over the per-kernel values RegMatmul / RegStats / RegNorm / RegDense), the reference's run read one
  operation at a time (RefRun) and its result as the network (RefNet), the equality of the two networks for finite
  arguments (Bridge), finiteness from the precondition (PreFinite), and the assembly of the five claims (Assemble).
-/
import proofs.«126339_j45595372814849_1_alg».proof.Defs
import proofs.«126339_j45595372814849_1_alg».proof.Proof.Assemble
import proofs.«126339_j45595372814849_1_alg».proof.Proof.ChainAll
import proofs.«126339_j45595372814849_1_alg».proof.Proof.Bridge
import proofs.«126339_j45595372814849_1_alg».proof.Proof.RefNet
import proofs.«126339_j45595372814849_1_alg».proof.Proof.RefRun

noncomputable section

namespace Cert.Proof

theorem claim : Cert.Claim :=
  Cert.Proof.Assemble.claim_of
    (fun m ρ c => Cert.KernelIdeal.Chain.kernel_value m ρ c)
    (fun a0 a1 a2 a3 a4 a5 a6 a7 a8 a9 h0 h1 h2 h3 h4 => Cert.Bridge.net_eq a0 a1 a2 a3 a4 a5 a6 a7 a8 a9 h0 h1 h2 h3 h4)
    (fun a0 a1 a2 a3 a4 a5 a6 a7 a8 a9 => Cert.RefNet.ref_eq a0 a1 a2 a3 a4 a5 a6 a7 a8 a9)
    (fun m ρ => Cert.RefRun.ref_run m ρ)

end Cert.Proof

end
